-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v165)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v165) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S2x800000 : Shape := ⟨2, ![2, 800000]⟩
abbrev S800000 : Shape := ⟨1, ![800000]⟩
abbrev S4x16x96 : Shape := ⟨3, ![4, 16, 96]⟩
abbrev S96 : Shape := ⟨1, ![96]⟩
abbrev S4x96x96 : Shape := ⟨3, ![4, 96, 96]⟩
abbrev S96x96 : Shape := ⟨2, ![96, 96]⟩
abbrev S96x4 : Shape := ⟨2, ![96, 4]⟩
abbrev S4 : Shape := ⟨1, ![4]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S800000 : S_.BroadcastsInDim S800000 (![] : Fin 0 → Fin S800000.rank)
  reducesTo_S800000_S_d0 : S800000.ReducesTo [0] S_
  bcast_S_S4x16x96 : S_.BroadcastsInDim S4x16x96 (![] : Fin 0 → Fin S4x16x96.rank)
  reducesTo_S4x16x96_S_d0_1_2 : S4x16x96.ReducesTo [0, 1, 2] S_
  bcast_S_S96 : S_.BroadcastsInDim S96 (![] : Fin 0 → Fin S96.rank)
  reducesTo_S96_S_d0 : S96.ReducesTo [0] S_
  bcast_S_S4x96x96 : S_.BroadcastsInDim S4x96x96 (![] : Fin 0 → Fin S4x96x96.rank)
  reducesTo_S4x96x96_S_d0_1_2 : S4x96x96.ReducesTo [0, 1, 2] S_
  bcast_S_S96x96 : S_.BroadcastsInDim S96x96 (![] : Fin 0 → Fin S96x96.rank)
  reducesTo_S96x96_S_d0_1 : S96x96.ReducesTo [0, 1] S_
  bcast_S_S96x4 : S_.BroadcastsInDim S96x4 (![] : Fin 0 → Fin S96x4.rank)
  reducesTo_S96x4_S_d0_1 : S96x4.ReducesTo [0, 1] S_
  bcast_S_S4 : S_.BroadcastsInDim S4 (![] : Fin 0 → Fin S4.rank)
  reducesTo_S4_S_d0 : S4.ReducesTo [0] S_

variable [Facts]

def fn_part4 {F : FTy → Type} [FloatOps F] (main_arg15 : FVec F S96x4 .f32) (main_arg16 : FVec F S4 .f32) (main_v63 : IVec S_ 1) (main_v67 : IVec S_ 1) : IVec S_ 1 :=
  let main_v68 : IVec S_ 1 := andi main_v63 main_v67
  let main_v69 : FVec F S96x4 .f32 := Host.absf main_arg15
  let main_cst_26 : FVec F S_ .f32 := constant S_ .f32 0x7F800000#32
  let main_v70 : FVec F S96x4 .f32 := broadcastInDim S96x4 ![] bcast_S_S96x4 main_cst_26
  let main_v71 : IVec S96x4 1 := cmpf .olt main_v69 main_v70
  let main_c_27 : IVec S_ 1 := constantI S_ 1 1#1
  let main_v72 : IVec S_ 1 := (fun x v => Host.reduce IntOp.andi x v reducesTo_S96x4_S_d0_1 h_S_) main_v71 main_c_27
  let main_v73 : IVec S_ 1 := andi main_v68 main_v72
  let main_v74 : FVec F S4 .f32 := Host.absf main_arg16
  let main_cst_28 : FVec F S_ .f32 := constant S_ .f32 0x7F800000#32
  let main_v75 : FVec F S4 .f32 := broadcastInDim S4 ![] bcast_S_S4 main_cst_28
  let main_v76 : IVec S4 1 := cmpf .olt main_v74 main_v75
  let main_c_29 : IVec S_ 1 := constantI S_ 1 1#1
  let main_v77 : IVec S_ 1 := (fun x v => Host.reduce IntOp.andi x v reducesTo_S4_S_d0 h_S_) main_v76 main_c_29
  let main_v78 : IVec S_ 1 := andi main_v73 main_v77
  main_v78

def fn_part3 {F : FTy → Type} [FloatOps F] (main_arg12 : FVec F S96 .f32) (main_arg13 : FVec F S96x96 .f32) (main_arg14 : FVec F S96 .f32) (main_arg15 : FVec F S96x4 .f32) (main_arg16 : FVec F S4 .f32) (main_v48 : IVec S_ 1) (main_v49 : FVec F S96x96 .f32) (main_v50 : FVec F S96x96 .f32) : IVec S_ 1 :=
  let main_v51 : IVec S96x96 1 := cmpf .olt main_v49 main_v50
  let main_c_19 : IVec S_ 1 := constantI S_ 1 1#1
  let main_v52 : IVec S_ 1 := (fun x v => Host.reduce IntOp.andi x v reducesTo_S96x96_S_d0_1 h_S_) main_v51 main_c_19
  let main_v53 : IVec S_ 1 := andi main_v48 main_v52
  let main_v54 : FVec F S96 .f32 := Host.absf main_arg12
  let main_cst_20 : FVec F S_ .f32 := constant S_ .f32 0x7F800000#32
  let main_v55 : FVec F S96 .f32 := broadcastInDim S96 ![] bcast_S_S96 main_cst_20
  let main_v56 : IVec S96 1 := cmpf .olt main_v54 main_v55
  let main_c_21 : IVec S_ 1 := constantI S_ 1 1#1
  let main_v57 : IVec S_ 1 := (fun x v => Host.reduce IntOp.andi x v reducesTo_S96_S_d0 h_S_) main_v56 main_c_21
  let main_v58 : IVec S_ 1 := andi main_v53 main_v57
  let main_v59 : FVec F S96x96 .f32 := Host.absf main_arg13
  let main_cst_22 : FVec F S_ .f32 := constant S_ .f32 0x7F800000#32
  let main_v60 : FVec F S96x96 .f32 := broadcastInDim S96x96 ![] bcast_S_S96x96 main_cst_22
  let main_v61 : IVec S96x96 1 := cmpf .olt main_v59 main_v60
  let main_c_23 : IVec S_ 1 := constantI S_ 1 1#1
  let main_v62 : IVec S_ 1 := (fun x v => Host.reduce IntOp.andi x v reducesTo_S96x96_S_d0_1 h_S_) main_v61 main_c_23
  let main_v63 : IVec S_ 1 := andi main_v58 main_v62
  let main_v64 : FVec F S96 .f32 := Host.absf main_arg14
  let main_cst_24 : FVec F S_ .f32 := constant S_ .f32 0x7F800000#32
  let main_v65 : FVec F S96 .f32 := broadcastInDim S96 ![] bcast_S_S96 main_cst_24
  let main_v66 : IVec S96 1 := cmpf .olt main_v64 main_v65
  let main_c_25 : IVec S_ 1 := constantI S_ 1 1#1
  let main_v67 : IVec S_ 1 := (fun x v => Host.reduce IntOp.andi x v reducesTo_S96_S_d0 h_S_) main_v66 main_c_25
  fn_part4 (F := F) main_arg15 main_arg16 main_v63 main_v67

def fn_part2 {F : FTy → Type} [FloatOps F] (main_arg8 : FVec F S96 .f32) (main_arg9 : FVec F S96x96 .f32) (main_arg10 : FVec F S96 .f32) (main_arg11 : FVec F S96x96 .f32) (main_arg12 : FVec F S96 .f32) (main_arg13 : FVec F S96x96 .f32) (main_arg14 : FVec F S96 .f32) (main_arg15 : FVec F S96x4 .f32) (main_arg16 : FVec F S4 .f32) (main_v33 : IVec S_ 1) : IVec S_ 1 :=
  let main_v34 : FVec F S96 .f32 := Host.absf main_arg8
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  let main_v39 : FVec F S96x96 .f32 := Host.absf main_arg9
  let main_cst_14 : FVec F S_ .f32 := constant S_ .f32 0x7F800000#32
  let main_v40 : FVec F S96x96 .f32 := broadcastInDim S96x96 ![] bcast_S_S96x96 main_cst_14
  let main_v41 : IVec S96x96 1 := cmpf .olt main_v39 main_v40
  let main_c_15 : IVec S_ 1 := constantI S_ 1 1#1
  let main_v42 : IVec S_ 1 := (fun x v => Host.reduce IntOp.andi x v reducesTo_S96x96_S_d0_1 h_S_) main_v41 main_c_15
  let main_v43 : IVec S_ 1 := andi main_v38 main_v42
  let main_v44 : FVec F S96 .f32 := Host.absf main_arg10
  let main_cst_16 : FVec F S_ .f32 := constant S_ .f32 0x7F800000#32
  let main_v45 : FVec F S96 .f32 := broadcastInDim S96 ![] bcast_S_S96 main_cst_16
  let main_v46 : IVec S96 1 := cmpf .olt main_v44 main_v45
  let main_c_17 : IVec S_ 1 := constantI S_ 1 1#1
  let main_v47 : IVec S_ 1 := (fun x v => Host.reduce IntOp.andi x v reducesTo_S96_S_d0 h_S_) main_v46 main_c_17
  let main_v48 : IVec S_ 1 := andi main_v43 main_v47
  let main_v49 : FVec F S96x96 .f32 := Host.absf main_arg11
  let main_cst_18 : FVec F S_ .f32 := constant S_ .f32 0x7F800000#32
  let main_v50 : FVec F S96x96 .f32 := broadcastInDim S96x96 ![] bcast_S_S96x96 main_cst_18
  fn_part3 (F := F) main_arg12 main_arg13 main_arg14 main_arg15 main_arg16 main_v48 main_v49 main_v50

def fn_part1 {F : FTy → Type} [FloatOps F] (main_arg5 : FVec F S4x96x96 .f32) (main_arg6 : FVec F S96 .f32) (main_arg7 : FVec F S4x96x96 .f32) (main_arg8 : FVec F S96 .f32) (main_arg9 : FVec F S96x96 .f32) (main_arg10 : FVec F S96 .f32) (main_arg11 : FVec F S96x96 .f32) (main_arg12 : FVec F S96 .f32) (main_arg13 : FVec F S96x96 .f32) (main_arg14 : FVec F S96 .f32) (main_arg15 : FVec F S96x4 .f32) (main_arg16 : FVec F S4 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S4x96x96 .f32 := Host.absf main_arg5
  let main_cst_6 : FVec F S_ .f32 := constant S_ .f32 0x7F800000#32
  let main_v20 : FVec F S4x96x96 .f32 := broadcastInDim S4x96x96 ![] bcast_S_S4x96x96 main_cst_6
  let main_v21 : IVec S4x96x96 1 := cmpf .olt main_v19 main_v20
  let main_c_7 : IVec S_ 1 := constantI S_ 1 1#1
  let main_v22 : IVec S_ 1 := (fun x v => Host.reduce IntOp.andi x v reducesTo_S4x96x96_S_d0_1_2 h_S_) main_v21 main_c_7
  let main_v23 : IVec S_ 1 := andi main_v18 main_v22
  let main_v24 : FVec F S96 .f32 := Host.absf main_arg6
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S4x96x96 .f32 := Host.absf main_arg7
  let main_cst_10 : FVec F S_ .f32 := constant S_ .f32 0x7F800000#32
  let main_v30 : FVec F S4x96x96 .f32 := broadcastInDim S4x96x96 ![] bcast_S_S4x96x96 main_cst_10
  let main_v31 : IVec S4x96x96 1 := cmpf .olt main_v29 main_v30
  let main_c_11 : IVec S_ 1 := constantI S_ 1 1#1
  let main_v32 : IVec S_ 1 := (fun x v => Host.reduce IntOp.andi x v reducesTo_S4x96x96_S_d0_1_2 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x16 .f32) (main_arg1 : IVec S2x800000 32) (main_arg2 : FVec F S800000 .f32) (main_arg3 : FVec F S4x16x96 .f32) (main_arg4 : FVec F S96 .f32) (main_arg5 : FVec F S4x96x96 .f32) (main_arg6 : FVec F S96 .f32) (main_arg7 : FVec F S4x96x96 .f32) (main_arg8 : FVec F S96 .f32) (main_arg9 : FVec F S96x96 .f32) (main_arg10 : FVec F S96 .f32) (main_arg11 : FVec F S96x96 .f32) (main_arg12 : FVec F S96 .f32) (main_arg13 : FVec F S96x96 .f32) (main_arg14 : FVec F S96 .f32) (main_arg15 : FVec F S96x4 .f32) (main_arg16 : FVec F S4 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S4x16x96 .f32 := Host.absf main_arg3
  let main_cst_2 : FVec F S_ .f32 := constant S_ .f32 0x7F800000#32
  let main_v10 : FVec F S4x16x96 .f32 := broadcastInDim S4x16x96 ![] bcast_S_S4x16x96 main_cst_2
  let main_v11 : IVec S4x16x96 1 := cmpf .olt main_v9 main_v10
  let main_c_3 : IVec S_ 1 := constantI S_ 1 1#1
  let main_v12 : IVec S_ 1 := (fun x v => Host.reduce IntOp.andi x v reducesTo_S4x16x96_S_d0_1_2 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x16 : Shape := ⟨2, ![50000, 16]⟩
abbrev S2x800000 : Shape := ⟨2, ![2, 800000]⟩
abbrev S800000 : Shape := ⟨1, ![800000]⟩
abbrev S4x16x96 : Shape := ⟨3, ![4, 16, 96]⟩
abbrev S96 : Shape := ⟨1, ![96]⟩
abbrev S4x96x96 : Shape := ⟨3, ![4, 96, 96]⟩
abbrev S96x96 : Shape := ⟨2, ![96, 96]⟩
abbrev S96x4 : Shape := ⟨2, ![96, 4]⟩
abbrev S4 : Shape := ⟨1, ![4]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x16 : Shape := ⟨2, ![800000, 16]⟩
abbrev S50000x64 : Shape := ⟨2, ![50000, 64]⟩
abbrev S64x96 : Shape := ⟨2, ![64, 96]⟩
abbrev S1x96 : Shape := ⟨2, ![1, 96]⟩
abbrev S50000x96 : Shape := ⟨2, ![50000, 96]⟩
abbrev S5000x64 : Shape := ⟨2, ![5000, 64]⟩
abbrev S5000x96 : Shape := ⟨2, ![5000, 96]⟩
abbrev S800000x96 : Shape := ⟨2, ![800000, 96]⟩
abbrev S50000x384 : Shape := ⟨2, ![50000, 384]⟩
abbrev S384x96 : Shape := ⟨2, ![384, 96]⟩
abbrev S5000x384 : Shape := ⟨2, ![5000, 384]⟩
abbrev S1x4 : Shape := ⟨2, ![1, 4]⟩
abbrev S50000x4 : Shape := ⟨2, ![50000, 4]⟩
abbrev S5000x4 : Shape := ⟨2, ![5000, 4]⟩

abbrev nBuf : Space → Nat
  | .hbm => 219
  | .vmem => 48
  | .smem => 0
  | _ => 0

abbrev hbmTy0_0 (i : Nat) : BufTy := match i % 128 with
  | 0 => ⟨S50000x16, .f32⟩
  | 1 => ⟨S2x800000, .i32⟩
  | 2 => ⟨S800000, .f32⟩
  | 3 => ⟨S4x16x96, .f32⟩
  | 4 => ⟨S96, .f32⟩
  | 5 => ⟨S4x96x96, .f32⟩
  | 6 => ⟨S96, .f32⟩
  | 7 => ⟨S4x96x96, .f32⟩
  | 8 => ⟨S96, .f32⟩
  | 9 => ⟨S96x96, .f32⟩
  | 10 => ⟨S96, .f32⟩
  | 11 => ⟨S96x96, .f32⟩
  | 12 => ⟨S96, .f32⟩
  | 13 => ⟨S96x96, .f32⟩
  | 14 => ⟨S96, .f32⟩
  | 15 => ⟨S96x4, .f32⟩
  | 16 => ⟨S4, .f32⟩
  | 17 => ⟨S1x800000, .i32⟩
  | 18 => ⟨S800000, .i32⟩
  | 19 => ⟨S1x800000, .i32⟩
  | 20 => ⟨S800000, .i32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S800000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S800000, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x16, .f32⟩
  | 62 => ⟨S800000x1, .f32⟩
  | 63 => ⟨S800000x16, .f32⟩
  | 64 => ⟨S800000x16, .f32⟩
  | 65 => ⟨S_, .f32⟩
  | 66 => ⟨S50000x16, .f32⟩
  | 67 => ⟨S800000x1, .i32⟩
  | 68 => ⟨S50000x16, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x16, .f32⟩
  | 78 => ⟨S800000x1, .f32⟩
  | 79 => ⟨S800000x16, .f32⟩
  | 80 => ⟨S800000x16, .f32⟩
  | 81 => ⟨S_, .f32⟩
  | 82 => ⟨S50000x16, .f32⟩
  | 83 => ⟨S800000x1, .i32⟩
  | 84 => ⟨S50000x16, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x16, .f32⟩
  | 94 => ⟨S800000x1, .f32⟩
  | 95 => ⟨S800000x16, .f32⟩
  | 96 => ⟨S800000x16, .f32⟩
  | 97 => ⟨S_, .f32⟩
  | 98 => ⟨S50000x16, .f32⟩
  | 99 => ⟨S800000x1, .i32⟩
  | 100 => ⟨S50000x16, .f32⟩
  | 101 => ⟨S50000x64, .f32⟩
  | 102 => ⟨S64x96, .f32⟩
  | 103 => ⟨S1x96, .f32⟩
  | 104 => ⟨S50000x96, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x96, .f32⟩
  | 114 => ⟨S800000x1, .f32⟩
  | 115 => ⟨S800000x96, .f32⟩
  | 116 => ⟨S800000x96, .f32⟩
  | 117 => ⟨S_, .f32⟩
  | 118 => ⟨S50000x96, .f32⟩
  | 119 => ⟨S800000x1, .i32⟩
  | 120 => ⟨S50000x96, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x16, .f32⟩

abbrev hbmTy0_1 (i : Nat) : BufTy := match i % 128 with
  | 0 => ⟨S800000x1, .i32⟩
  | 1 => ⟨S800000x96, .f32⟩
  | 2 => ⟨S800000x1, .f32⟩
  | 3 => ⟨S800000x96, .f32⟩
  | 4 => ⟨S800000x96, .f32⟩
  | 5 => ⟨S_, .f32⟩
  | 6 => ⟨S50000x96, .f32⟩
  | 7 => ⟨S800000x1, .i32⟩
  | 8 => ⟨S50000x96, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x96, .f32⟩
  | 18 => ⟨S800000x1, .f32⟩
  | 19 => ⟨S800000x96, .f32⟩
  | 20 => ⟨S800000x96, .f32⟩
  | 21 => ⟨S_, .f32⟩
  | 22 => ⟨S50000x96, .f32⟩
  | 23 => ⟨S800000x1, .i32⟩
  | 24 => ⟨S50000x96, .f32⟩
  | 25 => ⟨S50000x384, .f32⟩
  | 26 => ⟨S384x96, .f32⟩
  | 27 => ⟨S1x96, .f32⟩
  | 28 => ⟨S50000x96, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x96, .f32⟩
  | 38 => ⟨S800000x1, .f32⟩
  | 39 => ⟨S800000x96, .f32⟩
  | 40 => ⟨S800000x96, .f32⟩
  | 41 => ⟨S_, .f32⟩
  | 42 => ⟨S50000x96, .f32⟩
  | 43 => ⟨S800000x1, .i32⟩
  | 44 => ⟨S50000x96, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x96, .f32⟩
  | 54 => ⟨S800000x1, .f32⟩
  | 55 => ⟨S800000x96, .f32⟩
  | 56 => ⟨S800000x96, .f32⟩
  | 57 => ⟨S_, .f32⟩
  | 58 => ⟨S50000x96, .f32⟩
  | 59 => ⟨S800000x1, .i32⟩
  | 60 => ⟨S50000x96, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x96, .f32⟩
  | 70 => ⟨S800000x1, .f32⟩
  | 71 => ⟨S800000x96, .f32⟩
  | 72 => ⟨S800000x96, .f32⟩
  | 73 => ⟨S_, .f32⟩
  | 74 => ⟨S50000x96, .f32⟩
  | 75 => ⟨S800000x1, .i32⟩
  | 76 => ⟨S50000x96, .f32⟩
  | 77 => ⟨S50000x384, .f32⟩
  | 78 => ⟨S384x96, .f32⟩
  | 79 => ⟨S1x96, .f32⟩
  | 80 => ⟨S50000x96, .f32⟩
  | 81 => ⟨S1x96, .f32⟩
  | 82 => ⟨S50000x96, .f32⟩
  | 83 => ⟨S1x96, .f32⟩
  | 84 => ⟨S50000x96, .f32⟩
  | 85 => ⟨S1x96, .f32⟩
  | 86 => ⟨S50000x96, .f32⟩
  | 87 => ⟨S1x96, .f32⟩
  | 88 => ⟨S50000x96, .f32⟩
  | 89 => ⟨S1x4, .f32⟩
  | 90 => ⟨S50000x4, .f32⟩
  | _ => ⟨S50000x16, .f32⟩

abbrev hbmTy (i : Nat) : BufTy := match i / 128 with
  | 0 => hbmTy0_0 i
  | 1 => hbmTy0_1 i
  | _ => ⟨S50000x16, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x96, .f32⟩
  | .local _ .vmem, ⟨3, _⟩ => ⟨S1x96, .f32⟩
  | .local _ .vmem, ⟨4, _⟩ => ⟨S5000x96, .f32⟩
  | .local _ .vmem, ⟨5, _⟩ => ⟨S5000x96, .f32⟩
  | .local _ .vmem, ⟨6, _⟩ => ⟨S5000x384, .f32⟩
  | .local _ .vmem, ⟨7, _⟩ => ⟨S5000x384, .f32⟩
  | .local _ .vmem, ⟨8, _⟩ => ⟨S384x96, .f32⟩
  | .local _ .vmem, ⟨9, _⟩ => ⟨S1x96, .f32⟩
  | .local _ .vmem, ⟨10, _⟩ => ⟨S5000x96, .f32⟩
  | .local _ .vmem, ⟨11, _⟩ => ⟨S5000x96, .f32⟩
  | .local _ .vmem, ⟨12, _⟩ => ⟨S5000x384, .f32⟩
  | .local _ .vmem, ⟨13, _⟩ => ⟨S5000x384, .f32⟩
  | .local _ .vmem, ⟨14, _⟩ => ⟨S384x96, .f32⟩
  | .local _ .vmem, ⟨15, _⟩ => ⟨S1x96, .f32⟩
  | .local _ .vmem, ⟨16, _⟩ => ⟨S5000x96, .f32⟩
  | .local _ .vmem, ⟨17, _⟩ => ⟨S5000x96, .f32⟩
  | .local _ .vmem, ⟨18, _⟩ => ⟨S5000x96, .f32⟩
  | .local _ .vmem, ⟨19, _⟩ => ⟨S5000x96, .f32⟩
  | .local _ .vmem, ⟨20, _⟩ => ⟨S96x96, .f32⟩
  | .local _ .vmem, ⟨21, _⟩ => ⟨S1x96, .f32⟩
  | .local _ .vmem, ⟨22, _⟩ => ⟨S5000x96, .f32⟩
  | .local _ .vmem, ⟨23, _⟩ => ⟨S5000x96, .f32⟩
  | .local _ .vmem, ⟨24, _⟩ => ⟨S5000x96, .f32⟩
  | .local _ .vmem, ⟨25, _⟩ => ⟨S5000x96, .f32⟩
  | .local _ .vmem, ⟨26, _⟩ => ⟨S96x96, .f32⟩
  | .local _ .vmem, ⟨27, _⟩ => ⟨S1x96, .f32⟩
  | .local _ .vmem, ⟨28, _⟩ => ⟨S5000x96, .f32⟩
  | .local _ .vmem, ⟨29, _⟩ => ⟨S5000x96, .f32⟩
  | .local _ .vmem, ⟨30, _⟩ => ⟨S5000x96, .f32⟩
  | .local _ .vmem, ⟨31, _⟩ => ⟨S5000x96, .f32⟩
  | .local _ .vmem, ⟨32, _⟩ => ⟨S96x96, .f32⟩
  | .local _ .vmem, ⟨33, _⟩ => ⟨S1x96, .f32⟩
  | .local _ .vmem, ⟨34, _⟩ => ⟨S5000x96, .f32⟩
  | .local _ .vmem, ⟨35, _⟩ => ⟨S5000x96, .f32⟩
  | .local _ .vmem, ⟨36, _⟩ => ⟨S5000x96, .f32⟩
  | .local _ .vmem, ⟨37, _⟩ => ⟨S5000x96, .f32⟩
  | .local _ .vmem, ⟨38, _⟩ => ⟨S96x96, .f32⟩
  | .local _ .vmem, ⟨39, _⟩ => ⟨S1x96, .f32⟩
  | .local _ .vmem, ⟨40, _⟩ => ⟨S5000x96, .f32⟩
  | .local _ .vmem, ⟨41, _⟩ => ⟨S5000x96, .f32⟩
  | .local _ .vmem, ⟨42, _⟩ => ⟨S5000x96, .f32⟩
  | .local _ .vmem, ⟨43, _⟩ => ⟨S5000x96, .f32⟩
  | .local _ .vmem, ⟨44, _⟩ => ⟨S96x4, .f32⟩
  | .local _ .vmem, ⟨45, _⟩ => ⟨S1x4, .f32⟩
  | .local _ .vmem, ⟨46, _⟩ => ⟨S5000x4, .f32⟩
  | .local _ .vmem, ⟨47, _⟩ => ⟨S5000x4, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_call0_v0 : Ref sig .tc := ⟨.hbm, 30, rfl⟩
abbrev main_call0_v1 : Ref sig .tc := ⟨.hbm, 31, rfl⟩
abbrev main_v10 : Ref sig .tc := ⟨.hbm, 32, rfl⟩
abbrev main_c : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_3 : Ref sig .tc := ⟨.hbm, 43, rfl⟩
abbrev main_v19 : Ref sig .tc := ⟨.hbm, 44, rfl⟩
abbrev main_v20 : Ref sig .tc := ⟨.hbm, 45, rfl⟩
abbrev main_c_4 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_5 : Ref sig .tc := ⟨.hbm, 53, rfl⟩
abbrev main_v27 : Ref sig .tc := ⟨.hbm, 54, rfl⟩
abbrev main_v28 : Ref sig .tc := ⟨.hbm, 55, rfl⟩
abbrev main_c_6 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_8 : Ref sig .tc := ⟨.hbm, 69, rfl⟩
abbrev main_v40 : Ref sig .tc := ⟨.hbm, 70, rfl⟩
abbrev main_v41 : Ref sig .tc := ⟨.hbm, 71, rfl⟩
abbrev main_c_9 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_10 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_c_11 : Ref sig .tc := ⟨.hbm, 85, rfl⟩
abbrev main_v53 : Ref sig .tc := ⟨.hbm, 86, rfl⟩
abbrev main_v54 : Ref sig .tc := ⟨.hbm, 87, rfl⟩
abbrev main_c_12 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_13 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_14 : Ref sig .tc := ⟨.hbm, 105, rfl⟩
abbrev main_v70 : Ref sig .tc := ⟨.hbm, 106, rfl⟩
abbrev main_v71 : Ref sig .tc := ⟨.hbm, 107, rfl⟩
abbrev main_c_15 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_16 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_c_17 : Ref sig .tc := ⟨.hbm, 121, rfl⟩
abbrev main_v83 : Ref sig .tc := ⟨.hbm, 122, rfl⟩
abbrev main_v84 : Ref sig .tc := ⟨.hbm, 123, rfl⟩
abbrev main_c_18 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_19 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_c_20 : Ref sig .tc := ⟨.hbm, 137, rfl⟩
abbrev main_v96 : Ref sig .tc := ⟨.hbm, 138, rfl⟩
abbrev main_v97 : Ref sig .tc := ⟨.hbm, 139, rfl⟩
abbrev main_c_21 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_22 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_c_23 : Ref sig .tc := ⟨.hbm, 157, rfl⟩
abbrev main_v113 : Ref sig .tc := ⟨.hbm, 158, rfl⟩
abbrev main_v114 : Ref sig .tc := ⟨.hbm, 159, rfl⟩
abbrev main_c_24 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_25 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_c_26 : Ref sig .tc := ⟨.hbm, 173, rfl⟩
abbrev main_v126 : Ref sig .tc := ⟨.hbm, 174, rfl⟩
abbrev main_v127 : Ref sig .tc := ⟨.hbm, 175, rfl⟩
abbrev main_c_27 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_cst_28 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_c_29 : Ref sig .tc := ⟨.hbm, 189, rfl⟩
abbrev main_v139 : Ref sig .tc := ⟨.hbm, 190, rfl⟩
abbrev main_v140 : Ref sig .tc := ⟨.hbm, 191, rfl⟩
abbrev main_c_30 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_cst_31 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg3_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41
abbrev cc7_sem0_0 : DmaSem sig := 42
abbrev cc7_sem0_1 : DmaSem sig := 43
abbrev cc7_sem1_0 : DmaSem sig := 44
abbrev cc7_sem2_0 : DmaSem sig := 45
abbrev cc7_sem3_0 : DmaSem sig := 46
abbrev cc7_sem3_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S384x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S384x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x96 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S96x96 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x96 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x96 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S96x96 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x96 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x96 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x96 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S96x96 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x96 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x96 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x96 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S96x96 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x96 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x96 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x96 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S96x4 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x4 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x4 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x16_0_1 : S800000x1.BroadcastsInDim S800000x16 (![0, 1] : Fin 2 → Fin S800000x16.rank)
  bcast_S_S50000x16 : S_.BroadcastsInDim S50000x16 (![] : Fin 0 → Fin S50000x16.rank)
  concatenates_S50000x16_S50000x16_S50000x16_S50000x16_S50000x64_d1 : Shape.Concatenates [S50000x16, S50000x16, S50000x16, S50000x16] S50000x64 1
  shapeCasts_S4x16x96_S64x96 : S4x16x96.ShapeCasts S64x96
  shapeCasts_S96_S1x96 : S96.ShapeCasts S1x96
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x96_S64x96_0_0 : ∀ a, (![0, 0] : Fin 2 → Nat) a + S64x96.size a ≤ S64x96.size a
  h_S64x96 : 0 < S64x96.numel
  shapeCasts_S64x96_S64x96 : S64x96.ShapeCasts S64x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S5000x96_S5000x96_0_0 : ∀ a, (![0, 0] : Fin 2 → Nat) a + S5000x96.size a ≤ S5000x96.size a
  h_S5000x96 : 0 < S5000x96.numel
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  concatenates_S50000x96_S50000x96_S50000x96_S50000x96_S50000x384_d1 : Shape.Concatenates [S50000x96, S50000x96, S50000x96, S50000x96] S50000x384 1
  shapeCasts_S4x96x96_S384x96 : S4x96x96.ShapeCasts S384x96
  inb_S5000x384_S5000x384_0_0 : ∀ a, (![0, 0] : Fin 2 → Nat) a + S5000x384.size a ≤ S5000x384.size a
  h_S5000x384 : 0 < S5000x384.numel
  shapeCasts_S5000x384_S5000x384 : S5000x384.ShapeCasts S5000x384
  inb_S384x96_S384x96_0_0 : ∀ a, (![0, 0] : Fin 2 → Nat) a + S384x96.size a ≤ S384x96.size a
  h_S384x96 : 0 < S384x96.numel
  shapeCasts_S384x96_S384x96 : S384x96.ShapeCasts S384x96
  shapeCasts_S5000x96_S5000x96 : S5000x96.ShapeCasts S5000x96
  inb_S96x96_S96x96_0_0 : ∀ a, (![0, 0] : Fin 2 → Nat) a + S96x96.size a ≤ S96x96.size a
  h_S96x96 : 0 < S96x96.numel
  shapeCasts_S4_S1x4 : S4.ShapeCasts S1x4
  inb_S96x4_S96x4_0_0 : ∀ a, (![0, 0] : Fin 2 → Nat) a + S96x4.size a ≤ S96x4.size a
  h_S96x4 : 0 < S96x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  inb_S5000x4_S5000x4_0_0 : ∀ a, (![0, 0] : Fin 2 → Nat) a + S5000x4.size a ≤ S5000x4.size a
  h_S5000x4 : 0 < S5000x4.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  dot_S5000x64_S64x96_S5000x96_1_0_0_1_n_n_wf : DotDims.WF S5000x64 S64x96 S5000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x384_S384x96_S5000x96_1_0_0_1_n_n_wf : DotDims.WF S5000x384 S384x96 S5000x96 [1] [0] [0] [1] [] []
  dot_S5000x96_S96x96_S5000x96_1_0_0_1_n_n_wf : DotDims.WF S5000x96 S96x96 S5000x96 [1] [0] [0] [1] [] []
  dot_S5000x96_S96x4_S5000x4_1_0_0_1_n_n_wf : DotDims.WF S5000x96 S96x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x96.size a ≤ S64x96.size a
  hwx0_1 : ∀ i : grid0.Coords, EltTy.bits .f32 = 32 ∨ (Rect.block (s := S64x96) S64x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x96.size a ≤ S50000x96.size a
  hwx0_3 : ∀ i : grid0.Coords, EltTy.bits .f32 = 32 ∨ (Rect.block (s := S50000x96) S5000x96.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x384.size a ≤ S50000x384.size a
  hwx1_0 : ∀ i : grid1.Coords, EltTy.bits .f32 = 32 ∨ (Rect.block (s := S50000x384) S5000x384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S384x96.size a ≤ S384x96.size a
  hwx1_1 : ∀ i : grid1.Coords, EltTy.bits .f32 = 32 ∨ (Rect.block (s := S384x96) S384x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x96.size a ≤ S1x96.size a
  hwx1_2 : ∀ i : grid1.Coords, EltTy.bits .f32 = 32 ∨ (Rect.block (s := S1x96) S1x96.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x96.size a ≤ S50000x96.size a
  hwx1_3 : ∀ i : grid1.Coords, EltTy.bits .f32 = 32 ∨ (Rect.block (s := S50000x96) S5000x96.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x384.size a ≤ S50000x384.size a
  hwx2_0 : ∀ i : grid2.Coords, EltTy.bits .f32 = 32 ∨ (Rect.block (s := S50000x384) S5000x384.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S384x96.size a ≤ S384x96.size a
  hwx2_1 : ∀ i : grid2.Coords, EltTy.bits .f32 = 32 ∨ (Rect.block (s := S384x96) S384x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x96.size a ≤ S1x96.size a
  hwx2_2 : ∀ i : grid2.Coords, EltTy.bits .f32 = 32 ∨ (Rect.block (s := S1x96) S1x96.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x96.size a ≤ S50000x96.size a
  hwx2_3 : ∀ i : grid2.Coords, EltTy.bits .f32 = 32 ∨ (Rect.block (s := S50000x96) S5000x96.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S96x96.size a ≤ S96x96.size a
  hwx3_1 : ∀ i : grid3.Coords, EltTy.bits .f32 = 32 ∨ (Rect.block (s := S96x96) S96x96.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x96.size a ≤ S1x96.size a
  hwx3_2 : ∀ i : grid3.Coords, EltTy.bits .f32 = 32 ∨ (Rect.block (s := S1x96) S1x96.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x96.size a ≤ S50000x96.size a
  hwx3_3 : ∀ i : grid3.Coords, EltTy.bits .f32 = 32 ∨ (Rect.block (s := S50000x96) S5000x96.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x96.size a ≤ S50000x96.size a
  hwx4_0 : ∀ i : grid4.Coords, EltTy.bits .f32 = 32 ∨ (Rect.block (s := S50000x96) S5000x96.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S96x96.size a ≤ S96x96.size a
  hwx4_1 : ∀ i : grid4.Coords, EltTy.bits .f32 = 32 ∨ (Rect.block (s := S96x96) S96x96.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x96.size a ≤ S1x96.size a
  hwx4_2 : ∀ i : grid4.Coords, EltTy.bits .f32 = 32 ∨ (Rect.block (s := S1x96) S1x96.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x96.size a ≤ S50000x96.size a
  hwx4_3 : ∀ i : grid4.Coords, EltTy.bits .f32 = 32 ∨ (Rect.block (s := S50000x96) S5000x96.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x96.size a ≤ S50000x96.size a
  hwx5_0 : ∀ i : grid5.Coords, EltTy.bits .f32 = 32 ∨ (Rect.block (s := S50000x96) S5000x96.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S96x96.size a ≤ S96x96.size a
  hwx5_1 : ∀ i : grid5.Coords, EltTy.bits .f32 = 32 ∨ (Rect.block (s := S96x96) S96x96.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x96.size a ≤ S1x96.size a
  hwx5_2 : ∀ i : grid5.Coords, EltTy.bits .f32 = 32 ∨ (Rect.block (s := S1x96) S1x96.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x96.size a ≤ S50000x96.size a
  hwx5_3 : ∀ i : grid5.Coords, EltTy.bits .f32 = 32 ∨ (Rect.block (s := S50000x96) S5000x96.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x96.size a ≤ S50000x96.size a
  hwx6_0 : ∀ i : grid6.Coords, EltTy.bits .f32 = 32 ∨ (Rect.block (s := S50000x96) S5000x96.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S96x96.size a ≤ S96x96.size a
  hwx6_1 : ∀ i : grid6.Coords, EltTy.bits .f32 = 32 ∨ (Rect.block (s := S96x96) S96x96.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x96.size a ≤ S1x96.size a
  hwx6_2 : ∀ i : grid6.Coords, EltTy.bits .f32 = 32 ∨ (Rect.block (s := S1x96) S1x96.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x96.size a ≤ S50000x96.size a
  hwx6_3 : ∀ i : grid6.Coords, EltTy.bits .f32 = 32 ∨ (Rect.block (s := S50000x96) S5000x96.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x96.size a ≤ S50000x96.size a
  hwx7_0 : ∀ i : grid7.Coords, EltTy.bits .f32 = 32 ∨ (Rect.block (s := S50000x96) S5000x96.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S96x4.size a ≤ S96x4.size a
  hwx7_1 : ∀ i : grid7.Coords, EltTy.bits .f32 = 32 ∨ (Rect.block (s := S96x4) S96x4.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x4.size a ≤ S1x4.size a
  hwx7_2 : ∀ i : grid7.Coords, EltTy.bits .f32 = 32 ∨ (Rect.block (s := S1x4) S1x4.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x4.size a ≤ S50000x4.size a
  hwx7_3 : ∀ i : grid7.Coords, EltTy.bits .f32 = 32 ∨ (Rect.block (s := S50000x4) S5000x4.size (cc7_transform_3 i) (hinb7_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def dot_S5000x64_S64x96_S5000x96_1_0_0_1_n_n : DotDims S5000x64 S64x96 S5000x96 where
  lhsContracting := [1]
  rhsContracting := [0]
  lhsNonContracting := [0]
  rhsNonContracting := [1]
  lhsBatch := []
  rhsBatch := []
  wf := dot_S5000x64_S64x96_S5000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x384_S384x96_S5000x96_1_0_0_1_n_n : DotDims S5000x384 S384x96 S5000x96 where
  lhsContracting := [1]
  rhsContracting := [0]
  lhsNonContracting := [0]
  rhsNonContracting := [1]
  lhsBatch := []
  rhsBatch := []
  wf := dot_S5000x384_S384x96_S5000x96_1_0_0_1_n_n_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S5000x96_S96x4_S5000x4_1_0_0_1_n_n : DotDims S5000x96 S96x4 S5000x4 where
  lhsContracting := [1]
  rhsContracting := [0]
  lhsNonContracting := [0]
  rhsNonContracting := [1]
  lhsBatch := []
  rhsBatch := []
  wf := dot_S5000x96_S96x4_S5000x4_1_0_0_1_n_n_wf

abbrev win0_0 : Pipeline.Window sig grid0 :=
  Pipeline.Window.ofSpec (Memref.whole main_v66) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v67) S64x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v68) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v69) S5000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v109) S5000x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v110) S384x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v111) S1x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v112) S5000x96.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v152) S5000x384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v153) S384x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v154) S1x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v155) S5000x96.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v155) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S96x96.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v156) S1x96.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v157) S5000x96.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v157) S5000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S96x96.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v158) S1x96.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v159) S5000x96.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v159) S5000x96.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg13) S96x96.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v160) S1x96.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v161) S5000x96.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v161) S5000x96.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg13) S96x96.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v162) S1x96.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v163) S5000x96.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v163) S5000x96.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg15) S96x4.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v164) S1x4.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v165) S5000x4.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x16 : Shape := ⟨2, ![50000, 16]⟩
abbrev S2x800000 : Shape := ⟨2, ![2, 800000]⟩
abbrev S800000 : Shape := ⟨1, ![800000]⟩
abbrev S4x16x96 : Shape := ⟨3, ![4, 16, 96]⟩
abbrev S96 : Shape := ⟨1, ![96]⟩
abbrev S4x96x96 : Shape := ⟨3, ![4, 96, 96]⟩
abbrev S96x96 : Shape := ⟨2, ![96, 96]⟩
abbrev S96x4 : Shape := ⟨2, ![96, 4]⟩
abbrev S4 : Shape := ⟨1, ![4]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S1x16x96 : Shape := ⟨3, ![1, 16, 96]⟩
abbrev S16x96 : Shape := ⟨2, ![16, 96]⟩
abbrev S50000x96 : Shape := ⟨2, ![50000, 96]⟩
abbrev S800000x16 : Shape := ⟨2, ![800000, 16]⟩
abbrev S1x96 : Shape := ⟨2, ![1, 96]⟩
abbrev S1x96x96 : Shape := ⟨3, ![1, 96, 96]⟩
abbrev S800000x96 : Shape := ⟨2, ![800000, 96]⟩
abbrev S50000x4 : Shape := ⟨2, ![50000, 4]⟩
abbrev S1x4 : Shape := ⟨2, ![1, 4]⟩

abbrev nBuf : Space → Nat
  | .hbm => 289
  | .vmem => 0
  | .smem => 0
  | _ => 0

abbrev hbmTy0_0 (i : Nat) : BufTy := match i % 128 with
  | 0 => ⟨S50000x16, .f32⟩
  | 1 => ⟨S2x800000, .i32⟩
  | 2 => ⟨S800000, .f32⟩
  | 3 => ⟨S4x16x96, .f32⟩
  | 4 => ⟨S96, .f32⟩
  | 5 => ⟨S4x96x96, .f32⟩
  | 6 => ⟨S96, .f32⟩
  | 7 => ⟨S4x96x96, .f32⟩
  | 8 => ⟨S96, .f32⟩
  | 9 => ⟨S96x96, .f32⟩
  | 10 => ⟨S96, .f32⟩
  | 11 => ⟨S96x96, .f32⟩
  | 12 => ⟨S96, .f32⟩
  | 13 => ⟨S96x96, .f32⟩
  | 14 => ⟨S96, .f32⟩
  | 15 => ⟨S96x4, .f32⟩
  | 16 => ⟨S4, .f32⟩
  | 17 => ⟨S1x800000, .i32⟩
  | 18 => ⟨S800000, .i32⟩
  | 19 => ⟨S1x800000, .i32⟩
  | 20 => ⟨S800000, .i32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S800000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S800000, .f32⟩
  | 53 => ⟨S1x16x96, .f32⟩
  | 54 => ⟨S16x96, .f32⟩
  | 55 => ⟨S50000x96, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x16, .f32⟩
  | 65 => ⟨S800000x1, .f32⟩
  | 66 => ⟨S800000x16, .f32⟩
  | 67 => ⟨S800000x16, .f32⟩
  | 68 => ⟨S_, .f32⟩
  | 69 => ⟨S50000x16, .f32⟩
  | 70 => ⟨S800000x1, .i32⟩
  | 71 => ⟨S50000x16, .f32⟩
  | 72 => ⟨S1x16x96, .f32⟩
  | 73 => ⟨S16x96, .f32⟩
  | 74 => ⟨S50000x96, .f32⟩
  | 75 => ⟨S50000x96, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x16, .f32⟩
  | 85 => ⟨S800000x1, .f32⟩
  | 86 => ⟨S800000x16, .f32⟩
  | 87 => ⟨S800000x16, .f32⟩
  | 88 => ⟨S_, .f32⟩
  | 89 => ⟨S50000x16, .f32⟩
  | 90 => ⟨S800000x1, .i32⟩
  | 91 => ⟨S50000x16, .f32⟩
  | 92 => ⟨S1x16x96, .f32⟩
  | 93 => ⟨S16x96, .f32⟩
  | 94 => ⟨S50000x96, .f32⟩
  | 95 => ⟨S50000x96, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x16, .f32⟩
  | 105 => ⟨S800000x1, .f32⟩
  | 106 => ⟨S800000x16, .f32⟩
  | 107 => ⟨S800000x16, .f32⟩
  | 108 => ⟨S_, .f32⟩
  | 109 => ⟨S50000x16, .f32⟩
  | 110 => ⟨S800000x1, .i32⟩
  | 111 => ⟨S50000x16, .f32⟩
  | 112 => ⟨S1x16x96, .f32⟩
  | 113 => ⟨S16x96, .f32⟩
  | 114 => ⟨S50000x96, .f32⟩
  | 115 => ⟨S50000x96, .f32⟩
  | 116 => ⟨S1x96, .f32⟩
  | 117 => ⟨S50000x96, .f32⟩
  | 118 => ⟨S50000x96, .f32⟩
  | 119 => ⟨S_, .f32⟩
  | 120 => ⟨S50000x96, .f32⟩
  | 121 => ⟨S50000x96, .f32⟩
  | 122 => ⟨S1x96x96, .f32⟩
  | 123 => ⟨S96x96, .f32⟩
  | 124 => ⟨S50000x96, .f32⟩
  | 125 => ⟨S_, .i32⟩
  | 126 => ⟨S800000, .i32⟩
  | 127 => ⟨S800000, .i1⟩
  | _ => ⟨S50000x16, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x96, .f32⟩
  | 6 => ⟨S800000x1, .f32⟩
  | 7 => ⟨S800000x96, .f32⟩
  | 8 => ⟨S800000x96, .f32⟩
  | 9 => ⟨S_, .f32⟩
  | 10 => ⟨S50000x96, .f32⟩
  | 11 => ⟨S800000x1, .i32⟩
  | 12 => ⟨S50000x96, .f32⟩
  | 13 => ⟨S1x96x96, .f32⟩
  | 14 => ⟨S96x96, .f32⟩
  | 15 => ⟨S50000x96, .f32⟩
  | 16 => ⟨S50000x96, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x96, .f32⟩
  | 26 => ⟨S800000x1, .f32⟩
  | 27 => ⟨S800000x96, .f32⟩
  | 28 => ⟨S800000x96, .f32⟩
  | 29 => ⟨S_, .f32⟩
  | 30 => ⟨S50000x96, .f32⟩
  | 31 => ⟨S800000x1, .i32⟩
  | 32 => ⟨S50000x96, .f32⟩
  | 33 => ⟨S1x96x96, .f32⟩
  | 34 => ⟨S96x96, .f32⟩
  | 35 => ⟨S50000x96, .f32⟩
  | 36 => ⟨S50000x96, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x96, .f32⟩
  | 46 => ⟨S800000x1, .f32⟩
  | 47 => ⟨S800000x96, .f32⟩
  | 48 => ⟨S800000x96, .f32⟩
  | 49 => ⟨S_, .f32⟩
  | 50 => ⟨S50000x96, .f32⟩
  | 51 => ⟨S800000x1, .i32⟩
  | 52 => ⟨S50000x96, .f32⟩
  | 53 => ⟨S1x96x96, .f32⟩
  | 54 => ⟨S96x96, .f32⟩
  | 55 => ⟨S50000x96, .f32⟩
  | 56 => ⟨S50000x96, .f32⟩
  | 57 => ⟨S1x96, .f32⟩
  | 58 => ⟨S50000x96, .f32⟩
  | 59 => ⟨S50000x96, .f32⟩
  | 60 => ⟨S_, .f32⟩
  | 61 => ⟨S50000x96, .f32⟩
  | 62 => ⟨S50000x96, .f32⟩
  | 63 => ⟨S1x96x96, .f32⟩
  | 64 => ⟨S96x96, .f32⟩
  | 65 => ⟨S50000x96, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x96, .f32⟩
  | 75 => ⟨S800000x1, .f32⟩
  | 76 => ⟨S800000x96, .f32⟩
  | 77 => ⟨S800000x96, .f32⟩
  | 78 => ⟨S_, .f32⟩
  | 79 => ⟨S50000x96, .f32⟩
  | 80 => ⟨S800000x1, .i32⟩
  | 81 => ⟨S50000x96, .f32⟩
  | 82 => ⟨S1x96x96, .f32⟩
  | 83 => ⟨S96x96, .f32⟩
  | 84 => ⟨S50000x96, .f32⟩
  | 85 => ⟨S50000x96, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x96, .f32⟩
  | 95 => ⟨S800000x1, .f32⟩
  | 96 => ⟨S800000x96, .f32⟩
  | 97 => ⟨S800000x96, .f32⟩
  | 98 => ⟨S_, .f32⟩
  | 99 => ⟨S50000x96, .f32⟩
  | 100 => ⟨S800000x1, .i32⟩
  | 101 => ⟨S50000x96, .f32⟩
  | 102 => ⟨S1x96x96, .f32⟩
  | 103 => ⟨S96x96, .f32⟩
  | 104 => ⟨S50000x96, .f32⟩
  | 105 => ⟨S50000x96, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x96, .f32⟩
  | 115 => ⟨S800000x1, .f32⟩
  | 116 => ⟨S800000x96, .f32⟩
  | 117 => ⟨S800000x96, .f32⟩
  | 118 => ⟨S_, .f32⟩
  | 119 => ⟨S50000x96, .f32⟩
  | 120 => ⟨S800000x1, .i32⟩
  | 121 => ⟨S50000x96, .f32⟩
  | 122 => ⟨S1x96x96, .f32⟩
  | 123 => ⟨S96x96, .f32⟩
  | 124 => ⟨S50000x96, .f32⟩
  | 125 => ⟨S50000x96, .f32⟩
  | 126 => ⟨S1x96, .f32⟩
  | 127 => ⟨S50000x96, .f32⟩
  | _ => ⟨S50000x16, .f32⟩

abbrev hbmTy0_2 (i : Nat) : BufTy := match i % 128 with
  | 0 => ⟨S50000x96, .f32⟩
  | 1 => ⟨S50000x96, .f32⟩
  | 2 => ⟨S1x96, .f32⟩
  | 3 => ⟨S50000x96, .f32⟩
  | 4 => ⟨S50000x96, .f32⟩
  | 5 => ⟨S_, .f32⟩
  | 6 => ⟨S50000x96, .f32⟩
  | 7 => ⟨S50000x96, .f32⟩
  | 8 => ⟨S50000x96, .f32⟩
  | 9 => ⟨S1x96, .f32⟩
  | 10 => ⟨S50000x96, .f32⟩
  | 11 => ⟨S50000x96, .f32⟩
  | 12 => ⟨S_, .f32⟩
  | 13 => ⟨S50000x96, .f32⟩
  | 14 => ⟨S50000x96, .f32⟩
  | 15 => ⟨S50000x96, .f32⟩
  | 16 => ⟨S1x96, .f32⟩
  | 17 => ⟨S50000x96, .f32⟩
  | 18 => ⟨S50000x96, .f32⟩
  | 19 => ⟨S_, .f32⟩
  | 20 => ⟨S50000x96, .f32⟩
  | 21 => ⟨S50000x96, .f32⟩
  | 22 => ⟨S50000x96, .f32⟩
  | 23 => ⟨S1x96, .f32⟩
  | 24 => ⟨S50000x96, .f32⟩
  | 25 => ⟨S50000x96, .f32⟩
  | 26 => ⟨S_, .f32⟩
  | 27 => ⟨S50000x96, .f32⟩
  | 28 => ⟨S50000x96, .f32⟩
  | 29 => ⟨S50000x4, .f32⟩
  | 30 => ⟨S1x4, .f32⟩
  | 31 => ⟨S50000x4, .f32⟩
  | 32 => ⟨S50000x4, .f32⟩
  | _ => ⟨S50000x16, .f32⟩

abbrev hbmTy (i : Nat) : BufTy := match i / 128 with
  | 0 => hbmTy0_0 i
  | 1 => hbmTy0_1 i
  | 2 => hbmTy0_2 i
  | _ => ⟨S50000x16, .f32⟩

abbrev bufTy : (tb : Table) → Fin (tcTables nBuf tb) → BufTy
  | .hbm, ⟨i, _⟩ => hbmTy i
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_call0_v0 : Ref sig .tc := ⟨.hbm, 30, rfl⟩
abbrev main_call0_v1 : Ref sig .tc := ⟨.hbm, 31, rfl⟩
abbrev main_v10 : Ref sig .tc := ⟨.hbm, 32, rfl⟩
abbrev main_c : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_3 : Ref sig .tc := ⟨.hbm, 43, rfl⟩
abbrev main_v19 : Ref sig .tc := ⟨.hbm, 44, rfl⟩
abbrev main_v20 : Ref sig .tc := ⟨.hbm, 45, rfl⟩
abbrev main_c_4 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_5 : Ref sig .tc := ⟨.hbm, 56, rfl⟩
abbrev main_v30 : Ref sig .tc := ⟨.hbm, 57, rfl⟩
abbrev main_v31 : Ref sig .tc := ⟨.hbm, 58, rfl⟩
abbrev main_c_6 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_c_8 : Ref sig .tc := ⟨.hbm, 76, rfl⟩
abbrev main_v47 : Ref sig .tc := ⟨.hbm, 77, rfl⟩
abbrev main_v48 : Ref sig .tc := ⟨.hbm, 78, rfl⟩
abbrev main_c_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_10 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_11 : Ref sig .tc := ⟨.hbm, 96, rfl⟩
abbrev main_v64 : Ref sig .tc := ⟨.hbm, 97, rfl⟩
abbrev main_v65 : Ref sig .tc := ⟨.hbm, 98, rfl⟩
abbrev main_c_12 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_13 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_call1_cst : Ref sig .tc := ⟨.hbm, 119, rfl⟩
abbrev main_call1_v0 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_14 : Ref sig .tc := ⟨.hbm, 125, rfl⟩
abbrev main_v88 : Ref sig .tc := ⟨.hbm, 126, rfl⟩
abbrev main_v89 : Ref sig .tc := ⟨.hbm, 127, rfl⟩
abbrev main_c_15 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_16 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_c_17 : Ref sig .tc := ⟨.hbm, 145, rfl⟩
abbrev main_v105 : Ref sig .tc := ⟨.hbm, 146, rfl⟩
abbrev main_v106 : Ref sig .tc := ⟨.hbm, 147, rfl⟩
abbrev main_c_18 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_19 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_c_20 : Ref sig .tc := ⟨.hbm, 165, rfl⟩
abbrev main_v122 : Ref sig .tc := ⟨.hbm, 166, rfl⟩
abbrev main_v123 : Ref sig .tc := ⟨.hbm, 167, rfl⟩
abbrev main_c_21 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_cst_22 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_call2_cst : Ref sig .tc := ⟨.hbm, 188, rfl⟩
abbrev main_call2_v0 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_c_23 : Ref sig .tc := ⟨.hbm, 194, rfl⟩
abbrev main_v146 : Ref sig .tc := ⟨.hbm, 195, rfl⟩
abbrev main_v147 : Ref sig .tc := ⟨.hbm, 196, rfl⟩
abbrev main_c_24 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_cst_25 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_c_26 : Ref sig .tc := ⟨.hbm, 214, rfl⟩
abbrev main_v163 : Ref sig .tc := ⟨.hbm, 215, rfl⟩
abbrev main_v164 : Ref sig .tc := ⟨.hbm, 216, rfl⟩
abbrev main_c_27 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_cst_28 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_c_29 : Ref sig .tc := ⟨.hbm, 234, rfl⟩
abbrev main_v180 : Ref sig .tc := ⟨.hbm, 235, rfl⟩
abbrev main_v181 : Ref sig .tc := ⟨.hbm, 236, rfl⟩
abbrev main_c_30 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_cst_31 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_call3_cst : Ref sig .tc := ⟨.hbm, 261, rfl⟩
abbrev main_call3_v0 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_call4_cst : Ref sig .tc := ⟨.hbm, 268, rfl⟩
abbrev main_call4_v0 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_call5_cst : Ref sig .tc := ⟨.hbm, 275, rfl⟩
abbrev main_call5_v0 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_call6_cst : Ref sig .tc := ⟨.hbm, 282, rfl⟩
abbrev main_call6_v0 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  slices_S4x16x96_S1x16x96_0_0_0 : S4x16x96.Slices ![0, 0, 0] S1x16x96
  shapeCasts_S1x16x96_S16x96 : S1x16x96.ShapeCasts S16x96
  bcast_S800000x1_S800000x16_0_1 : S800000x1.BroadcastsInDim S800000x16 (![0, 1] : Fin 2 → Fin S800000x16.rank)
  bcast_S_S50000x16 : S_.BroadcastsInDim S50000x16 (![] : Fin 0 → Fin S50000x16.rank)
  slices_S4x16x96_S1x16x96_1_0_0 : S4x16x96.Slices ![1, 0, 0] S1x16x96
  slices_S4x16x96_S1x16x96_2_0_0 : S4x16x96.Slices ![2, 0, 0] S1x16x96
  slices_S4x16x96_S1x16x96_3_0_0 : S4x16x96.Slices ![3, 0, 0] S1x16x96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S50000x96 : S_.BroadcastsInDim S50000x96 (![] : Fin 0 → Fin S50000x96.rank)
  slices_S4x96x96_S1x96x96_0_0_0 : S4x96x96.Slices ![0, 0, 0] S1x96x96
  shapeCasts_S1x96x96_S96x96 : S1x96x96.ShapeCasts S96x96
  bcast_S800000x1_S800000x96_0_1 : S800000x1.BroadcastsInDim S800000x96 (![0, 1] : Fin 2 → Fin S800000x96.rank)
  slices_S4x96x96_S1x96x96_1_0_0 : S4x96x96.Slices ![1, 0, 0] S1x96x96
  slices_S4x96x96_S1x96x96_2_0_0 : S4x96x96.Slices ![2, 0, 0] S1x96x96
  slices_S4x96x96_S1x96x96_3_0_0 : S4x96x96.Slices ![3, 0, 0] S1x96x96
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x16_S16x96_S50000x96_1_0_0_1_n_n_wf : DotDims.WF S50000x16 S16x96 S50000x96 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  dot_S50000x96_S96x96_S50000x96_1_0_0_1_n_n_wf : DotDims.WF S50000x96 S96x96 S50000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x4_S50000x4_1_0_0_1_n_n_wf : DotDims.WF S50000x96 S96x4 S50000x4 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x16_S16x96_S50000x96_1_0_0_1_n_n : DotDims S50000x16 S16x96 S50000x96 where
  lhsContracting := [1]
  rhsContracting := [0]
  lhsNonContracting := [0]
  rhsNonContracting := [1]
  lhsBatch := []
  rhsBatch := []
  wf := dot_S50000x16_S16x96_S50000x96_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x4_S50000x4_1_0_0_1_n_n : DotDims S50000x96 S96x4 S50000x4 where
  lhsContracting := [1]
  rhsContracting := [0]
  lhsNonContracting := [0]
  rhsNonContracting := [1]
  lhsBatch := []
  rhsBatch := []
  wf := dot_S50000x96_S96x4_S50000x4_1_0_0_1_n_n_wf

class Facts : Prop extends Facts₀ where

variable [Facts]
-- ==== Proof.RefWalk.lean ====
/- The reference's run read back, a layer at a time. Its 272 host operations are one fold over the launch contents;
   cut after the edge norm and after each of the three graph convolutions, each piece's output buffer is the
   reference's stage function of the argument arrays (the operations' own composition), the edge lists and the edge
   norm carried along unchanged, and no operation writes an argument. So every weakly fair execution ends with the
   result buffer at the last stage of the launch contents and the seventeen arguments as launched. -/
import proofs.«123229_j70574902608028_1_alg».proof.Proof.RefRunP
import proofs.«123229_j70574902608028_1_alg».proof.Proof.RefReadP
import Idealize.ShloMosaic.PureOps.Ideal

set_option maxRecDepth 16384

noncomputable section

namespace Cert.ReferenceIdeal.Walk

open Cert.ReferenceIdeal Cert.ReferenceIdeal.Gen Cert.ReferenceIdeal.ValueP Cert.ReferenceIdeal.ReadP
open Idealize.ShloMosaic Idealize.ShloMosaic.TcCoe Idealize.ShloMosaic.StableHlo Idealize.SL.Sem

variable (m : (ℓ : Loc nD τ sig) → Buf (Elt Ideal) ℓ)

/-- Two lines of operations one after the other fold as the first, then the second. -/
theorem after_append : ∀ (l₁ l₂ : List (HloOp τ sig (Elt Ideal))) (V : Valuation τ sig (Elt Ideal)),
    after (l₁ ++ l₂) V = after l₂ (after l₁ V)
  | [], _, _ => rfl
  | op :: l, l₂, V => by rw [List.cons_append, after_cons, after_cons, after_append l l₂]

/-- The buffer contents after each piece. -/
abbrev U0 (c : Dev nD) : Valuation τ sig (Elt Ideal) := launchContents m c
def UA (c : Dev nD) : Valuation τ sig (Elt Ideal) := after opsA (U0 m c)
def UB (c : Dev nD) : Valuation τ sig (Elt Ideal) := after opsB (UA m c)
def UC (c : Dev nD) : Valuation τ sig (Elt Ideal) := after opsC (UB m c)
def UD (c : Dev nD) : Valuation τ sig (Elt Ideal) := after opsD (UC m c)
def UE (c : Dev nD) : Valuation τ sig (Elt Ideal) := after opsE (UD m c)

theorem fold_eq (c : Dev nD) : after (ops (F := Ideal)) (launchContents m c) = UE m c := by
  rw [ops_eq, after_append, after_append, after_append, after_append]
  rfl

/-! ## The outlined calls (the selection in the edge norm, the six cut-offs at zero)

   Their operations move operands and results between a buffer's own contents type and the tensor type the function
   states; at these literal buffers the two are the same type, so each move is the identity. -/

theorem toBuf_main_cst_1 (h1 : main_cst_1.ty = (⟨S_, .f32⟩ : BufTy)) (h2 : main_cst_1.space ≠ .host) (h3 : main_cst_1.isScoped = false)
    (v : (⟨S_, .f32⟩ : BufTy).Contents (Elt Ideal)) : (TRef.of (sig := sig) main_cst_1 h1 h2 h3).toBuf v = v :=
  eq_of_heq (cast_heq _ _)
theorem ofBuf_main_cst_1 (h1 : main_cst_1.ty = (⟨S_, .f32⟩ : BufTy)) (h2 : main_cst_1.space ≠ .host) (h3 : main_cst_1.isScoped = false)
    (v : (⟨S_, .f32⟩ : BufTy).Contents (Elt Ideal)) : (TRef.of (sig := sig) main_cst_1 h1 h2 h3).ofBuf v = v :=
  eq_of_heq (cast_heq _ _)
theorem toBuf_main_call0_v0 (h1 : main_call0_v0.ty = (⟨S_, .f32⟩ : BufTy)) (h2 : main_call0_v0.space ≠ .host) (h3 : main_call0_v0.isScoped = false)
    (v : (⟨S_, .f32⟩ : BufTy).Contents (Elt Ideal)) : (TRef.of (sig := sig) main_call0_v0 h1 h2 h3).toBuf v = v :=
  eq_of_heq (cast_heq _ _)
theorem ofBuf_main_call0_v0 (h1 : main_call0_v0.ty = (⟨S_, .f32⟩ : BufTy)) (h2 : main_call0_v0.space ≠ .host) (h3 : main_call0_v0.isScoped = false)
    (v : (⟨S_, .f32⟩ : BufTy).Contents (Elt Ideal)) : (TRef.of (sig := sig) main_call0_v0 h1 h2 h3).ofBuf v = v :=
  eq_of_heq (cast_heq _ _)
theorem toBuf_main_call0_v1 (h1 : main_call0_v1.ty = (⟨S50000, .f32⟩ : BufTy)) (h2 : main_call0_v1.space ≠ .host) (h3 : main_call0_v1.isScoped = false)
    (v : (⟨S50000, .f32⟩ : BufTy).Contents (Elt Ideal)) : (TRef.of (sig := sig) main_call0_v1 h1 h2 h3).toBuf v = v :=
  eq_of_heq (cast_heq _ _)
theorem ofBuf_main_call0_v1 (h1 : main_call0_v1.ty = (⟨S50000, .f32⟩ : BufTy)) (h2 : main_call0_v1.space ≠ .host) (h3 : main_call0_v1.isScoped = false)
    (v : (⟨S50000, .f32⟩ : BufTy).Contents (Elt Ideal)) : (TRef.of (sig := sig) main_call0_v1 h1 h2 h3).ofBuf v = v :=
  eq_of_heq (cast_heq _ _)
theorem toBuf_main_v8 (h1 : main_v8.ty = (⟨S50000, .i1⟩ : BufTy)) (h2 : main_v8.space ≠ .host) (h3 : main_v8.isScoped = false)
    (v : (⟨S50000, .i1⟩ : BufTy).Contents (Elt Ideal)) : (TRef.of (sig := sig) main_v8 h1 h2 h3).toBuf v = v :=
  eq_of_heq (cast_heq _ _)
theorem ofBuf_main_v8 (h1 : main_v8.ty = (⟨S50000, .i1⟩ : BufTy)) (h2 : main_v8.space ≠ .host) (h3 : main_v8.isScoped = false)
    (v : (⟨S50000, .i1⟩ : BufTy).Contents (Elt Ideal)) : (TRef.of (sig := sig) main_v8 h1 h2 h3).ofBuf v = v :=
  eq_of_heq (cast_heq _ _)
theorem toBuf_main_v9 (h1 : main_v9.ty = (⟨S50000, .f32⟩ : BufTy)) (h2 : main_v9.space ≠ .host) (h3 : main_v9.isScoped = false)
    (v : (⟨S50000, .f32⟩ : BufTy).Contents (Elt Ideal)) : (TRef.of (sig := sig) main_v9 h1 h2 h3).toBuf v = v :=
  eq_of_heq (cast_heq _ _)
theorem ofBuf_main_v9 (h1 : main_v9.ty = (⟨S50000, .f32⟩ : BufTy)) (h2 : main_v9.space ≠ .host) (h3 : main_v9.isScoped = false)
    (v : (⟨S50000, .f32⟩ : BufTy).Contents (Elt Ideal)) : (TRef.of (sig := sig) main_v9 h1 h2 h3).ofBuf v = v :=
  eq_of_heq (cast_heq _ _)
theorem toBuf_main_v10 (h1 : main_v10.ty = (⟨S50000, .f32⟩ : BufTy)) (h2 : main_v10.space ≠ .host) (h3 : main_v10.isScoped = false)
    (v : (⟨S50000, .f32⟩ : BufTy).Contents (Elt Ideal)) : (TRef.of (sig := sig) main_v10 h1 h2 h3).toBuf v = v :=
  eq_of_heq (cast_heq _ _)
theorem ofBuf_main_v10 (h1 : main_v10.ty = (⟨S50000, .f32⟩ : BufTy)) (h2 : main_v10.space ≠ .host) (h3 : main_v10.isScoped = false)
    (v : (⟨S50000, .f32⟩ : BufTy).Contents (Elt Ideal)) : (TRef.of (sig := sig) main_v10 h1 h2 h3).ofBuf v = v :=
  eq_of_heq (cast_heq _ _)
theorem toBuf_main_call1_cst (h1 : main_call1_cst.ty = (⟨S_, .f32⟩ : BufTy)) (h2 : main_call1_cst.space ≠ .host) (h3 : main_call1_cst.isScoped = false)
    (v : (⟨S_, .f32⟩ : BufTy).Contents (Elt Ideal)) : (TRef.of (sig := sig) main_call1_cst h1 h2 h3).toBuf v = v :=
  eq_of_heq (cast_heq _ _)
theorem ofBuf_main_call1_cst (h1 : main_call1_cst.ty = (⟨S_, .f32⟩ : BufTy)) (h2 : main_call1_cst.space ≠ .host) (h3 : main_call1_cst.isScoped = false)
    (v : (⟨S_, .f32⟩ : BufTy).Contents (Elt Ideal)) : (TRef.of (sig := sig) main_call1_cst h1 h2 h3).ofBuf v = v :=
  eq_of_heq (cast_heq _ _)
theorem toBuf_main_call1_v0 (h1 : main_call1_v0.ty = (⟨S50000x96, .f32⟩ : BufTy)) (h2 : main_call1_v0.space ≠ .host) (h3 : main_call1_v0.isScoped = false)
    (v : (⟨S50000x96, .f32⟩ : BufTy).Contents (Elt Ideal)) : (TRef.of (sig := sig) main_call1_v0 h1 h2 h3).toBuf v = v :=
  eq_of_heq (cast_heq _ _)
theorem ofBuf_main_call1_v0 (h1 : main_call1_v0.ty = (⟨S50000x96, .f32⟩ : BufTy)) (h2 : main_call1_v0.space ≠ .host) (h3 : main_call1_v0.isScoped = false)
    (v : (⟨S50000x96, .f32⟩ : BufTy).Contents (Elt Ideal)) : (TRef.of (sig := sig) main_call1_v0 h1 h2 h3).ofBuf v = v :=
  eq_of_heq (cast_heq _ _)
theorem toBuf_main_v83 (h1 : main_v83.ty = (⟨S50000x96, .f32⟩ : BufTy)) (h2 : main_v83.space ≠ .host) (h3 : main_v83.isScoped = false)
    (v : (⟨S50000x96, .f32⟩ : BufTy).Contents (Elt Ideal)) : (TRef.of (sig := sig) main_v83 h1 h2 h3).toBuf v = v :=
  eq_of_heq (cast_heq _ _)
theorem ofBuf_main_v83 (h1 : main_v83.ty = (⟨S50000x96, .f32⟩ : BufTy)) (h2 : main_v83.space ≠ .host) (h3 : main_v83.isScoped = false)
    (v : (⟨S50000x96, .f32⟩ : BufTy).Contents (Elt Ideal)) : (TRef.of (sig := sig) main_v83 h1 h2 h3).ofBuf v = v :=
  eq_of_heq (cast_heq _ _)
theorem toBuf_main_v84 (h1 : main_v84.ty = (⟨S50000x96, .f32⟩ : BufTy)) (h2 : main_v84.space ≠ .host) (h3 : main_v84.isScoped = false)
    (v : (⟨S50000x96, .f32⟩ : BufTy).Contents (Elt Ideal)) : (TRef.of (sig := sig) main_v84 h1 h2 h3).toBuf v = v :=
  eq_of_heq (cast_heq _ _)
theorem ofBuf_main_v84 (h1 : main_v84.ty = (⟨S50000x96, .f32⟩ : BufTy)) (h2 : main_v84.space ≠ .host) (h3 : main_v84.isScoped = false)
    (v : (⟨S50000x96, .f32⟩ : BufTy).Contents (Elt Ideal)) : (TRef.of (sig := sig) main_v84 h1 h2 h3).ofBuf v = v :=
  eq_of_heq (cast_heq _ _)
theorem toBuf_main_call2_cst (h1 : main_call2_cst.ty = (⟨S_, .f32⟩ : BufTy)) (h2 : main_call2_cst.space ≠ .host) (h3 : main_call2_cst.isScoped = false)
    (v : (⟨S_, .f32⟩ : BufTy).Contents (Elt Ideal)) : (TRef.of (sig := sig) main_call2_cst h1 h2 h3).toBuf v = v :=
  eq_of_heq (cast_heq _ _)
theorem ofBuf_main_call2_cst (h1 : main_call2_cst.ty = (⟨S_, .f32⟩ : BufTy)) (h2 : main_call2_cst.space ≠ .host) (h3 : main_call2_cst.isScoped = false)
    (v : (⟨S_, .f32⟩ : BufTy).Contents (Elt Ideal)) : (TRef.of (sig := sig) main_call2_cst h1 h2 h3).ofBuf v = v :=
  eq_of_heq (cast_heq _ _)
theorem toBuf_main_call2_v0 (h1 : main_call2_v0.ty = (⟨S50000x96, .f32⟩ : BufTy)) (h2 : main_call2_v0.space ≠ .host) (h3 : main_call2_v0.isScoped = false)
    (v : (⟨S50000x96, .f32⟩ : BufTy).Contents (Elt Ideal)) : (TRef.of (sig := sig) main_call2_v0 h1 h2 h3).toBuf v = v :=
  eq_of_heq (cast_heq _ _)
theorem ofBuf_main_call2_v0 (h1 : main_call2_v0.ty = (⟨S50000x96, .f32⟩ : BufTy)) (h2 : main_call2_v0.space ≠ .host) (h3 : main_call2_v0.isScoped = false)
    (v : (⟨S50000x96, .f32⟩ : BufTy).Contents (Elt Ideal)) : (TRef.of (sig := sig) main_call2_v0 h1 h2 h3).ofBuf v = v :=
  eq_of_heq (cast_heq _ _)
theorem toBuf_main_v141 (h1 : main_v141.ty = (⟨S50000x96, .f32⟩ : BufTy)) (h2 : main_v141.space ≠ .host) (h3 : main_v141.isScoped = false)
    (v : (⟨S50000x96, .f32⟩ : BufTy).Contents (Elt Ideal)) : (TRef.of (sig := sig) main_v141 h1 h2 h3).toBuf v = v :=
  eq_of_heq (cast_heq _ _)
theorem ofBuf_main_v141 (h1 : main_v141.ty = (⟨S50000x96, .f32⟩ : BufTy)) (h2 : main_v141.space ≠ .host) (h3 : main_v141.isScoped = false)
    (v : (⟨S50000x96, .f32⟩ : BufTy).Contents (Elt Ideal)) : (TRef.of (sig := sig) main_v141 h1 h2 h3).ofBuf v = v :=
  eq_of_heq (cast_heq _ _)
theorem toBuf_main_v142 (h1 : main_v142.ty = (⟨S50000x96, .f32⟩ : BufTy)) (h2 : main_v142.space ≠ .host) (h3 : main_v142.isScoped = false)
    (v : (⟨S50000x96, .f32⟩ : BufTy).Contents (Elt Ideal)) : (TRef.of (sig := sig) main_v142 h1 h2 h3).toBuf v = v :=
  eq_of_heq (cast_heq _ _)
theorem ofBuf_main_v142 (h1 : main_v142.ty = (⟨S50000x96, .f32⟩ : BufTy)) (h2 : main_v142.space ≠ .host) (h3 : main_v142.isScoped = false)
    (v : (⟨S50000x96, .f32⟩ : BufTy).Contents (Elt Ideal)) : (TRef.of (sig := sig) main_v142 h1 h2 h3).ofBuf v = v :=
  eq_of_heq (cast_heq _ _)
theorem toBuf_main_call3_cst (h1 : main_call3_cst.ty = (⟨S_, .f32⟩ : BufTy)) (h2 : main_call3_cst.space ≠ .host) (h3 : main_call3_cst.isScoped = false)
    (v : (⟨S_, .f32⟩ : BufTy).Contents (Elt Ideal)) : (TRef.of (sig := sig) main_call3_cst h1 h2 h3).toBuf v = v :=
  eq_of_heq (cast_heq _ _)
theorem ofBuf_main_call3_cst (h1 : main_call3_cst.ty = (⟨S_, .f32⟩ : BufTy)) (h2 : main_call3_cst.space ≠ .host) (h3 : main_call3_cst.isScoped = false)
    (v : (⟨S_, .f32⟩ : BufTy).Contents (Elt Ideal)) : (TRef.of (sig := sig) main_call3_cst h1 h2 h3).ofBuf v = v :=
  eq_of_heq (cast_heq _ _)
theorem toBuf_main_call3_v0 (h1 : main_call3_v0.ty = (⟨S50000x96, .f32⟩ : BufTy)) (h2 : main_call3_v0.space ≠ .host) (h3 : main_call3_v0.isScoped = false)
    (v : (⟨S50000x96, .f32⟩ : BufTy).Contents (Elt Ideal)) : (TRef.of (sig := sig) main_call3_v0 h1 h2 h3).toBuf v = v :=
  eq_of_heq (cast_heq _ _)
theorem ofBuf_main_call3_v0 (h1 : main_call3_v0.ty = (⟨S50000x96, .f32⟩ : BufTy)) (h2 : main_call3_v0.space ≠ .host) (h3 : main_call3_v0.isScoped = false)
    (v : (⟨S50000x96, .f32⟩ : BufTy).Contents (Elt Ideal)) : (TRef.of (sig := sig) main_call3_v0 h1 h2 h3).ofBuf v = v :=
  eq_of_heq (cast_heq _ _)
theorem toBuf_main_v203 (h1 : main_v203.ty = (⟨S50000x96, .f32⟩ : BufTy)) (h2 : main_v203.space ≠ .host) (h3 : main_v203.isScoped = false)
    (v : (⟨S50000x96, .f32⟩ : BufTy).Contents (Elt Ideal)) : (TRef.of (sig := sig) main_v203 h1 h2 h3).toBuf v = v :=
  eq_of_heq (cast_heq _ _)
theorem ofBuf_main_v203 (h1 : main_v203.ty = (⟨S50000x96, .f32⟩ : BufTy)) (h2 : main_v203.space ≠ .host) (h3 : main_v203.isScoped = false)
    (v : (⟨S50000x96, .f32⟩ : BufTy).Contents (Elt Ideal)) : (TRef.of (sig := sig) main_v203 h1 h2 h3).ofBuf v = v :=
  eq_of_heq (cast_heq _ _)
theorem toBuf_main_v204 (h1 : main_v204.ty = (⟨S50000x96, .f32⟩ : BufTy)) (h2 : main_v204.space ≠ .host) (h3 : main_v204.isScoped = false)
    (v : (⟨S50000x96, .f32⟩ : BufTy).Contents (Elt Ideal)) : (TRef.of (sig := sig) main_v204 h1 h2 h3).toBuf v = v :=
  eq_of_heq (cast_heq _ _)
theorem ofBuf_main_v204 (h1 : main_v204.ty = (⟨S50000x96, .f32⟩ : BufTy)) (h2 : main_v204.space ≠ .host) (h3 : main_v204.isScoped = false)
    (v : (⟨S50000x96, .f32⟩ : BufTy).Contents (Elt Ideal)) : (TRef.of (sig := sig) main_v204 h1 h2 h3).ofBuf v = v :=
  eq_of_heq (cast_heq _ _)
theorem toBuf_main_call4_cst (h1 : main_call4_cst.ty = (⟨S_, .f32⟩ : BufTy)) (h2 : main_call4_cst.space ≠ .host) (h3 : main_call4_cst.isScoped = false)
    (v : (⟨S_, .f32⟩ : BufTy).Contents (Elt Ideal)) : (TRef.of (sig := sig) main_call4_cst h1 h2 h3).toBuf v = v :=
  eq_of_heq (cast_heq _ _)
theorem ofBuf_main_call4_cst (h1 : main_call4_cst.ty = (⟨S_, .f32⟩ : BufTy)) (h2 : main_call4_cst.space ≠ .host) (h3 : main_call4_cst.isScoped = false)
    (v : (⟨S_, .f32⟩ : BufTy).Contents (Elt Ideal)) : (TRef.of (sig := sig) main_call4_cst h1 h2 h3).ofBuf v = v :=
  eq_of_heq (cast_heq _ _)
theorem toBuf_main_call4_v0 (h1 : main_call4_v0.ty = (⟨S50000x96, .f32⟩ : BufTy)) (h2 : main_call4_v0.space ≠ .host) (h3 : main_call4_v0.isScoped = false)
    (v : (⟨S50000x96, .f32⟩ : BufTy).Contents (Elt Ideal)) : (TRef.of (sig := sig) main_call4_v0 h1 h2 h3).toBuf v = v :=
  eq_of_heq (cast_heq _ _)
theorem ofBuf_main_call4_v0 (h1 : main_call4_v0.ty = (⟨S50000x96, .f32⟩ : BufTy)) (h2 : main_call4_v0.space ≠ .host) (h3 : main_call4_v0.isScoped = false)
    (v : (⟨S50000x96, .f32⟩ : BufTy).Contents (Elt Ideal)) : (TRef.of (sig := sig) main_call4_v0 h1 h2 h3).ofBuf v = v :=
  eq_of_heq (cast_heq _ _)
theorem toBuf_main_v208 (h1 : main_v208.ty = (⟨S50000x96, .f32⟩ : BufTy)) (h2 : main_v208.space ≠ .host) (h3 : main_v208.isScoped = false)
    (v : (⟨S50000x96, .f32⟩ : BufTy).Contents (Elt Ideal)) : (TRef.of (sig := sig) main_v208 h1 h2 h3).toBuf v = v :=
  eq_of_heq (cast_heq _ _)
theorem ofBuf_main_v208 (h1 : main_v208.ty = (⟨S50000x96, .f32⟩ : BufTy)) (h2 : main_v208.space ≠ .host) (h3 : main_v208.isScoped = false)
    (v : (⟨S50000x96, .f32⟩ : BufTy).Contents (Elt Ideal)) : (TRef.of (sig := sig) main_v208 h1 h2 h3).ofBuf v = v :=
  eq_of_heq (cast_heq _ _)
theorem toBuf_main_v209 (h1 : main_v209.ty = (⟨S50000x96, .f32⟩ : BufTy)) (h2 : main_v209.space ≠ .host) (h3 : main_v209.isScoped = false)
    (v : (⟨S50000x96, .f32⟩ : BufTy).Contents (Elt Ideal)) : (TRef.of (sig := sig) main_v209 h1 h2 h3).toBuf v = v :=
  eq_of_heq (cast_heq _ _)
theorem ofBuf_main_v209 (h1 : main_v209.ty = (⟨S50000x96, .f32⟩ : BufTy)) (h2 : main_v209.space ≠ .host) (h3 : main_v209.isScoped = false)
    (v : (⟨S50000x96, .f32⟩ : BufTy).Contents (Elt Ideal)) : (TRef.of (sig := sig) main_v209 h1 h2 h3).ofBuf v = v :=
  eq_of_heq (cast_heq _ _)
theorem toBuf_main_call5_cst (h1 : main_call5_cst.ty = (⟨S_, .f32⟩ : BufTy)) (h2 : main_call5_cst.space ≠ .host) (h3 : main_call5_cst.isScoped = false)
    (v : (⟨S_, .f32⟩ : BufTy).Contents (Elt Ideal)) : (TRef.of (sig := sig) main_call5_cst h1 h2 h3).toBuf v = v :=
  eq_of_heq (cast_heq _ _)
theorem ofBuf_main_call5_cst (h1 : main_call5_cst.ty = (⟨S_, .f32⟩ : BufTy)) (h2 : main_call5_cst.space ≠ .host) (h3 : main_call5_cst.isScoped = false)
    (v : (⟨S_, .f32⟩ : BufTy).Contents (Elt Ideal)) : (TRef.of (sig := sig) main_call5_cst h1 h2 h3).ofBuf v = v :=
  eq_of_heq (cast_heq _ _)
theorem toBuf_main_call5_v0 (h1 : main_call5_v0.ty = (⟨S50000x96, .f32⟩ : BufTy)) (h2 : main_call5_v0.space ≠ .host) (h3 : main_call5_v0.isScoped = false)
    (v : (⟨S50000x96, .f32⟩ : BufTy).Contents (Elt Ideal)) : (TRef.of (sig := sig) main_call5_v0 h1 h2 h3).toBuf v = v :=
  eq_of_heq (cast_heq _ _)
theorem ofBuf_main_call5_v0 (h1 : main_call5_v0.ty = (⟨S50000x96, .f32⟩ : BufTy)) (h2 : main_call5_v0.space ≠ .host) (h3 : main_call5_v0.isScoped = false)
    (v : (⟨S50000x96, .f32⟩ : BufTy).Contents (Elt Ideal)) : (TRef.of (sig := sig) main_call5_v0 h1 h2 h3).ofBuf v = v :=
  eq_of_heq (cast_heq _ _)
theorem toBuf_main_v213 (h1 : main_v213.ty = (⟨S50000x96, .f32⟩ : BufTy)) (h2 : main_v213.space ≠ .host) (h3 : main_v213.isScoped = false)
    (v : (⟨S50000x96, .f32⟩ : BufTy).Contents (Elt Ideal)) : (TRef.of (sig := sig) main_v213 h1 h2 h3).toBuf v = v :=
  eq_of_heq (cast_heq _ _)
theorem ofBuf_main_v213 (h1 : main_v213.ty = (⟨S50000x96, .f32⟩ : BufTy)) (h2 : main_v213.space ≠ .host) (h3 : main_v213.isScoped = false)
    (v : (⟨S50000x96, .f32⟩ : BufTy).Contents (Elt Ideal)) : (TRef.of (sig := sig) main_v213 h1 h2 h3).ofBuf v = v :=
  eq_of_heq (cast_heq _ _)
theorem toBuf_main_v214 (h1 : main_v214.ty = (⟨S50000x96, .f32⟩ : BufTy)) (h2 : main_v214.space ≠ .host) (h3 : main_v214.isScoped = false)
    (v : (⟨S50000x96, .f32⟩ : BufTy).Contents (Elt Ideal)) : (TRef.of (sig := sig) main_v214 h1 h2 h3).toBuf v = v :=
  eq_of_heq (cast_heq _ _)
theorem ofBuf_main_v214 (h1 : main_v214.ty = (⟨S50000x96, .f32⟩ : BufTy)) (h2 : main_v214.space ≠ .host) (h3 : main_v214.isScoped = false)
    (v : (⟨S50000x96, .f32⟩ : BufTy).Contents (Elt Ideal)) : (TRef.of (sig := sig) main_v214 h1 h2 h3).ofBuf v = v :=
  eq_of_heq (cast_heq _ _)
theorem toBuf_main_call6_cst (h1 : main_call6_cst.ty = (⟨S_, .f32⟩ : BufTy)) (h2 : main_call6_cst.space ≠ .host) (h3 : main_call6_cst.isScoped = false)
    (v : (⟨S_, .f32⟩ : BufTy).Contents (Elt Ideal)) : (TRef.of (sig := sig) main_call6_cst h1 h2 h3).toBuf v = v :=
  eq_of_heq (cast_heq _ _)
theorem ofBuf_main_call6_cst (h1 : main_call6_cst.ty = (⟨S_, .f32⟩ : BufTy)) (h2 : main_call6_cst.space ≠ .host) (h3 : main_call6_cst.isScoped = false)
    (v : (⟨S_, .f32⟩ : BufTy).Contents (Elt Ideal)) : (TRef.of (sig := sig) main_call6_cst h1 h2 h3).ofBuf v = v :=
  eq_of_heq (cast_heq _ _)
theorem toBuf_main_call6_v0 (h1 : main_call6_v0.ty = (⟨S50000x96, .f32⟩ : BufTy)) (h2 : main_call6_v0.space ≠ .host) (h3 : main_call6_v0.isScoped = false)
    (v : (⟨S50000x96, .f32⟩ : BufTy).Contents (Elt Ideal)) : (TRef.of (sig := sig) main_call6_v0 h1 h2 h3).toBuf v = v :=
  eq_of_heq (cast_heq _ _)
theorem ofBuf_main_call6_v0 (h1 : main_call6_v0.ty = (⟨S50000x96, .f32⟩ : BufTy)) (h2 : main_call6_v0.space ≠ .host) (h3 : main_call6_v0.isScoped = false)
    (v : (⟨S50000x96, .f32⟩ : BufTy).Contents (Elt Ideal)) : (TRef.of (sig := sig) main_call6_v0 h1 h2 h3).ofBuf v = v :=
  eq_of_heq (cast_heq _ _)
theorem toBuf_main_v218 (h1 : main_v218.ty = (⟨S50000x96, .f32⟩ : BufTy)) (h2 : main_v218.space ≠ .host) (h3 : main_v218.isScoped = false)
    (v : (⟨S50000x96, .f32⟩ : BufTy).Contents (Elt Ideal)) : (TRef.of (sig := sig) main_v218 h1 h2 h3).toBuf v = v :=
  eq_of_heq (cast_heq _ _)
theorem ofBuf_main_v218 (h1 : main_v218.ty = (⟨S50000x96, .f32⟩ : BufTy)) (h2 : main_v218.space ≠ .host) (h3 : main_v218.isScoped = false)
    (v : (⟨S50000x96, .f32⟩ : BufTy).Contents (Elt Ideal)) : (TRef.of (sig := sig) main_v218 h1 h2 h3).ofBuf v = v :=
  eq_of_heq (cast_heq _ _)
theorem toBuf_main_v219 (h1 : main_v219.ty = (⟨S50000x96, .f32⟩ : BufTy)) (h2 : main_v219.space ≠ .host) (h3 : main_v219.isScoped = false)
    (v : (⟨S50000x96, .f32⟩ : BufTy).Contents (Elt Ideal)) : (TRef.of (sig := sig) main_v219 h1 h2 h3).toBuf v = v :=
  eq_of_heq (cast_heq _ _)
theorem ofBuf_main_v219 (h1 : main_v219.ty = (⟨S50000x96, .f32⟩ : BufTy)) (h2 : main_v219.space ≠ .host) (h3 : main_v219.isScoped = false)
    (v : (⟨S50000x96, .f32⟩ : BufTy).Contents (Elt Ideal)) : (TRef.of (sig := sig) main_v219 h1 h2 h3).ofBuf v = v :=
  eq_of_heq (cast_heq _ _)

/-! ## No operation writes an argument -/

abbrev argRefs : List (Ref sig .tc) := [main_arg0, main_arg1, main_arg2, main_arg3, main_arg4, main_arg5, main_arg6, main_arg7, main_arg8, main_arg9, main_arg10, main_arg11, main_arg12, main_arg13, main_arg14, main_arg15, main_arg16]
theorem ne_of_arg {b y : Ref sig .tc} (hb : b ∈ argRefs) (hy : y ∉ argRefs) : b ≠ y := fun e => hy (e ▸ hb)

theorem kept0 (c : Dev nD) (b : Ref sig .tc) (hb : b ∈ argRefs) : U0 m c (Proc.devRef .tc b) = m ((c.tc : Thread nD τ).loc b) := rfl
set_option maxHeartbeats 4000000 in
theorem keptA (c : Dev nD) (b : Ref sig .tc) (hb : b ∈ argRefs) : UA m c (Proc.devRef .tc b) = m ((c.tc : Thread nD τ).loc b) := by
  refine Eq.trans ?_ (kept0 m c b hb)
  unfold UA
  refine after_of_forall_not_mem (b := Proc.devRef .tc b) _ _ (List.forall_iff_forall_mem.mp ?_)
  simp only [opsA, List.Forall, nullary_writes, unary_writes, binary_writes, ternary_writes,
    quaternary_writes, reshape_writes, binaryIndexed_writes, nary_writes, Finset.mem_singleton]
  repeat' apply And.intro
  all_goals exact devRef_ne_of_ne (ne_of_arg hb (by decide))
set_option maxHeartbeats 4000000 in
theorem keptB (c : Dev nD) (b : Ref sig .tc) (hb : b ∈ argRefs) : UB m c (Proc.devRef .tc b) = m ((c.tc : Thread nD τ).loc b) := by
  refine Eq.trans ?_ (keptA m c b hb)
  unfold UB
  refine after_of_forall_not_mem (b := Proc.devRef .tc b) _ _ (List.forall_iff_forall_mem.mp ?_)
  simp only [opsB, List.Forall, nullary_writes, unary_writes, binary_writes, ternary_writes,
    quaternary_writes, reshape_writes, binaryIndexed_writes, nary_writes, Finset.mem_singleton]
  repeat' apply And.intro
  all_goals exact devRef_ne_of_ne (ne_of_arg hb (by decide))
set_option maxHeartbeats 4000000 in
theorem keptC (c : Dev nD) (b : Ref sig .tc) (hb : b ∈ argRefs) : UC m c (Proc.devRef .tc b) = m ((c.tc : Thread nD τ).loc b) := by
  refine Eq.trans ?_ (keptB m c b hb)
  unfold UC
  refine after_of_forall_not_mem (b := Proc.devRef .tc b) _ _ (List.forall_iff_forall_mem.mp ?_)
  simp only [opsC, List.Forall, nullary_writes, unary_writes, binary_writes, ternary_writes,
    quaternary_writes, reshape_writes, binaryIndexed_writes, nary_writes, Finset.mem_singleton]
  repeat' apply And.intro
  all_goals exact devRef_ne_of_ne (ne_of_arg hb (by decide))
set_option maxHeartbeats 4000000 in
theorem keptD (c : Dev nD) (b : Ref sig .tc) (hb : b ∈ argRefs) : UD m c (Proc.devRef .tc b) = m ((c.tc : Thread nD τ).loc b) := by
  refine Eq.trans ?_ (keptC m c b hb)
  unfold UD
  refine after_of_forall_not_mem (b := Proc.devRef .tc b) _ _ (List.forall_iff_forall_mem.mp ?_)
  simp only [opsD, List.Forall, nullary_writes, unary_writes, binary_writes, ternary_writes,
    quaternary_writes, reshape_writes, binaryIndexed_writes, nary_writes, Finset.mem_singleton]
  repeat' apply And.intro
  all_goals exact devRef_ne_of_ne (ne_of_arg hb (by decide))
set_option maxHeartbeats 4000000 in
theorem keptE (c : Dev nD) (b : Ref sig .tc) (hb : b ∈ argRefs) : UE m c (Proc.devRef .tc b) = m ((c.tc : Thread nD τ).loc b) := by
  refine Eq.trans ?_ (keptD m c b hb)
  unfold UE
  refine after_of_forall_not_mem (b := Proc.devRef .tc b) _ _ (List.forall_iff_forall_mem.mp ?_)
  simp only [opsE, List.Forall, nullary_writes, unary_writes, binary_writes, ternary_writes,
    quaternary_writes, reshape_writes, binaryIndexed_writes, nary_writes, Finset.mem_singleton]
  repeat' apply And.intro
  all_goals exact devRef_ne_of_ne (ne_of_arg hb (by decide))

/-! ## The stages -/

set_option maxHeartbeats 8000000 in
theorem uA_v1 (c : Dev nD) : UA m c (Proc.devRef .tc main_v1) = (val_main_v1 (F := Ideal) (m ((c.tc : Thread nD τ).loc main_arg1))) := by
  unfold UA
  show after opsA (U0 m c) (Proc.devRef .tc main_v1) = _
  dsimp only [opsA]
  after_results_simp
  all_goals rfl

set_option maxHeartbeats 8000000 in
theorem uA_v3 (c : Dev nD) : UA m c (Proc.devRef .tc main_v3) = (val_main_v3 (F := Ideal) (m ((c.tc : Thread nD τ).loc main_arg1))) := by
  unfold UA
  show after opsA (U0 m c) (Proc.devRef .tc main_v3) = _
  dsimp only [opsA]
  after_results_simp
  all_goals rfl

set_option maxHeartbeats 8000000 in
theorem uA_v26 (c : Dev nD) : UA m c (Proc.devRef .tc main_v26) = (val_main_v26 (F := Ideal) (m ((c.tc : Thread nD τ).loc main_arg1)) (m ((c.tc : Thread nD τ).loc main_arg2))) := by
  unfold UA
  show after opsA (U0 m c) (Proc.devRef .tc main_v26) = _
  dsimp only [opsA]
  after_results_simp
  simp only [toBuf_main_v10, ofBuf_main_v10, toBuf_main_v8, ofBuf_main_v8, toBuf_main_v9, ofBuf_main_v9, toBuf_main_call0_v1, ofBuf_main_call0_v1, toBuf_main_call0_v0, ofBuf_main_call0_v0, toBuf_main_cst_1, ofBuf_main_cst_1, id]
  all_goals rfl

theorem uB_v1 (c : Dev nD) : UB m c (Proc.devRef .tc main_v1) = (val_main_v1 (F := Ideal) (m ((c.tc : Thread nD τ).loc main_arg1))) := by
  unfold UB
  show after opsB (UA m c) (Proc.devRef .tc main_v1) = _
  dsimp only [opsB]
  after_results_simp
  exact uA_v1 m c

theorem uB_v3 (c : Dev nD) : UB m c (Proc.devRef .tc main_v3) = (val_main_v3 (F := Ideal) (m ((c.tc : Thread nD τ).loc main_arg1))) := by
  unfold UB
  show after opsB (UA m c) (Proc.devRef .tc main_v3) = _
  dsimp only [opsB]
  after_results_simp
  exact uA_v3 m c

theorem uB_v26 (c : Dev nD) : UB m c (Proc.devRef .tc main_v26) = (val_main_v26 (F := Ideal) (m ((c.tc : Thread nD τ).loc main_arg1)) (m ((c.tc : Thread nD τ).loc main_arg2))) := by
  unfold UB
  show after opsB (UA m c) (Proc.devRef .tc main_v26) = _
  dsimp only [opsB]
  after_results_simp
  exact uA_v26 m c

theorem uC_v1 (c : Dev nD) : UC m c (Proc.devRef .tc main_v1) = (val_main_v1 (F := Ideal) (m ((c.tc : Thread nD τ).loc main_arg1))) := by
  unfold UC
  show after opsC (UB m c) (Proc.devRef .tc main_v1) = _
  dsimp only [opsC]
  after_results_simp
  exact uB_v1 m c

theorem uC_v3 (c : Dev nD) : UC m c (Proc.devRef .tc main_v3) = (val_main_v3 (F := Ideal) (m ((c.tc : Thread nD τ).loc main_arg1))) := by
  unfold UC
  show after opsC (UB m c) (Proc.devRef .tc main_v3) = _
  dsimp only [opsC]
  after_results_simp
  exact uB_v3 m c

theorem uC_v26 (c : Dev nD) : UC m c (Proc.devRef .tc main_v26) = (val_main_v26 (F := Ideal) (m ((c.tc : Thread nD τ).loc main_arg1)) (m ((c.tc : Thread nD τ).loc main_arg2))) := by
  unfold UC
  show after opsC (UB m c) (Proc.devRef .tc main_v26) = _
  dsimp only [opsC]
  after_results_simp
  exact uB_v26 m c

theorem uD_v1 (c : Dev nD) : UD m c (Proc.devRef .tc main_v1) = (val_main_v1 (F := Ideal) (m ((c.tc : Thread nD τ).loc main_arg1))) := by
  unfold UD
  show after opsD (UC m c) (Proc.devRef .tc main_v1) = _
  dsimp only [opsD]
  after_results_simp
  exact uC_v1 m c

theorem uD_v3 (c : Dev nD) : UD m c (Proc.devRef .tc main_v3) = (val_main_v3 (F := Ideal) (m ((c.tc : Thread nD τ).loc main_arg1))) := by
  unfold UD
  show after opsD (UC m c) (Proc.devRef .tc main_v3) = _
  dsimp only [opsD]
  after_results_simp
  exact uC_v3 m c

theorem uD_v26 (c : Dev nD) : UD m c (Proc.devRef .tc main_v26) = (val_main_v26 (F := Ideal) (m ((c.tc : Thread nD τ).loc main_arg1)) (m ((c.tc : Thread nD τ).loc main_arg2))) := by
  unfold UD
  show after opsD (UC m c) (Proc.devRef .tc main_v26) = _
  dsimp only [opsD]
  after_results_simp
  exact uC_v26 m c

set_option maxHeartbeats 8000000 in
theorem uB_v84 (c : Dev nD) : UB m c (Proc.devRef .tc main_v84) = (val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  unfold UB
  show after opsB (UA m c) (Proc.devRef .tc main_v84) = _
  dsimp only [opsB]
  after_results_simp
  simp only [toBuf_main_v83, ofBuf_main_v83, toBuf_main_v84, ofBuf_main_v84, toBuf_main_call1_cst, ofBuf_main_call1_cst, toBuf_main_call1_v0, ofBuf_main_call1_v0, id]
  rw [uA_v1 m c, uA_v3 m c, uA_v26 m c, keptA m c main_arg0 (by decide), keptA m c main_arg3 (by decide), keptA m c main_arg4 (by decide)]
  all_goals rfl

set_option maxHeartbeats 8000000 in
theorem uC_v142 (c : Dev nD) : UC m c (Proc.devRef .tc main_v142) = (val_main_v142 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  unfold UC
  show after opsC (UB m c) (Proc.devRef .tc main_v142) = _
  dsimp only [opsC]
  after_results_simp
  simp only [toBuf_main_v141, ofBuf_main_v141, toBuf_main_v142, ofBuf_main_v142, toBuf_main_call2_cst, ofBuf_main_call2_cst, toBuf_main_call2_v0, ofBuf_main_call2_v0, id]
  rw [uB_v84 m c, uB_v1 m c, uB_v3 m c, uB_v26 m c, keptB m c main_arg5 (by decide), keptB m c main_arg6 (by decide)]
  all_goals rfl

set_option maxHeartbeats 8000000 in
theorem uD_v199 (c : Dev nD) : UD m c (Proc.devRef .tc main_v199) = (val_main_v199 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  unfold UD
  show after opsD (UC m c) (Proc.devRef .tc main_v199) = _
  dsimp only [opsD]
  after_results_simp
  rw [uC_v142 m c, uC_v1 m c, uC_v3 m c, uC_v26 m c, keptC m c main_arg7 (by decide), keptC m c main_arg8 (by decide)]
  all_goals rfl

set_option maxHeartbeats 8000000 in
theorem uE_v223 (c : Dev nD) : UE m c (Proc.devRef .tc main_v223) = (val_main_v223 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) := by
  unfold UE
  show after opsE (UD m c) (Proc.devRef .tc main_v223) = _
  dsimp only [opsE]
  after_results_simp
  simp only [toBuf_main_v203, ofBuf_main_v203, toBuf_main_v204, ofBuf_main_v204, toBuf_main_call3_cst, ofBuf_main_call3_cst, toBuf_main_call3_v0, ofBuf_main_call3_v0, toBuf_main_v208, ofBuf_main_v208, toBuf_main_v209, ofBuf_main_v209, toBuf_main_call4_cst, ofBuf_main_call4_cst, toBuf_main_call4_v0, ofBuf_main_call4_v0, toBuf_main_v213, ofBuf_main_v213, toBuf_main_v214, ofBuf_main_v214, toBuf_main_call5_cst, ofBuf_main_call5_cst, toBuf_main_call5_v0, ofBuf_main_call5_v0, toBuf_main_v218, ofBuf_main_v218, toBuf_main_v219, ofBuf_main_v219, toBuf_main_call6_cst, ofBuf_main_call6_cst, toBuf_main_call6_v0, ofBuf_main_call6_v0, id]
  rw [uD_v199 m c, keptD m c main_arg9 (by decide), keptD m c main_arg10 (by decide), keptD m c main_arg11 (by decide), keptD m c main_arg12 (by decide), keptD m c main_arg13 (by decide), keptD m c main_arg14 (by decide), keptD m c main_arg15 (by decide), keptD m c main_arg16 (by decide)]
  all_goals rfl

/-- The fold at the result buffer is the last stage of the launch contents. -/
theorem refValue (c : Dev nD) : after (ops (F := Ideal)) (launchContents m c) (Proc.devRef .tc main_v223) = (val_main_v223 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) := by
  rw [fold_eq]; exact uE_v223 m c
/-- The fold at an argument is its launch contents. -/
theorem refKept (c : Dev nD) (b : Ref sig .tc) (hb : b ∈ argRefs) :
    after (ops (F := Ideal)) (launchContents m c) (Proc.devRef .tc b) = m ((c.tc : Thread nD τ).loc b) := by
  rw [fold_eq]; exact keptE m c b hb

/-- THE REFERENCE'S RUN: it terminates without a fault, the result at the last stage, the arguments as launched. -/
theorem valueRun (ρ : Dev nD → PrngReg) : θ_run defs (onTc (τ := τ) (main (F := Ideal))) ⟨m, fun _ => 0, ρ⟩ (fun r => ∀ c : Dev nD,
      r.2.mem ((c.tc : Thread nD τ).loc main_v223) = (val_main_v223 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c main_v223).trans (refValue m c),
     (h c main_arg0).trans (refKept m c main_arg0 (by decide)),
     (h c main_arg1).trans (refKept m c main_arg1 (by decide)),
     (h c main_arg2).trans (refKept m c main_arg2 (by decide)),
     (h c main_arg3).trans (refKept m c main_arg3 (by decide)),
     (h c main_arg4).trans (refKept m c main_arg4 (by decide)),
     (h c main_arg5).trans (refKept m c main_arg5 (by decide)),
     (h c main_arg6).trans (refKept m c main_arg6 (by decide)),
     (h c main_arg7).trans (refKept m c main_arg7 (by decide)),
     (h c main_arg8).trans (refKept m c main_arg8 (by decide)),
     (h c main_arg9).trans (refKept m c main_arg9 (by decide)),
     (h c main_arg10).trans (refKept m c main_arg10 (by decide)),
     (h c main_arg11).trans (refKept m c main_arg11 (by decide)),
     (h c main_arg12).trans (refKept m c main_arg12 (by decide)),
     (h c main_arg13).trans (refKept m c main_arg13 (by decide)),
     (h c main_arg14).trans (refKept m c main_arg14 (by decide)),
     (h c main_arg15).trans (refKept m c main_arg15 (by decide)),
     (h c main_arg16).trans (refKept m c main_arg16 (by decide))⟩) (ValueP.run (F := Ideal) m ρ)

end Cert.ReferenceIdeal.Walk

end
-- ==== Proof.KB.Region0.lean ====
/- Region 0 of @main: one dense layer, a whole row block of the input times the resident weight,
   plus the bias row, cut off below at zero. Stated at the contents V the TensorCore's buffers hold when the region is
   entered, and at any float instance: what a grid point finds in each window, what the body leaves in
   the output block (one store covering it), the body's triple, and the obligation at every point. -/
import proofs.«123229_j70574902608028_1_alg».proof.Proof.Gen.Kernel.Launch
import proofs.«123229_j70574902608028_1_alg».proof.Proof.Gen.Kernel.Skeleton
import proofs.«123229_j70574902608028_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: an unfetched
    point has the index of the point before it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: an unfetched
    point has the index of the point before it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not: an unfetched
    point has the index of the point before it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev ra0 : Rect S5000x64 := Rect.unit (s := S5000x64) ![0, 0] S5000x64.size inb_S5000x64_S5000x64_0_0
abbrev rw0 : Rect S64x96 := Rect.unit (s := S64x96) ![0, 0] S64x96.size inb_S64x96_S64x96_0_0
abbrev rb0 : Rect S1x96 := Rect.unit (s := S1x96) ![0, 0] S1x96.size inb_S1x96_S1x96_0_0
abbrev ro0 : Rect S5000x96 := Rect.unit (s := S5000x96) ![0, 0] S5000x96.size inb_S5000x96_S5000x96_0_0

/-- The output block after the body: the layer's value of the three input blocks, written by one store. -/
def out0 (x0 : Vec F S5000x64 .f32) (x1 : Vec F S64x96 .f32) (x2 : Vec F S1x96 .f32) : Vec F S5000x96 .f32 :=
  View.canon [⟨ro0, k0_pay1 (View.ld x0 ra0) (View.ld x1 rw0) (View.ld x2 rb0)⟩]

/-- The one store covers the block. -/
theorem cover0 (p0 : Vec F S5000x96 .f32) (y : S5000x96.Idx) :
    ∃ pc ∈ ([⟨ro0, p0⟩] : List (View.Piece (Elt F) S5000x96 .f32)), y ∈ pc.1.set :=
  View.cover_of_tiled [⟨ro0, p0⟩] S5000x96.size (by rfl) y

set_option maxHeartbeats 1000000 in
/-- The body on whole staging buffers: the inputs at contents x0, x1, x2 and the output at anything; it ends with the
    inputs as they were and the output at the layer's value of them. -/
theorem sound_kernel0 (c : Dev nD) (E : Set ℕ) (i : grid0.Coords)
    (arg1 : Memref sig .tc .vmem S5000x64 .f32) (harg1 : arg1.IsWhole) (arg2 : Memref sig .tc .vmem S64x96 .f32) (harg2 : arg2.IsWhole)
    (arg3 : Memref sig .tc .vmem S1x96 .f32) (harg3 : arg3.IsWhole) (arg4 : Memref sig .tc .vmem S5000x96 .f32) (harg4 : arg4.IsWhole)
    (x0 : Vec F S5000x64 .f32) (x1 : Vec F S64x96 .f32) (x2 : Vec F S1x96 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0 x0 x1 x2)) -∗ K ⟨⟩))
      ⊢ wp frame (wpE (defs₀ (F := F)) Variants.none c none) E (cc0__dense_relu_kernel i arg1 harg1 arg2 harg2 arg3 harg3 arg4 harg4) K := by
  simp only [cc0__dense_relu_kernel_eq_skeleton]; unfold cc0__dense_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The region's proof data on core c: the arrays as the region finds them; after the body each input's buffer at its
    block and the output's at the layer's value of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KB.Region1.lean ====
/- Region 1 of @main: one dense layer, a whole row block of the input times the resident weight,
   plus the bias row, cut off below at zero. Stated at the contents V the TensorCore's buffers hold when the region is
   entered, and at any float instance: what a grid point finds in each window, what the body leaves in
   the output block (one store covering it), the body's triple, and the obligation at every point. -/
import proofs.«123229_j70574902608028_1_alg».proof.Proof.Gen.Kernel.Launch
import proofs.«123229_j70574902608028_1_alg».proof.Proof.Gen.Kernel.Skeleton
import proofs.«123229_j70574902608028_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: an unfetched
    point has the index of the point before it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not: an unfetched
    point has the index of the point before it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not: an unfetched
    point has the index of the point before it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev ra1 : Rect S5000x384 := Rect.unit (s := S5000x384) ![0, 0] S5000x384.size inb_S5000x384_S5000x384_0_0
abbrev rw1 : Rect S384x96 := Rect.unit (s := S384x96) ![0, 0] S384x96.size inb_S384x96_S384x96_0_0
abbrev rb1 : Rect S1x96 := Rect.unit (s := S1x96) ![0, 0] S1x96.size inb_S1x96_S1x96_0_0
abbrev ro1 : Rect S5000x96 := Rect.unit (s := S5000x96) ![0, 0] S5000x96.size inb_S5000x96_S5000x96_0_0

/-- The output block after the body: the layer's value of the three input blocks, written by one store. -/
def out1 (x0 : Vec F S5000x384 .f32) (x1 : Vec F S384x96 .f32) (x2 : Vec F S1x96 .f32) : Vec F S5000x96 .f32 :=
  View.canon [⟨ro1, k1_pay1 (View.ld x0 ra1) (View.ld x1 rw1) (View.ld x2 rb1)⟩]

/-- The one store covers the block. -/
theorem cover1 (p0 : Vec F S5000x96 .f32) (y : S5000x96.Idx) :
    ∃ pc ∈ ([⟨ro1, p0⟩] : List (View.Piece (Elt F) S5000x96 .f32)), y ∈ pc.1.set :=
  View.cover_of_tiled [⟨ro1, p0⟩] S5000x96.size (by rfl) y

set_option maxHeartbeats 1000000 in
/-- The body on whole staging buffers: the inputs at contents x0, x1, x2 and the output at anything; it ends with the
    inputs as they were and the output at the layer's value of them. -/
theorem sound_kernel1 (c : Dev nD) (E : Set ℕ) (i : grid1.Coords)
    (arg1 : Memref sig .tc .vmem S5000x384 .f32) (harg1 : arg1.IsWhole) (arg2 : Memref sig .tc .vmem S384x96 .f32) (harg2 : arg2.IsWhole)
    (arg3 : Memref sig .tc .vmem S1x96 .f32) (harg3 : arg3.IsWhole) (arg4 : Memref sig .tc .vmem S5000x96 .f32) (harg4 : arg4.IsWhole)
    (x0 : Vec F S5000x384 .f32) (x1 : Vec F S384x96 .f32) (x2 : Vec F S1x96 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1 x0 x1 x2)) -∗ K ⟨⟩))
      ⊢ wp frame (wpE (defs₀ (F := F)) Variants.none c none) E (cc1__dense_relu_kernel i arg1 harg1 arg2 harg2 arg3 harg3 arg4 harg4) K := by
  simp only [cc1__dense_relu_kernel_eq_skeleton]; unfold cc1__dense_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-- The region's proof data on core c: the arrays as the region finds them; after the body each input's buffer at its
    block and the output's at the layer's value of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KB.Region2.lean ====
/- Region 2 of @main: one dense layer, a whole row block of the input times the resident weight,
   plus the bias row, stored as it is. Stated at the contents V the TensorCore's buffers hold when the region is
   entered, and at any float instance: what a grid point finds in each window, what the body leaves in
   the output block (one store covering it), the body's triple, and the obligation at every point. -/
import proofs.«123229_j70574902608028_1_alg».proof.Proof.Gen.Kernel.Launch
import proofs.«123229_j70574902608028_1_alg».proof.Proof.Gen.Kernel.Skeleton
import proofs.«123229_j70574902608028_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not: an unfetched
    point has the index of the point before it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not: an unfetched
    point has the index of the point before it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not: an unfetched
    point has the index of the point before it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev ra2 : Rect S5000x384 := Rect.unit (s := S5000x384) ![0, 0] S5000x384.size inb_S5000x384_S5000x384_0_0
abbrev rw2 : Rect S384x96 := Rect.unit (s := S384x96) ![0, 0] S384x96.size inb_S384x96_S384x96_0_0
abbrev rb2 : Rect S1x96 := Rect.unit (s := S1x96) ![0, 0] S1x96.size inb_S1x96_S1x96_0_0
abbrev ro2 : Rect S5000x96 := Rect.unit (s := S5000x96) ![0, 0] S5000x96.size inb_S5000x96_S5000x96_0_0

/-- The output block after the body: the layer's value of the three input blocks, written by one store. -/
def out2 (x0 : Vec F S5000x384 .f32) (x1 : Vec F S384x96 .f32) (x2 : Vec F S1x96 .f32) : Vec F S5000x96 .f32 :=
  View.canon [⟨ro2, k2_pay1 (View.ld x0 ra2) (View.ld x1 rw2) (View.ld x2 rb2)⟩]

/-- The one store covers the block. -/
theorem cover2 (p0 : Vec F S5000x96 .f32) (y : S5000x96.Idx) :
    ∃ pc ∈ ([⟨ro2, p0⟩] : List (View.Piece (Elt F) S5000x96 .f32)), y ∈ pc.1.set :=
  View.cover_of_tiled [⟨ro2, p0⟩] S5000x96.size (by rfl) y

set_option maxHeartbeats 1000000 in
/-- The body on whole staging buffers: the inputs at contents x0, x1, x2 and the output at anything; it ends with the
    inputs as they were and the output at the layer's value of them. -/
theorem sound_kernel2 (c : Dev nD) (E : Set ℕ) (i : grid2.Coords)
    (arg1 : Memref sig .tc .vmem S5000x384 .f32) (harg1 : arg1.IsWhole) (arg2 : Memref sig .tc .vmem S384x96 .f32) (harg2 : arg2.IsWhole)
    (arg3 : Memref sig .tc .vmem S1x96 .f32) (harg3 : arg3.IsWhole) (arg4 : Memref sig .tc .vmem S5000x96 .f32) (harg4 : arg4.IsWhole)
    (x0 : Vec F S5000x384 .f32) (x1 : Vec F S384x96 .f32) (x2 : Vec F S1x96 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2 x0 x1 x2)) -∗ K ⟨⟩))
      ⊢ wp frame (wpE (defs₀ (F := F)) Variants.none c none) E (cc2__dense_relu_kernel i arg1 harg1 arg2 harg2 arg3 harg3 arg4 harg4) K := by
  simp only [cc2__dense_relu_kernel_eq_skeleton]; unfold cc2__dense_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-- The region's proof data on core c: the arrays as the region finds them; after the body each input's buffer at its
    block and the output's at the layer's value of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point t, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KB.Region3.lean ====
/- Region 3 of @main: one dense layer, a whole row block of the input times the resident weight,
   plus the bias row, cut off below at zero. Stated at the contents V the TensorCore's buffers hold when the region is
   entered, and at any float instance: what a grid point finds in each window, what the body leaves in
   the output block (one store covering it), the body's triple, and the obligation at every point. -/
import proofs.«123229_j70574902608028_1_alg».proof.Proof.Gen.Kernel.Launch
import proofs.«123229_j70574902608028_1_alg».proof.Proof.Gen.Kernel.Skeleton
import proofs.«123229_j70574902608028_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not: an unfetched
    point has the index of the point before it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not: an unfetched
    point has the index of the point before it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not: an unfetched
    point has the index of the point before it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body loads and stores through. -/
abbrev ra3 : Rect S5000x96 := Rect.unit (s := S5000x96) ![0, 0] S5000x96.size inb_S5000x96_S5000x96_0_0
abbrev rw3 : Rect S96x96 := Rect.unit (s := S96x96) ![0, 0] S96x96.size inb_S96x96_S96x96_0_0
abbrev rb3 : Rect S1x96 := Rect.unit (s := S1x96) ![0, 0] S1x96.size inb_S1x96_S1x96_0_0
abbrev ro3 : Rect S5000x96 := Rect.unit (s := S5000x96) ![0, 0] S5000x96.size inb_S5000x96_S5000x96_0_0

/-- The output block after the body: the layer's value of the three input blocks, written by one store. -/
def out3 (x0 : Vec F S5000x96 .f32) (x1 : Vec F S96x96 .f32) (x2 : Vec F S1x96 .f32) : Vec F S5000x96 .f32 :=
  View.canon [⟨ro3, k3_pay1 (View.ld x0 ra3) (View.ld x1 rw3) (View.ld x2 rb3)⟩]

/-- The one store covers the block. -/
theorem cover3 (p0 : Vec F S5000x96 .f32) (y : S5000x96.Idx) :
    ∃ pc ∈ ([⟨ro3, p0⟩] : List (View.Piece (Elt F) S5000x96 .f32)), y ∈ pc.1.set :=
  View.cover_of_tiled [⟨ro3, p0⟩] S5000x96.size (by rfl) y

set_option maxHeartbeats 1000000 in
/-- The body on whole staging buffers: the inputs at contents x0, x1, x2 and the output at anything; it ends with the
    inputs as they were and the output at the layer's value of them. -/
theorem sound_kernel3 (c : Dev nD) (E : Set ℕ) (i : grid3.Coords)
    (arg1 : Memref sig .tc .vmem S5000x96 .f32) (harg1 : arg1.IsWhole) (arg2 : Memref sig .tc .vmem S96x96 .f32) (harg2 : arg2.IsWhole)
    (arg3 : Memref sig .tc .vmem S1x96 .f32) (harg3 : arg3.IsWhole) (arg4 : Memref sig .tc .vmem S5000x96 .f32) (harg4 : arg4.IsWhole)
    (x0 : Vec F S5000x96 .f32) (x1 : Vec F S96x96 .f32) (x2 : Vec F S1x96 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc3__dense_relu_kernel i arg1 harg1 arg2 harg2 arg3 harg3 arg4 harg4) K := by
  simp only [cc3__dense_relu_kernel_eq_skeleton]; unfold cc3__dense_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-- The region's proof data on core c: the arrays as the region finds them; after the body each input's buffer at its
    block and the output's at the layer's value of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point t, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KB.Region4.lean ====
/- Region 4 of @main: one dense layer, a whole row block of the input times the resident weight,
   plus the bias row, cut off below at zero. Stated at the contents V the TensorCore's buffers hold when the region is
   entered, and at any float instance: what a grid point finds in each window, what the body leaves in
   the output block (one store covering it), the body's triple, and the obligation at every point. -/
import proofs.«123229_j70574902608028_1_alg».proof.Proof.Gen.Kernel.Launch
import proofs.«123229_j70574902608028_1_alg».proof.Proof.Gen.Kernel.Skeleton
import proofs.«123229_j70574902608028_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not: an unfetched
    point has the index of the point before it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or not: an unfetched
    point has the index of the point before it. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, fetched there or not: an unfetched
    point has the index of the point before it. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole-block rectangles the body loads and stores through. -/
abbrev ra4 : Rect S5000x96 := Rect.unit (s := S5000x96) ![0, 0] S5000x96.size inb_S5000x96_S5000x96_0_0
abbrev rw4 : Rect S96x96 := Rect.unit (s := S96x96) ![0, 0] S96x96.size inb_S96x96_S96x96_0_0
abbrev rb4 : Rect S1x96 := Rect.unit (s := S1x96) ![0, 0] S1x96.size inb_S1x96_S1x96_0_0
abbrev ro4 : Rect S5000x96 := Rect.unit (s := S5000x96) ![0, 0] S5000x96.size inb_S5000x96_S5000x96_0_0

/-- The output block after the body: the layer's value of the three input blocks, written by one store. -/
def out4 (x0 : Vec F S5000x96 .f32) (x1 : Vec F S96x96 .f32) (x2 : Vec F S1x96 .f32) : Vec F S5000x96 .f32 :=
  View.canon [⟨ro4, k4_pay1 (View.ld x0 ra4) (View.ld x1 rw4) (View.ld x2 rb4)⟩]

/-- The one store covers the block. -/
theorem cover4 (p0 : Vec F S5000x96 .f32) (y : S5000x96.Idx) :
    ∃ pc ∈ ([⟨ro4, p0⟩] : List (View.Piece (Elt F) S5000x96 .f32)), y ∈ pc.1.set :=
  View.cover_of_tiled [⟨ro4, p0⟩] S5000x96.size (by rfl) y

set_option maxHeartbeats 1000000 in
/-- The body on whole staging buffers: the inputs at contents x0, x1, x2 and the output at anything; it ends with the
    inputs as they were and the output at the layer's value of them. -/
theorem sound_kernel4 (c : Dev nD) (E : Set ℕ) (i : grid4.Coords)
    (arg1 : Memref sig .tc .vmem S5000x96 .f32) (harg1 : arg1.IsWhole) (arg2 : Memref sig .tc .vmem S96x96 .f32) (harg2 : arg2.IsWhole)
    (arg3 : Memref sig .tc .vmem S1x96 .f32) (harg3 : arg3.IsWhole) (arg4 : Memref sig .tc .vmem S5000x96 .f32) (harg4 : arg4.IsWhole)
    (x0 : Vec F S5000x96 .f32) (x1 : Vec F S96x96 .f32) (x2 : Vec F S1x96 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4 x0 x1 x2)) -∗ K ⟨⟩))
      ⊢ wp frame (wpE (defs₀ (F := F)) Variants.none c none) E (cc4__dense_relu_kernel i arg1 harg1 arg2 harg2 arg3 harg3 arg4 harg4) K := by
  simp only [cc4__dense_relu_kernel_eq_skeleton]; unfold cc4__dense_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4 _)

/-- The region's proof data on core c: the arrays as the region finds them; after the body each input's buffer at its
    block and the output's at the layer's value of the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point t, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so the body's triple applies; the invariant and what
    the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.KB.Region5.lean ====
/- Region 5 of @main: one dense layer, a whole row block of the input times the resident weight,
   plus the bias row, cut off below at zero. Stated at the contents V the TensorCore's buffers hold when the region is
   entered, and at any float instance: what a grid point finds in each window, what the body leaves in
   the output block (one store covering it), the body's triple, and the obligation at every point. -/
import proofs.«123229_j70574902608028_1_alg».proof.Proof.Gen.Kernel.Launch
import proofs.«123229_j70574902608028_1_alg».proof.Proof.Gen.Kernel.Skeleton
import proofs.«123229_j70574902608028_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not: an unfetched
    point has the index of the point before it. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or not: an unfetched
    point has the index of the point before it. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, fetched there or not: an unfetched
    point has the index of the point before it. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The whole-block rectangles the body loads and stores through. -/
abbrev ra5 : Rect S5000x96 := Rect.unit (s := S5000x96) ![0, 0] S5000x96.size inb_S5000x96_S5000x96_0_0
abbrev rw5 : Rect S96x96 := Rect.unit (s := S96x96) ![0, 0] S96x96.size inb_S96x96_S96x96_0_0
abbrev rb5 : Rect S1x96 := Rect.unit (s := S1x96) ![0, 0] S1x96.size inb_S1x96_S1x96_0_0
abbrev ro5 : Rect S5000x96 := Rect.unit (s := S5000x96) ![0, 0] S5000x96.size inb_S5000x96_S5000x96_0_0

/-- The output block after the body: the layer's value of the three input blocks, written by one store. -/
def out5 (x0 : Vec F S5000x96 .f32) (x1 : Vec F S96x96 .f32) (x2 : Vec F S1x96 .f32) : Vec F S5000x96 .f32 :=
  View.canon [⟨ro5, k5_pay1 (View.ld x0 ra5) (View.ld x1 rw5) (View.ld x2 rb5)⟩]

/-- The one store covers the block. -/
theorem cover5 (p0 : Vec F S5000x96 .f32) (y : S5000x96.Idx) :
    ∃ pc ∈ ([⟨ro5, p0⟩] : List (View.Piece (Elt F) S5000x96 .f32)), y ∈ pc.1.set :=
  View.cover_of_tiled [⟨ro5, p0⟩] S5000x96.size (by rfl) y

set_option maxHeartbeats 1000000 in
/-- The body on whole staging buffers: the inputs at contents x0, x1, x2 and the output at anything; it ends with the
    inputs as they were and the output at the layer's value of them. -/
theorem sound_kernel5 (c : Dev nD) (E : Set ℕ) (i : grid5.Coords)
    (arg1 : Memref sig .tc .vmem S5000x96 .f32) (harg1 : arg1.IsWhole) (arg2 : Memref sig .tc .vmem S96x96 .f32) (harg2 : arg2.IsWhole)
    (arg3 : Memref sig .tc .vmem S1x96 .f32) (harg3 : arg3.IsWhole) (arg4 : Memref sig .tc .vmem S5000x96 .f32) (harg4 : arg4.IsWhole)
    (x0 : Vec F S5000x96 .f32) (x1 : Vec F S96x96 .f32) (x2 : Vec F S1x96 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5 x0 x1 x2)) -∗ K ⟨⟩))
      ⊢ wp frame (wpE (defs₀ (F := F)) Variants.none c none) E (cc5__dense_relu_kernel i arg1 harg1 arg2 harg2 arg3 harg3 arg4 harg4) K := by
  simp only [cc5__dense_relu_kernel_eq_skeleton]; unfold cc5__dense_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5 _)

/-- The region's proof data on core c: the arrays as the region finds them; after the body each input's buffer at its
    block and the output's at the layer's value of the input blocks; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point t, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' buffers hold their blocks, so the body's triple applies; the invariant and what
    the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.KB.Region6.lean ====
/- Region 6 of @main: one dense layer, a whole row block of the input times the resident weight,
   plus the bias row, cut off below at zero. Stated at the contents V the TensorCore's buffers hold when the region is
   entered, and at any float instance: what a grid point finds in each window, what the body leaves in
   the output block (one store covering it), the body's triple, and the obligation at every point. -/
import proofs.«123229_j70574902608028_1_alg».proof.Proof.Gen.Kernel.Launch
import proofs.«123229_j70574902608028_1_alg».proof.Proof.Gen.Kernel.Skeleton
import proofs.«123229_j70574902608028_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, fetched there or not: an unfetched
    point has the index of the point before it. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, fetched there or not: an unfetched
    point has the index of the point before it. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point, fetched there or not: an unfetched
    point has the index of the point before it. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The whole-block rectangles the body loads and stores through. -/
abbrev ra6 : Rect S5000x96 := Rect.unit (s := S5000x96) ![0, 0] S5000x96.size inb_S5000x96_S5000x96_0_0
abbrev rw6 : Rect S96x96 := Rect.unit (s := S96x96) ![0, 0] S96x96.size inb_S96x96_S96x96_0_0
abbrev rb6 : Rect S1x96 := Rect.unit (s := S1x96) ![0, 0] S1x96.size inb_S1x96_S1x96_0_0
abbrev ro6 : Rect S5000x96 := Rect.unit (s := S5000x96) ![0, 0] S5000x96.size inb_S5000x96_S5000x96_0_0

/-- The output block after the body: the layer's value of the three input blocks, written by one store. -/
def out6 (x0 : Vec F S5000x96 .f32) (x1 : Vec F S96x96 .f32) (x2 : Vec F S1x96 .f32) : Vec F S5000x96 .f32 :=
  View.canon [⟨ro6, k6_pay1 (View.ld x0 ra6) (View.ld x1 rw6) (View.ld x2 rb6)⟩]

/-- The one store covers the block. -/
theorem cover6 (p0 : Vec F S5000x96 .f32) (y : S5000x96.Idx) :
    ∃ pc ∈ ([⟨ro6, p0⟩] : List (View.Piece (Elt F) S5000x96 .f32)), y ∈ pc.1.set :=
  View.cover_of_tiled [⟨ro6, p0⟩] S5000x96.size (by rfl) y

set_option maxHeartbeats 1000000 in
/-- The body on whole staging buffers: the inputs at contents x0, x1, x2 and the output at anything; it ends with the
    inputs as they were and the output at the layer's value of them. -/
theorem sound_kernel6 (c : Dev nD) (E : Set ℕ) (i : grid6.Coords)
    (arg1 : Memref sig .tc .vmem S5000x96 .f32) (harg1 : arg1.IsWhole) (arg2 : Memref sig .tc .vmem S96x96 .f32) (harg2 : arg2.IsWhole)
    (arg3 : Memref sig .tc .vmem S1x96 .f32) (harg3 : arg3.IsWhole) (arg4 : Memref sig .tc .vmem S5000x96 .f32) (harg4 : arg4.IsWhole)
    (x0 : Vec F S5000x96 .f32) (x1 : Vec F S96x96 .f32) (x2 : Vec F S1x96 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6 x0 x1 x2)) -∗ K ⟨⟩))
      ⊢ wp frame (wpE (defs₀ (F := F)) Variants.none c none) E (cc6__dense_relu_kernel i arg1 harg1 arg2 harg2 arg3 harg3 arg4 harg4) K := by
  simp only [cc6__dense_relu_kernel_eq_skeleton]; unfold cc6__dense_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6 _)

/-- The region's proof data on core c: the arrays as the region finds them; after the body each input's buffer at its
    block and the output's at the layer's value of the input blocks; nothing owed, full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point t, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so the body's triple applies; the invariant and what
    the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation6 (c : Dev nD) : BodyObligation (dat6 (F := F) V c) (defs₀ (F := F)) Variants.none () Set.univ := fun t => by
  rw [bigSep_W6, bigSep_W6]
  exact sound_body6 V c t

end Cert.Kernel.Fr

end
-- ==== Proof.KB.Region7.lean ====
/- Region 7 of @main: one dense layer, a whole row block of the input times the resident weight,
   plus the bias row, stored as it is. Stated at the contents V the TensorCore's buffers hold when the region is
   entered, and at any float instance: what a grid point finds in each window, what the body leaves in
   the output block (one store covering it), the body's triple, and the obligation at every point. -/
import proofs.«123229_j70574902608028_1_alg».proof.Proof.Gen.Kernel.Launch
import proofs.«123229_j70574902608028_1_alg».proof.Proof.Gen.Kernel.Skeleton
import proofs.«123229_j70574902608028_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, fetched there or not: an unfetched
    point has the index of the point before it. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds its block at every point, fetched there or not: an unfetched
    point has the index of the point before it. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds its block at every point, fetched there or not: an unfetched
    point has the index of the point before it. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The whole-block rectangles the body loads and stores through. -/
abbrev ra7 : Rect S5000x96 := Rect.unit (s := S5000x96) ![0, 0] S5000x96.size inb_S5000x96_S5000x96_0_0
abbrev rw7 : Rect S96x4 := Rect.unit (s := S96x4) ![0, 0] S96x4.size inb_S96x4_S96x4_0_0
abbrev rb7 : Rect S1x4 := Rect.unit (s := S1x4) ![0, 0] S1x4.size inb_S1x4_S1x4_0_0
abbrev ro7 : Rect S5000x4 := Rect.unit (s := S5000x4) ![0, 0] S5000x4.size inb_S5000x4_S5000x4_0_0

/-- The output block after the body: the layer's value of the three input blocks, written by one store. -/
def out7 (x0 : Vec F S5000x96 .f32) (x1 : Vec F S96x4 .f32) (x2 : Vec F S1x4 .f32) : Vec F S5000x4 .f32 :=
  View.canon [⟨ro7, k7_pay1 (View.ld x0 ra7) (View.ld x1 rw7) (View.ld x2 rb7)⟩]

/-- The one store covers the block. -/
theorem cover7 (p0 : Vec F S5000x4 .f32) (y : S5000x4.Idx) :
    ∃ pc ∈ ([⟨ro7, p0⟩] : List (View.Piece (Elt F) S5000x4 .f32)), y ∈ pc.1.set :=
  View.cover_of_tiled [⟨ro7, p0⟩] S5000x4.size (by rfl) y

set_option maxHeartbeats 1000000 in
/-- The body on whole staging buffers: the inputs at contents x0, x1, x2 and the output at anything; it ends with the
    inputs as they were and the output at the layer's value of them. -/
theorem sound_kernel7 (c : Dev nD) (E : Set ℕ) (i : grid7.Coords)
    (arg1 : Memref sig .tc .vmem S5000x96 .f32) (harg1 : arg1.IsWhole) (arg2 : Memref sig .tc .vmem S96x4 .f32) (harg2 : arg2.IsWhole)
    (arg3 : Memref sig .tc .vmem S1x4 .f32) (harg3 : arg3.IsWhole) (arg4 : Memref sig .tc .vmem S5000x4 .f32) (harg4 : arg4.IsWhole)
    (x0 : Vec F S5000x96 .f32) (x1 : Vec F S96x4 .f32) (x2 : Vec F S1x4 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out7 x0 x1 x2)) -∗ K ⟨⟩))
      ⊢ wp frame (wpE (defs₀ (F := F)) Variants.none c none) E (cc7__dense_relu_kernel i arg1 harg1 arg2 harg2 arg3 harg3 arg4 harg4) K := by
  simp only [cc7__dense_relu_kernel_eq_skeleton]; unfold cc7__dense_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7 _)

/-- The region's proof data on core c: the arrays as the region finds them; after the body each input's buffer at its
    block and the output's at the layer's value of the input blocks; nothing owed, full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is called with at point t, window by window, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' buffers hold their blocks, so the body's triple applies; the invariant and what
    the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation7 (c : Dev nD) : BodyObligation (dat7 (F := F) V c) (defs₀ (F := F)) Variants.none () Set.univ := fun t => by
  rw [bigSep_W7, bigSep_W7]
  exact sound_body7 V c t

end Cert.Kernel.Fr

end
-- ==== Proof.KB.Bound.lean ====
/- The buffer contents at every boundary of @main's 21 segments (13 stretches of host operations, 8 dense
   layers), as a fold from the launch memory: a stretch applies its operations; a layer leaves its four arrays at what
   its write-backs left (the three inputs as entered, the output block by block) and every other buffer as it was.
   Then every layer's proof data at its entry contents, and what rides beside the buffers through every segment. -/
import proofs.«123229_j70574902608028_1_alg».proof.Proof.KB.Region0
import proofs.«123229_j70574902608028_1_alg».proof.Proof.KB.Region1
import proofs.«123229_j70574902608028_1_alg».proof.Proof.KB.Region2
import proofs.«123229_j70574902608028_1_alg».proof.Proof.KB.Region3
import proofs.«123229_j70574902608028_1_alg».proof.Proof.KB.Region4
import proofs.«123229_j70574902608028_1_alg».proof.Proof.KB.Region5
import proofs.«123229_j70574902608028_1_alg».proof.Proof.KB.Region6
import proofs.«123229_j70574902608028_1_alg».proof.Proof.KB.Region7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the stretch main_part0_ops0. -/
abbrev W1 : Dev nD → Valuation τ sig (Elt F) := fun c => StableHlo.after main_part0_ops0 (W0 m ρ c)
/-- After the stretch main_part0_ops1. -/
abbrev W2 : Dev nD → Valuation τ sig (Elt F) := fun c => StableHlo.after main_part0_ops1 (W1 m ρ c)
/-- After the stretch main_part0_ops2. -/
abbrev W3 : Dev nD → Valuation τ sig (Elt F) := fun c => StableHlo.after main_part0_ops2 (W2 m ρ c)
/-- After the stretch main_part1_ops0. -/
abbrev W4 : Dev nD → Valuation τ sig (Elt F) := fun c => StableHlo.after main_part1_ops0 (W3 m ρ c)
/-- Layer 0's entry contents, read at the TensorCore's references. -/
abbrev V4 : (c : Dev nD) → (b : Ref sig .tc) → Buf (Elt F) ((c : Thread nD τ).loc b) := fun c b => W4 m ρ c b
/-- At layer 0's exit: its arrays at what the pipeline leaves, every other buffer as entered. -/
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
abbrev V5 : (c : Dev nD) → (b : Ref sig .tc) → Buf (Elt F) ((c : Thread nD τ).loc b) := fun c b => W5 m ρ c b
theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)
/-- After the stretch main_part1_ops1. -/
abbrev W6 : Dev nD → Valuation τ sig (Elt F) := fun c => StableHlo.after main_part1_ops1 (W5 m ρ c)
/-- After the stretch main_part2_ops0. -/
abbrev W7 : Dev nD → Valuation τ sig (Elt F) := fun c => StableHlo.after main_part2_ops0 (W6 m ρ c)
/-- Layer 1's entry contents, read at the TensorCore's references. -/
abbrev V7 : (c : Dev nD) → (b : Ref sig .tc) → Buf (Elt F) ((c : Thread nD τ).loc b) := fun c b => W7 m ρ c b
/-- At layer 1's exit: its arrays at what the pipeline leaves, every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)
/-- After the stretch main_part2_ops1. -/
abbrev W9 : Dev nD → Valuation τ sig (Elt F) := fun c => StableHlo.after main_part2_ops1 (W8 m ρ c)
/-- After the stretch main_part3_ops0. -/
abbrev W10 : Dev nD → Valuation τ sig (Elt F) := fun c => StableHlo.after main_part3_ops0 (W9 m ρ c)
/-- Layer 2's entry contents, read at the TensorCore's references. -/
abbrev V10 : (c : Dev nD) → (b : Ref sig .tc) → Buf (Elt F) ((c : Thread nD τ).loc b) := fun c b => W10 m ρ c b
/-- At layer 2's exit: its arrays at what the pipeline leaves, every other buffer as entered. -/
def W11 (c : Dev nD) : Valuation τ sig (Elt F) :=
  Pipeline.withArrays spec2 c (W10 m ρ c) fun w => (dat2 (V10 m ρ) c).arrAt w cfg2.N
theorem W11_arr (c : Dev nD) (w : Fin cfg2.W) :
    W11 m ρ c (Proc.devRef .tc (Pipeline.arrRef spec2 w)) = (dat2 (V10 m ρ) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m ρ c (Proc.devRef .tc b) = W10 m ρ c (Proc.devRef .tc b) := by
  unfold W11; exact Pipeline.withArrays_of_ne spec2 c _ _ b hb
abbrev V11 : (c : Dev nD) → (b : Ref sig .tc) → Buf (Elt F) ((c : Thread nD τ).loc b) := fun c b => W11 m ρ c b
theorem hF2 (c : Dev nD) (w : Fin cfg2.W) : (dat2 (V10 m ρ) c).arrAt w cfg2.N = V11 m ρ c (Pipeline.arrRef spec2 w) :=
  (W11_arr m ρ c w).symm
theorem hrest2 (c : Dev nD) : ∀ b, b ∉ Finset.univ.image (Pipeline.arrRef spec2) → V11 m ρ c b = V10 m ρ c b :=
  fun b hb => W11_of_ne m ρ c b fun w e => hb (Finset.mem_image.mpr ⟨w, Finset.mem_univ _, e⟩)
/-- After the stretch main_part3_ops1. -/
abbrev W12 : Dev nD → Valuation τ sig (Elt F) := fun c => StableHlo.after main_part3_ops1 (W11 m ρ c)
/-- Layer 3's entry contents, read at the TensorCore's references. -/
abbrev V12 : (c : Dev nD) → (b : Ref sig .tc) → Buf (Elt F) ((c : Thread nD τ).loc b) := fun c b => W12 m ρ c b
/-- At layer 3's exit: its arrays at what the pipeline leaves, every other buffer as entered. -/
def W13 (c : Dev nD) : Valuation τ sig (Elt F) :=
  Pipeline.withArrays spec3 c (W12 m ρ c) fun w => (dat3 (V12 m ρ) c).arrAt w cfg3.N
theorem W13_arr (c : Dev nD) (w : Fin cfg3.W) :
    W13 m ρ c (Proc.devRef .tc (Pipeline.arrRef spec3 w)) = (dat3 (V12 m ρ) c).arrAt w cfg3.N := by
  unfold W13; exact Pipeline.withArrays_arr spec3 launch3.win.arr_inj c _ _ w
theorem W13_of_ne (c : Dev nD) (b : Ref sig .tc) (hb : ∀ w, Pipeline.arrRef spec3 w ≠ b) :
    W13 m ρ c (Proc.devRef .tc b) = W12 m ρ c (Proc.devRef .tc b) := by
  unfold W13; exact Pipeline.withArrays_of_ne spec3 c _ _ b hb
abbrev V13 : (c : Dev nD) → (b : Ref sig .tc) → Buf (Elt F) ((c : Thread nD τ).loc b) := fun c b => W13 m ρ c b
theorem hF3 (c : Dev nD) (w : Fin cfg3.W) : (dat3 (V12 m ρ) c).arrAt w cfg3.N = V13 m ρ c (Pipeline.arrRef spec3 w) :=
  (W13_arr m ρ c w).symm
theorem hrest3 (c : Dev nD) : ∀ b, b ∉ Finset.univ.image (Pipeline.arrRef spec3) → V13 m ρ c b = V12 m ρ c b :=
  fun b hb => W13_of_ne m ρ c b fun w e => hb (Finset.mem_image.mpr ⟨w, Finset.mem_univ _, e⟩)
/-- After the stretch main_part3_ops2. -/
abbrev W14 : Dev nD → Valuation τ sig (Elt F) := fun c => StableHlo.after main_part3_ops2 (W13 m ρ c)
/-- Layer 4's entry contents, read at the TensorCore's references. -/
abbrev V14 : (c : Dev nD) → (b : Ref sig .tc) → Buf (Elt F) ((c : Thread nD τ).loc b) := fun c b => W14 m ρ c b
/-- At layer 4's exit: its arrays at what the pipeline leaves, every other buffer as entered. -/
def W15 (c : Dev nD) : Valuation τ sig (Elt F) :=
  Pipeline.withArrays spec4 c (W14 m ρ c) fun w => (dat4 (V14 m ρ) c).arrAt w cfg4.N
theorem W15_arr (c : Dev nD) (w : Fin cfg4.W) :
    W15 m ρ c (Proc.devRef .tc (Pipeline.arrRef spec4 w)) = (dat4 (V14 m ρ) c).arrAt w cfg4.N := by
  unfold W15; exact Pipeline.withArrays_arr spec4 launch4.win.arr_inj c _ _ w
theorem W15_of_ne (c : Dev nD) (b : Ref sig .tc) (hb : ∀ w, Pipeline.arrRef spec4 w ≠ b) :
    W15 m ρ c (Proc.devRef .tc b) = W14 m ρ c (Proc.devRef .tc b) := by
  unfold W15; exact Pipeline.withArrays_of_ne spec4 c _ _ b hb
abbrev V15 : (c : Dev nD) → (b : Ref sig .tc) → Buf (Elt F) ((c : Thread nD τ).loc b) := fun c b => W15 m ρ c b
theorem hF4 (c : Dev nD) (w : Fin cfg4.W) : (dat4 (V14 m ρ) c).arrAt w cfg4.N = V15 m ρ c (Pipeline.arrRef spec4 w) :=
  (W15_arr m ρ c w).symm
theorem hrest4 (c : Dev nD) : ∀ b, b ∉ Finset.univ.image (Pipeline.arrRef spec4) → V15 m ρ c b = V14 m ρ c b :=
  fun b hb => W15_of_ne m ρ c b fun w e => hb (Finset.mem_image.mpr ⟨w, Finset.mem_univ _, e⟩)
/-- After the stretch main_part3_ops3. -/
abbrev W16 : Dev nD → Valuation τ sig (Elt F) := fun c => StableHlo.after main_part3_ops3 (W15 m ρ c)
/-- Layer 5's entry contents, read at the TensorCore's references. -/
abbrev V16 : (c : Dev nD) → (b : Ref sig .tc) → Buf (Elt F) ((c : Thread nD τ).loc b) := fun c b => W16 m ρ c b
/-- At layer 5's exit: its arrays at what the pipeline leaves, every other buffer as entered. -/
def W17 (c : Dev nD) : Valuation τ sig (Elt F) :=
  Pipeline.withArrays spec5 c (W16 m ρ c) fun w => (dat5 (V16 m ρ) c).arrAt w cfg5.N
theorem W17_arr (c : Dev nD) (w : Fin cfg5.W) :
    W17 m ρ c (Proc.devRef .tc (Pipeline.arrRef spec5 w)) = (dat5 (V16 m ρ) c).arrAt w cfg5.N := by
  unfold W17; exact Pipeline.withArrays_arr spec5 launch5.win.arr_inj c _ _ w
theorem W17_of_ne (c : Dev nD) (b : Ref sig .tc) (hb : ∀ w, Pipeline.arrRef spec5 w ≠ b) :
    W17 m ρ c (Proc.devRef .tc b) = W16 m ρ c (Proc.devRef .tc b) := by
  unfold W17; exact Pipeline.withArrays_of_ne spec5 c _ _ b hb
abbrev V17 : (c : Dev nD) → (b : Ref sig .tc) → Buf (Elt F) ((c : Thread nD τ).loc b) := fun c b => W17 m ρ c b
theorem hF5 (c : Dev nD) (w : Fin cfg5.W) : (dat5 (V16 m ρ) c).arrAt w cfg5.N = V17 m ρ c (Pipeline.arrRef spec5 w) :=
  (W17_arr m ρ c w).symm
theorem hrest5 (c : Dev nD) : ∀ b, b ∉ Finset.univ.image (Pipeline.arrRef spec5) → V17 m ρ c b = V16 m ρ c b :=
  fun b hb => W17_of_ne m ρ c b fun w e => hb (Finset.mem_image.mpr ⟨w, Finset.mem_univ _, e⟩)
/-- After the stretch main_part3_ops4. -/
abbrev W18 : Dev nD → Valuation τ sig (Elt F) := fun c => StableHlo.after main_part3_ops4 (W17 m ρ c)
/-- Layer 6's entry contents, read at the TensorCore's references. -/
abbrev V18 : (c : Dev nD) → (b : Ref sig .tc) → Buf (Elt F) ((c : Thread nD τ).loc b) := fun c b => W18 m ρ c b
/-- At layer 6's exit: its arrays at what the pipeline leaves, every other buffer as entered. -/
def W19 (c : Dev nD) : Valuation τ sig (Elt F) :=
  Pipeline.withArrays spec6 c (W18 m ρ c) fun w => (dat6 (V18 m ρ) c).arrAt w cfg6.N
theorem W19_arr (c : Dev nD) (w : Fin cfg6.W) :
    W19 m ρ c (Proc.devRef .tc (Pipeline.arrRef spec6 w)) = (dat6 (V18 m ρ) c).arrAt w cfg6.N := by
  unfold W19; exact Pipeline.withArrays_arr spec6 launch6.win.arr_inj c _ _ w
theorem W19_of_ne (c : Dev nD) (b : Ref sig .tc) (hb : ∀ w, Pipeline.arrRef spec6 w ≠ b) :
    W19 m ρ c (Proc.devRef .tc b) = W18 m ρ c (Proc.devRef .tc b) := by
  unfold W19; exact Pipeline.withArrays_of_ne spec6 c _ _ b hb
abbrev V19 : (c : Dev nD) → (b : Ref sig .tc) → Buf (Elt F) ((c : Thread nD τ).loc b) := fun c b => W19 m ρ c b
theorem hF6 (c : Dev nD) (w : Fin cfg6.W) : (dat6 (V18 m ρ) c).arrAt w cfg6.N = V19 m ρ c (Pipeline.arrRef spec6 w) :=
  (W19_arr m ρ c w).symm
theorem hrest6 (c : Dev nD) : ∀ b, b ∉ Finset.univ.image (Pipeline.arrRef spec6) → V19 m ρ c b = V18 m ρ c b :=
  fun b hb => W19_of_ne m ρ c b fun w e => hb (Finset.mem_image.mpr ⟨w, Finset.mem_univ _, e⟩)
/-- After the stretch main_part3_ops5. -/
abbrev W20 : Dev nD → Valuation τ sig (Elt F) := fun c => StableHlo.after main_part3_ops5 (W19 m ρ c)
/-- Layer 7's entry contents, read at the TensorCore's references. -/
abbrev V20 : (c : Dev nD) → (b : Ref sig .tc) → Buf (Elt F) ((c : Thread nD τ).loc b) := fun c b => W20 m ρ c b
/-- At layer 7's exit: its arrays at what the pipeline leaves, every other buffer as entered. -/
def W21 (c : Dev nD) : Valuation τ sig (Elt F) :=
  Pipeline.withArrays spec7 c (W20 m ρ c) fun w => (dat7 (V20 m ρ) c).arrAt w cfg7.N
theorem W21_arr (c : Dev nD) (w : Fin cfg7.W) :
    W21 m ρ c (Proc.devRef .tc (Pipeline.arrRef spec7 w)) = (dat7 (V20 m ρ) c).arrAt w cfg7.N := by
  unfold W21; exact Pipeline.withArrays_arr spec7 launch7.win.arr_inj c _ _ w
theorem W21_of_ne (c : Dev nD) (b : Ref sig .tc) (hb : ∀ w, Pipeline.arrRef spec7 w ≠ b) :
    W21 m ρ c (Proc.devRef .tc b) = W20 m ρ c (Proc.devRef .tc b) := by
  unfold W21; exact Pipeline.withArrays_of_ne spec7 c _ _ b hb
abbrev V21 : (c : Dev nD) → (b : Ref sig .tc) → Buf (Elt F) ((c : Thread nD τ).loc b) := fun c b => W21 m ρ c b
theorem hF7 (c : Dev nD) (w : Fin cfg7.W) : (dat7 (V20 m ρ) c).arrAt w cfg7.N = V21 m ρ c (Pipeline.arrRef spec7 w) :=
  (W21_arr m ρ c w).symm
theorem hrest7 (c : Dev nD) : ∀ b, b ∉ Finset.univ.image (Pipeline.arrRef spec7) → V21 m ρ c b = V20 m ρ c b :=
  fun b hb => W21_of_ne m ρ c b fun w e => hb (Finset.mem_image.mpr ⟨w, Finset.mem_univ _, e⟩)

/-- No pipeline has a prefetched table. -/
abbrev adm : (p : Fin 8) → (pcfgs (F := F) p).Adm := fun p => (cfgs p).toPCfg_adm
/-- Every layer's proof data, each at its own entry contents: a literal match on the layer's number. -/
def pdats : (p : Fin 8) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V7 m ρ) c
  | ⟨2, _⟩ => fun c => dat2 (V10 m ρ) c
  | ⟨3, _⟩ => fun c => dat3 (V12 m ρ) c
  | ⟨4, _⟩ => fun c => dat4 (V14 m ρ) c
  | ⟨5, _⟩ => fun c => dat5 (V16 m ρ) c
  | ⟨6, _⟩ => fun c => dat6 (V18 m ρ) c
  | ⟨7, _⟩ => fun c => dat7 (V20 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers: the core's generator register at some state, and the core owing nothing. -/
abbrev R (c : Dev nD) : sProp 𝕄 := iprop((∃ r, prngReg c r) ∗ ∃ W, owes (c : Thread nD τ) (0 : CellTallies nD τ sig Unit) W)
/-- A stretch of host operations as a segment over the unscoped references, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of main_part0_ops0 allocates a buffer. -/
theorem main_part0_ops0_fresh : (main_part0_ops0 : List (HloOp τ sig (Elt F))).Forall fun op => op.fresh = ∅ := by
  simp only [List.Forall]; repeat' constructor
/-- No operation of main_part0_ops1 allocates a buffer. -/
theorem main_part0_ops1_fresh : (main_part0_ops1 : List (HloOp τ sig (Elt F))).Forall fun op => op.fresh = ∅ := by
  simp only [List.Forall]; repeat' constructor
/-- No operation of main_part0_ops2 allocates a buffer. -/
theorem main_part0_ops2_fresh : (main_part0_ops2 : List (HloOp τ sig (Elt F))).Forall fun op => op.fresh = ∅ := by
  simp only [List.Forall]; repeat' constructor
/-- No operation of main_part1_ops0 allocates a buffer. -/
theorem main_part1_ops0_fresh : (main_part1_ops0 : List (HloOp τ sig (Elt F))).Forall fun op => op.fresh = ∅ := by
  simp only [List.Forall]; repeat' constructor
/-- No operation of main_part1_ops1 allocates a buffer. -/
theorem main_part1_ops1_fresh : (main_part1_ops1 : List (HloOp τ sig (Elt F))).Forall fun op => op.fresh = ∅ := by
  simp only [List.Forall]; repeat' constructor
/-- No operation of main_part2_ops0 allocates a buffer. -/
theorem main_part2_ops0_fresh : (main_part2_ops0 : List (HloOp τ sig (Elt F))).Forall fun op => op.fresh = ∅ := by
  simp only [List.Forall]; repeat' constructor
/-- No operation of main_part2_ops1 allocates a buffer. -/
theorem main_part2_ops1_fresh : (main_part2_ops1 : List (HloOp τ sig (Elt F))).Forall fun op => op.fresh = ∅ := by
  simp only [List.Forall]; repeat' constructor
/-- No operation of main_part3_ops0 allocates a buffer. -/
theorem main_part3_ops0_fresh : (main_part3_ops0 : List (HloOp τ sig (Elt F))).Forall fun op => op.fresh = ∅ := by
  simp only [List.Forall]; repeat' constructor
/-- No operation of main_part3_ops1 allocates a buffer. -/
theorem main_part3_ops1_fresh : (main_part3_ops1 : List (HloOp τ sig (Elt F))).Forall fun op => op.fresh = ∅ := by
  simp only [List.Forall]; repeat' constructor
/-- No operation of main_part3_ops2 allocates a buffer. -/
theorem main_part3_ops2_fresh : (main_part3_ops2 : List (HloOp τ sig (Elt F))).Forall fun op => op.fresh = ∅ := by
  simp only [List.Forall]; repeat' constructor
/-- No operation of main_part3_ops3 allocates a buffer. -/
theorem main_part3_ops3_fresh : (main_part3_ops3 : List (HloOp τ sig (Elt F))).Forall fun op => op.fresh = ∅ := by
  simp only [List.Forall]; repeat' constructor
/-- No operation of main_part3_ops4 allocates a buffer. -/
theorem main_part3_ops4_fresh : (main_part3_ops4 : List (HloOp τ sig (Elt F))).Forall fun op => op.fresh = ∅ := by
  simp only [List.Forall]; repeat' constructor
/-- No operation of main_part3_ops5 allocates a buffer. -/
theorem main_part3_ops5_fresh : (main_part3_ops5 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents. -/
abbrev Tₙ (c : Dev nD) : sProp 𝕄 := iprop(StableHlo.held (c : Thread nD τ) (Pipeline.ucRefs τ sig) (W21 m ρ c) ∗ ∃ r, prngReg c r)

end Cert.Kernel.Fr

end
-- ==== Proof.KB.Reg0.lean ====
/- Layer 0 as a segment of @main's run: entered with every unscoped buffer at the boundary contents before it,
   left with them at the contents after it. Its four arrays are split out of the unscoped buffers on entry and put
   back at the exit contents; the generator register goes into the layer's invariant and comes back; nothing is owed. -/
import proofs.«123229_j70574902608028_1_alg».proof.Proof.KB.Bound
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Reg1.lean ====
/- Layer 1 as a segment of @main's run: entered with every unscoped buffer at the boundary contents before it,
   left with them at the contents after it. Its four arrays are split out of the unscoped buffers on entry and put
   back at the exit contents; the generator register goes into the layer's invariant and comes back; nothing is owed. -/
import proofs.«123229_j70574902608028_1_alg».proof.Proof.KB.Bound
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Reg2.lean ====
/- Layer 2 as a segment of @main's run: entered with every unscoped buffer at the boundary contents before it,
   left with them at the contents after it. Its four arrays are split out of the unscoped buffers on entry and put
   back at the exit contents; the generator register goes into the layer's invariant and comes back; nothing is owed. -/
import proofs.«123229_j70574902608028_1_alg».proof.Proof.KB.Bound
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V10 m ρ) c).loose
  hwaits := Pipeline.hwaits_of_owed_zero _ _ _ _ L lv 2 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec2 c (V10 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V10 m ρ c) (V11 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Reg3.lean ====
/- Layer 3 as a segment of @main's run: entered with every unscoped buffer at the boundary contents before it,
   left with them at the contents after it. Its four arrays are split out of the unscoped buffers on entry and put
   back at the exit contents; the generator register goes into the layer's invariant and comes back; nothing is owed. -/
import proofs.«123229_j70574902608028_1_alg».proof.Proof.KB.Bound
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V12 m ρ) c).loose
  hwaits := Pipeline.hwaits_of_owed_zero _ _ _ _ L lv 3 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec3 c (V12 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V12 m ρ c) (V13 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Reg4.lean ====
/- Layer 4 as a segment of @main's run: entered with every unscoped buffer at the boundary contents before it,
   left with them at the contents after it. Its four arrays are split out of the unscoped buffers on entry and put
   back at the exit contents; the generator register goes into the layer's invariant and comes back; nothing is owed. -/
import proofs.«123229_j70574902608028_1_alg».proof.Proof.KB.Bound
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V14 m ρ) c).loose
  hwaits := Pipeline.hwaits_of_owed_zero _ _ _ _ L lv 4 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec4 c (V14 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V14 m ρ c) (V15 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Reg5.lean ====
/- Layer 5 as a segment of @main's run: entered with every unscoped buffer at the boundary contents before it,
   left with them at the contents after it. Its four arrays are split out of the unscoped buffers on entry and put
   back at the exit contents; the generator register goes into the layer's invariant and comes back; nothing is owed. -/
import proofs.«123229_j70574902608028_1_alg».proof.Proof.KB.Bound
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V16 m ρ) c).loose
  hwaits := Pipeline.hwaits_of_owed_zero _ _ _ _ L lv 5 fun _ _ => rfl
  pre c := iprop(StableHlo.held (c : Thread nD τ) (Pipeline.ucRefs τ sig) (W16 m ρ c) ∗ R c)
  post c := iprop(StableHlo.held (c : Thread nD τ) (Pipeline.ucRefs τ sig) (W17 m ρ c) ∗ R c)
  X c := iprop(∃ r, prngReg c r)
  Y c := iprop(∃ r, prngReg c r)
  Z c := Pipeline.unscopedRest (Ix := Unit) (Name := ℕ) (U := UR sig nD τ) (Lvl := ℕ) spec5 c (V16 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V16 m ρ c) (V17 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Reg6.lean ====
/- Layer 6 as a segment of @main's run: entered with every unscoped buffer at the boundary contents before it,
   left with them at the contents after it. Its four arrays are split out of the unscoped buffers on entry and put
   back at the exit contents; the generator register goes into the layer's invariant and comes back; nothing is owed. -/
import proofs.«123229_j70574902608028_1_alg».proof.Proof.KB.Bound
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V18 m ρ) c).loose
  hwaits := Pipeline.hwaits_of_owed_zero _ _ _ _ L lv 6 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec6 c (V18 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V18 m ρ c) (V19 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Reg7.lean ====
/- Layer 7 as a segment of @main's run: entered with every unscoped buffer at the boundary contents before it,
   left with them at the contents after it. Its four arrays are split out of the unscoped buffers on entry and put
   back at the exit contents; the generator register goes into the layer's invariant and comes back; nothing is owed. -/
import proofs.«123229_j70574902608028_1_alg».proof.Proof.KB.Bound
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V20 m ρ) c).loose
  hwaits := Pipeline.hwaits_of_owed_zero _ _ _ _ L lv 7 fun _ _ => rfl
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := UR sig nD τ) (Lvl := ℕ) spec7 c (V20 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V20 m ρ c) (V21 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.KB.Run.lean ====
/- @main's run: its 21 segments in order — a host segment per stretch from its boundary's contents, a region per
   dense layer — launched from a memory with zero counters. Every weakly fair execution terminates without a fault,
   and in every final state each unscoped buffer of each core holds the last boundary's contents. -/
import proofs.«123229_j70574902608028_1_alg».proof.Proof.KB.Reg0
import proofs.«123229_j70574902608028_1_alg».proof.Proof.KB.Reg1
import proofs.«123229_j70574902608028_1_alg».proof.Proof.KB.Reg2
import proofs.«123229_j70574902608028_1_alg».proof.Proof.KB.Reg3
import proofs.«123229_j70574902608028_1_alg».proof.Proof.KB.Reg4
import proofs.«123229_j70574902608028_1_alg».proof.Proof.KB.Reg5
import proofs.«123229_j70574902608028_1_alg».proof.Proof.KB.Reg6
import proofs.«123229_j70574902608028_1_alg».proof.Proof.KB.Reg7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [
    .host (hseg main_part0_ops0 main_part0_ops0_sub main_part0_ops0_fresh (W0 m ρ)),
    .host (hseg main_part0_ops1 main_part0_ops1_sub main_part0_ops1_fresh (W1 m ρ)),
    .host (hseg main_part0_ops2 main_part0_ops2_sub main_part0_ops2_fresh (W2 m ρ)),
    .host (hseg main_part1_ops0 main_part1_ops0_sub main_part1_ops0_fresh (W3 m ρ)),
    .region (reg0 m ρ),
    .host (hseg main_part1_ops1 main_part1_ops1_sub main_part1_ops1_fresh (W5 m ρ)),
    .host (hseg main_part2_ops0 main_part2_ops0_sub main_part2_ops0_fresh (W6 m ρ)),
    .region (reg1 m ρ),
    .host (hseg main_part2_ops1 main_part2_ops1_sub main_part2_ops1_fresh (W8 m ρ)),
    .host (hseg main_part3_ops0 main_part3_ops0_sub main_part3_ops0_fresh (W9 m ρ)),
    .region (reg2 m ρ),
    .host (hseg main_part3_ops1 main_part3_ops1_sub main_part3_ops1_fresh (W11 m ρ)),
    .region (reg3 m ρ),
    .host (hseg main_part3_ops2 main_part3_ops2_sub main_part3_ops2_fresh (W13 m ρ)),
    .region (reg4 m ρ),
    .host (hseg main_part3_ops3 main_part3_ops3_sub main_part3_ops3_fresh (W15 m ρ)),
    .region (reg5 m ρ),
    .host (hseg main_part3_ops4 main_part3_ops4_sub main_part3_ops4_fresh (W17 m ρ)),
    .region (reg6 m ρ),
    .host (hseg main_part3_ops5 main_part3_ops5_sub main_part3_ops5_fresh (W19 m ρ)),
    .region (reg7 m ρ) ]

/-- @main is the run of the segments: its chain of stretches and launches, cut where the printed text is cut. -/
theorem main_run (c : Dev nD) : main (F := F) c = Pipeline.Seg.run (segs m ρ) := (main_chain_windows c).trans (by chain_rfl)

set_option backward.isDefEq.respectTransparency.types false in
theorem run : θ_run defs (onTc (τ := τ) (main (F := F))) ⟨m, fun _ => 0, ρ⟩ (fun r => ∀ c : Dev nD,
      ∀ b ∈ Pipeline.ucRefs τ sig, r.2.mem (((c : Thread nD τ)).1, b) = W21 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W21 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c => h c)

end Cert.Kernel.Fr

end
-- ==== Proof.KB.Kept.lean ====
/- The argument arrays end as launched. No host operation writes an argument (each writes only its own result),
   and a dense layer leaves every array but its output as it found it (an argument it reads through an input window
   included), so the fold of buffer contents, read at an argument, walks back boundary by boundary to the launch memory. -/
import proofs.«123229_j70574902608028_1_alg».proof.Proof.KB.Bound
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The seventeen argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16]

/-- An argument is not a reference that is no argument. -/
theorem ne_of_arg {b y : Ref sig .tc} (hb : b ∈ argRefs) (hy : y ∉ argRefs) : b ≠ y := fun e => hy (e ▸ hb)

set_option maxHeartbeats 2000000 in
theorem keepH0 (c : Dev nD) (b : Ref sig .tc) (hb : b ∈ argRefs) :
    W1 m ρ c (Proc.devRef .tc b) = W0 m ρ c (Proc.devRef .tc b) := by
  refine StableHlo.after_of_forall_not_mem (b := Proc.devRef .tc b) _ _ (List.forall_iff_forall_mem.mp ?_)
  simp only [main_part0_ops0, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (ne_of_arg hb (by decide))

set_option maxHeartbeats 2000000 in
theorem keepH1 (c : Dev nD) (b : Ref sig .tc) (hb : b ∈ argRefs) :
    W2 m ρ c (Proc.devRef .tc b) = W1 m ρ c (Proc.devRef .tc b) := by
  refine StableHlo.after_of_forall_not_mem (b := Proc.devRef .tc b) _ _ (List.forall_iff_forall_mem.mp ?_)
  simp only [main_part0_ops1, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (ne_of_arg hb (by decide))

set_option maxHeartbeats 2000000 in
theorem keepH2 (c : Dev nD) (b : Ref sig .tc) (hb : b ∈ argRefs) :
    W3 m ρ c (Proc.devRef .tc b) = W2 m ρ c (Proc.devRef .tc b) := by
  refine StableHlo.after_of_forall_not_mem (b := Proc.devRef .tc b) _ _ (List.forall_iff_forall_mem.mp ?_)
  simp only [main_part0_ops2, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (ne_of_arg hb (by decide))

set_option maxHeartbeats 2000000 in
theorem keepH3 (c : Dev nD) (b : Ref sig .tc) (hb : b ∈ argRefs) :
    W4 m ρ c (Proc.devRef .tc b) = W3 m ρ c (Proc.devRef .tc b) := by
  refine StableHlo.after_of_forall_not_mem (b := Proc.devRef .tc b) _ _ (List.forall_iff_forall_mem.mp ?_)
  simp only [main_part1_ops0, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (ne_of_arg hb (by decide))

/-- Layer 0 changes only its output array. -/
theorem keepR0 (c : Dev nD) (b : Ref sig .tc) (hb : Pipeline.arrRef spec0 3 ≠ b) :
    W5 m ρ c (Proc.devRef .tc b) = W4 m ρ c (Proc.devRef .tc b) := by
  by_cases h0 : Pipeline.arrRef spec0 0 = b
  · subst h0; exact (W5_arr m ρ c 0).trans (((dat0 (V4 m ρ) c).arrAt_in 0 rfl _).trans (A_eq0 (V4 m ρ) c 0))
  by_cases h1 : Pipeline.arrRef spec0 1 = b
  · subst h1; exact (W5_arr m ρ c 1).trans (((dat0 (V4 m ρ) c).arrAt_in 1 rfl _).trans (A_eq0 (V4 m ρ) c 1))
  by_cases h2 : Pipeline.arrRef spec0 2 = b
  · subst h2; exact (W5_arr m ρ c 2).trans (((dat0 (V4 m ρ) c).arrAt_in 2 rfl _).trans (A_eq0 (V4 m ρ) c 2))
  exact W5_of_ne m ρ c b (fun w => by
    match w with
    | ⟨0, _⟩ => exact h0
    | ⟨1, _⟩ => exact h1
    | ⟨2, _⟩ => exact h2
    | ⟨3, _⟩ => exact hb)

set_option maxHeartbeats 2000000 in
theorem keepH5 (c : Dev nD) (b : Ref sig .tc) (hb : b ∈ argRefs) :
    W6 m ρ c (Proc.devRef .tc b) = W5 m ρ c (Proc.devRef .tc b) := by
  refine StableHlo.after_of_forall_not_mem (b := Proc.devRef .tc b) _ _ (List.forall_iff_forall_mem.mp ?_)
  simp only [main_part1_ops1, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (ne_of_arg hb (by decide))

set_option maxHeartbeats 2000000 in
theorem keepH6 (c : Dev nD) (b : Ref sig .tc) (hb : b ∈ argRefs) :
    W7 m ρ c (Proc.devRef .tc b) = W6 m ρ c (Proc.devRef .tc b) := by
  refine StableHlo.after_of_forall_not_mem (b := Proc.devRef .tc b) _ _ (List.forall_iff_forall_mem.mp ?_)
  simp only [main_part2_ops0, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (ne_of_arg hb (by decide))

/-- Layer 1 changes only its output array. -/
theorem keepR1 (c : Dev nD) (b : Ref sig .tc) (hb : Pipeline.arrRef spec1 3 ≠ b) :
    W8 m ρ c (Proc.devRef .tc b) = W7 m ρ c (Proc.devRef .tc b) := by
  by_cases h0 : Pipeline.arrRef spec1 0 = b
  · subst h0; exact (W8_arr m ρ c 0).trans (((dat1 (V7 m ρ) c).arrAt_in 0 rfl _).trans (A_eq1 (V7 m ρ) c 0))
  by_cases h1 : Pipeline.arrRef spec1 1 = b
  · subst h1; exact (W8_arr m ρ c 1).trans (((dat1 (V7 m ρ) c).arrAt_in 1 rfl _).trans (A_eq1 (V7 m ρ) c 1))
  by_cases h2 : Pipeline.arrRef spec1 2 = b
  · subst h2; exact (W8_arr m ρ c 2).trans (((dat1 (V7 m ρ) c).arrAt_in 2 rfl _).trans (A_eq1 (V7 m ρ) c 2))
  exact W8_of_ne m ρ c b (fun w => by
    match w with
    | ⟨0, _⟩ => exact h0
    | ⟨1, _⟩ => exact h1
    | ⟨2, _⟩ => exact h2
    | ⟨3, _⟩ => exact hb)

set_option maxHeartbeats 2000000 in
theorem keepH8 (c : Dev nD) (b : Ref sig .tc) (hb : b ∈ argRefs) :
    W9 m ρ c (Proc.devRef .tc b) = W8 m ρ c (Proc.devRef .tc b) := by
  refine StableHlo.after_of_forall_not_mem (b := Proc.devRef .tc b) _ _ (List.forall_iff_forall_mem.mp ?_)
  simp only [main_part2_ops1, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (ne_of_arg hb (by decide))

set_option maxHeartbeats 2000000 in
theorem keepH9 (c : Dev nD) (b : Ref sig .tc) (hb : b ∈ argRefs) :
    W10 m ρ c (Proc.devRef .tc b) = W9 m ρ c (Proc.devRef .tc b) := by
  refine StableHlo.after_of_forall_not_mem (b := Proc.devRef .tc b) _ _ (List.forall_iff_forall_mem.mp ?_)
  simp only [main_part3_ops0, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (ne_of_arg hb (by decide))

/-- Layer 2 changes only its output array. -/
theorem keepR2 (c : Dev nD) (b : Ref sig .tc) (hb : Pipeline.arrRef spec2 3 ≠ b) :
    W11 m ρ c (Proc.devRef .tc b) = W10 m ρ c (Proc.devRef .tc b) := by
  by_cases h0 : Pipeline.arrRef spec2 0 = b
  · subst h0; exact (W11_arr m ρ c 0).trans (((dat2 (V10 m ρ) c).arrAt_in 0 rfl _).trans (A_eq2 (V10 m ρ) c 0))
  by_cases h1 : Pipeline.arrRef spec2 1 = b
  · subst h1; exact (W11_arr m ρ c 1).trans (((dat2 (V10 m ρ) c).arrAt_in 1 rfl _).trans (A_eq2 (V10 m ρ) c 1))
  by_cases h2 : Pipeline.arrRef spec2 2 = b
  · subst h2; exact (W11_arr m ρ c 2).trans (((dat2 (V10 m ρ) c).arrAt_in 2 rfl _).trans (A_eq2 (V10 m ρ) c 2))
  exact W11_of_ne m ρ c b (fun w => by
    match w with
    | ⟨0, _⟩ => exact h0
    | ⟨1, _⟩ => exact h1
    | ⟨2, _⟩ => exact h2
    | ⟨3, _⟩ => exact hb)

set_option maxHeartbeats 2000000 in
theorem keepH11 (c : Dev nD) (b : Ref sig .tc) (hb : b ∈ argRefs) :
    W12 m ρ c (Proc.devRef .tc b) = W11 m ρ c (Proc.devRef .tc b) := by
  refine StableHlo.after_of_forall_not_mem (b := Proc.devRef .tc b) _ _ (List.forall_iff_forall_mem.mp ?_)
  simp only [main_part3_ops1, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (ne_of_arg hb (by decide))

/-- Layer 3 changes only its output array. -/
theorem keepR3 (c : Dev nD) (b : Ref sig .tc) (hb : Pipeline.arrRef spec3 3 ≠ b) :
    W13 m ρ c (Proc.devRef .tc b) = W12 m ρ c (Proc.devRef .tc b) := by
  by_cases h0 : Pipeline.arrRef spec3 0 = b
  · subst h0; exact (W13_arr m ρ c 0).trans (((dat3 (V12 m ρ) c).arrAt_in 0 rfl _).trans (A_eq3 (V12 m ρ) c 0))
  by_cases h1 : Pipeline.arrRef spec3 1 = b
  · subst h1; exact (W13_arr m ρ c 1).trans (((dat3 (V12 m ρ) c).arrAt_in 1 rfl _).trans (A_eq3 (V12 m ρ) c 1))
  by_cases h2 : Pipeline.arrRef spec3 2 = b
  · subst h2; exact (W13_arr m ρ c 2).trans (((dat3 (V12 m ρ) c).arrAt_in 2 rfl _).trans (A_eq3 (V12 m ρ) c 2))
  exact W13_of_ne m ρ c b (fun w => by
    match w with
    | ⟨0, _⟩ => exact h0
    | ⟨1, _⟩ => exact h1
    | ⟨2, _⟩ => exact h2
    | ⟨3, _⟩ => exact hb)

set_option maxHeartbeats 2000000 in
theorem keepH13 (c : Dev nD) (b : Ref sig .tc) (hb : b ∈ argRefs) :
    W14 m ρ c (Proc.devRef .tc b) = W13 m ρ c (Proc.devRef .tc b) := by
  refine StableHlo.after_of_forall_not_mem (b := Proc.devRef .tc b) _ _ (List.forall_iff_forall_mem.mp ?_)
  simp only [main_part3_ops2, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (ne_of_arg hb (by decide))

/-- Layer 4 changes only its output array. -/
theorem keepR4 (c : Dev nD) (b : Ref sig .tc) (hb : Pipeline.arrRef spec4 3 ≠ b) :
    W15 m ρ c (Proc.devRef .tc b) = W14 m ρ c (Proc.devRef .tc b) := by
  by_cases h0 : Pipeline.arrRef spec4 0 = b
  · subst h0; exact (W15_arr m ρ c 0).trans (((dat4 (V14 m ρ) c).arrAt_in 0 rfl _).trans (A_eq4 (V14 m ρ) c 0))
  by_cases h1 : Pipeline.arrRef spec4 1 = b
  · subst h1; exact (W15_arr m ρ c 1).trans (((dat4 (V14 m ρ) c).arrAt_in 1 rfl _).trans (A_eq4 (V14 m ρ) c 1))
  by_cases h2 : Pipeline.arrRef spec4 2 = b
  · subst h2; exact (W15_arr m ρ c 2).trans (((dat4 (V14 m ρ) c).arrAt_in 2 rfl _).trans (A_eq4 (V14 m ρ) c 2))
  exact W15_of_ne m ρ c b (fun w => by
    match w with
    | ⟨0, _⟩ => exact h0
    | ⟨1, _⟩ => exact h1
    | ⟨2, _⟩ => exact h2
    | ⟨3, _⟩ => exact hb)

set_option maxHeartbeats 2000000 in
theorem keepH15 (c : Dev nD) (b : Ref sig .tc) (hb : b ∈ argRefs) :
    W16 m ρ c (Proc.devRef .tc b) = W15 m ρ c (Proc.devRef .tc b) := by
  refine StableHlo.after_of_forall_not_mem (b := Proc.devRef .tc b) _ _ (List.forall_iff_forall_mem.mp ?_)
  simp only [main_part3_ops3, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (ne_of_arg hb (by decide))

/-- Layer 5 changes only its output array. -/
theorem keepR5 (c : Dev nD) (b : Ref sig .tc) (hb : Pipeline.arrRef spec5 3 ≠ b) :
    W17 m ρ c (Proc.devRef .tc b) = W16 m ρ c (Proc.devRef .tc b) := by
  by_cases h0 : Pipeline.arrRef spec5 0 = b
  · subst h0; exact (W17_arr m ρ c 0).trans (((dat5 (V16 m ρ) c).arrAt_in 0 rfl _).trans (A_eq5 (V16 m ρ) c 0))
  by_cases h1 : Pipeline.arrRef spec5 1 = b
  · subst h1; exact (W17_arr m ρ c 1).trans (((dat5 (V16 m ρ) c).arrAt_in 1 rfl _).trans (A_eq5 (V16 m ρ) c 1))
  by_cases h2 : Pipeline.arrRef spec5 2 = b
  · subst h2; exact (W17_arr m ρ c 2).trans (((dat5 (V16 m ρ) c).arrAt_in 2 rfl _).trans (A_eq5 (V16 m ρ) c 2))
  exact W17_of_ne m ρ c b (fun w => by
    match w with
    | ⟨0, _⟩ => exact h0
    | ⟨1, _⟩ => exact h1
    | ⟨2, _⟩ => exact h2
    | ⟨3, _⟩ => exact hb)

set_option maxHeartbeats 2000000 in
theorem keepH17 (c : Dev nD) (b : Ref sig .tc) (hb : b ∈ argRefs) :
    W18 m ρ c (Proc.devRef .tc b) = W17 m ρ c (Proc.devRef .tc b) := by
  refine StableHlo.after_of_forall_not_mem (b := Proc.devRef .tc b) _ _ (List.forall_iff_forall_mem.mp ?_)
  simp only [main_part3_ops4, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (ne_of_arg hb (by decide))

/-- Layer 6 changes only its output array. -/
theorem keepR6 (c : Dev nD) (b : Ref sig .tc) (hb : Pipeline.arrRef spec6 3 ≠ b) :
    W19 m ρ c (Proc.devRef .tc b) = W18 m ρ c (Proc.devRef .tc b) := by
  by_cases h0 : Pipeline.arrRef spec6 0 = b
  · subst h0; exact (W19_arr m ρ c 0).trans (((dat6 (V18 m ρ) c).arrAt_in 0 rfl _).trans (A_eq6 (V18 m ρ) c 0))
  by_cases h1 : Pipeline.arrRef spec6 1 = b
  · subst h1; exact (W19_arr m ρ c 1).trans (((dat6 (V18 m ρ) c).arrAt_in 1 rfl _).trans (A_eq6 (V18 m ρ) c 1))
  by_cases h2 : Pipeline.arrRef spec6 2 = b
  · subst h2; exact (W19_arr m ρ c 2).trans (((dat6 (V18 m ρ) c).arrAt_in 2 rfl _).trans (A_eq6 (V18 m ρ) c 2))
  exact W19_of_ne m ρ c b (fun w => by
    match w with
    | ⟨0, _⟩ => exact h0
    | ⟨1, _⟩ => exact h1
    | ⟨2, _⟩ => exact h2
    | ⟨3, _⟩ => exact hb)

set_option maxHeartbeats 2000000 in
theorem keepH19 (c : Dev nD) (b : Ref sig .tc) (hb : b ∈ argRefs) :
    W20 m ρ c (Proc.devRef .tc b) = W19 m ρ c (Proc.devRef .tc b) := by
  refine StableHlo.after_of_forall_not_mem (b := Proc.devRef .tc b) _ _ (List.forall_iff_forall_mem.mp ?_)
  simp only [main_part3_ops5, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (ne_of_arg hb (by decide))

/-- Layer 7 changes only its output array. -/
theorem keepR7 (c : Dev nD) (b : Ref sig .tc) (hb : Pipeline.arrRef spec7 3 ≠ b) :
    W21 m ρ c (Proc.devRef .tc b) = W20 m ρ c (Proc.devRef .tc b) := by
  by_cases h0 : Pipeline.arrRef spec7 0 = b
  · subst h0; exact (W21_arr m ρ c 0).trans (((dat7 (V20 m ρ) c).arrAt_in 0 rfl _).trans (A_eq7 (V20 m ρ) c 0))
  by_cases h1 : Pipeline.arrRef spec7 1 = b
  · subst h1; exact (W21_arr m ρ c 1).trans (((dat7 (V20 m ρ) c).arrAt_in 1 rfl _).trans (A_eq7 (V20 m ρ) c 1))
  by_cases h2 : Pipeline.arrRef spec7 2 = b
  · subst h2; exact (W21_arr m ρ c 2).trans (((dat7 (V20 m ρ) c).arrAt_in 2 rfl _).trans (A_eq7 (V20 m ρ) c 2))
  exact W21_of_ne m ρ c b (fun w => by
    match w with
    | ⟨0, _⟩ => exact h0
    | ⟨1, _⟩ => exact h1
    | ⟨2, _⟩ => exact h2
    | ⟨3, _⟩ => exact hb)

/-- Layer 0's output array is no argument. -/
theorem ho0 (b : Ref sig .tc) (hb : b ∈ argRefs) : Pipeline.arrRef spec0 3 ≠ b := by
  simp only [argRefs, List.mem_cons, List.not_mem_nil, or_false] at hb
  rcases hb with rfl | rfl | rfl | rfl | rfl | rfl | rfl | rfl | rfl | rfl | rfl | rfl | rfl | rfl | rfl | rfl | rfl <;> decide

/-- Layer 1's output array is no argument. -/
theorem ho1 (b : Ref sig .tc) (hb : b ∈ argRefs) : Pipeline.arrRef spec1 3 ≠ b := by
  simp only [argRefs, List.mem_cons, List.not_mem_nil, or_false] at hb
  rcases hb with rfl | rfl | rfl | rfl | rfl | rfl | rfl | rfl | rfl | rfl | rfl | rfl | rfl | rfl | rfl | rfl | rfl <;> decide

/-- Layer 2's output array is no argument. -/
theorem ho2 (b : Ref sig .tc) (hb : b ∈ argRefs) : Pipeline.arrRef spec2 3 ≠ b := by
  simp only [argRefs, List.mem_cons, List.not_mem_nil, or_false] at hb
  rcases hb with rfl | rfl | rfl | rfl | rfl | rfl | rfl | rfl | rfl | rfl | rfl | rfl | rfl | rfl | rfl | rfl | rfl <;> decide

/-- Layer 3's output array is no argument. -/
theorem ho3 (b : Ref sig .tc) (hb : b ∈ argRefs) : Pipeline.arrRef spec3 3 ≠ b := by
  simp only [argRefs, List.mem_cons, List.not_mem_nil, or_false] at hb
  rcases hb with rfl | rfl | rfl | rfl | rfl | rfl | rfl | rfl | rfl | rfl | rfl | rfl | rfl | rfl | rfl | rfl | rfl <;> decide

/-- Layer 4's output array is no argument. -/
theorem ho4 (b : Ref sig .tc) (hb : b ∈ argRefs) : Pipeline.arrRef spec4 3 ≠ b := by
  simp only [argRefs, List.mem_cons, List.not_mem_nil, or_false] at hb
  rcases hb with rfl | rfl | rfl | rfl | rfl | rfl | rfl | rfl | rfl | rfl | rfl | rfl | rfl | rfl | rfl | rfl | rfl <;> decide

/-- Layer 5's output array is no argument. -/
theorem ho5 (b : Ref sig .tc) (hb : b ∈ argRefs) : Pipeline.arrRef spec5 3 ≠ b := by
  simp only [argRefs, List.mem_cons, List.not_mem_nil, or_false] at hb
  rcases hb with rfl | rfl | rfl | rfl | rfl | rfl | rfl | rfl | rfl | rfl | rfl | rfl | rfl | rfl | rfl | rfl | rfl <;> decide

/-- Layer 6's output array is no argument. -/
theorem ho6 (b : Ref sig .tc) (hb : b ∈ argRefs) : Pipeline.arrRef spec6 3 ≠ b := by
  simp only [argRefs, List.mem_cons, List.not_mem_nil, or_false] at hb
  rcases hb with rfl | rfl | rfl | rfl | rfl | rfl | rfl | rfl | rfl | rfl | rfl | rfl | rfl | rfl | rfl | rfl | rfl <;> decide

/-- Layer 7's output array is no argument. -/
theorem ho7 (b : Ref sig .tc) (hb : b ∈ argRefs) : Pipeline.arrRef spec7 3 ≠ b := by
  simp only [argRefs, List.mem_cons, List.not_mem_nil, or_false] at hb
  rcases hb with rfl | rfl | rfl | rfl | rfl | rfl | rfl | rfl | rfl | rfl | rfl | rfl | rfl | rfl | rfl | rfl | rfl <;> decide

/-- At every boundary every argument array holds its launch contents: one step at a time. -/
theorem kept0 (c : Dev nD) (b : Ref sig .tc) (hb : b ∈ argRefs) :
    W0 m ρ c (Proc.devRef .tc b) = m ((c : Thread nD τ).loc b) := rfl
theorem kept1 (c : Dev nD) (b : Ref sig .tc) (hb : b ∈ argRefs) :
    W1 m ρ c (Proc.devRef .tc b) = m ((c : Thread nD τ).loc b) := (keepH0 m ρ c b hb).trans (kept0 m ρ c b hb)
theorem kept2 (c : Dev nD) (b : Ref sig .tc) (hb : b ∈ argRefs) :
    W2 m ρ c (Proc.devRef .tc b) = m ((c : Thread nD τ).loc b) := (keepH1 m ρ c b hb).trans (kept1 m ρ c b hb)
theorem kept3 (c : Dev nD) (b : Ref sig .tc) (hb : b ∈ argRefs) :
    W3 m ρ c (Proc.devRef .tc b) = m ((c : Thread nD τ).loc b) := (keepH2 m ρ c b hb).trans (kept2 m ρ c b hb)
theorem kept4 (c : Dev nD) (b : Ref sig .tc) (hb : b ∈ argRefs) :
    W4 m ρ c (Proc.devRef .tc b) = m ((c : Thread nD τ).loc b) := (keepH3 m ρ c b hb).trans (kept3 m ρ c b hb)
theorem kept5 (c : Dev nD) (b : Ref sig .tc) (hb : b ∈ argRefs) :
    W5 m ρ c (Proc.devRef .tc b) = m ((c : Thread nD τ).loc b) := (keepR0 m ρ c b (ho0 b hb)).trans (kept4 m ρ c b hb)
theorem kept6 (c : Dev nD) (b : Ref sig .tc) (hb : b ∈ argRefs) :
    W6 m ρ c (Proc.devRef .tc b) = m ((c : Thread nD τ).loc b) := (keepH5 m ρ c b hb).trans (kept5 m ρ c b hb)
theorem kept7 (c : Dev nD) (b : Ref sig .tc) (hb : b ∈ argRefs) :
    W7 m ρ c (Proc.devRef .tc b) = m ((c : Thread nD τ).loc b) := (keepH6 m ρ c b hb).trans (kept6 m ρ c b hb)
theorem kept8 (c : Dev nD) (b : Ref sig .tc) (hb : b ∈ argRefs) :
    W8 m ρ c (Proc.devRef .tc b) = m ((c : Thread nD τ).loc b) := (keepR1 m ρ c b (ho1 b hb)).trans (kept7 m ρ c b hb)
theorem kept9 (c : Dev nD) (b : Ref sig .tc) (hb : b ∈ argRefs) :
    W9 m ρ c (Proc.devRef .tc b) = m ((c : Thread nD τ).loc b) := (keepH8 m ρ c b hb).trans (kept8 m ρ c b hb)
theorem kept10 (c : Dev nD) (b : Ref sig .tc) (hb : b ∈ argRefs) :
    W10 m ρ c (Proc.devRef .tc b) = m ((c : Thread nD τ).loc b) := (keepH9 m ρ c b hb).trans (kept9 m ρ c b hb)
theorem kept11 (c : Dev nD) (b : Ref sig .tc) (hb : b ∈ argRefs) :
    W11 m ρ c (Proc.devRef .tc b) = m ((c : Thread nD τ).loc b) := (keepR2 m ρ c b (ho2 b hb)).trans (kept10 m ρ c b hb)
theorem kept12 (c : Dev nD) (b : Ref sig .tc) (hb : b ∈ argRefs) :
    W12 m ρ c (Proc.devRef .tc b) = m ((c : Thread nD τ).loc b) := (keepH11 m ρ c b hb).trans (kept11 m ρ c b hb)
theorem kept13 (c : Dev nD) (b : Ref sig .tc) (hb : b ∈ argRefs) :
    W13 m ρ c (Proc.devRef .tc b) = m ((c : Thread nD τ).loc b) := (keepR3 m ρ c b (ho3 b hb)).trans (kept12 m ρ c b hb)
theorem kept14 (c : Dev nD) (b : Ref sig .tc) (hb : b ∈ argRefs) :
    W14 m ρ c (Proc.devRef .tc b) = m ((c : Thread nD τ).loc b) := (keepH13 m ρ c b hb).trans (kept13 m ρ c b hb)
theorem kept15 (c : Dev nD) (b : Ref sig .tc) (hb : b ∈ argRefs) :
    W15 m ρ c (Proc.devRef .tc b) = m ((c : Thread nD τ).loc b) := (keepR4 m ρ c b (ho4 b hb)).trans (kept14 m ρ c b hb)
theorem kept16 (c : Dev nD) (b : Ref sig .tc) (hb : b ∈ argRefs) :
    W16 m ρ c (Proc.devRef .tc b) = m ((c : Thread nD τ).loc b) := (keepH15 m ρ c b hb).trans (kept15 m ρ c b hb)
theorem kept17 (c : Dev nD) (b : Ref sig .tc) (hb : b ∈ argRefs) :
    W17 m ρ c (Proc.devRef .tc b) = m ((c : Thread nD τ).loc b) := (keepR5 m ρ c b (ho5 b hb)).trans (kept16 m ρ c b hb)
theorem kept18 (c : Dev nD) (b : Ref sig .tc) (hb : b ∈ argRefs) :
    W18 m ρ c (Proc.devRef .tc b) = m ((c : Thread nD τ).loc b) := (keepH17 m ρ c b hb).trans (kept17 m ρ c b hb)
theorem kept19 (c : Dev nD) (b : Ref sig .tc) (hb : b ∈ argRefs) :
    W19 m ρ c (Proc.devRef .tc b) = m ((c : Thread nD τ).loc b) := (keepR6 m ρ c b (ho6 b hb)).trans (kept18 m ρ c b hb)
theorem kept20 (c : Dev nD) (b : Ref sig .tc) (hb : b ∈ argRefs) :
    W20 m ρ c (Proc.devRef .tc b) = m ((c : Thread nD τ).loc b) := (keepH19 m ρ c b hb).trans (kept19 m ρ c b hb)
theorem kept21 (c : Dev nD) (b : Ref sig .tc) (hb : b ∈ argRefs) :
    W21 m ρ c (Proc.devRef .tc b) = m ((c : Thread nD τ).loc b) := (keepR7 m ρ c b (ho7 b hb)).trans (kept20 m ρ c b hb)
/-- In particular at the last. -/
theorem kept (c : Dev nD) (b : Ref sig .tc) (hb : b ∈ argRefs) :
    W21 m ρ c (Proc.devRef .tc b) = m ((c : Thread nD τ).loc b) := kept21 m ρ c b hb

end Cert.Kernel.Fr

end
-- ==== Proof.KB.Frame.lean ====
/- The frame: from any memory with zero counters every weakly fair execution of @main terminates, nothing faults, and
   every final state has the seventeen argument arrays as launched — the run's last boundary read at each argument. -/
import proofs.«123229_j70574902608028_1_alg».proof.Proof.KB.Run
import proofs.«123229_j70574902608028_1_alg».proof.Proof.KB.Kept
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (kept m ρ c main_arg0 (by decide)),
     (h c _ (mem_uc main_arg1 (by decide))).trans (kept m ρ c main_arg1 (by decide)),
     (h c _ (mem_uc main_arg2 (by decide))).trans (kept m ρ c main_arg2 (by decide)),
     (h c _ (mem_uc main_arg3 (by decide))).trans (kept m ρ c main_arg3 (by decide)),
     (h c _ (mem_uc main_arg4 (by decide))).trans (kept m ρ c main_arg4 (by decide)),
     (h c _ (mem_uc main_arg5 (by decide))).trans (kept m ρ c main_arg5 (by decide)),
     (h c _ (mem_uc main_arg6 (by decide))).trans (kept m ρ c main_arg6 (by decide)),
     (h c _ (mem_uc main_arg7 (by decide))).trans (kept m ρ c main_arg7 (by decide)),
     (h c _ (mem_uc main_arg8 (by decide))).trans (kept m ρ c main_arg8 (by decide)),
     (h c _ (mem_uc main_arg9 (by decide))).trans (kept m ρ c main_arg9 (by decide)),
     (h c _ (mem_uc main_arg10 (by decide))).trans (kept m ρ c main_arg10 (by decide)),
     (h c _ (mem_uc main_arg11 (by decide))).trans (kept m ρ c main_arg11 (by decide)),
     (h c _ (mem_uc main_arg12 (by decide))).trans (kept m ρ c main_arg12 (by decide)),
     (h c _ (mem_uc main_arg13 (by decide))).trans (kept m ρ c main_arg13 (by decide)),
     (h c _ (mem_uc main_arg14 (by decide))).trans (kept m ρ c main_arg14 (by decide)),
     (h c _ (mem_uc main_arg15 (by decide))).trans (kept m ρ c main_arg15 (by decide)),
     (h c _ (mem_uc main_arg16 (by decide))).trans (kept m ρ c main_arg16 (by decide))⟩) (run m ρ)

end Cert.Kernel.Fr

end
-- ==== Proof.KI.Region0.lean ====
/- Region 0 of @main: one dense layer, a whole row block of the input times the resident weight,
   plus the bias row, cut off below at zero. Stated at the contents V the TensorCore's buffers hold when the region is
   entered, and at any float instance: what a grid point finds in each window, what the body leaves in
   the output block (one store covering it), the body's triple, and the obligation at every point. -/
import proofs.«123229_j70574902608028_1_alg».proof.Proof.Gen.KernelIdeal.Launch
import proofs.«123229_j70574902608028_1_alg».proof.Proof.Gen.KernelIdeal.Skeleton
import proofs.«123229_j70574902608028_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: an unfetched
    point has the index of the point before it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: an unfetched
    point has the index of the point before it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not: an unfetched
    point has the index of the point before it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev ra0 : Rect S5000x64 := Rect.unit (s := S5000x64) ![0, 0] S5000x64.size inb_S5000x64_S5000x64_0_0
abbrev rw0 : Rect S64x96 := Rect.unit (s := S64x96) ![0, 0] S64x96.size inb_S64x96_S64x96_0_0
abbrev rb0 : Rect S1x96 := Rect.unit (s := S1x96) ![0, 0] S1x96.size inb_S1x96_S1x96_0_0
abbrev ro0 : Rect S5000x96 := Rect.unit (s := S5000x96) ![0, 0] S5000x96.size inb_S5000x96_S5000x96_0_0

/-- The output block after the body: the layer's value of the three input blocks, written by one store. -/
def out0 (x0 : Vec F S5000x64 .f32) (x1 : Vec F S64x96 .f32) (x2 : Vec F S1x96 .f32) : Vec F S5000x96 .f32 :=
  View.canon [⟨ro0, k0_pay1 (View.ld x0 ra0) (View.ld x1 rw0) (View.ld x2 rb0)⟩]

/-- The one store covers the block. -/
theorem cover0 (p0 : Vec F S5000x96 .f32) (y : S5000x96.Idx) :
    ∃ pc ∈ ([⟨ro0, p0⟩] : List (View.Piece (Elt F) S5000x96 .f32)), y ∈ pc.1.set :=
  View.cover_of_tiled [⟨ro0, p0⟩] S5000x96.size (by rfl) y

set_option maxHeartbeats 1000000 in
/-- The body on whole staging buffers: the inputs at contents x0, x1, x2 and the output at anything; it ends with the
    inputs as they were and the output at the layer's value of them. -/
theorem sound_kernel0 (c : Dev nD) (E : Set ℕ) (i : grid0.Coords)
    (arg1 : Memref sig .tc .vmem S5000x64 .f32) (harg1 : arg1.IsWhole) (arg2 : Memref sig .tc .vmem S64x96 .f32) (harg2 : arg2.IsWhole)
    (arg3 : Memref sig .tc .vmem S1x96 .f32) (harg3 : arg3.IsWhole) (arg4 : Memref sig .tc .vmem S5000x96 .f32) (harg4 : arg4.IsWhole)
    (x0 : Vec F S5000x64 .f32) (x1 : Vec F S64x96 .f32) (x2 : Vec F S1x96 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0 x0 x1 x2)) -∗ K ⟨⟩))
      ⊢ wp frame (wpE (defs₀ (F := F)) Variants.none c none) E (cc0__dense_relu_kernel i arg1 harg1 arg2 harg2 arg3 harg3 arg4 harg4) K := by
  simp only [cc0__dense_relu_kernel_eq_skeleton]; unfold cc0__dense_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The region's proof data on core c: the arrays as the region finds them; after the body each input's buffer at its
    block and the output's at the layer's value of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Region1.lean ====
/- Region 1 of @main: one dense layer, a whole row block of the input times the resident weight,
   plus the bias row, cut off below at zero. Stated at the contents V the TensorCore's buffers hold when the region is
   entered, and at any float instance: what a grid point finds in each window, what the body leaves in
   the output block (one store covering it), the body's triple, and the obligation at every point. -/
import proofs.«123229_j70574902608028_1_alg».proof.Proof.Gen.KernelIdeal.Launch
import proofs.«123229_j70574902608028_1_alg».proof.Proof.Gen.KernelIdeal.Skeleton
import proofs.«123229_j70574902608028_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: an unfetched
    point has the index of the point before it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not: an unfetched
    point has the index of the point before it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not: an unfetched
    point has the index of the point before it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev ra1 : Rect S5000x384 := Rect.unit (s := S5000x384) ![0, 0] S5000x384.size inb_S5000x384_S5000x384_0_0
abbrev rw1 : Rect S384x96 := Rect.unit (s := S384x96) ![0, 0] S384x96.size inb_S384x96_S384x96_0_0
abbrev rb1 : Rect S1x96 := Rect.unit (s := S1x96) ![0, 0] S1x96.size inb_S1x96_S1x96_0_0
abbrev ro1 : Rect S5000x96 := Rect.unit (s := S5000x96) ![0, 0] S5000x96.size inb_S5000x96_S5000x96_0_0

/-- The output block after the body: the layer's value of the three input blocks, written by one store. -/
def out1 (x0 : Vec F S5000x384 .f32) (x1 : Vec F S384x96 .f32) (x2 : Vec F S1x96 .f32) : Vec F S5000x96 .f32 :=
  View.canon [⟨ro1, k1_pay1 (View.ld x0 ra1) (View.ld x1 rw1) (View.ld x2 rb1)⟩]

/-- The one store covers the block. -/
theorem cover1 (p0 : Vec F S5000x96 .f32) (y : S5000x96.Idx) :
    ∃ pc ∈ ([⟨ro1, p0⟩] : List (View.Piece (Elt F) S5000x96 .f32)), y ∈ pc.1.set :=
  View.cover_of_tiled [⟨ro1, p0⟩] S5000x96.size (by rfl) y

set_option maxHeartbeats 1000000 in
/-- The body on whole staging buffers: the inputs at contents x0, x1, x2 and the output at anything; it ends with the
    inputs as they were and the output at the layer's value of them. -/
theorem sound_kernel1 (c : Dev nD) (E : Set ℕ) (i : grid1.Coords)
    (arg1 : Memref sig .tc .vmem S5000x384 .f32) (harg1 : arg1.IsWhole) (arg2 : Memref sig .tc .vmem S384x96 .f32) (harg2 : arg2.IsWhole)
    (arg3 : Memref sig .tc .vmem S1x96 .f32) (harg3 : arg3.IsWhole) (arg4 : Memref sig .tc .vmem S5000x96 .f32) (harg4 : arg4.IsWhole)
    (x0 : Vec F S5000x384 .f32) (x1 : Vec F S384x96 .f32) (x2 : Vec F S1x96 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1 x0 x1 x2)) -∗ K ⟨⟩))
      ⊢ wp frame (wpE (defs₀ (F := F)) Variants.none c none) E (cc1__dense_relu_kernel i arg1 harg1 arg2 harg2 arg3 harg3 arg4 harg4) K := by
  simp only [cc1__dense_relu_kernel_eq_skeleton]; unfold cc1__dense_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-- The region's proof data on core c: the arrays as the region finds them; after the body each input's buffer at its
    block and the output's at the layer's value of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Region2.lean ====
/- Region 2 of @main: one dense layer, a whole row block of the input times the resident weight,
   plus the bias row, stored as it is. Stated at the contents V the TensorCore's buffers hold when the region is
   entered, and at any float instance: what a grid point finds in each window, what the body leaves in
   the output block (one store covering it), the body's triple, and the obligation at every point. -/
import proofs.«123229_j70574902608028_1_alg».proof.Proof.Gen.KernelIdeal.Launch
import proofs.«123229_j70574902608028_1_alg».proof.Proof.Gen.KernelIdeal.Skeleton
import proofs.«123229_j70574902608028_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not: an unfetched
    point has the index of the point before it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not: an unfetched
    point has the index of the point before it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not: an unfetched
    point has the index of the point before it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev ra2 : Rect S5000x384 := Rect.unit (s := S5000x384) ![0, 0] S5000x384.size inb_S5000x384_S5000x384_0_0
abbrev rw2 : Rect S384x96 := Rect.unit (s := S384x96) ![0, 0] S384x96.size inb_S384x96_S384x96_0_0
abbrev rb2 : Rect S1x96 := Rect.unit (s := S1x96) ![0, 0] S1x96.size inb_S1x96_S1x96_0_0
abbrev ro2 : Rect S5000x96 := Rect.unit (s := S5000x96) ![0, 0] S5000x96.size inb_S5000x96_S5000x96_0_0

/-- The output block after the body: the layer's value of the three input blocks, written by one store. -/
def out2 (x0 : Vec F S5000x384 .f32) (x1 : Vec F S384x96 .f32) (x2 : Vec F S1x96 .f32) : Vec F S5000x96 .f32 :=
  View.canon [⟨ro2, k2_pay1 (View.ld x0 ra2) (View.ld x1 rw2) (View.ld x2 rb2)⟩]

/-- The one store covers the block. -/
theorem cover2 (p0 : Vec F S5000x96 .f32) (y : S5000x96.Idx) :
    ∃ pc ∈ ([⟨ro2, p0⟩] : List (View.Piece (Elt F) S5000x96 .f32)), y ∈ pc.1.set :=
  View.cover_of_tiled [⟨ro2, p0⟩] S5000x96.size (by rfl) y

set_option maxHeartbeats 1000000 in
/-- The body on whole staging buffers: the inputs at contents x0, x1, x2 and the output at anything; it ends with the
    inputs as they were and the output at the layer's value of them. -/
theorem sound_kernel2 (c : Dev nD) (E : Set ℕ) (i : grid2.Coords)
    (arg1 : Memref sig .tc .vmem S5000x384 .f32) (harg1 : arg1.IsWhole) (arg2 : Memref sig .tc .vmem S384x96 .f32) (harg2 : arg2.IsWhole)
    (arg3 : Memref sig .tc .vmem S1x96 .f32) (harg3 : arg3.IsWhole) (arg4 : Memref sig .tc .vmem S5000x96 .f32) (harg4 : arg4.IsWhole)
    (x0 : Vec F S5000x384 .f32) (x1 : Vec F S384x96 .f32) (x2 : Vec F S1x96 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2 x0 x1 x2)) -∗ K ⟨⟩))
      ⊢ wp frame (wpE (defs₀ (F := F)) Variants.none c none) E (cc2__dense_relu_kernel i arg1 harg1 arg2 harg2 arg3 harg3 arg4 harg4) K := by
  simp only [cc2__dense_relu_kernel_eq_skeleton]; unfold cc2__dense_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-- The region's proof data on core c: the arrays as the region finds them; after the body each input's buffer at its
    block and the output's at the layer's value of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point t, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Region3.lean ====
/- Region 3 of @main: one dense layer, a whole row block of the input times the resident weight,
   plus the bias row, cut off below at zero. Stated at the contents V the TensorCore's buffers hold when the region is
   entered, and at any float instance: what a grid point finds in each window, what the body leaves in
   the output block (one store covering it), the body's triple, and the obligation at every point. -/
import proofs.«123229_j70574902608028_1_alg».proof.Proof.Gen.KernelIdeal.Launch
import proofs.«123229_j70574902608028_1_alg».proof.Proof.Gen.KernelIdeal.Skeleton
import proofs.«123229_j70574902608028_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not: an unfetched
    point has the index of the point before it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not: an unfetched
    point has the index of the point before it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not: an unfetched
    point has the index of the point before it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole-block rectangles the body loads and stores through. -/
abbrev ra3 : Rect S5000x96 := Rect.unit (s := S5000x96) ![0, 0] S5000x96.size inb_S5000x96_S5000x96_0_0
abbrev rw3 : Rect S96x96 := Rect.unit (s := S96x96) ![0, 0] S96x96.size inb_S96x96_S96x96_0_0
abbrev rb3 : Rect S1x96 := Rect.unit (s := S1x96) ![0, 0] S1x96.size inb_S1x96_S1x96_0_0
abbrev ro3 : Rect S5000x96 := Rect.unit (s := S5000x96) ![0, 0] S5000x96.size inb_S5000x96_S5000x96_0_0

/-- The output block after the body: the layer's value of the three input blocks, written by one store. -/
def out3 (x0 : Vec F S5000x96 .f32) (x1 : Vec F S96x96 .f32) (x2 : Vec F S1x96 .f32) : Vec F S5000x96 .f32 :=
  View.canon [⟨ro3, k3_pay1 (View.ld x0 ra3) (View.ld x1 rw3) (View.ld x2 rb3)⟩]

/-- The one store covers the block. -/
theorem cover3 (p0 : Vec F S5000x96 .f32) (y : S5000x96.Idx) :
    ∃ pc ∈ ([⟨ro3, p0⟩] : List (View.Piece (Elt F) S5000x96 .f32)), y ∈ pc.1.set :=
  View.cover_of_tiled [⟨ro3, p0⟩] S5000x96.size (by rfl) y

set_option maxHeartbeats 1000000 in
/-- The body on whole staging buffers: the inputs at contents x0, x1, x2 and the output at anything; it ends with the
    inputs as they were and the output at the layer's value of them. -/
theorem sound_kernel3 (c : Dev nD) (E : Set ℕ) (i : grid3.Coords)
    (arg1 : Memref sig .tc .vmem S5000x96 .f32) (harg1 : arg1.IsWhole) (arg2 : Memref sig .tc .vmem S96x96 .f32) (harg2 : arg2.IsWhole)
    (arg3 : Memref sig .tc .vmem S1x96 .f32) (harg3 : arg3.IsWhole) (arg4 : Memref sig .tc .vmem S5000x96 .f32) (harg4 : arg4.IsWhole)
    (x0 : Vec F S5000x96 .f32) (x1 : Vec F S96x96 .f32) (x2 : Vec F S1x96 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc3__dense_relu_kernel i arg1 harg1 arg2 harg2 arg3 harg3 arg4 harg4) K := by
  simp only [cc3__dense_relu_kernel_eq_skeleton]; unfold cc3__dense_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-- The region's proof data on core c: the arrays as the region finds them; after the body each input's buffer at its
    block and the output's at the layer's value of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point t, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Region4.lean ====
/- Region 4 of @main: one dense layer, a whole row block of the input times the resident weight,
   plus the bias row, cut off below at zero. Stated at the contents V the TensorCore's buffers hold when the region is
   entered, and at any float instance: what a grid point finds in each window, what the body leaves in
   the output block (one store covering it), the body's triple, and the obligation at every point. -/
import proofs.«123229_j70574902608028_1_alg».proof.Proof.Gen.KernelIdeal.Launch
import proofs.«123229_j70574902608028_1_alg».proof.Proof.Gen.KernelIdeal.Skeleton
import proofs.«123229_j70574902608028_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not: an unfetched
    point has the index of the point before it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or not: an unfetched
    point has the index of the point before it. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, fetched there or not: an unfetched
    point has the index of the point before it. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole-block rectangles the body loads and stores through. -/
abbrev ra4 : Rect S5000x96 := Rect.unit (s := S5000x96) ![0, 0] S5000x96.size inb_S5000x96_S5000x96_0_0
abbrev rw4 : Rect S96x96 := Rect.unit (s := S96x96) ![0, 0] S96x96.size inb_S96x96_S96x96_0_0
abbrev rb4 : Rect S1x96 := Rect.unit (s := S1x96) ![0, 0] S1x96.size inb_S1x96_S1x96_0_0
abbrev ro4 : Rect S5000x96 := Rect.unit (s := S5000x96) ![0, 0] S5000x96.size inb_S5000x96_S5000x96_0_0

/-- The output block after the body: the layer's value of the three input blocks, written by one store. -/
def out4 (x0 : Vec F S5000x96 .f32) (x1 : Vec F S96x96 .f32) (x2 : Vec F S1x96 .f32) : Vec F S5000x96 .f32 :=
  View.canon [⟨ro4, k4_pay1 (View.ld x0 ra4) (View.ld x1 rw4) (View.ld x2 rb4)⟩]

/-- The one store covers the block. -/
theorem cover4 (p0 : Vec F S5000x96 .f32) (y : S5000x96.Idx) :
    ∃ pc ∈ ([⟨ro4, p0⟩] : List (View.Piece (Elt F) S5000x96 .f32)), y ∈ pc.1.set :=
  View.cover_of_tiled [⟨ro4, p0⟩] S5000x96.size (by rfl) y

set_option maxHeartbeats 1000000 in
/-- The body on whole staging buffers: the inputs at contents x0, x1, x2 and the output at anything; it ends with the
    inputs as they were and the output at the layer's value of them. -/
theorem sound_kernel4 (c : Dev nD) (E : Set ℕ) (i : grid4.Coords)
    (arg1 : Memref sig .tc .vmem S5000x96 .f32) (harg1 : arg1.IsWhole) (arg2 : Memref sig .tc .vmem S96x96 .f32) (harg2 : arg2.IsWhole)
    (arg3 : Memref sig .tc .vmem S1x96 .f32) (harg3 : arg3.IsWhole) (arg4 : Memref sig .tc .vmem S5000x96 .f32) (harg4 : arg4.IsWhole)
    (x0 : Vec F S5000x96 .f32) (x1 : Vec F S96x96 .f32) (x2 : Vec F S1x96 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4 x0 x1 x2)) -∗ K ⟨⟩))
      ⊢ wp frame (wpE (defs₀ (F := F)) Variants.none c none) E (cc4__dense_relu_kernel i arg1 harg1 arg2 harg2 arg3 harg3 arg4 harg4) K := by
  simp only [cc4__dense_relu_kernel_eq_skeleton]; unfold cc4__dense_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4 _)

/-- The region's proof data on core c: the arrays as the region finds them; after the body each input's buffer at its
    block and the output's at the layer's value of the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point t, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so the body's triple applies; the invariant and what
    the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KI.Region5.lean ====
/- Region 5 of @main: one dense layer, a whole row block of the input times the resident weight,
   plus the bias row, cut off below at zero. Stated at the contents V the TensorCore's buffers hold when the region is
   entered, and at any float instance: what a grid point finds in each window, what the body leaves in
   the output block (one store covering it), the body's triple, and the obligation at every point. -/
import proofs.«123229_j70574902608028_1_alg».proof.Proof.Gen.KernelIdeal.Launch
import proofs.«123229_j70574902608028_1_alg».proof.Proof.Gen.KernelIdeal.Skeleton
import proofs.«123229_j70574902608028_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not: an unfetched
    point has the index of the point before it. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or not: an unfetched
    point has the index of the point before it. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, fetched there or not: an unfetched
    point has the index of the point before it. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The whole-block rectangles the body loads and stores through. -/
abbrev ra5 : Rect S5000x96 := Rect.unit (s := S5000x96) ![0, 0] S5000x96.size inb_S5000x96_S5000x96_0_0
abbrev rw5 : Rect S96x96 := Rect.unit (s := S96x96) ![0, 0] S96x96.size inb_S96x96_S96x96_0_0
abbrev rb5 : Rect S1x96 := Rect.unit (s := S1x96) ![0, 0] S1x96.size inb_S1x96_S1x96_0_0
abbrev ro5 : Rect S5000x96 := Rect.unit (s := S5000x96) ![0, 0] S5000x96.size inb_S5000x96_S5000x96_0_0

/-- The output block after the body: the layer's value of the three input blocks, written by one store. -/
def out5 (x0 : Vec F S5000x96 .f32) (x1 : Vec F S96x96 .f32) (x2 : Vec F S1x96 .f32) : Vec F S5000x96 .f32 :=
  View.canon [⟨ro5, k5_pay1 (View.ld x0 ra5) (View.ld x1 rw5) (View.ld x2 rb5)⟩]

/-- The one store covers the block. -/
theorem cover5 (p0 : Vec F S5000x96 .f32) (y : S5000x96.Idx) :
    ∃ pc ∈ ([⟨ro5, p0⟩] : List (View.Piece (Elt F) S5000x96 .f32)), y ∈ pc.1.set :=
  View.cover_of_tiled [⟨ro5, p0⟩] S5000x96.size (by rfl) y

set_option maxHeartbeats 1000000 in
/-- The body on whole staging buffers: the inputs at contents x0, x1, x2 and the output at anything; it ends with the
    inputs as they were and the output at the layer's value of them. -/
theorem sound_kernel5 (c : Dev nD) (E : Set ℕ) (i : grid5.Coords)
    (arg1 : Memref sig .tc .vmem S5000x96 .f32) (harg1 : arg1.IsWhole) (arg2 : Memref sig .tc .vmem S96x96 .f32) (harg2 : arg2.IsWhole)
    (arg3 : Memref sig .tc .vmem S1x96 .f32) (harg3 : arg3.IsWhole) (arg4 : Memref sig .tc .vmem S5000x96 .f32) (harg4 : arg4.IsWhole)
    (x0 : Vec F S5000x96 .f32) (x1 : Vec F S96x96 .f32) (x2 : Vec F S1x96 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5 x0 x1 x2)) -∗ K ⟨⟩))
      ⊢ wp frame (wpE (defs₀ (F := F)) Variants.none c none) E (cc5__dense_relu_kernel i arg1 harg1 arg2 harg2 arg3 harg3 arg4 harg4) K := by
  simp only [cc5__dense_relu_kernel_eq_skeleton]; unfold cc5__dense_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5 _)

/-- The region's proof data on core c: the arrays as the region finds them; after the body each input's buffer at its
    block and the output's at the layer's value of the input blocks; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point t, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' buffers hold their blocks, so the body's triple applies; the invariant and what
    the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.KI.Region6.lean ====
/- Region 6 of @main: one dense layer, a whole row block of the input times the resident weight,
   plus the bias row, cut off below at zero. Stated at the contents V the TensorCore's buffers hold when the region is
   entered, and at any float instance: what a grid point finds in each window, what the body leaves in
   the output block (one store covering it), the body's triple, and the obligation at every point. -/
import proofs.«123229_j70574902608028_1_alg».proof.Proof.Gen.KernelIdeal.Launch
import proofs.«123229_j70574902608028_1_alg».proof.Proof.Gen.KernelIdeal.Skeleton
import proofs.«123229_j70574902608028_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, fetched there or not: an unfetched
    point has the index of the point before it. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, fetched there or not: an unfetched
    point has the index of the point before it. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point, fetched there or not: an unfetched
    point has the index of the point before it. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The whole-block rectangles the body loads and stores through. -/
abbrev ra6 : Rect S5000x96 := Rect.unit (s := S5000x96) ![0, 0] S5000x96.size inb_S5000x96_S5000x96_0_0
abbrev rw6 : Rect S96x96 := Rect.unit (s := S96x96) ![0, 0] S96x96.size inb_S96x96_S96x96_0_0
abbrev rb6 : Rect S1x96 := Rect.unit (s := S1x96) ![0, 0] S1x96.size inb_S1x96_S1x96_0_0
abbrev ro6 : Rect S5000x96 := Rect.unit (s := S5000x96) ![0, 0] S5000x96.size inb_S5000x96_S5000x96_0_0

/-- The output block after the body: the layer's value of the three input blocks, written by one store. -/
def out6 (x0 : Vec F S5000x96 .f32) (x1 : Vec F S96x96 .f32) (x2 : Vec F S1x96 .f32) : Vec F S5000x96 .f32 :=
  View.canon [⟨ro6, k6_pay1 (View.ld x0 ra6) (View.ld x1 rw6) (View.ld x2 rb6)⟩]

/-- The one store covers the block. -/
theorem cover6 (p0 : Vec F S5000x96 .f32) (y : S5000x96.Idx) :
    ∃ pc ∈ ([⟨ro6, p0⟩] : List (View.Piece (Elt F) S5000x96 .f32)), y ∈ pc.1.set :=
  View.cover_of_tiled [⟨ro6, p0⟩] S5000x96.size (by rfl) y

set_option maxHeartbeats 1000000 in
/-- The body on whole staging buffers: the inputs at contents x0, x1, x2 and the output at anything; it ends with the
    inputs as they were and the output at the layer's value of them. -/
theorem sound_kernel6 (c : Dev nD) (E : Set ℕ) (i : grid6.Coords)
    (arg1 : Memref sig .tc .vmem S5000x96 .f32) (harg1 : arg1.IsWhole) (arg2 : Memref sig .tc .vmem S96x96 .f32) (harg2 : arg2.IsWhole)
    (arg3 : Memref sig .tc .vmem S1x96 .f32) (harg3 : arg3.IsWhole) (arg4 : Memref sig .tc .vmem S5000x96 .f32) (harg4 : arg4.IsWhole)
    (x0 : Vec F S5000x96 .f32) (x1 : Vec F S96x96 .f32) (x2 : Vec F S1x96 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6 x0 x1 x2)) -∗ K ⟨⟩))
      ⊢ wp frame (wpE (defs₀ (F := F)) Variants.none c none) E (cc6__dense_relu_kernel i arg1 harg1 arg2 harg2 arg3 harg3 arg4 harg4) K := by
  simp only [cc6__dense_relu_kernel_eq_skeleton]; unfold cc6__dense_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6 _)

/-- The region's proof data on core c: the arrays as the region finds them; after the body each input's buffer at its
    block and the output's at the layer's value of the input blocks; nothing owed, full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point t, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so the body's triple applies; the invariant and what
    the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation6 (c : Dev nD) : BodyObligation (dat6 (F := F) V c) (defs₀ (F := F)) Variants.none () Set.univ := fun t => by
  rw [bigSep_W6, bigSep_W6]
  exact sound_body6 V c t

end Cert.KernelIdeal.Fr

end
-- ==== Proof.KI.Region7.lean ====
/- Region 7 of @main: one dense layer, a whole row block of the input times the resident weight,
   plus the bias row, stored as it is. Stated at the contents V the TensorCore's buffers hold when the region is
   entered, and at any float instance: what a grid point finds in each window, what the body leaves in
   the output block (one store covering it), the body's triple, and the obligation at every point. -/
import proofs.«123229_j70574902608028_1_alg».proof.Proof.Gen.KernelIdeal.Launch
import proofs.«123229_j70574902608028_1_alg».proof.Proof.Gen.KernelIdeal.Skeleton
import proofs.«123229_j70574902608028_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, fetched there or not: an unfetched
    point has the index of the point before it. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's staging buffer holds its block at every point, fetched there or not: an unfetched
    point has the index of the point before it. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's staging buffer holds its block at every point, fetched there or not: an unfetched
    point has the index of the point before it. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The whole-block rectangles the body loads and stores through. -/
abbrev ra7 : Rect S5000x96 := Rect.unit (s := S5000x96) ![0, 0] S5000x96.size inb_S5000x96_S5000x96_0_0
abbrev rw7 : Rect S96x4 := Rect.unit (s := S96x4) ![0, 0] S96x4.size inb_S96x4_S96x4_0_0
abbrev rb7 : Rect S1x4 := Rect.unit (s := S1x4) ![0, 0] S1x4.size inb_S1x4_S1x4_0_0
abbrev ro7 : Rect S5000x4 := Rect.unit (s := S5000x4) ![0, 0] S5000x4.size inb_S5000x4_S5000x4_0_0

/-- The output block after the body: the layer's value of the three input blocks, written by one store. -/
def out7 (x0 : Vec F S5000x96 .f32) (x1 : Vec F S96x4 .f32) (x2 : Vec F S1x4 .f32) : Vec F S5000x4 .f32 :=
  View.canon [⟨ro7, k7_pay1 (View.ld x0 ra7) (View.ld x1 rw7) (View.ld x2 rb7)⟩]

/-- The one store covers the block. -/
theorem cover7 (p0 : Vec F S5000x4 .f32) (y : S5000x4.Idx) :
    ∃ pc ∈ ([⟨ro7, p0⟩] : List (View.Piece (Elt F) S5000x4 .f32)), y ∈ pc.1.set :=
  View.cover_of_tiled [⟨ro7, p0⟩] S5000x4.size (by rfl) y

set_option maxHeartbeats 1000000 in
/-- The body on whole staging buffers: the inputs at contents x0, x1, x2 and the output at anything; it ends with the
    inputs as they were and the output at the layer's value of them. -/
theorem sound_kernel7 (c : Dev nD) (E : Set ℕ) (i : grid7.Coords)
    (arg1 : Memref sig .tc .vmem S5000x96 .f32) (harg1 : arg1.IsWhole) (arg2 : Memref sig .tc .vmem S96x4 .f32) (harg2 : arg2.IsWhole)
    (arg3 : Memref sig .tc .vmem S1x4 .f32) (harg3 : arg3.IsWhole) (arg4 : Memref sig .tc .vmem S5000x4 .f32) (harg4 : arg4.IsWhole)
    (x0 : Vec F S5000x96 .f32) (x1 : Vec F S96x4 .f32) (x2 : Vec F S1x4 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out7 x0 x1 x2)) -∗ K ⟨⟩))
      ⊢ wp frame (wpE (defs₀ (F := F)) Variants.none c none) E (cc7__dense_relu_kernel i arg1 harg1 arg2 harg2 arg3 harg3 arg4 harg4) K := by
  simp only [cc7__dense_relu_kernel_eq_skeleton]; unfold cc7__dense_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7 _)

/-- The region's proof data on core c: the arrays as the region finds them; after the body each input's buffer at its
    block and the output's at the layer's value of the input blocks; nothing owed, full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is called with at point t, window by window, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' buffers hold their blocks, so the body's triple applies; the invariant and what
    the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation7 (c : Dev nD) : BodyObligation (dat7 (F := F) V c) (defs₀ (F := F)) Variants.none () Set.univ := fun t => by
  rw [bigSep_W7, bigSep_W7]
  exact sound_body7 V c t

end Cert.KernelIdeal.Fr

end
-- ==== Proof.KI.Bound.lean ====
/- The buffer contents at every boundary of @main's 21 segments (13 stretches of host operations, 8 dense
   layers), as a fold from the launch memory: a stretch applies its operations; a layer leaves its four arrays at what
   its write-backs left (the three inputs as entered, the output block by block) and every other buffer as it was.
   Then every layer's proof data at its entry contents, and what rides beside the buffers through every segment. -/
import proofs.«123229_j70574902608028_1_alg».proof.Proof.KI.Region0
import proofs.«123229_j70574902608028_1_alg».proof.Proof.KI.Region1
import proofs.«123229_j70574902608028_1_alg».proof.Proof.KI.Region2
import proofs.«123229_j70574902608028_1_alg».proof.Proof.KI.Region3
import proofs.«123229_j70574902608028_1_alg».proof.Proof.KI.Region4
import proofs.«123229_j70574902608028_1_alg».proof.Proof.KI.Region5
import proofs.«123229_j70574902608028_1_alg».proof.Proof.KI.Region6
import proofs.«123229_j70574902608028_1_alg».proof.Proof.KI.Region7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After the stretch main_part0_ops0. -/
abbrev W1 : Dev nD → Valuation τ sig (Elt F) := fun c => StableHlo.after main_part0_ops0 (W0 m ρ c)
/-- After the stretch main_part0_ops1. -/
abbrev W2 : Dev nD → Valuation τ sig (Elt F) := fun c => StableHlo.after main_part0_ops1 (W1 m ρ c)
/-- After the stretch main_part0_ops2. -/
abbrev W3 : Dev nD → Valuation τ sig (Elt F) := fun c => StableHlo.after main_part0_ops2 (W2 m ρ c)
/-- After the stretch main_part1_ops0. -/
abbrev W4 : Dev nD → Valuation τ sig (Elt F) := fun c => StableHlo.after main_part1_ops0 (W3 m ρ c)
/-- Layer 0's entry contents, read at the TensorCore's references. -/
abbrev V4 : (c : Dev nD) → (b : Ref sig .tc) → Buf (Elt F) ((c : Thread nD τ).loc b) := fun c b => W4 m ρ c b
/-- At layer 0's exit: its arrays at what the pipeline leaves, every other buffer as entered. -/
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
abbrev V5 : (c : Dev nD) → (b : Ref sig .tc) → Buf (Elt F) ((c : Thread nD τ).loc b) := fun c b => W5 m ρ c b
theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)
/-- After the stretch main_part1_ops1. -/
abbrev W6 : Dev nD → Valuation τ sig (Elt F) := fun c => StableHlo.after main_part1_ops1 (W5 m ρ c)
/-- After the stretch main_part2_ops0. -/
abbrev W7 : Dev nD → Valuation τ sig (Elt F) := fun c => StableHlo.after main_part2_ops0 (W6 m ρ c)
/-- Layer 1's entry contents, read at the TensorCore's references. -/
abbrev V7 : (c : Dev nD) → (b : Ref sig .tc) → Buf (Elt F) ((c : Thread nD τ).loc b) := fun c b => W7 m ρ c b
/-- At layer 1's exit: its arrays at what the pipeline leaves, every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)
/-- After the stretch main_part2_ops1. -/
abbrev W9 : Dev nD → Valuation τ sig (Elt F) := fun c => StableHlo.after main_part2_ops1 (W8 m ρ c)
/-- After the stretch main_part3_ops0. -/
abbrev W10 : Dev nD → Valuation τ sig (Elt F) := fun c => StableHlo.after main_part3_ops0 (W9 m ρ c)
/-- Layer 2's entry contents, read at the TensorCore's references. -/
abbrev V10 : (c : Dev nD) → (b : Ref sig .tc) → Buf (Elt F) ((c : Thread nD τ).loc b) := fun c b => W10 m ρ c b
/-- At layer 2's exit: its arrays at what the pipeline leaves, every other buffer as entered. -/
def W11 (c : Dev nD) : Valuation τ sig (Elt F) :=
  Pipeline.withArrays spec2 c (W10 m ρ c) fun w => (dat2 (V10 m ρ) c).arrAt w cfg2.N
theorem W11_arr (c : Dev nD) (w : Fin cfg2.W) :
    W11 m ρ c (Proc.devRef .tc (Pipeline.arrRef spec2 w)) = (dat2 (V10 m ρ) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m ρ c (Proc.devRef .tc b) = W10 m ρ c (Proc.devRef .tc b) := by
  unfold W11; exact Pipeline.withArrays_of_ne spec2 c _ _ b hb
abbrev V11 : (c : Dev nD) → (b : Ref sig .tc) → Buf (Elt F) ((c : Thread nD τ).loc b) := fun c b => W11 m ρ c b
theorem hF2 (c : Dev nD) (w : Fin cfg2.W) : (dat2 (V10 m ρ) c).arrAt w cfg2.N = V11 m ρ c (Pipeline.arrRef spec2 w) :=
  (W11_arr m ρ c w).symm
theorem hrest2 (c : Dev nD) : ∀ b, b ∉ Finset.univ.image (Pipeline.arrRef spec2) → V11 m ρ c b = V10 m ρ c b :=
  fun b hb => W11_of_ne m ρ c b fun w e => hb (Finset.mem_image.mpr ⟨w, Finset.mem_univ _, e⟩)
/-- After the stretch main_part3_ops1. -/
abbrev W12 : Dev nD → Valuation τ sig (Elt F) := fun c => StableHlo.after main_part3_ops1 (W11 m ρ c)
/-- Layer 3's entry contents, read at the TensorCore's references. -/
abbrev V12 : (c : Dev nD) → (b : Ref sig .tc) → Buf (Elt F) ((c : Thread nD τ).loc b) := fun c b => W12 m ρ c b
/-- At layer 3's exit: its arrays at what the pipeline leaves, every other buffer as entered. -/
def W13 (c : Dev nD) : Valuation τ sig (Elt F) :=
  Pipeline.withArrays spec3 c (W12 m ρ c) fun w => (dat3 (V12 m ρ) c).arrAt w cfg3.N
theorem W13_arr (c : Dev nD) (w : Fin cfg3.W) :
    W13 m ρ c (Proc.devRef .tc (Pipeline.arrRef spec3 w)) = (dat3 (V12 m ρ) c).arrAt w cfg3.N := by
  unfold W13; exact Pipeline.withArrays_arr spec3 launch3.win.arr_inj c _ _ w
theorem W13_of_ne (c : Dev nD) (b : Ref sig .tc) (hb : ∀ w, Pipeline.arrRef spec3 w ≠ b) :
    W13 m ρ c (Proc.devRef .tc b) = W12 m ρ c (Proc.devRef .tc b) := by
  unfold W13; exact Pipeline.withArrays_of_ne spec3 c _ _ b hb
abbrev V13 : (c : Dev nD) → (b : Ref sig .tc) → Buf (Elt F) ((c : Thread nD τ).loc b) := fun c b => W13 m ρ c b
theorem hF3 (c : Dev nD) (w : Fin cfg3.W) : (dat3 (V12 m ρ) c).arrAt w cfg3.N = V13 m ρ c (Pipeline.arrRef spec3 w) :=
  (W13_arr m ρ c w).symm
theorem hrest3 (c : Dev nD) : ∀ b, b ∉ Finset.univ.image (Pipeline.arrRef spec3) → V13 m ρ c b = V12 m ρ c b :=
  fun b hb => W13_of_ne m ρ c b fun w e => hb (Finset.mem_image.mpr ⟨w, Finset.mem_univ _, e⟩)
/-- After the stretch main_part3_ops2. -/
abbrev W14 : Dev nD → Valuation τ sig (Elt F) := fun c => StableHlo.after main_part3_ops2 (W13 m ρ c)
/-- Layer 4's entry contents, read at the TensorCore's references. -/
abbrev V14 : (c : Dev nD) → (b : Ref sig .tc) → Buf (Elt F) ((c : Thread nD τ).loc b) := fun c b => W14 m ρ c b
/-- At layer 4's exit: its arrays at what the pipeline leaves, every other buffer as entered. -/
def W15 (c : Dev nD) : Valuation τ sig (Elt F) :=
  Pipeline.withArrays spec4 c (W14 m ρ c) fun w => (dat4 (V14 m ρ) c).arrAt w cfg4.N
theorem W15_arr (c : Dev nD) (w : Fin cfg4.W) :
    W15 m ρ c (Proc.devRef .tc (Pipeline.arrRef spec4 w)) = (dat4 (V14 m ρ) c).arrAt w cfg4.N := by
  unfold W15; exact Pipeline.withArrays_arr spec4 launch4.win.arr_inj c _ _ w
theorem W15_of_ne (c : Dev nD) (b : Ref sig .tc) (hb : ∀ w, Pipeline.arrRef spec4 w ≠ b) :
    W15 m ρ c (Proc.devRef .tc b) = W14 m ρ c (Proc.devRef .tc b) := by
  unfold W15; exact Pipeline.withArrays_of_ne spec4 c _ _ b hb
abbrev V15 : (c : Dev nD) → (b : Ref sig .tc) → Buf (Elt F) ((c : Thread nD τ).loc b) := fun c b => W15 m ρ c b
theorem hF4 (c : Dev nD) (w : Fin cfg4.W) : (dat4 (V14 m ρ) c).arrAt w cfg4.N = V15 m ρ c (Pipeline.arrRef spec4 w) :=
  (W15_arr m ρ c w).symm
theorem hrest4 (c : Dev nD) : ∀ b, b ∉ Finset.univ.image (Pipeline.arrRef spec4) → V15 m ρ c b = V14 m ρ c b :=
  fun b hb => W15_of_ne m ρ c b fun w e => hb (Finset.mem_image.mpr ⟨w, Finset.mem_univ _, e⟩)
/-- After the stretch main_part3_ops3. -/
abbrev W16 : Dev nD → Valuation τ sig (Elt F) := fun c => StableHlo.after main_part3_ops3 (W15 m ρ c)
/-- Layer 5's entry contents, read at the TensorCore's references. -/
abbrev V16 : (c : Dev nD) → (b : Ref sig .tc) → Buf (Elt F) ((c : Thread nD τ).loc b) := fun c b => W16 m ρ c b
/-- At layer 5's exit: its arrays at what the pipeline leaves, every other buffer as entered. -/
def W17 (c : Dev nD) : Valuation τ sig (Elt F) :=
  Pipeline.withArrays spec5 c (W16 m ρ c) fun w => (dat5 (V16 m ρ) c).arrAt w cfg5.N
theorem W17_arr (c : Dev nD) (w : Fin cfg5.W) :
    W17 m ρ c (Proc.devRef .tc (Pipeline.arrRef spec5 w)) = (dat5 (V16 m ρ) c).arrAt w cfg5.N := by
  unfold W17; exact Pipeline.withArrays_arr spec5 launch5.win.arr_inj c _ _ w
theorem W17_of_ne (c : Dev nD) (b : Ref sig .tc) (hb : ∀ w, Pipeline.arrRef spec5 w ≠ b) :
    W17 m ρ c (Proc.devRef .tc b) = W16 m ρ c (Proc.devRef .tc b) := by
  unfold W17; exact Pipeline.withArrays_of_ne spec5 c _ _ b hb
abbrev V17 : (c : Dev nD) → (b : Ref sig .tc) → Buf (Elt F) ((c : Thread nD τ).loc b) := fun c b => W17 m ρ c b
theorem hF5 (c : Dev nD) (w : Fin cfg5.W) : (dat5 (V16 m ρ) c).arrAt w cfg5.N = V17 m ρ c (Pipeline.arrRef spec5 w) :=
  (W17_arr m ρ c w).symm
theorem hrest5 (c : Dev nD) : ∀ b, b ∉ Finset.univ.image (Pipeline.arrRef spec5) → V17 m ρ c b = V16 m ρ c b :=
  fun b hb => W17_of_ne m ρ c b fun w e => hb (Finset.mem_image.mpr ⟨w, Finset.mem_univ _, e⟩)
/-- After the stretch main_part3_ops4. -/
abbrev W18 : Dev nD → Valuation τ sig (Elt F) := fun c => StableHlo.after main_part3_ops4 (W17 m ρ c)
/-- Layer 6's entry contents, read at the TensorCore's references. -/
abbrev V18 : (c : Dev nD) → (b : Ref sig .tc) → Buf (Elt F) ((c : Thread nD τ).loc b) := fun c b => W18 m ρ c b
/-- At layer 6's exit: its arrays at what the pipeline leaves, every other buffer as entered. -/
def W19 (c : Dev nD) : Valuation τ sig (Elt F) :=
  Pipeline.withArrays spec6 c (W18 m ρ c) fun w => (dat6 (V18 m ρ) c).arrAt w cfg6.N
theorem W19_arr (c : Dev nD) (w : Fin cfg6.W) :
    W19 m ρ c (Proc.devRef .tc (Pipeline.arrRef spec6 w)) = (dat6 (V18 m ρ) c).arrAt w cfg6.N := by
  unfold W19; exact Pipeline.withArrays_arr spec6 launch6.win.arr_inj c _ _ w
theorem W19_of_ne (c : Dev nD) (b : Ref sig .tc) (hb : ∀ w, Pipeline.arrRef spec6 w ≠ b) :
    W19 m ρ c (Proc.devRef .tc b) = W18 m ρ c (Proc.devRef .tc b) := by
  unfold W19; exact Pipeline.withArrays_of_ne spec6 c _ _ b hb
abbrev V19 : (c : Dev nD) → (b : Ref sig .tc) → Buf (Elt F) ((c : Thread nD τ).loc b) := fun c b => W19 m ρ c b
theorem hF6 (c : Dev nD) (w : Fin cfg6.W) : (dat6 (V18 m ρ) c).arrAt w cfg6.N = V19 m ρ c (Pipeline.arrRef spec6 w) :=
  (W19_arr m ρ c w).symm
theorem hrest6 (c : Dev nD) : ∀ b, b ∉ Finset.univ.image (Pipeline.arrRef spec6) → V19 m ρ c b = V18 m ρ c b :=
  fun b hb => W19_of_ne m ρ c b fun w e => hb (Finset.mem_image.mpr ⟨w, Finset.mem_univ _, e⟩)
/-- After the stretch main_part3_ops5. -/
abbrev W20 : Dev nD → Valuation τ sig (Elt F) := fun c => StableHlo.after main_part3_ops5 (W19 m ρ c)
/-- Layer 7's entry contents, read at the TensorCore's references. -/
abbrev V20 : (c : Dev nD) → (b : Ref sig .tc) → Buf (Elt F) ((c : Thread nD τ).loc b) := fun c b => W20 m ρ c b
/-- At layer 7's exit: its arrays at what the pipeline leaves, every other buffer as entered. -/
def W21 (c : Dev nD) : Valuation τ sig (Elt F) :=
  Pipeline.withArrays spec7 c (W20 m ρ c) fun w => (dat7 (V20 m ρ) c).arrAt w cfg7.N
theorem W21_arr (c : Dev nD) (w : Fin cfg7.W) :
    W21 m ρ c (Proc.devRef .tc (Pipeline.arrRef spec7 w)) = (dat7 (V20 m ρ) c).arrAt w cfg7.N := by
  unfold W21; exact Pipeline.withArrays_arr spec7 launch7.win.arr_inj c _ _ w
theorem W21_of_ne (c : Dev nD) (b : Ref sig .tc) (hb : ∀ w, Pipeline.arrRef spec7 w ≠ b) :
    W21 m ρ c (Proc.devRef .tc b) = W20 m ρ c (Proc.devRef .tc b) := by
  unfold W21; exact Pipeline.withArrays_of_ne spec7 c _ _ b hb
abbrev V21 : (c : Dev nD) → (b : Ref sig .tc) → Buf (Elt F) ((c : Thread nD τ).loc b) := fun c b => W21 m ρ c b
theorem hF7 (c : Dev nD) (w : Fin cfg7.W) : (dat7 (V20 m ρ) c).arrAt w cfg7.N = V21 m ρ c (Pipeline.arrRef spec7 w) :=
  (W21_arr m ρ c w).symm
theorem hrest7 (c : Dev nD) : ∀ b, b ∉ Finset.univ.image (Pipeline.arrRef spec7) → V21 m ρ c b = V20 m ρ c b :=
  fun b hb => W21_of_ne m ρ c b fun w e => hb (Finset.mem_image.mpr ⟨w, Finset.mem_univ _, e⟩)

/-- No pipeline has a prefetched table. -/
abbrev adm : (p : Fin 8) → (pcfgs (F := F) p).Adm := fun p => (cfgs p).toPCfg_adm
/-- Every layer's proof data, each at its own entry contents: a literal match on the layer's number. -/
def pdats : (p : Fin 8) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V7 m ρ) c
  | ⟨2, _⟩ => fun c => dat2 (V10 m ρ) c
  | ⟨3, _⟩ => fun c => dat3 (V12 m ρ) c
  | ⟨4, _⟩ => fun c => dat4 (V14 m ρ) c
  | ⟨5, _⟩ => fun c => dat5 (V16 m ρ) c
  | ⟨6, _⟩ => fun c => dat6 (V18 m ρ) c
  | ⟨7, _⟩ => fun c => dat7 (V20 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers: the core's generator register at some state, and the core owing nothing. -/
abbrev R (c : Dev nD) : sProp 𝕄 := iprop((∃ r, prngReg c r) ∗ ∃ W, owes (c : Thread nD τ) (0 : CellTallies nD τ sig Unit) W)
/-- A stretch of host operations as a segment over the unscoped references, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of main_part0_ops0 allocates a buffer. -/
theorem main_part0_ops0_fresh : (main_part0_ops0 : List (HloOp τ sig (Elt F))).Forall fun op => op.fresh = ∅ := by
  simp only [List.Forall]; repeat' constructor
/-- No operation of main_part0_ops1 allocates a buffer. -/
theorem main_part0_ops1_fresh : (main_part0_ops1 : List (HloOp τ sig (Elt F))).Forall fun op => op.fresh = ∅ := by
  simp only [List.Forall]; repeat' constructor
/-- No operation of main_part0_ops2 allocates a buffer. -/
theorem main_part0_ops2_fresh : (main_part0_ops2 : List (HloOp τ sig (Elt F))).Forall fun op => op.fresh = ∅ := by
  simp only [List.Forall]; repeat' constructor
/-- No operation of main_part1_ops0 allocates a buffer. -/
theorem main_part1_ops0_fresh : (main_part1_ops0 : List (HloOp τ sig (Elt F))).Forall fun op => op.fresh = ∅ := by
  simp only [List.Forall]; repeat' constructor
/-- No operation of main_part1_ops1 allocates a buffer. -/
theorem main_part1_ops1_fresh : (main_part1_ops1 : List (HloOp τ sig (Elt F))).Forall fun op => op.fresh = ∅ := by
  simp only [List.Forall]; repeat' constructor
/-- No operation of main_part2_ops0 allocates a buffer. -/
theorem main_part2_ops0_fresh : (main_part2_ops0 : List (HloOp τ sig (Elt F))).Forall fun op => op.fresh = ∅ := by
  simp only [List.Forall]; repeat' constructor
/-- No operation of main_part2_ops1 allocates a buffer. -/
theorem main_part2_ops1_fresh : (main_part2_ops1 : List (HloOp τ sig (Elt F))).Forall fun op => op.fresh = ∅ := by
  simp only [List.Forall]; repeat' constructor
/-- No operation of main_part3_ops0 allocates a buffer. -/
theorem main_part3_ops0_fresh : (main_part3_ops0 : List (HloOp τ sig (Elt F))).Forall fun op => op.fresh = ∅ := by
  simp only [List.Forall]; repeat' constructor
/-- No operation of main_part3_ops1 allocates a buffer. -/
theorem main_part3_ops1_fresh : (main_part3_ops1 : List (HloOp τ sig (Elt F))).Forall fun op => op.fresh = ∅ := by
  simp only [List.Forall]; repeat' constructor
/-- No operation of main_part3_ops2 allocates a buffer. -/
theorem main_part3_ops2_fresh : (main_part3_ops2 : List (HloOp τ sig (Elt F))).Forall fun op => op.fresh = ∅ := by
  simp only [List.Forall]; repeat' constructor
/-- No operation of main_part3_ops3 allocates a buffer. -/
theorem main_part3_ops3_fresh : (main_part3_ops3 : List (HloOp τ sig (Elt F))).Forall fun op => op.fresh = ∅ := by
  simp only [List.Forall]; repeat' constructor
/-- No operation of main_part3_ops4 allocates a buffer. -/
theorem main_part3_ops4_fresh : (main_part3_ops4 : List (HloOp τ sig (Elt F))).Forall fun op => op.fresh = ∅ := by
  simp only [List.Forall]; repeat' constructor
/-- No operation of main_part3_ops5 allocates a buffer. -/
theorem main_part3_ops5_fresh : (main_part3_ops5 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents. -/
abbrev Tₙ (c : Dev nD) : sProp 𝕄 := iprop(StableHlo.held (c : Thread nD τ) (Pipeline.ucRefs τ sig) (W21 m ρ c) ∗ ∃ r, prngReg c r)

end Cert.KernelIdeal.Fr

end
-- ==== Proof.KI.Reg0.lean ====
/- Layer 0 as a segment of @main's run: entered with every unscoped buffer at the boundary contents before it,
   left with them at the contents after it. Its four arrays are split out of the unscoped buffers on entry and put
   back at the exit contents; the generator register goes into the layer's invariant and comes back; nothing is owed. -/
import proofs.«123229_j70574902608028_1_alg».proof.Proof.KI.Bound
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg1.lean ====
/- Layer 1 as a segment of @main's run: entered with every unscoped buffer at the boundary contents before it,
   left with them at the contents after it. Its four arrays are split out of the unscoped buffers on entry and put
   back at the exit contents; the generator register goes into the layer's invariant and comes back; nothing is owed. -/
import proofs.«123229_j70574902608028_1_alg».proof.Proof.KI.Bound
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg2.lean ====
/- Layer 2 as a segment of @main's run: entered with every unscoped buffer at the boundary contents before it,
   left with them at the contents after it. Its four arrays are split out of the unscoped buffers on entry and put
   back at the exit contents; the generator register goes into the layer's invariant and comes back; nothing is owed. -/
import proofs.«123229_j70574902608028_1_alg».proof.Proof.KI.Bound
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V10 m ρ) c).loose
  hwaits := Pipeline.hwaits_of_owed_zero _ _ _ _ L lv 2 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec2 c (V10 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V10 m ρ c) (V11 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg3.lean ====
/- Layer 3 as a segment of @main's run: entered with every unscoped buffer at the boundary contents before it,
   left with them at the contents after it. Its four arrays are split out of the unscoped buffers on entry and put
   back at the exit contents; the generator register goes into the layer's invariant and comes back; nothing is owed. -/
import proofs.«123229_j70574902608028_1_alg».proof.Proof.KI.Bound
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V12 m ρ) c).loose
  hwaits := Pipeline.hwaits_of_owed_zero _ _ _ _ L lv 3 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec3 c (V12 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V12 m ρ c) (V13 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg4.lean ====
/- Layer 4 as a segment of @main's run: entered with every unscoped buffer at the boundary contents before it,
   left with them at the contents after it. Its four arrays are split out of the unscoped buffers on entry and put
   back at the exit contents; the generator register goes into the layer's invariant and comes back; nothing is owed. -/
import proofs.«123229_j70574902608028_1_alg».proof.Proof.KI.Bound
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V14 m ρ) c).loose
  hwaits := Pipeline.hwaits_of_owed_zero _ _ _ _ L lv 4 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec4 c (V14 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V14 m ρ c) (V15 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg5.lean ====
/- Layer 5 as a segment of @main's run: entered with every unscoped buffer at the boundary contents before it,
   left with them at the contents after it. Its four arrays are split out of the unscoped buffers on entry and put
   back at the exit contents; the generator register goes into the layer's invariant and comes back; nothing is owed. -/
import proofs.«123229_j70574902608028_1_alg».proof.Proof.KI.Bound
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V16 m ρ) c).loose
  hwaits := Pipeline.hwaits_of_owed_zero _ _ _ _ L lv 5 fun _ _ => rfl
  pre c := iprop(StableHlo.held (c : Thread nD τ) (Pipeline.ucRefs τ sig) (W16 m ρ c) ∗ R c)
  post c := iprop(StableHlo.held (c : Thread nD τ) (Pipeline.ucRefs τ sig) (W17 m ρ c) ∗ R c)
  X c := iprop(∃ r, prngReg c r)
  Y c := iprop(∃ r, prngReg c r)
  Z c := Pipeline.unscopedRest (Ix := Unit) (Name := ℕ) (U := UR sig nD τ) (Lvl := ℕ) spec5 c (V16 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V16 m ρ c) (V17 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg6.lean ====
/- Layer 6 as a segment of @main's run: entered with every unscoped buffer at the boundary contents before it,
   left with them at the contents after it. Its four arrays are split out of the unscoped buffers on entry and put
   back at the exit contents; the generator register goes into the layer's invariant and comes back; nothing is owed. -/
import proofs.«123229_j70574902608028_1_alg».proof.Proof.KI.Bound
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V18 m ρ) c).loose
  hwaits := Pipeline.hwaits_of_owed_zero _ _ _ _ L lv 6 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec6 c (V18 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V18 m ρ c) (V19 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Reg7.lean ====
/- Layer 7 as a segment of @main's run: entered with every unscoped buffer at the boundary contents before it,
   left with them at the contents after it. Its four arrays are split out of the unscoped buffers on entry and put
   back at the exit contents; the generator register goes into the layer's invariant and comes back; nothing is owed. -/
import proofs.«123229_j70574902608028_1_alg».proof.Proof.KI.Bound
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V20 m ρ) c).loose
  hwaits := Pipeline.hwaits_of_owed_zero _ _ _ _ L lv 7 fun _ _ => rfl
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := UR sig nD τ) (Lvl := ℕ) spec7 c (V20 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V20 m ρ c) (V21 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.KI.Run.lean ====
/- @main's run: its 21 segments in order — a host segment per stretch from its boundary's contents, a region per
   dense layer — launched from a memory with zero counters. Every weakly fair execution terminates without a fault,
   and in every final state each unscoped buffer of each core holds the last boundary's contents. -/
import proofs.«123229_j70574902608028_1_alg».proof.Proof.KI.Reg0
import proofs.«123229_j70574902608028_1_alg».proof.Proof.KI.Reg1
import proofs.«123229_j70574902608028_1_alg».proof.Proof.KI.Reg2
import proofs.«123229_j70574902608028_1_alg».proof.Proof.KI.Reg3
import proofs.«123229_j70574902608028_1_alg».proof.Proof.KI.Reg4
import proofs.«123229_j70574902608028_1_alg».proof.Proof.KI.Reg5
import proofs.«123229_j70574902608028_1_alg».proof.Proof.KI.Reg6
import proofs.«123229_j70574902608028_1_alg».proof.Proof.KI.Reg7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m ρ) () defs₀ 𝒱₀ L lv) :=
  [
    .host (hseg main_part0_ops0 main_part0_ops0_sub main_part0_ops0_fresh (W0 m ρ)),
    .host (hseg main_part0_ops1 main_part0_ops1_sub main_part0_ops1_fresh (W1 m ρ)),
    .host (hseg main_part0_ops2 main_part0_ops2_sub main_part0_ops2_fresh (W2 m ρ)),
    .host (hseg main_part1_ops0 main_part1_ops0_sub main_part1_ops0_fresh (W3 m ρ)),
    .region (reg0 m ρ),
    .host (hseg main_part1_ops1 main_part1_ops1_sub main_part1_ops1_fresh (W5 m ρ)),
    .host (hseg main_part2_ops0 main_part2_ops0_sub main_part2_ops0_fresh (W6 m ρ)),
    .region (reg1 m ρ),
    .host (hseg main_part2_ops1 main_part2_ops1_sub main_part2_ops1_fresh (W8 m ρ)),
    .host (hseg main_part3_ops0 main_part3_ops0_sub main_part3_ops0_fresh (W9 m ρ)),
    .region (reg2 m ρ),
    .host (hseg main_part3_ops1 main_part3_ops1_sub main_part3_ops1_fresh (W11 m ρ)),
    .region (reg3 m ρ),
    .host (hseg main_part3_ops2 main_part3_ops2_sub main_part3_ops2_fresh (W13 m ρ)),
    .region (reg4 m ρ),
    .host (hseg main_part3_ops3 main_part3_ops3_sub main_part3_ops3_fresh (W15 m ρ)),
    .region (reg5 m ρ),
    .host (hseg main_part3_ops4 main_part3_ops4_sub main_part3_ops4_fresh (W17 m ρ)),
    .region (reg6 m ρ),
    .host (hseg main_part3_ops5 main_part3_ops5_sub main_part3_ops5_fresh (W19 m ρ)),
    .region (reg7 m ρ) ]

/-- @main is the run of the segments: its chain of stretches and launches, cut where the printed text is cut. -/
theorem main_run (c : Dev nD) : main (F := F) c = Pipeline.Seg.run (segs m ρ) := (main_chain_windows c).trans (by chain_rfl)

set_option backward.isDefEq.respectTransparency.types false in
theorem run : θ_run defs (onTc (τ := τ) (main (F := F))) ⟨m, fun _ => 0, ρ⟩ (fun r => ∀ c : Dev nD,
      ∀ b ∈ Pipeline.ucRefs τ sig, r.2.mem (((c : Thread nD τ)).1, b) = W21 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W21 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c => h c)

end Cert.KernelIdeal.Fr

end
-- ==== Proof.KI.Kept.lean ====
/- The argument arrays end as launched. No host operation writes an argument (each writes only its own result),
   and a dense layer leaves every array but its output as it found it (an argument it reads through an input window
   included), so the fold of buffer contents, read at an argument, walks back boundary by boundary to the launch memory. -/
import proofs.«123229_j70574902608028_1_alg».proof.Proof.KI.Bound
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The seventeen argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16]

/-- An argument is not a reference that is no argument. -/
theorem ne_of_arg {b y : Ref sig .tc} (hb : b ∈ argRefs) (hy : y ∉ argRefs) : b ≠ y := fun e => hy (e ▸ hb)

set_option maxHeartbeats 2000000 in
theorem keepH0 (c : Dev nD) (b : Ref sig .tc) (hb : b ∈ argRefs) :
    W1 m ρ c (Proc.devRef .tc b) = W0 m ρ c (Proc.devRef .tc b) := by
  refine StableHlo.after_of_forall_not_mem (b := Proc.devRef .tc b) _ _ (List.forall_iff_forall_mem.mp ?_)
  simp only [main_part0_ops0, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (ne_of_arg hb (by decide))

set_option maxHeartbeats 2000000 in
theorem keepH1 (c : Dev nD) (b : Ref sig .tc) (hb : b ∈ argRefs) :
    W2 m ρ c (Proc.devRef .tc b) = W1 m ρ c (Proc.devRef .tc b) := by
  refine StableHlo.after_of_forall_not_mem (b := Proc.devRef .tc b) _ _ (List.forall_iff_forall_mem.mp ?_)
  simp only [main_part0_ops1, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (ne_of_arg hb (by decide))

set_option maxHeartbeats 2000000 in
theorem keepH2 (c : Dev nD) (b : Ref sig .tc) (hb : b ∈ argRefs) :
    W3 m ρ c (Proc.devRef .tc b) = W2 m ρ c (Proc.devRef .tc b) := by
  refine StableHlo.after_of_forall_not_mem (b := Proc.devRef .tc b) _ _ (List.forall_iff_forall_mem.mp ?_)
  simp only [main_part0_ops2, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (ne_of_arg hb (by decide))

set_option maxHeartbeats 2000000 in
theorem keepH3 (c : Dev nD) (b : Ref sig .tc) (hb : b ∈ argRefs) :
    W4 m ρ c (Proc.devRef .tc b) = W3 m ρ c (Proc.devRef .tc b) := by
  refine StableHlo.after_of_forall_not_mem (b := Proc.devRef .tc b) _ _ (List.forall_iff_forall_mem.mp ?_)
  simp only [main_part1_ops0, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (ne_of_arg hb (by decide))

/-- Layer 0 changes only its output array. -/
theorem keepR0 (c : Dev nD) (b : Ref sig .tc) (hb : Pipeline.arrRef spec0 3 ≠ b) :
    W5 m ρ c (Proc.devRef .tc b) = W4 m ρ c (Proc.devRef .tc b) := by
  by_cases h0 : Pipeline.arrRef spec0 0 = b
  · subst h0; exact (W5_arr m ρ c 0).trans (((dat0 (V4 m ρ) c).arrAt_in 0 rfl _).trans (A_eq0 (V4 m ρ) c 0))
  by_cases h1 : Pipeline.arrRef spec0 1 = b
  · subst h1; exact (W5_arr m ρ c 1).trans (((dat0 (V4 m ρ) c).arrAt_in 1 rfl _).trans (A_eq0 (V4 m ρ) c 1))
  by_cases h2 : Pipeline.arrRef spec0 2 = b
  · subst h2; exact (W5_arr m ρ c 2).trans (((dat0 (V4 m ρ) c).arrAt_in 2 rfl _).trans (A_eq0 (V4 m ρ) c 2))
  exact W5_of_ne m ρ c b (fun w => by
    match w with
    | ⟨0, _⟩ => exact h0
    | ⟨1, _⟩ => exact h1
    | ⟨2, _⟩ => exact h2
    | ⟨3, _⟩ => exact hb)

set_option maxHeartbeats 2000000 in
theorem keepH5 (c : Dev nD) (b : Ref sig .tc) (hb : b ∈ argRefs) :
    W6 m ρ c (Proc.devRef .tc b) = W5 m ρ c (Proc.devRef .tc b) := by
  refine StableHlo.after_of_forall_not_mem (b := Proc.devRef .tc b) _ _ (List.forall_iff_forall_mem.mp ?_)
  simp only [main_part1_ops1, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (ne_of_arg hb (by decide))

set_option maxHeartbeats 2000000 in
theorem keepH6 (c : Dev nD) (b : Ref sig .tc) (hb : b ∈ argRefs) :
    W7 m ρ c (Proc.devRef .tc b) = W6 m ρ c (Proc.devRef .tc b) := by
  refine StableHlo.after_of_forall_not_mem (b := Proc.devRef .tc b) _ _ (List.forall_iff_forall_mem.mp ?_)
  simp only [main_part2_ops0, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (ne_of_arg hb (by decide))

/-- Layer 1 changes only its output array. -/
theorem keepR1 (c : Dev nD) (b : Ref sig .tc) (hb : Pipeline.arrRef spec1 3 ≠ b) :
    W8 m ρ c (Proc.devRef .tc b) = W7 m ρ c (Proc.devRef .tc b) := by
  by_cases h0 : Pipeline.arrRef spec1 0 = b
  · subst h0; exact (W8_arr m ρ c 0).trans (((dat1 (V7 m ρ) c).arrAt_in 0 rfl _).trans (A_eq1 (V7 m ρ) c 0))
  by_cases h1 : Pipeline.arrRef spec1 1 = b
  · subst h1; exact (W8_arr m ρ c 1).trans (((dat1 (V7 m ρ) c).arrAt_in 1 rfl _).trans (A_eq1 (V7 m ρ) c 1))
  by_cases h2 : Pipeline.arrRef spec1 2 = b
  · subst h2; exact (W8_arr m ρ c 2).trans (((dat1 (V7 m ρ) c).arrAt_in 2 rfl _).trans (A_eq1 (V7 m ρ) c 2))
  exact W8_of_ne m ρ c b (fun w => by
    match w with
    | ⟨0, _⟩ => exact h0
    | ⟨1, _⟩ => exact h1
    | ⟨2, _⟩ => exact h2
    | ⟨3, _⟩ => exact hb)

set_option maxHeartbeats 2000000 in
theorem keepH8 (c : Dev nD) (b : Ref sig .tc) (hb : b ∈ argRefs) :
    W9 m ρ c (Proc.devRef .tc b) = W8 m ρ c (Proc.devRef .tc b) := by
  refine StableHlo.after_of_forall_not_mem (b := Proc.devRef .tc b) _ _ (List.forall_iff_forall_mem.mp ?_)
  simp only [main_part2_ops1, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (ne_of_arg hb (by decide))

set_option maxHeartbeats 2000000 in
theorem keepH9 (c : Dev nD) (b : Ref sig .tc) (hb : b ∈ argRefs) :
    W10 m ρ c (Proc.devRef .tc b) = W9 m ρ c (Proc.devRef .tc b) := by
  refine StableHlo.after_of_forall_not_mem (b := Proc.devRef .tc b) _ _ (List.forall_iff_forall_mem.mp ?_)
  simp only [main_part3_ops0, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (ne_of_arg hb (by decide))

/-- Layer 2 changes only its output array. -/
theorem keepR2 (c : Dev nD) (b : Ref sig .tc) (hb : Pipeline.arrRef spec2 3 ≠ b) :
    W11 m ρ c (Proc.devRef .tc b) = W10 m ρ c (Proc.devRef .tc b) := by
  by_cases h0 : Pipeline.arrRef spec2 0 = b
  · subst h0; exact (W11_arr m ρ c 0).trans (((dat2 (V10 m ρ) c).arrAt_in 0 rfl _).trans (A_eq2 (V10 m ρ) c 0))
  by_cases h1 : Pipeline.arrRef spec2 1 = b
  · subst h1; exact (W11_arr m ρ c 1).trans (((dat2 (V10 m ρ) c).arrAt_in 1 rfl _).trans (A_eq2 (V10 m ρ) c 1))
  by_cases h2 : Pipeline.arrRef spec2 2 = b
  · subst h2; exact (W11_arr m ρ c 2).trans (((dat2 (V10 m ρ) c).arrAt_in 2 rfl _).trans (A_eq2 (V10 m ρ) c 2))
  exact W11_of_ne m ρ c b (fun w => by
    match w with
    | ⟨0, _⟩ => exact h0
    | ⟨1, _⟩ => exact h1
    | ⟨2, _⟩ => exact h2
    | ⟨3, _⟩ => exact hb)

set_option maxHeartbeats 2000000 in
theorem keepH11 (c : Dev nD) (b : Ref sig .tc) (hb : b ∈ argRefs) :
    W12 m ρ c (Proc.devRef .tc b) = W11 m ρ c (Proc.devRef .tc b) := by
  refine StableHlo.after_of_forall_not_mem (b := Proc.devRef .tc b) _ _ (List.forall_iff_forall_mem.mp ?_)
  simp only [main_part3_ops1, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (ne_of_arg hb (by decide))

/-- Layer 3 changes only its output array. -/
theorem keepR3 (c : Dev nD) (b : Ref sig .tc) (hb : Pipeline.arrRef spec3 3 ≠ b) :
    W13 m ρ c (Proc.devRef .tc b) = W12 m ρ c (Proc.devRef .tc b) := by
  by_cases h0 : Pipeline.arrRef spec3 0 = b
  · subst h0; exact (W13_arr m ρ c 0).trans (((dat3 (V12 m ρ) c).arrAt_in 0 rfl _).trans (A_eq3 (V12 m ρ) c 0))
  by_cases h1 : Pipeline.arrRef spec3 1 = b
  · subst h1; exact (W13_arr m ρ c 1).trans (((dat3 (V12 m ρ) c).arrAt_in 1 rfl _).trans (A_eq3 (V12 m ρ) c 1))
  by_cases h2 : Pipeline.arrRef spec3 2 = b
  · subst h2; exact (W13_arr m ρ c 2).trans (((dat3 (V12 m ρ) c).arrAt_in 2 rfl _).trans (A_eq3 (V12 m ρ) c 2))
  exact W13_of_ne m ρ c b (fun w => by
    match w with
    | ⟨0, _⟩ => exact h0
    | ⟨1, _⟩ => exact h1
    | ⟨2, _⟩ => exact h2
    | ⟨3, _⟩ => exact hb)

set_option maxHeartbeats 2000000 in
theorem keepH13 (c : Dev nD) (b : Ref sig .tc) (hb : b ∈ argRefs) :
    W14 m ρ c (Proc.devRef .tc b) = W13 m ρ c (Proc.devRef .tc b) := by
  refine StableHlo.after_of_forall_not_mem (b := Proc.devRef .tc b) _ _ (List.forall_iff_forall_mem.mp ?_)
  simp only [main_part3_ops2, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (ne_of_arg hb (by decide))

/-- Layer 4 changes only its output array. -/
theorem keepR4 (c : Dev nD) (b : Ref sig .tc) (hb : Pipeline.arrRef spec4 3 ≠ b) :
    W15 m ρ c (Proc.devRef .tc b) = W14 m ρ c (Proc.devRef .tc b) := by
  by_cases h0 : Pipeline.arrRef spec4 0 = b
  · subst h0; exact (W15_arr m ρ c 0).trans (((dat4 (V14 m ρ) c).arrAt_in 0 rfl _).trans (A_eq4 (V14 m ρ) c 0))
  by_cases h1 : Pipeline.arrRef spec4 1 = b
  · subst h1; exact (W15_arr m ρ c 1).trans (((dat4 (V14 m ρ) c).arrAt_in 1 rfl _).trans (A_eq4 (V14 m ρ) c 1))
  by_cases h2 : Pipeline.arrRef spec4 2 = b
  · subst h2; exact (W15_arr m ρ c 2).trans (((dat4 (V14 m ρ) c).arrAt_in 2 rfl _).trans (A_eq4 (V14 m ρ) c 2))
  exact W15_of_ne m ρ c b (fun w => by
    match w with
    | ⟨0, _⟩ => exact h0
    | ⟨1, _⟩ => exact h1
    | ⟨2, _⟩ => exact h2
    | ⟨3, _⟩ => exact hb)

set_option maxHeartbeats 2000000 in
theorem keepH15 (c : Dev nD) (b : Ref sig .tc) (hb : b ∈ argRefs) :
    W16 m ρ c (Proc.devRef .tc b) = W15 m ρ c (Proc.devRef .tc b) := by
  refine StableHlo.after_of_forall_not_mem (b := Proc.devRef .tc b) _ _ (List.forall_iff_forall_mem.mp ?_)
  simp only [main_part3_ops3, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (ne_of_arg hb (by decide))

/-- Layer 5 changes only its output array. -/
theorem keepR5 (c : Dev nD) (b : Ref sig .tc) (hb : Pipeline.arrRef spec5 3 ≠ b) :
    W17 m ρ c (Proc.devRef .tc b) = W16 m ρ c (Proc.devRef .tc b) := by
  by_cases h0 : Pipeline.arrRef spec5 0 = b
  · subst h0; exact (W17_arr m ρ c 0).trans (((dat5 (V16 m ρ) c).arrAt_in 0 rfl _).trans (A_eq5 (V16 m ρ) c 0))
  by_cases h1 : Pipeline.arrRef spec5 1 = b
  · subst h1; exact (W17_arr m ρ c 1).trans (((dat5 (V16 m ρ) c).arrAt_in 1 rfl _).trans (A_eq5 (V16 m ρ) c 1))
  by_cases h2 : Pipeline.arrRef spec5 2 = b
  · subst h2; exact (W17_arr m ρ c 2).trans (((dat5 (V16 m ρ) c).arrAt_in 2 rfl _).trans (A_eq5 (V16 m ρ) c 2))
  exact W17_of_ne m ρ c b (fun w => by
    match w with
    | ⟨0, _⟩ => exact h0
    | ⟨1, _⟩ => exact h1
    | ⟨2, _⟩ => exact h2
    | ⟨3, _⟩ => exact hb)

set_option maxHeartbeats 2000000 in
theorem keepH17 (c : Dev nD) (b : Ref sig .tc) (hb : b ∈ argRefs) :
    W18 m ρ c (Proc.devRef .tc b) = W17 m ρ c (Proc.devRef .tc b) := by
  refine StableHlo.after_of_forall_not_mem (b := Proc.devRef .tc b) _ _ (List.forall_iff_forall_mem.mp ?_)
  simp only [main_part3_ops4, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (ne_of_arg hb (by decide))

/-- Layer 6 changes only its output array. -/
theorem keepR6 (c : Dev nD) (b : Ref sig .tc) (hb : Pipeline.arrRef spec6 3 ≠ b) :
    W19 m ρ c (Proc.devRef .tc b) = W18 m ρ c (Proc.devRef .tc b) := by
  by_cases h0 : Pipeline.arrRef spec6 0 = b
  · subst h0; exact (W19_arr m ρ c 0).trans (((dat6 (V18 m ρ) c).arrAt_in 0 rfl _).trans (A_eq6 (V18 m ρ) c 0))
  by_cases h1 : Pipeline.arrRef spec6 1 = b
  · subst h1; exact (W19_arr m ρ c 1).trans (((dat6 (V18 m ρ) c).arrAt_in 1 rfl _).trans (A_eq6 (V18 m ρ) c 1))
  by_cases h2 : Pipeline.arrRef spec6 2 = b
  · subst h2; exact (W19_arr m ρ c 2).trans (((dat6 (V18 m ρ) c).arrAt_in 2 rfl _).trans (A_eq6 (V18 m ρ) c 2))
  exact W19_of_ne m ρ c b (fun w => by
    match w with
    | ⟨0, _⟩ => exact h0
    | ⟨1, _⟩ => exact h1
    | ⟨2, _⟩ => exact h2
    | ⟨3, _⟩ => exact hb)

set_option maxHeartbeats 2000000 in
theorem keepH19 (c : Dev nD) (b : Ref sig .tc) (hb : b ∈ argRefs) :
    W20 m ρ c (Proc.devRef .tc b) = W19 m ρ c (Proc.devRef .tc b) := by
  refine StableHlo.after_of_forall_not_mem (b := Proc.devRef .tc b) _ _ (List.forall_iff_forall_mem.mp ?_)
  simp only [main_part3_ops5, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (ne_of_arg hb (by decide))

/-- Layer 7 changes only its output array. -/
theorem keepR7 (c : Dev nD) (b : Ref sig .tc) (hb : Pipeline.arrRef spec7 3 ≠ b) :
    W21 m ρ c (Proc.devRef .tc b) = W20 m ρ c (Proc.devRef .tc b) := by
  by_cases h0 : Pipeline.arrRef spec7 0 = b
  · subst h0; exact (W21_arr m ρ c 0).trans (((dat7 (V20 m ρ) c).arrAt_in 0 rfl _).trans (A_eq7 (V20 m ρ) c 0))
  by_cases h1 : Pipeline.arrRef spec7 1 = b
  · subst h1; exact (W21_arr m ρ c 1).trans (((dat7 (V20 m ρ) c).arrAt_in 1 rfl _).trans (A_eq7 (V20 m ρ) c 1))
  by_cases h2 : Pipeline.arrRef spec7 2 = b
  · subst h2; exact (W21_arr m ρ c 2).trans (((dat7 (V20 m ρ) c).arrAt_in 2 rfl _).trans (A_eq7 (V20 m ρ) c 2))
  exact W21_of_ne m ρ c b (fun w => by
    match w with
    | ⟨0, _⟩ => exact h0
    | ⟨1, _⟩ => exact h1
    | ⟨2, _⟩ => exact h2
    | ⟨3, _⟩ => exact hb)

/-- Layer 0's output array is no argument. -/
theorem ho0 (b : Ref sig .tc) (hb : b ∈ argRefs) : Pipeline.arrRef spec0 3 ≠ b := by
  simp only [argRefs, List.mem_cons, List.not_mem_nil, or_false] at hb
  rcases hb with rfl | rfl | rfl | rfl | rfl | rfl | rfl | rfl | rfl | rfl | rfl | rfl | rfl | rfl | rfl | rfl | rfl <;> decide

/-- Layer 1's output array is no argument. -/
theorem ho1 (b : Ref sig .tc) (hb : b ∈ argRefs) : Pipeline.arrRef spec1 3 ≠ b := by
  simp only [argRefs, List.mem_cons, List.not_mem_nil, or_false] at hb
  rcases hb with rfl | rfl | rfl | rfl | rfl | rfl | rfl | rfl | rfl | rfl | rfl | rfl | rfl | rfl | rfl | rfl | rfl <;> decide

/-- Layer 2's output array is no argument. -/
theorem ho2 (b : Ref sig .tc) (hb : b ∈ argRefs) : Pipeline.arrRef spec2 3 ≠ b := by
  simp only [argRefs, List.mem_cons, List.not_mem_nil, or_false] at hb
  rcases hb with rfl | rfl | rfl | rfl | rfl | rfl | rfl | rfl | rfl | rfl | rfl | rfl | rfl | rfl | rfl | rfl | rfl <;> decide

/-- Layer 3's output array is no argument. -/
theorem ho3 (b : Ref sig .tc) (hb : b ∈ argRefs) : Pipeline.arrRef spec3 3 ≠ b := by
  simp only [argRefs, List.mem_cons, List.not_mem_nil, or_false] at hb
  rcases hb with rfl | rfl | rfl | rfl | rfl | rfl | rfl | rfl | rfl | rfl | rfl | rfl | rfl | rfl | rfl | rfl | rfl <;> decide

/-- Layer 4's output array is no argument. -/
theorem ho4 (b : Ref sig .tc) (hb : b ∈ argRefs) : Pipeline.arrRef spec4 3 ≠ b := by
  simp only [argRefs, List.mem_cons, List.not_mem_nil, or_false] at hb
  rcases hb with rfl | rfl | rfl | rfl | rfl | rfl | rfl | rfl | rfl | rfl | rfl | rfl | rfl | rfl | rfl | rfl | rfl <;> decide

/-- Layer 5's output array is no argument. -/
theorem ho5 (b : Ref sig .tc) (hb : b ∈ argRefs) : Pipeline.arrRef spec5 3 ≠ b := by
  simp only [argRefs, List.mem_cons, List.not_mem_nil, or_false] at hb
  rcases hb with rfl | rfl | rfl | rfl | rfl | rfl | rfl | rfl | rfl | rfl | rfl | rfl | rfl | rfl | rfl | rfl | rfl <;> decide

/-- Layer 6's output array is no argument. -/
theorem ho6 (b : Ref sig .tc) (hb : b ∈ argRefs) : Pipeline.arrRef spec6 3 ≠ b := by
  simp only [argRefs, List.mem_cons, List.not_mem_nil, or_false] at hb
  rcases hb with rfl | rfl | rfl | rfl | rfl | rfl | rfl | rfl | rfl | rfl | rfl | rfl | rfl | rfl | rfl | rfl | rfl <;> decide

/-- Layer 7's output array is no argument. -/
theorem ho7 (b : Ref sig .tc) (hb : b ∈ argRefs) : Pipeline.arrRef spec7 3 ≠ b := by
  simp only [argRefs, List.mem_cons, List.not_mem_nil, or_false] at hb
  rcases hb with rfl | rfl | rfl | rfl | rfl | rfl | rfl | rfl | rfl | rfl | rfl | rfl | rfl | rfl | rfl | rfl | rfl <;> decide

/-- At every boundary every argument array holds its launch contents: one step at a time. -/
theorem kept0 (c : Dev nD) (b : Ref sig .tc) (hb : b ∈ argRefs) :
    W0 m ρ c (Proc.devRef .tc b) = m ((c : Thread nD τ).loc b) := rfl
theorem kept1 (c : Dev nD) (b : Ref sig .tc) (hb : b ∈ argRefs) :
    W1 m ρ c (Proc.devRef .tc b) = m ((c : Thread nD τ).loc b) := (keepH0 m ρ c b hb).trans (kept0 m ρ c b hb)
theorem kept2 (c : Dev nD) (b : Ref sig .tc) (hb : b ∈ argRefs) :
    W2 m ρ c (Proc.devRef .tc b) = m ((c : Thread nD τ).loc b) := (keepH1 m ρ c b hb).trans (kept1 m ρ c b hb)
theorem kept3 (c : Dev nD) (b : Ref sig .tc) (hb : b ∈ argRefs) :
    W3 m ρ c (Proc.devRef .tc b) = m ((c : Thread nD τ).loc b) := (keepH2 m ρ c b hb).trans (kept2 m ρ c b hb)
theorem kept4 (c : Dev nD) (b : Ref sig .tc) (hb : b ∈ argRefs) :
    W4 m ρ c (Proc.devRef .tc b) = m ((c : Thread nD τ).loc b) := (keepH3 m ρ c b hb).trans (kept3 m ρ c b hb)
theorem kept5 (c : Dev nD) (b : Ref sig .tc) (hb : b ∈ argRefs) :
    W5 m ρ c (Proc.devRef .tc b) = m ((c : Thread nD τ).loc b) := (keepR0 m ρ c b (ho0 b hb)).trans (kept4 m ρ c b hb)
theorem kept6 (c : Dev nD) (b : Ref sig .tc) (hb : b ∈ argRefs) :
    W6 m ρ c (Proc.devRef .tc b) = m ((c : Thread nD τ).loc b) := (keepH5 m ρ c b hb).trans (kept5 m ρ c b hb)
theorem kept7 (c : Dev nD) (b : Ref sig .tc) (hb : b ∈ argRefs) :
    W7 m ρ c (Proc.devRef .tc b) = m ((c : Thread nD τ).loc b) := (keepH6 m ρ c b hb).trans (kept6 m ρ c b hb)
theorem kept8 (c : Dev nD) (b : Ref sig .tc) (hb : b ∈ argRefs) :
    W8 m ρ c (Proc.devRef .tc b) = m ((c : Thread nD τ).loc b) := (keepR1 m ρ c b (ho1 b hb)).trans (kept7 m ρ c b hb)
theorem kept9 (c : Dev nD) (b : Ref sig .tc) (hb : b ∈ argRefs) :
    W9 m ρ c (Proc.devRef .tc b) = m ((c : Thread nD τ).loc b) := (keepH8 m ρ c b hb).trans (kept8 m ρ c b hb)
theorem kept10 (c : Dev nD) (b : Ref sig .tc) (hb : b ∈ argRefs) :
    W10 m ρ c (Proc.devRef .tc b) = m ((c : Thread nD τ).loc b) := (keepH9 m ρ c b hb).trans (kept9 m ρ c b hb)
theorem kept11 (c : Dev nD) (b : Ref sig .tc) (hb : b ∈ argRefs) :
    W11 m ρ c (Proc.devRef .tc b) = m ((c : Thread nD τ).loc b) := (keepR2 m ρ c b (ho2 b hb)).trans (kept10 m ρ c b hb)
theorem kept12 (c : Dev nD) (b : Ref sig .tc) (hb : b ∈ argRefs) :
    W12 m ρ c (Proc.devRef .tc b) = m ((c : Thread nD τ).loc b) := (keepH11 m ρ c b hb).trans (kept11 m ρ c b hb)
theorem kept13 (c : Dev nD) (b : Ref sig .tc) (hb : b ∈ argRefs) :
    W13 m ρ c (Proc.devRef .tc b) = m ((c : Thread nD τ).loc b) := (keepR3 m ρ c b (ho3 b hb)).trans (kept12 m ρ c b hb)
theorem kept14 (c : Dev nD) (b : Ref sig .tc) (hb : b ∈ argRefs) :
    W14 m ρ c (Proc.devRef .tc b) = m ((c : Thread nD τ).loc b) := (keepH13 m ρ c b hb).trans (kept13 m ρ c b hb)
theorem kept15 (c : Dev nD) (b : Ref sig .tc) (hb : b ∈ argRefs) :
    W15 m ρ c (Proc.devRef .tc b) = m ((c : Thread nD τ).loc b) := (keepR4 m ρ c b (ho4 b hb)).trans (kept14 m ρ c b hb)
theorem kept16 (c : Dev nD) (b : Ref sig .tc) (hb : b ∈ argRefs) :
    W16 m ρ c (Proc.devRef .tc b) = m ((c : Thread nD τ).loc b) := (keepH15 m ρ c b hb).trans (kept15 m ρ c b hb)
theorem kept17 (c : Dev nD) (b : Ref sig .tc) (hb : b ∈ argRefs) :
    W17 m ρ c (Proc.devRef .tc b) = m ((c : Thread nD τ).loc b) := (keepR5 m ρ c b (ho5 b hb)).trans (kept16 m ρ c b hb)
theorem kept18 (c : Dev nD) (b : Ref sig .tc) (hb : b ∈ argRefs) :
    W18 m ρ c (Proc.devRef .tc b) = m ((c : Thread nD τ).loc b) := (keepH17 m ρ c b hb).trans (kept17 m ρ c b hb)
theorem kept19 (c : Dev nD) (b : Ref sig .tc) (hb : b ∈ argRefs) :
    W19 m ρ c (Proc.devRef .tc b) = m ((c : Thread nD τ).loc b) := (keepR6 m ρ c b (ho6 b hb)).trans (kept18 m ρ c b hb)
theorem kept20 (c : Dev nD) (b : Ref sig .tc) (hb : b ∈ argRefs) :
    W20 m ρ c (Proc.devRef .tc b) = m ((c : Thread nD τ).loc b) := (keepH19 m ρ c b hb).trans (kept19 m ρ c b hb)
theorem kept21 (c : Dev nD) (b : Ref sig .tc) (hb : b ∈ argRefs) :
    W21 m ρ c (Proc.devRef .tc b) = m ((c : Thread nD τ).loc b) := (keepR7 m ρ c b (ho7 b hb)).trans (kept20 m ρ c b hb)
/-- In particular at the last. -/
theorem kept (c : Dev nD) (b : Ref sig .tc) (hb : b ∈ argRefs) :
    W21 m ρ c (Proc.devRef .tc b) = m ((c : Thread nD τ).loc b) := kept21 m ρ c b hb

end Cert.KernelIdeal.Fr

end
-- ==== Proof.KI.Frame.lean ====
/- The frame: from any memory with zero counters every weakly fair execution of @main terminates, nothing faults, and
   every final state has the seventeen argument arrays as launched — the run's last boundary read at each argument. -/
import proofs.«123229_j70574902608028_1_alg».proof.Proof.KI.Run
import proofs.«123229_j70574902608028_1_alg».proof.Proof.KI.Kept
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (kept m ρ c main_arg0 (by decide)),
     (h c _ (mem_uc main_arg1 (by decide))).trans (kept m ρ c main_arg1 (by decide)),
     (h c _ (mem_uc main_arg2 (by decide))).trans (kept m ρ c main_arg2 (by decide)),
     (h c _ (mem_uc main_arg3 (by decide))).trans (kept m ρ c main_arg3 (by decide)),
     (h c _ (mem_uc main_arg4 (by decide))).trans (kept m ρ c main_arg4 (by decide)),
     (h c _ (mem_uc main_arg5 (by decide))).trans (kept m ρ c main_arg5 (by decide)),
     (h c _ (mem_uc main_arg6 (by decide))).trans (kept m ρ c main_arg6 (by decide)),
     (h c _ (mem_uc main_arg7 (by decide))).trans (kept m ρ c main_arg7 (by decide)),
     (h c _ (mem_uc main_arg8 (by decide))).trans (kept m ρ c main_arg8 (by decide)),
     (h c _ (mem_uc main_arg9 (by decide))).trans (kept m ρ c main_arg9 (by decide)),
     (h c _ (mem_uc main_arg10 (by decide))).trans (kept m ρ c main_arg10 (by decide)),
     (h c _ (mem_uc main_arg11 (by decide))).trans (kept m ρ c main_arg11 (by decide)),
     (h c _ (mem_uc main_arg12 (by decide))).trans (kept m ρ c main_arg12 (by decide)),
     (h c _ (mem_uc main_arg13 (by decide))).trans (kept m ρ c main_arg13 (by decide)),
     (h c _ (mem_uc main_arg14 (by decide))).trans (kept m ρ c main_arg14 (by decide)),
     (h c _ (mem_uc main_arg15 (by decide))).trans (kept m ρ c main_arg15 (by decide)),
     (h c _ (mem_uc main_arg16 (by decide))).trans (kept m ρ c main_arg16 (by decide))⟩) (run m ρ)

end Cert.KernelIdeal.Fr

end
-- ==== Proof.LibDense.lean ====
/-
  Dense layers on the extended reals, general in the extents.

  A dense layer takes a table `h` of `A` rows and `K` columns, a weight table `W` of `K` rows and `N`
  columns and a bias row `b` of `N` entries, and gives the table whose entry in row `r`, column `j` is

      (∑ k, h r k · W k j) + b j        (`Dense.affine`),

  followed, in a hidden layer, by the hyperbolic tangent (`Dense.layer`). Row `r` of the result is computed
  from row `r` of `h` alone, so taking a slab of rows before the layer or after it is the same
  (`affine_rows`, `layer_rows`).

  Two spellings of such a layer are brought to this form. On the matrix unit: a product into a zero
  accumulator, plus the bias held as a `[1, N]` row broadcast down the rows (`matmul_affine`,
  `matmul_layer`). On the host: a `dot_general` contracting the left table's columns with the right table's
  rows, plus the bias vector broadcast first to a `[1, N]` row and then down the rows (`host_affine`,
  `host_layer`). Both contract ONE axis, so the sum over the contraction positions is a sum over `k : Fin K`
  (`contr_sum`), with the left factor at `(r, k)` and the right factor at `(k, j)`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-! ## The layer -/

/-- Entry `(r, j)` of `h · W + b`: the inner product of row `r` of `h` with column `j` of `W`, plus `b j`. -/
def pre {A K N : Nat} (h : (⟨2, ![A, K]⟩ : Shape).Idx → EReal) (W : (⟨2, ![K, N]⟩ : Shape).Idx → EReal)
    (b : (⟨1, ![N]⟩ : Shape).Idx → EReal) (r : Fin A) (j : Fin N) : EReal :=
  (∑ k : Fin K, h (ix2 r k) * W (ix2 k j)) + b (ix1 j)

/-- The table `h · W + b` (a layer with no activation). -/
def affine {A K N : Nat} (h : (⟨2, ![A, K]⟩ : Shape).Idx → EReal) (W : (⟨2, ![K, N]⟩ : Shape).Idx → EReal)
    (b : (⟨1, ![N]⟩ : Shape).Idx → EReal) : (⟨2, ![A, N]⟩ : Shape).Idx → EReal :=
  fun i => pre h W b (i 0) (i 1)

/-- The table `tanh (h · W + b)` (a hidden layer). -/
def layer {A K N : Nat} (h : (⟨2, ![A, K]⟩ : Shape).Idx → EReal) (W : (⟨2, ![K, N]⟩ : Shape).Idx → EReal)
    (b : (⟨1, ![N]⟩ : Shape).Idx → EReal) : (⟨2, ![A, N]⟩ : Shape).Idx → EReal :=
  fun i => Ideal.tanh (pre h W b (i 0) (i 1))

/-- The rows `ρ 0, ρ 1, …` of a table, as a table of their own. -/
def rows {A B K : Nat} (ρ : Fin A → Fin B) (h : (⟨2, ![B, K]⟩ : Shape).Idx → EReal) :
    (⟨2, ![A, K]⟩ : Shape).Idx → EReal :=
  fun i => h (ix2 (ρ (i 0)) (i 1))

/-- A layer's row `r` is computed from row `r` of its input: selecting rows before or after the layer is the same. -/
theorem affine_rows {A B K N : Nat} (ρ : Fin A → Fin B) (h : (⟨2, ![B, K]⟩ : Shape).Idx → EReal)
    (W : (⟨2, ![K, N]⟩ : Shape).Idx → EReal) (b : (⟨1, ![N]⟩ : Shape).Idx → EReal) :
    affine (rows ρ h) W b = rows ρ (affine h W b) := rfl

theorem layer_rows {A B K N : Nat} (ρ : Fin A → Fin B) (h : (⟨2, ![B, K]⟩ : Shape).Idx → EReal)
    (W : (⟨2, ![K, N]⟩ : Shape).Idx → EReal) (b : (⟨1, ![N]⟩ : Shape).Idx → EReal) :
    layer (rows ρ h) W b = rows ρ (layer h W b) := rfl

/-- The bias row of a `[1, N]` table. -/
def row0 {N : Nat} (b : (⟨2, ![1, N]⟩ : Shape).Idx → EReal) : (⟨1, ![N]⟩ : Shape).Idx → EReal :=
  fun j => b (ix2 (0 : Fin 1) (j 0))

/-- A vector recast as a `[1, N]` table has the vector as its row. -/
theorem row0_shapeCast {N : Nat} (b : (⟨1, ![N]⟩ : Shape).Idx → EReal)
    (h : (⟨1, ![N]⟩ : Shape).ShapeCasts ⟨2, ![1, N]⟩) : row0 (shapeCast ⟨2, ![1, N]⟩ b h) = b := by
  funext j
  obtain ⟨q, rfl⟩ : ∃ q : Fin N, j = ix1 q := ⟨j 0, eq_ix1 j⟩
  exact shapeCast_a_1a_apply b h 0 q

/-! ## One contracted axis: the contraction positions are `Fin K` -/

/-- The dimension numbers of a plain product `[A, K] × [K, N] → [A, N]`: the left table's columns are contracted
    with the right table's rows, and there is no batch axis. -/
abbrev plainDims {A K N : Nat}
    (wf : DotDims.WF (⟨2, ![A, K]⟩ : Shape) ⟨2, ![K, N]⟩ ⟨2, ![A, N]⟩ [1] [0] [0] [1] [] []) :
    DotDims ⟨2, ![A, K]⟩ ⟨2, ![K, N]⟩ ⟨2, ![A, N]⟩ where
  lhsContracting := [1]
  rhsContracting := [0]
  lhsNonContracting := [0]
  rhsNonContracting := [1]
  lhsBatch := []
  rhsBatch := []
  wf := wf

section Contr

variable {A K N : Nat} (wf : DotDims.WF (⟨2, ![A, K]⟩ : Shape) ⟨2, ![K, N]⟩ ⟨2, ![A, N]⟩ [1] [0] [0] [1] [] [])

/-- The left operand's index at output `(r, j)` and a contraction position: its row is `r`. -/
theorem lhs_row (i : (⟨2, ![A, N]⟩ : Shape).Idx) (q : (plainDims wf).contr.Idx) :
    ((plainDims wf).lhsIdx i q 0).val = (i 0).val := by
  unfold DotDims.lhsIdx
  have hb : ¬(0 : Fin (⟨2, ![A, K]⟩ : Shape).rank) ∈ (plainDims wf).lhsBatch := List.not_mem_nil
  have hn : (0 : Fin (⟨2, ![A, K]⟩ : Shape).rank) ∈ (plainDims wf).lhsNonContracting := List.mem_singleton.mpr rfl
  rw [dif_neg hb, dif_pos hn]
  rfl

/-- The right operand's index at output `(r, j)` and a contraction position: its column is `j`. -/
theorem rhs_col (i : (⟨2, ![A, N]⟩ : Shape).Idx) (q : (plainDims wf).contr.Idx) :
    ((plainDims wf).rhsIdx i q 1).val = (i 1).val := by
  unfold DotDims.rhsIdx
  have hb : ¬(1 : Fin (⟨2, ![K, N]⟩ : Shape).rank) ∈ (plainDims wf).rhsBatch := List.not_mem_nil
  have hn : (1 : Fin (⟨2, ![K, N]⟩ : Shape).rank) ∈ (plainDims wf).rhsNonContracting := List.mem_singleton.mpr rfl
  rw [dif_neg hb, dif_pos hn]
  rfl

/-- The sum over the contraction positions of a plain product is the sum over `k : Fin K` of the left factor at
    `(r, k)` times the right factor at `(k, j)`. -/
theorem contr_sum (l : (⟨2, ![A, K]⟩ : Shape).Idx → EReal) (r : (⟨2, ![K, N]⟩ : Shape).Idx → EReal)
    (i : (⟨2, ![A, N]⟩ : Shape).Idx) :
    ∑ q : (plainDims wf).contr.Idx, l ((plainDims wf).lhsIdx i q) * r ((plainDims wf).rhsIdx i q)
      = ∑ k : Fin K, l (ix2 (i 0) k) * r (ix2 k (i 1)) := by
  rw [← Equiv.sum_comp (contrEquiv1 (plainDims wf) K rfl rfl).symm]
  refine Finset.sum_congr rfl fun k _ => ?_
  have hk := contrEquiv1_symm_val (plainDims wf) K rfl rfl k
  have el : (plainDims wf).lhsIdx i ((contrEquiv1 (plainDims wf) K rfl rfl).symm k) = ix2 (i 0) k :=
    funext fun a => Fin.ext (by
      match a with
      | ⟨0, _⟩ => exact lhs_row wf _ _
      | ⟨1, _⟩ => exact ((plainDims wf).lhsIdx_val_of_single rfl _ _).trans hk)
  have er : (plainDims wf).rhsIdx i ((contrEquiv1 (plainDims wf) K rfl rfl).symm k) = ix2 k (i 1) :=
    funext fun a => Fin.ext (by
      match a with
      | ⟨0, _⟩ => exact ((plainDims wf).rhsIdx_val_of_single rfl _ _).trans hk
      | ⟨1, _⟩ => exact rhs_col wf _ _)
  rw [el, er]
  rfl

/-! ## The matrix unit's spelling -/

/-- A product into the zero accumulator, plus a `[1, N]` bias row broadcast down the rows. -/
theorem matmul_affine (hc : (⟨2, ![1, N]⟩ : Shape).ShapeCasts ⟨2, ![1, N]⟩)
    (hb : (⟨2, ![1, N]⟩ : Shape).Broadcasts ⟨2, ![A, N]⟩)
    (h : FVec Ideal ⟨2, ![A, K]⟩ .f32) (W : FVec Ideal ⟨2, ![K, N]⟩ .f32) (b : FVec Ideal ⟨2, ![1, N]⟩ .f32) :
    addf (matmul (plainDims wf) none h W (constant ⟨2, ![A, N]⟩ .f32 0x00000000#32))
        (broadcastTo ⟨2, ![A, N]⟩ (shapeCast ⟨2, ![1, N]⟩ b hc) hb)
      = affine h W (row0 b) := by
  funext i
  obtain ⟨p, q, rfl⟩ : ∃ (p : Fin A) (q : Fin N), i = ix2 p q := ⟨i 0, i 1, eq_ix2 i⟩
  show FloatOps.matmul (plainDims wf) none h W (constant ⟨2, ![A, N]⟩ .f32 0x00000000#32) (ix2 p q)
      + broadcastTo ⟨2, ![A, N]⟩ (shapeCast ⟨2, ![1, N]⟩ b hc) hb (ix2 p q) = _
  rw [shapeCast_self, broadcastTo_1b_ab_apply, Ideal.matmul_constant_zero_apply]
  exact congrArg (· + b (ix2 (0 : Fin 1) q)) (contr_sum wf h W (ix2 p q))

/-- The same under the hyperbolic tangent: a hidden layer. -/
theorem matmul_layer (hc : (⟨2, ![1, N]⟩ : Shape).ShapeCasts ⟨2, ![1, N]⟩)
    (hb : (⟨2, ![1, N]⟩ : Shape).Broadcasts ⟨2, ![A, N]⟩)
    (h : FVec Ideal ⟨2, ![A, K]⟩ .f32) (W : FVec Ideal ⟨2, ![K, N]⟩ .f32) (b : FVec Ideal ⟨2, ![1, N]⟩ .f32) :
    tanh (addf (matmul (plainDims wf) none h W (constant ⟨2, ![A, N]⟩ .f32 0x00000000#32))
        (broadcastTo ⟨2, ![A, N]⟩ (shapeCast ⟨2, ![1, N]⟩ b hc) hb))
      = layer h W (row0 b) := by
  rw [matmul_affine wf hc hb h W b]
  rfl

/-! ## The host's spelling -/

/-- A bias vector broadcast to a `[1, N]` row and then down the rows, read at `(p, q)`, is the vector at `q`. -/
theorem host_bias (hb1 : (⟨1, ![N]⟩ : Shape).BroadcastsInDim ⟨2, ![1, N]⟩ ![1])
    (hb2 : (⟨2, ![1, N]⟩ : Shape).BroadcastsInDim ⟨2, ![A, N]⟩ ![0, 1])
    (b : (⟨1, ![N]⟩ : Shape).Idx → EReal) (p : Fin A) (q : Fin N) :
    broadcastInDim ⟨2, ![A, N]⟩ ![0, 1] hb2 (broadcastInDim ⟨2, ![1, N]⟩ ![1] hb1 b) (ix2 p q) = b (ix1 q) := by
  refine (broadcastInDim_apply ![0, 1] hb2 _ (ix2 p q) (ix2 (0 : Fin 1) q) fun ax => ?_).trans
    (broadcastInDim_apply ![1] hb1 b (ix2 (0 : Fin 1) q) (ix1 q) fun ax => ?_)
  · match ax with
    | ⟨0, _⟩ => rfl
    | ⟨1, _⟩ =>
      show q.val = if N = 1 then 0 else q.val
      split
      · have := q.isLt; omega
      · rfl
  · match ax with
    | ⟨0, _⟩ =>
      show q.val = if N = 1 then 0 else q.val
      split
      · have := q.isLt; omega
      · rfl

/-- A `dot_general` of a plain product, plus the bias vector broadcast to a row and down the rows. -/
theorem host_affine (hb1 : (⟨1, ![N]⟩ : Shape).BroadcastsInDim ⟨2, ![1, N]⟩ ![1])
    (hb2 : (⟨2, ![1, N]⟩ : Shape).BroadcastsInDim ⟨2, ![A, N]⟩ ![0, 1])
    (h : FVec Ideal ⟨2, ![A, K]⟩ .f32) (W : FVec Ideal ⟨2, ![K, N]⟩ .f32) (b : FVec Ideal ⟨1, ![N]⟩ .f32) :
    addf (Host.dotGeneral (F := Ideal) (plainDims wf) none h W)
        (broadcastInDim ⟨2, ![A, N]⟩ ![0, 1] hb2 (broadcastInDim ⟨2, ![1, N]⟩ ![1] hb1 b))
      = affine h W b := by
  funext i
  obtain ⟨p, q, rfl⟩ : ∃ (p : Fin A) (q : Fin N), i = ix2 p q := ⟨i 0, i 1, eq_ix2 i⟩
  show FloatOps.dotGeneral (plainDims wf) none .single h W (ix2 p q)
      + broadcastInDim ⟨2, ![A, N]⟩ ![0, 1] hb2 (broadcastInDim ⟨2, ![1, N]⟩ ![1] hb1 b) (ix2 p q) = _
  rw [host_bias hb1 hb2 b p q, Ideal.dotGeneral_apply]
  exact congrArg (· + b (ix1 q)) (contr_sum wf h W (ix2 p q))

/-- The same under the host's hyperbolic tangent: a hidden layer. -/
theorem host_layer (hb1 : (⟨1, ![N]⟩ : Shape).BroadcastsInDim ⟨2, ![1, N]⟩ ![1])
    (hb2 : (⟨2, ![1, N]⟩ : Shape).BroadcastsInDim ⟨2, ![A, N]⟩ ![0, 1])
    (h : FVec Ideal ⟨2, ![A, K]⟩ .f32) (W : FVec Ideal ⟨2, ![K, N]⟩ .f32) (b : FVec Ideal ⟨1, ![N]⟩ .f32) :
    Host.tanh (F := Ideal) (addf (Host.dotGeneral (F := Ideal) (plainDims wf) none h W)
        (broadcastInDim ⟨2, ![A, N]⟩ ![0, 1] hb2 (broadcastInDim ⟨2, ![1, N]⟩ ![1] hb1 b)))
      = layer h W b := by
  rw [host_affine wf hb1 hb2 h W b]
  rfl

end Contr

end Cert.Dense

end
-- ==== Proof.LibRowOps.lean ====
/-
  Row-by-row table operations on the extended reals, general in the extents, in the matrix unit's spelling and in
  the host's; and the network of this certificate built from them.

  A table has rows (graph nodes, or a slab of them) and a few columns (features). Every operation here acts on
  each row by itself: a product with a weight table (`proj`), a bias row added to every row (`addRow`), a weight
  row multiplied into every row (`scaleRow`), the cut-off at zero (`relu`), and the gates of a recurrent cell
  started from a zero state: the candidate state `cell` = σ(h·Wi + bi) · tanh(h·Wc + bc) and the output
  `hidden` = σ(h·Wo + bo + wco · cell) · tanh(cell). The head `head` stacks relu(a + b), two hidden layers and a
  cell with a cut-off between them, and a last affine map. Since each row of a result is computed from the
  same row of the input, taking a slab of rows first or last is the same (`*_rows`).

  Each operation is then met in the two spellings the programs use: on the matrix unit with vector broadcasts, and
  on the host with `dot_general` and `broadcast_in_dim`; the host's σ is spelt 1 / (1 + e^(-x)).
-/
import Idealize.ShloMosaic.PureOps.Ideal
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value
import proofs.«123229_j70574902608028_1_alg».proof.Proof.LibDense

noncomputable section

open scoped BigOperators

namespace Cert.Gcn

open Idealize.ShloMosaic Idealize.ShloMosaic.ValueIdx

/-- A table of `A` rows and `N` columns of extended reals. -/
abbrev Tab (A N : ℕ) : Type := (⟨2, ![A, N]⟩ : Shape).Idx → EReal
/-- A row of `N` extended reals. -/
abbrev Row (N : ℕ) : Type := (⟨1, ![N]⟩ : Shape).Idx → EReal

/-! ## The operations, each acting row by row -/

/-- `h · W`: entry (r, j) is the inner product of row r of `h` with column j of `W`. -/
def proj {A K N : ℕ} (h : Tab A K) (W : Tab K N) : Tab A N :=
  fun i => ∑ k : Fin K, h (ix2 (i 0) k) * W (ix2 k (i 1))
/-- A bias row added to every row. -/
def addRow {A N : ℕ} (a : Tab A N) (b : Row N) : Tab A N := fun i => a i + b (ix1 (i 1))
/-- A weight row multiplied into every row. -/
def scaleRow {A N : ℕ} (w : Row N) (a : Tab A N) : Tab A N := fun i => w (ix1 (i 1)) * a i
/-- The cut-off at zero (the zero is kept as the float word both programs print). -/
def relu {A N : ℕ} (a : Tab A N) : Tab A N := fun i => max (a i) (Ideal.ofBits .f32 0x00000000#32)
/-- Entrywise σ. -/
def sig {A N : ℕ} (a : Tab A N) : Tab A N := fun i => Ideal.logistic (a i)
/-- Entrywise tanh. -/
def th {A N : ℕ} (a : Tab A N) : Tab A N := fun i => Ideal.tanh (a i)
/-- Entrywise product. -/
def mul {A N : ℕ} (a b : Tab A N) : Tab A N := fun i => a i * b i
/-- Entrywise sum. -/
def add {A N : ℕ} (a b : Tab A N) : Tab A N := fun i => a i + b i

/-- The candidate state of a cell started from zero: σ(h·Wi + bi) · tanh(h·Wc + bc). -/
def cell {A K N : ℕ} (h : Tab A K) (wi wc : Tab K N) (bi bc : Row N) : Tab A N :=
  mul (sig (addRow (proj h wi) bi)) (th (addRow (proj h wc) bc))
/-- The output of that cell: σ(h·Wo + bo + wco · C) · tanh C. -/
def hidden {A K N : ℕ} (h : Tab A K) (wi wc wo : Tab K N) (bi bc bo wco : Row N) : Tab A N :=
  mul (sig (add (addRow (proj h wo) bo) (scaleRow wco (cell h wi wc bi bc)))) (th (cell h wi wc bi bc))
/-- A graph layer's finish and the next projection: relu(a + b) · W. -/
def layerProj {A K N : ℕ} (a : Tab A K) (b : Row K) (W : Tab K N) : Tab A N := proj (relu (addRow a b)) W
/-- The head: relu(a + b), two full cells and a candidate state with cut-offs between, then the last affine map. -/
def head {A : ℕ} (a : Tab A 16) (b : Row 16)
    (wi1 wc1 wo1 : Tab 16 16) (bi1 bc1 bo1 wco1 : Row 16)
    (wi2 wc2 wo2 : Tab 16 16) (bi2 bc2 bo2 wco2 : Row 16)
    (wi3 wc3 : Tab 16 16) (bi3 bc3 : Row 16) (lw : Tab 16 3) (lb : Row 3) : Tab A 3 :=
  addRow (proj (relu (cell (relu (hidden (relu (hidden (relu (addRow a b)) wi1 wc1 wo1 bi1 bc1 bo1 wco1))
    wi2 wc2 wo2 bi2 bc2 bo2 wco2)) wi3 wc3 bi3 bc3)) lw) lb

/-! ## Rows in, rows out -/

/-- The rows `ρ 0, ρ 1, …` of a table, as a table of their own. -/
def rows {A B N : ℕ} (ρ : Fin A → Fin B) (a : Tab B N) : Tab A N := fun i => a (ix2 (ρ (i 0)) (i 1))

theorem proj_rows {A B K N : ℕ} (ρ : Fin A → Fin B) (h : Tab B K) (W : Tab K N) :
    proj (rows ρ h) W = rows ρ (proj h W) := rfl
theorem addRow_rows {A B N : ℕ} (ρ : Fin A → Fin B) (a : Tab B N) (b : Row N) :
    addRow (rows ρ a) b = rows ρ (addRow a b) := rfl
theorem scaleRow_rows {A B N : ℕ} (ρ : Fin A → Fin B) (a : Tab B N) (w : Row N) :
    scaleRow w (rows ρ a) = rows ρ (scaleRow w a) := rfl
theorem relu_rows {A B N : ℕ} (ρ : Fin A → Fin B) (a : Tab B N) : relu (rows ρ a) = rows ρ (relu a) := rfl
theorem sig_rows {A B N : ℕ} (ρ : Fin A → Fin B) (a : Tab B N) : sig (rows ρ a) = rows ρ (sig a) := rfl
theorem th_rows {A B N : ℕ} (ρ : Fin A → Fin B) (a : Tab B N) : th (rows ρ a) = rows ρ (th a) := rfl
theorem mul_rows {A B N : ℕ} (ρ : Fin A → Fin B) (a b : Tab B N) :
    mul (rows ρ a) (rows ρ b) = rows ρ (mul a b) := rfl
theorem add_rows {A B N : ℕ} (ρ : Fin A → Fin B) (a b : Tab B N) :
    add (rows ρ a) (rows ρ b) = rows ρ (add a b) := rfl

theorem cell_rows {A B K N : ℕ} (ρ : Fin A → Fin B) (h : Tab B K) (wi wc : Tab K N) (bi bc : Row N) :
    cell (rows ρ h) wi wc bi bc = rows ρ (cell h wi wc bi bc) := by
  unfold cell
  rw [proj_rows, proj_rows, addRow_rows, addRow_rows, sig_rows, th_rows, mul_rows]
theorem hidden_rows {A B K N : ℕ} (ρ : Fin A → Fin B) (h : Tab B K) (wi wc wo : Tab K N) (bi bc bo wco : Row N) :
    hidden (rows ρ h) wi wc wo bi bc bo wco = rows ρ (hidden h wi wc wo bi bc bo wco) := by
  unfold hidden
  rw [cell_rows, proj_rows, addRow_rows, scaleRow_rows, add_rows, sig_rows, th_rows, mul_rows]
theorem layerProj_rows {A B K N : ℕ} (ρ : Fin A → Fin B) (a : Tab B K) (b : Row K) (W : Tab K N) :
    layerProj (rows ρ a) b W = rows ρ (layerProj a b W) := by
  unfold layerProj
  rw [addRow_rows, relu_rows, proj_rows]
theorem head_rows {A B : ℕ} (ρ : Fin A → Fin B) (a : Tab B 16) (b : Row 16)
    (wi1 wc1 wo1 : Tab 16 16) (bi1 bc1 bo1 wco1 : Row 16)
    (wi2 wc2 wo2 : Tab 16 16) (bi2 bc2 bo2 wco2 : Row 16)
    (wi3 wc3 : Tab 16 16) (bi3 bc3 : Row 16) (lw : Tab 16 3) (lb : Row 3) :
    head (rows ρ a) b wi1 wc1 wo1 bi1 bc1 bo1 wco1 wi2 wc2 wo2 bi2 bc2 bo2 wco2 wi3 wc3 bi3 bc3 lw lb
      = rows ρ (head a b wi1 wc1 wo1 bi1 bc1 bo1 wco1 wi2 wc2 wo2 bi2 bc2 bo2 wco2 wi3 wc3 bi3 bc3 lw lb) := by
  unfold head
  rw [addRow_rows, relu_rows, hidden_rows, relu_rows, hidden_rows, relu_rows, cell_rows, relu_rows, proj_rows,
    addRow_rows]

/-! ## The matrix unit's spelling -/

section Unit

variable {A K N : ℕ} (wf : DotDims.WF (⟨2, ![A, K]⟩ : Shape) ⟨2, ![K, N]⟩ ⟨2, ![A, N]⟩ [1] [0] [0] [1] [] [])

/-- A product into the zero accumulator is the projection, whatever the operands' float formats. -/
theorem matmul_proj {φ₁ φ₂ : FTy} (h : FVec Ideal ⟨2, ![A, K]⟩ φ₁) (W : FVec Ideal ⟨2, ![K, N]⟩ φ₂) :
    matmul (Cert.Dense.plainDims wf) none h W (constant ⟨2, ![A, N]⟩ .f32 0x00000000#32) = proj (A := A) h W := by
  funext i
  show FloatOps.matmul (Cert.Dense.plainDims wf) none h W (constant ⟨2, ![A, N]⟩ .f32 0x00000000#32) i = _
  rw [Ideal.matmul_constant_zero_apply]
  exact Cert.Dense.contr_sum wf h W i

/-- A row recast as a one-row table and broadcast down the rows, read at an entry, is the row at the column. -/
theorem rowBcast_apply (b : Row N) (hc : (⟨1, ![N]⟩ : Shape).ShapeCasts ⟨2, ![1, N]⟩)
    (hb : (⟨2, ![1, N]⟩ : Shape).Broadcasts ⟨2, ![A, N]⟩) (i : (⟨2, ![A, N]⟩ : Shape).Idx) :
    broadcastTo ⟨2, ![A, N]⟩ (shapeCast ⟨2, ![1, N]⟩ b hc) hb i = b (ix1 (i 1)) := by
  obtain ⟨p, q, rfl⟩ : ∃ (p : Fin A) (q : Fin N), i = ix2 p q := ⟨i 0, i 1, eq_ix2 i⟩
  rw [broadcastTo_1b_ab_apply, shapeCast_a_1a_apply]
  rfl

/-- Adding that broadcast is adding the bias row. -/
theorem addf_rowBcast (a : FVec Ideal ⟨2, ![A, N]⟩ .f32) (b : FVec Ideal ⟨1, ![N]⟩ .f32)
    (hc : (⟨1, ![N]⟩ : Shape).ShapeCasts ⟨2, ![1, N]⟩) (hb : (⟨2, ![1, N]⟩ : Shape).Broadcasts ⟨2, ![A, N]⟩) :
    addf a (broadcastTo ⟨2, ![A, N]⟩ (shapeCast ⟨2, ![1, N]⟩ b hc) hb) = addRow (A := A) a b := by
  funext i
  show a i + broadcastTo ⟨2, ![A, N]⟩ (shapeCast ⟨2, ![1, N]⟩ b hc) hb i = _
  rw [rowBcast_apply]
  rfl

/-- Multiplying by that broadcast is scaling by the weight row. -/
theorem mulf_rowBcast (a : FVec Ideal ⟨2, ![A, N]⟩ .f32) (w : FVec Ideal ⟨1, ![N]⟩ .f32)
    (hc : (⟨1, ![N]⟩ : Shape).ShapeCasts ⟨2, ![1, N]⟩) (hb : (⟨2, ![1, N]⟩ : Shape).Broadcasts ⟨2, ![A, N]⟩) :
    mulf (broadcastTo ⟨2, ![A, N]⟩ (shapeCast ⟨2, ![1, N]⟩ w hc) hb) a = scaleRow (A := A) w a := by
  funext i
  show broadcastTo ⟨2, ![A, N]⟩ (shapeCast ⟨2, ![1, N]⟩ w hc) hb i * a i = _
  rw [rowBcast_apply]
  rfl

end Unit

/-- The maximum with a splat of the zero word is the cut-off. -/
theorem maximumf_zero_splat {A N : ℕ} (a : FVec Ideal ⟨2, ![A, N]⟩ .f32) :
    maximumf a (broadcast ⟨2, ![A, N]⟩ (Scalar.ofBits .f32 0x00000000#32)) = relu (A := A) a := rfl

/-- A change of float format is the identity on the extended reals. -/
theorem truncf_id {s : Shape} {φ ψ : FTy} (x : FVec Ideal s φ) (h : ψ.bits < φ.bits) :
    truncf ψ x h = (x : s.Idx → EReal) := rfl

theorem logistic_eq_sig {A N : ℕ} (a : FVec Ideal ⟨2, ![A, N]⟩ .f32) : logistic a = sig (A := A) a := rfl
theorem tanh_eq_th {A N : ℕ} (a : FVec Ideal ⟨2, ![A, N]⟩ .f32) : tanh a = th (A := A) a := rfl
theorem mulf_eq_mul {A N : ℕ} (a b : FVec Ideal ⟨2, ![A, N]⟩ .f32) : mulf a b = mul (A := A) a b := rfl
theorem addf_eq_add {A N : ℕ} (a b : FVec Ideal ⟨2, ![A, N]⟩ .f32) : addf a b = add (A := A) a b := rfl

/-! ## The host's spelling -/

section Host

variable {A K N : ℕ} (wf : DotDims.WF (⟨2, ![A, K]⟩ : Shape) ⟨2, ![K, N]⟩ ⟨2, ![A, N]⟩ [1] [0] [0] [1] [] [])

/-- A `dot_general` of a plain product is the projection. -/
theorem dot_proj (h : FVec Ideal ⟨2, ![A, K]⟩ .f32) (W : FVec Ideal ⟨2, ![K, N]⟩ .f32) :
    Host.dotGeneral (F := Ideal) (Cert.Dense.plainDims wf) none h W = proj (A := A) h W := by
  funext i
  show FloatOps.dotGeneral (Cert.Dense.plainDims wf) none .single h W i = _
  rw [Ideal.dotGeneral_apply]
  exact Cert.Dense.contr_sum wf h W i

/-- Adding a bias vector broadcast to a row and down the rows is adding the bias row. -/
theorem addf_hostBcast (a : FVec Ideal ⟨2, ![A, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![A, N]⟩ ![0, 1]) :
    addf a (broadcastInDim ⟨2, ![A, N]⟩ ![0, 1] hb2 (broadcastInDim ⟨2, ![1, N]⟩ ![1] hb1 b)) = addRow (A := A) a b := by
  funext i
  obtain ⟨p, q, rfl⟩ : ∃ (p : Fin A) (q : Fin N), i = ix2 p q := ⟨i 0, i 1, eq_ix2 i⟩
  show a (ix2 p q) + broadcastInDim ⟨2, ![A, N]⟩ ![0, 1] hb2 (broadcastInDim ⟨2, ![1, N]⟩ ![1] hb1 b) (ix2 p q) = _
  rw [Cert.Dense.host_bias hb1 hb2 b p q]
  rfl

/-- Multiplying by a weight vector broadcast the same way is scaling by the weight row. -/
theorem mulf_hostBcast (a : FVec Ideal ⟨2, ![A, N]⟩ .f32) (w : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![A, N]⟩ ![0, 1]) :
    mulf (broadcastInDim ⟨2, ![A, N]⟩ ![0, 1] hb2 (broadcastInDim ⟨2, ![1, N]⟩ ![1] hb1 w)) a = scaleRow (A := A) w a := by
  funext i
  obtain ⟨p, q, rfl⟩ : ∃ (p : Fin A) (q : Fin N), i = ix2 p q := ⟨i 0, i 1, eq_ix2 i⟩
  show broadcastInDim ⟨2, ![A, N]⟩ ![0, 1] hb2 (broadcastInDim ⟨2, ![1, N]⟩ ![1] hb1 w) (ix2 p q) * a (ix2 p q) = _
  rw [Cert.Dense.host_bias hb1 hb2 w p q]
  rfl

end Host

/-- The maximum with a scalar zero word broadcast to the table is the cut-off. -/
theorem maximumf_zero_bcast {A N : ℕ} (a : FVec Ideal ⟨2, ![A, N]⟩ .f32)
    (hb : (⟨0, ![]⟩ : Shape).BroadcastsInDim ⟨2, ![A, N]⟩ ![]) :
    maximumf a (broadcastInDim ⟨2, ![A, N]⟩ ![] hb (constant (F := Ideal) ⟨0, ![]⟩ .f32 0x00000000#32)) = relu (A := A) a := rfl

/-- The host's σ, spelt 1 / (1 + e^(-x)) over the one word broadcast to the table, is σ. -/
theorem host_sigmoid {A N : ℕ} (a : FVec Ideal ⟨2, ![A, N]⟩ .f32)
    (hb : (⟨0, ![]⟩ : Shape).BroadcastsInDim ⟨2, ![A, N]⟩ ![]) :
    Host.divf (broadcastInDim ⟨2, ![A, N]⟩ ![] hb (constant (F := Ideal) ⟨0, ![]⟩ .f32 0x3F800000#32))
        (addf (broadcastInDim ⟨2, ![A, N]⟩ ![] hb (constant (F := Ideal) ⟨0, ![]⟩ .f32 0x3F800000#32))
          (Host.exp (Host.negf a)))
      = sig (A := A) a := by
  funext i
  show Ideal.div (Ideal.ofBits .f32 0x3F800000#32) (Ideal.ofBits .f32 0x3F800000#32 + Ideal.exp (-(a i))) = Ideal.logistic (a i)
  have h1 : Ideal.ofBits .f32 0x3F800000#32 = 1 := IdealRules.sign_bit.ideal_onePat .f32
  rw [h1]
  rfl

theorem hostTanh_eq_th {A N : ℕ} (a : FVec Ideal ⟨2, ![A, N]⟩ .f32) : Host.tanh a = th (A := A) a := rfl

end Cert.Gcn

end
-- ==== Proof.NetSpec.lean ====
/- The network's layers as tables of extended reals, and the one law that joins the two programs.

   A dense layer is  lin x w b = x·w + b  (the bias kept as a one-row table), optionally cut off below at zero.
   The matrix unit's spelling (a product into the zero accumulator plus the bias row broadcast down the rows) and the
   host's (a dot_general plus the bias vector broadcast to a row and down the rows) are both that table.

   A graph convolution of the kernel multiplies four tables laid side by side, cat4 a, into the four weight slabs
   stacked on top of one another, flat4 W; the reference multiplies each table into its own slab and adds the four
   products. Entry by entry the first is one sum over 4·D products and the second four sums over D products, the same
   products: addition of extended reals is commutative and associative, so the two are equal with no finiteness
   assumption (no product is ever distributed over a sum). -/
import proofs.«123229_j70574902608028_1_alg».proof.Proof.LibRowOps

noncomputable section

open scoped BigOperators

namespace Cert.Net

open Idealize.ShloMosaic Idealize.ShloMosaic.ValueIdx Cert.Gcn

/-! ## A dense layer -/

/-- `x · w + b`: entry (r, j) is the inner product of row r of x with column j of w, plus b at (0, j). -/
def lin {A K N : ℕ} (x : Tab A K) (w : Tab K N) (b : Tab 1 N) : Tab A N :=
  fun i => proj x w i + b (ix2 (0 : Fin 1) (i 1))

/-- The same cut off below at zero. -/
def linRelu {A K N : ℕ} (x : Tab A K) (w : Tab K N) (b : Tab 1 N) : Tab A N := relu (lin x w b)

section Spellings

variable {A K N : ℕ} (wf : DotDims.WF (⟨2, ![A, K]⟩ : Shape) ⟨2, ![K, N]⟩ ⟨2, ![A, N]⟩ [1] [0] [0] [1] [] [])

/-- The matrix unit's spelling: a product into the zero accumulator plus the one-row bias broadcast down the rows,
    whatever the operands' float formats. -/
theorem unit_lin {φ₁ φ₂ : FTy} (hc : (⟨2, ![1, N]⟩ : Shape).ShapeCasts ⟨2, ![1, N]⟩)
    (hb : (⟨2, ![1, N]⟩ : Shape).Broadcasts ⟨2, ![A, N]⟩)
    (h : FVec Ideal ⟨2, ![A, K]⟩ φ₁) (W : FVec Ideal ⟨2, ![K, N]⟩ φ₂) (b : FVec Ideal ⟨2, ![1, N]⟩ .f32) :
    addf (matmul (Cert.Dense.plainDims wf) none h W (constant ⟨2, ![A, N]⟩ .f32 0x00000000#32))
        (broadcastTo ⟨2, ![A, N]⟩ (shapeCast ⟨2, ![1, N]⟩ b hc) hb)
      = lin (A := A) h W b := by
  funext i
  obtain ⟨p, q, rfl⟩ : ∃ (p : Fin A) (q : Fin N), i = ix2 p q := ⟨i 0, i 1, eq_ix2 i⟩
  show FloatOps.matmul (Cert.Dense.plainDims wf) none h W (constant ⟨2, ![A, N]⟩ .f32 0x00000000#32) (ix2 p q)
      + broadcastTo ⟨2, ![A, N]⟩ (shapeCast ⟨2, ![1, N]⟩ b hc) hb (ix2 p q) = _
  rw [shapeCast_self, broadcastTo_1b_ab_apply, Ideal.matmul_constant_zero_apply]
  exact congrArg (· + b (ix2 (0 : Fin 1) q)) (Cert.Dense.contr_sum wf h W (ix2 p q))

/-- The host's spelling: a dot_general plus the bias vector broadcast to a row and down the rows; the one-row table
    is the vector recast. -/
theorem host_lin (hb1 : (⟨1, ![N]⟩ : Shape).BroadcastsInDim ⟨2, ![1, N]⟩ ![1])
    (hb2 : (⟨2, ![1, N]⟩ : Shape).BroadcastsInDim ⟨2, ![A, N]⟩ ![0, 1])
    (hc : (⟨1, ![N]⟩ : Shape).ShapeCasts ⟨2, ![1, N]⟩)
    (a : FVec Ideal ⟨2, ![A, N]⟩ .f32) (b : FVec Ideal ⟨1, ![N]⟩ .f32) (i : (⟨2, ![A, N]⟩ : Shape).Idx) :
    addf a (broadcastInDim ⟨2, ![A, N]⟩ ![0, 1] hb2 (broadcastInDim ⟨2, ![1, N]⟩ ![1] hb1 b)) i
      = a i + shapeCast ⟨2, ![1, N]⟩ b hc (ix2 (0 : Fin 1) (i 1)) := by
  obtain ⟨p, q, rfl⟩ : ∃ (p : Fin A) (q : Fin N), i = ix2 p q := ⟨i 0, i 1, eq_ix2 i⟩
  show a (ix2 p q) + broadcastInDim ⟨2, ![A, N]⟩ ![0, 1] hb2 (broadcastInDim ⟨2, ![1, N]⟩ ![1] hb1 b) (ix2 p q)
    = a (ix2 p q) + shapeCast ⟨2, ![1, N]⟩ b hc (ix2 (0 : Fin 1) q)
  rw [Cert.Dense.host_bias hb1 hb2 b p q, shapeCast_a_1a_apply]

end Spellings

/-! ## Four tables side by side against four slabs stacked -/

/-- Four tables of D columns laid side by side: column k·D + d is column d of table k. -/
def cat4 {A D : ℕ} (a : Fin 4 → Tab A D) : Tab A (4 * D) :=
  fun i => a (finProdFinEquiv.symm (i 1)).1 (ix2 (i 0) (finProdFinEquiv.symm (i 1)).2)

/-- Four slabs of D rows stacked: row k·D + d is row d of slab k. -/
def flat4 {D N : ℕ} (W : Fin 4 → Tab D N) : Tab (4 * D) N :=
  fun i => W (finProdFinEquiv.symm (i 0)).1 (ix2 (finProdFinEquiv.symm (i 0)).2 (i 1))

/-- The one sum over 4·D products is the four sums over D products, added in the reference's order. -/
theorem proj_cat4 {A D N : ℕ} (a : Fin 4 → Tab A D) (W : Fin 4 → Tab D N) (i : (⟨2, ![A, N]⟩ : Shape).Idx) :
    proj (cat4 a) (flat4 W) i
      = ((proj (a 0) (W 0) i + proj (a 1) (W 1) i) + proj (a 2) (W 2) i) + proj (a 3) (W 3) i := by
  obtain ⟨p, q, rfl⟩ : ∃ (p : Fin A) (q : Fin N), i = ix2 p q := ⟨i 0, i 1, eq_ix2 i⟩
  show (∑ k : Fin (4 * D), a (finProdFinEquiv.symm k).1 (ix2 p (finProdFinEquiv.symm k).2)
        * W (finProdFinEquiv.symm k).1 (ix2 (finProdFinEquiv.symm k).2 q))
    = (((∑ d : Fin D, a 0 (ix2 p d) * W 0 (ix2 d q)) + ∑ d : Fin D, a 1 (ix2 p d) * W 1 (ix2 d q))
        + ∑ d : Fin D, a 2 (ix2 p d) * W 2 (ix2 d q)) + ∑ d : Fin D, a 3 (ix2 p d) * W 3 (ix2 d q)
  rw [← Equiv.sum_comp finProdFinEquiv, Fintype.sum_prod_type, Fin.sum_univ_four]
  simp only [Equiv.symm_apply_apply]

end Cert.Net

end
-- ==== Proof.KI.Final0.lean ====
/- Region 0 of @main, read as one function of the arrays it finds: the body's arithmetic is the dense layer
   x · w + b cut off below at zero (on the extended reals a change of float format and a recast to the same shape do
   nothing), and since row r of a layer is computed from row r of its input alone, the block of rows a grid point
   writes back is that block of the layer of the whole arrays. The ten row blocks tile the output array, so after
   the region it holds the layer of the input array, the weight and the bias row. -/
import proofs.«123229_j70574902608028_1_alg».proof.Proof.KI.Region0
import proofs.«123229_j70574902608028_1_alg».proof.Proof.NetSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat Cfg Window)
open scoped BigOperators

/-- The printed dimension numbers of the layer's product are those of a plain product. -/
theorem dims0_eq : dot_S5000x64_S64x96_S5000x96_1_0_0_1_n_n
    = Cert.Dense.plainDims (A := 5000) (K := 64) (N := 96) dot_S5000x64_S64x96_S5000x96_1_0_0_1_n_n.wf := rfl

/-- The body's arithmetic is the dense layer cut off at zero: x0 · x1 + x2 on the extended reals, where a change
    of float format and a recast to the same shape do nothing. -/
theorem pay0_eq (x0 : Vec Ideal S5000x64 .f32) (x1 : Vec Ideal S64x96 .f32) (x2 : Vec Ideal S1x96 .f32) :
    k0_pay1 (F := Ideal) x0 x1 x2 = Cert.Net.linRelu (A := 5000) (K := 64) (N := 96) x0 x1 x2 := by
  unfold k0_pay1
  refine (Cert.Gcn.maximumf_zero_splat (A := 5000) (N := 96) _).trans ?_
  refine congrArg (Cert.Gcn.relu (A := 5000) (N := 96)) ?_
  refine (Cert.Net.unit_lin (A := 5000) (K := 64) (N := 96) dot_S5000x64_S64x96_S5000x96_1_0_0_1_n_n.wf
    shapeCasts_S1x96_S1x96 broadcasts_S1x96_S5000x96 _ _ x2).trans ?_
  rw [shapeCast_self x0, shapeCast_self x1]
  rfl

variable (V : (c : Dev nD) → (b : Ref sig .tc) → Buf (Elt Ideal) ((c : Thread nD τ).loc b))

/-! ## From blocks to the array -/

theorem hz0 : (![0, 0] : Fin 2 → Nat) = fun _ => 0 := funext fun a => by fin_cases a <;> rfl

/-- The printed index maps, decided over the grid: the input's and the output's row blocks are block t at point t,
    with one block of columns; the weight's and the bias's block is the whole array at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A layer's entry in row r is computed from row r of its input: where row (j 0) of x is row (i 0) of X, the
    layer of x at (j 0, q) is the layer of X at (i 0, q). -/
theorem linRelu_at0 {A B K N : ℕ} (X : Cert.Gcn.Tab B K) (x : Cert.Gcn.Tab A K) (w : Cert.Gcn.Tab K N)
    (b : Cert.Gcn.Tab 1 N) (j : (⟨2, ![A, N]⟩ : Shape).Idx) (i : (⟨2, ![B, N]⟩ : Shape).Idx)
    (hx : ∀ k : Fin K, x (ix2 (j 0) k) = X (ix2 (i 0) k)) (h1 : (i 1 : Fin N) = j 1) :
    Cert.Net.linRelu x w b j = Cert.Net.linRelu X w b i := by
  show max ((∑ k : Fin K, x (ix2 (j 0) k) * w (ix2 k (j 1))) + b (ix2 (0 : Fin 1) (j 1))) _
    = max ((∑ k : Fin K, X (ix2 (i 0) k) * w (ix2 k (i 1))) + b (ix2 (0 : Fin 1) (i 1))) _
  rw [h1]
  simp only [hx]

/-- The input window's block at point t is rows 5000 t … 5000 t + 4999 of the array. -/
theorem iblk0_0_apply (c : Dev nD) (t : Fin cfg0.N) (y : S5000x64.Idx) (k : S50000x64.Idx)
    (hk0 : (k 0).val = t.val * 5000 + (y 0).val) (hk1 : (k 1).val = (y 1).val) :
    (iblk0 (F := Ideal) V c 0 t : Vec Ideal S5000x64 .f32) y
      = (V c (Pipeline.arrRef spec0 0) : S50000x64.Idx → EReal) k := by
  obtain ⟨e00, e01, -, -, -, -, -, -⟩ := idx_facts0 t
  unfold iblk0
  rw [View.read_apply]
  refine congrArg (V c (Pipeline.arrRef spec0 0) : S50000x64.Idx → EReal) ?_
  funext a
  apply Fin.ext
  match a with
  | ⟨0, _⟩ => show win0_0.index t (0 : Fin 2) * 5000 + 1 * (y 0).val = (k 0).val; rw [e00, hk0]; omega
  | ⟨1, _⟩ => show win0_0.index t (1 : Fin 2) * 64 + 1 * (y 1).val = (k 1).val; rw [e01, hk1]; omega

/-- The weight window's block at every point is the whole weight. -/
theorem iblk0_1_eq (c : Dev nD) (t : Fin cfg0.N) :
    (iblk0 (F := Ideal) V c 1 t : Vec Ideal S64x96 .f32) = (V c (Pipeline.arrRef spec0 1) : S64x96.Idx → EReal) := by
  obtain ⟨-, -, e10, e11, -, -, -, -⟩ := idx_facts0 t
  funext y
  unfold iblk0
  rw [View.read_apply]
  refine congrArg (V c (Pipeline.arrRef spec0 1) : S64x96.Idx → EReal) ?_
  funext a
  apply Fin.ext
  match a with
  | ⟨0, _⟩ => show win0_1.index t (0 : Fin 2) * 64 + 1 * (y 0).val = (y 0).val; rw [e10]; omega
  | ⟨1, _⟩ => show win0_1.index t (1 : Fin 2) * 96 + 1 * (y 1).val = (y 1).val; rw [e11]; omega

/-- The bias window's block at every point is the whole bias row. -/
theorem iblk0_2_eq (c : Dev nD) (t : Fin cfg0.N) :
    (iblk0 (F := Ideal) V c 2 t : Vec Ideal S1x96 .f32) = (V c (Pipeline.arrRef spec0 2) : S1x96.Idx → EReal) := by
  obtain ⟨-, -, -, -, e20, e21, -, -⟩ := idx_facts0 t
  funext y
  unfold iblk0
  rw [View.read_apply]
  refine congrArg (V c (Pipeline.arrRef spec0 2) : S1x96.Idx → EReal) ?_
  funext a
  apply Fin.ext
  match a with
  | ⟨0, _⟩ => show win0_2.index t (0 : Fin 2) * 1 + 1 * (y 0).val = (y 0).val; rw [e20]; omega
  | ⟨1, _⟩ => show win0_2.index t (1 : Fin 2) * 96 + 1 * (y 1).val = (y 1).val; rw [e21]; omega

/-- What the output array ends holding: the layer of the three arrays as the region finds them. -/
abbrev G0 (c : Dev nD) : S50000x96.Idx → EReal :=
  Cert.Net.linRelu (A := 50000) (K := 64) (N := 96) (V c (Pipeline.arrRef spec0 0) : S50000x64.Idx → EReal)
    (V c (Pipeline.arrRef spec0 1) : S64x96.Idx → EReal) (V c (Pipeline.arrRef spec0 2) : S1x96.Idx → EReal)

/-- What point t writes back is block t of the layer of the whole arrays. -/
theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 (F := Ideal) V c).after 3 t) = _
  rw [after0_3]
  unfold out0
  rw [View.canon_unit_zero hz0]
  simp only [View.ld_unit_zero (S := S5000x64) hz0, View.ld_unit_zero (S := S64x96) hz0, View.ld_unit_zero (S := S1x96) hz0]
  rw [pay0_eq, iblk0_1_eq, iblk0_2_eq]
  obtain ⟨-, -, -, -, -, -, e30, e31⟩ := idx_facts0 t
  funext j
  show Cert.Net.linRelu (A := 5000) (K := 64) (N := 96) (iblk0 (F := Ideal) V c 0 t) _ _ j
    = G0 V c (((cfg0.win 3).blk t).view.emb j)
  refine linRelu_at0 _ _ _ _ j _ (fun k => iblk0_0_apply V c t _ _ ?_ rfl) ?_
  · show (((cfg0.win 3).blk t).view.emb j (0 : Fin 2)).val = t.val * 5000 + (j 0).val
    show win0_3.index t (0 : Fin 2) * 5000 + 1 * (j 0).val = t.val * 5000 + (j 0).val
    rw [e30]; omega
  · apply Fin.ext
    show win0_3.index t (1 : Fin 2) * 96 + 1 * (j 1).val = (j 1).val
    rw [e31]; omega

/-- An index of the array is in point t's block iff each coordinate is in the block's range on its axis. -/
theorem mem_blk0 (t : Fin cfg0.N) (i : S50000x96.Idx) :
    i ∈ ((cfg0.win 3).blk t).view.set ↔ ∀ a : Fin 2, win0_3.index t a * S5000x96.size a ≤ (i a).val
      ∧ (i a).val < win0_3.index t a * S5000x96.size a + S5000x96.size a := by
  show i ∈ ((View.whole main_v69).slice (win0_3.rect t)).set ↔ _
  rw [View.set_slice_whole, Rect.mem_set_unit]
  exact Iff.rfl

/-- Row r of the array lies in the block of point r / 5000. -/
theorem cover0_arr (i : S50000x96.Idx) :
    ∃ t : Fin cfg0.N, (cfg0.win 3).flush t = true ∧ i ∈ ((cfg0.win 3).blk t).view.set := by
  have hi0 : (i 0).val < 50000 := (i 0).isLt
  have hi1 : (i 1).val < 96 := (i 1).isLt
  have hN : cfg0.N = 10 := N_0
  refine ⟨⟨(i 0).val / 5000, by rw [hN]; omega⟩, flush0_3 _, ?_⟩
  rw [mem_blk0]
  obtain ⟨-, -, -, -, -, -, e30, e31⟩ := idx_facts0 ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e30]
    show (i 0).val / 5000 * 5000 ≤ (i 0).val ∧ (i 0).val < (i 0).val / 5000 * 5000 + 5000
    omega
  | ⟨1, _⟩ =>
    show win0_3.index _ (1 : Fin 2) * 96 ≤ (i 1).val ∧ (i 1).val < win0_3.index _ (1 : Fin 2) * 96 + 96
    rw [e31]; omega

/-- The output array after the region: the layer of the three arrays as the region finds them. -/
theorem final0 (c : Dev nD) :
    (dat0 (F := Ideal) V c).arrAt 3 cfg0.N
      = Cert.Net.linRelu (A := 50000) (K := 64) (N := 96) (V c (Pipeline.arrRef spec0 0) : S50000x64.Idx → EReal)
          (V c (Pipeline.arrRef spec0 1) : S64x96.Idx → EReal) (V c (Pipeline.arrRef spec0 2) : S1x96.Idx → EReal) :=
  (dat0 (F := Ideal) V c).arrAt_eq_of_cover 3 (G0 V c) (fun t _ => flushed0_eq V c t) (cover0_arr)

end Cert.KernelIdeal.Fr

end
-- ==== Proof.KI.Final1.lean ====
/- Region 1 of @main, read as one function of the arrays it finds: the body's arithmetic is the dense layer
   x · w + b cut off below at zero (on the extended reals a change of float format and a recast to the same shape do
   nothing), and since row r of a layer is computed from row r of its input alone, the block of rows a grid point
   writes back is that block of the layer of the whole arrays. The ten row blocks tile the output array, so after
   the region it holds the layer of the input array, the weight and the bias row. -/
import proofs.«123229_j70574902608028_1_alg».proof.Proof.KI.Region1
import proofs.«123229_j70574902608028_1_alg».proof.Proof.NetSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat Cfg Window)
open scoped BigOperators

/-- The printed dimension numbers of the layer's product are those of a plain product. -/
theorem dims1_eq : dot_S5000x384_S384x96_S5000x96_1_0_0_1_n_n
    = Cert.Dense.plainDims (A := 5000) (K := 384) (N := 96) dot_S5000x384_S384x96_S5000x96_1_0_0_1_n_n.wf := rfl

/-- The body's arithmetic is the dense layer cut off at zero: x0 · x1 + x2 on the extended reals, where a change
    of float format and a recast to the same shape do nothing. -/
theorem pay1_eq (x0 : Vec Ideal S5000x384 .f32) (x1 : Vec Ideal S384x96 .f32) (x2 : Vec Ideal S1x96 .f32) :
    k1_pay1 (F := Ideal) x0 x1 x2 = Cert.Net.linRelu (A := 5000) (K := 384) (N := 96) x0 x1 x2 := by
  unfold k1_pay1
  refine (Cert.Gcn.maximumf_zero_splat (A := 5000) (N := 96) _).trans ?_
  refine congrArg (Cert.Gcn.relu (A := 5000) (N := 96)) ?_
  refine (Cert.Net.unit_lin (A := 5000) (K := 384) (N := 96) dot_S5000x384_S384x96_S5000x96_1_0_0_1_n_n.wf
    shapeCasts_S1x96_S1x96 broadcasts_S1x96_S5000x96 _ _ x2).trans ?_
  rw [shapeCast_self x0, shapeCast_self x1]
  rfl

variable (V : (c : Dev nD) → (b : Ref sig .tc) → Buf (Elt Ideal) ((c : Thread nD τ).loc b))

/-! ## From blocks to the array -/

theorem hz1 : (![0, 0] : Fin 2 → Nat) = fun _ => 0 := funext fun a => by fin_cases a <;> rfl

/-- The printed index maps, decided over the grid: the input's and the output's row blocks are block t at point t,
    with one block of columns; the weight's and the bias's block is the whole array at every point. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- A layer's entry in row r is computed from row r of its input: where row (j 0) of x is row (i 0) of X, the
    layer of x at (j 0, q) is the layer of X at (i 0, q). -/
theorem linRelu_at1 {A B K N : ℕ} (X : Cert.Gcn.Tab B K) (x : Cert.Gcn.Tab A K) (w : Cert.Gcn.Tab K N)
    (b : Cert.Gcn.Tab 1 N) (j : (⟨2, ![A, N]⟩ : Shape).Idx) (i : (⟨2, ![B, N]⟩ : Shape).Idx)
    (hx : ∀ k : Fin K, x (ix2 (j 0) k) = X (ix2 (i 0) k)) (h1 : (i 1 : Fin N) = j 1) :
    Cert.Net.linRelu x w b j = Cert.Net.linRelu X w b i := by
  show max ((∑ k : Fin K, x (ix2 (j 0) k) * w (ix2 k (j 1))) + b (ix2 (0 : Fin 1) (j 1))) _
    = max ((∑ k : Fin K, X (ix2 (i 0) k) * w (ix2 k (i 1))) + b (ix2 (0 : Fin 1) (i 1))) _
  rw [h1]
  simp only [hx]

/-- The input window's block at point t is rows 5000 t … 5000 t + 4999 of the array. -/
theorem iblk1_0_apply (c : Dev nD) (t : Fin cfg1.N) (y : S5000x384.Idx) (k : S50000x384.Idx)
    (hk0 : (k 0).val = t.val * 5000 + (y 0).val) (hk1 : (k 1).val = (y 1).val) :
    (iblk1 (F := Ideal) V c 0 t : Vec Ideal S5000x384 .f32) y
      = (V c (Pipeline.arrRef spec1 0) : S50000x384.Idx → EReal) k := by
  obtain ⟨e00, e01, -, -, -, -, -, -⟩ := idx_facts1 t
  unfold iblk1
  rw [View.read_apply]
  refine congrArg (V c (Pipeline.arrRef spec1 0) : S50000x384.Idx → EReal) ?_
  funext a
  apply Fin.ext
  match a with
  | ⟨0, _⟩ => show win1_0.index t (0 : Fin 2) * 5000 + 1 * (y 0).val = (k 0).val; rw [e00, hk0]; omega
  | ⟨1, _⟩ => show win1_0.index t (1 : Fin 2) * 384 + 1 * (y 1).val = (k 1).val; rw [e01, hk1]; omega

/-- The weight window's block at every point is the whole weight. -/
theorem iblk1_1_eq (c : Dev nD) (t : Fin cfg1.N) :
    (iblk1 (F := Ideal) V c 1 t : Vec Ideal S384x96 .f32) = (V c (Pipeline.arrRef spec1 1) : S384x96.Idx → EReal) := by
  obtain ⟨-, -, e10, e11, -, -, -, -⟩ := idx_facts1 t
  funext y
  unfold iblk1
  rw [View.read_apply]
  refine congrArg (V c (Pipeline.arrRef spec1 1) : S384x96.Idx → EReal) ?_
  funext a
  apply Fin.ext
  match a with
  | ⟨0, _⟩ => show win1_1.index t (0 : Fin 2) * 384 + 1 * (y 0).val = (y 0).val; rw [e10]; omega
  | ⟨1, _⟩ => show win1_1.index t (1 : Fin 2) * 96 + 1 * (y 1).val = (y 1).val; rw [e11]; omega

/-- The bias window's block at every point is the whole bias row. -/
theorem iblk1_2_eq (c : Dev nD) (t : Fin cfg1.N) :
    (iblk1 (F := Ideal) V c 2 t : Vec Ideal S1x96 .f32) = (V c (Pipeline.arrRef spec1 2) : S1x96.Idx → EReal) := by
  obtain ⟨-, -, -, -, e20, e21, -, -⟩ := idx_facts1 t
  funext y
  unfold iblk1
  rw [View.read_apply]
  refine congrArg (V c (Pipeline.arrRef spec1 2) : S1x96.Idx → EReal) ?_
  funext a
  apply Fin.ext
  match a with
  | ⟨0, _⟩ => show win1_2.index t (0 : Fin 2) * 1 + 1 * (y 0).val = (y 0).val; rw [e20]; omega
  | ⟨1, _⟩ => show win1_2.index t (1 : Fin 2) * 96 + 1 * (y 1).val = (y 1).val; rw [e21]; omega

/-- What the output array ends holding: the layer of the three arrays as the region finds them. -/
abbrev G1 (c : Dev nD) : S50000x96.Idx → EReal :=
  Cert.Net.linRelu (A := 50000) (K := 384) (N := 96) (V c (Pipeline.arrRef spec1 0) : S50000x384.Idx → EReal)
    (V c (Pipeline.arrRef spec1 1) : S384x96.Idx → EReal) (V c (Pipeline.arrRef spec1 2) : S1x96.Idx → EReal)

/-- What point t writes back is block t of the layer of the whole arrays. -/
theorem flushed1_eq (c : Dev nD) (t : Fin cfg1.N) :
    (dat1 (F := Ideal) V c).flushed 3 t = ((cfg1.win 3).blk t).view.read (Elt Ideal) (G1 V c) := by
  show (cfg1.win 3).cut (grid1.coords t) ((dat1 (F := Ideal) V c).after 3 t) = _
  rw [after1_3]
  unfold out1
  rw [View.canon_unit_zero hz1]
  simp only [View.ld_unit_zero (S := S5000x384) hz1, View.ld_unit_zero (S := S384x96) hz1, View.ld_unit_zero (S := S1x96) hz1]
  rw [pay1_eq, iblk1_1_eq, iblk1_2_eq]
  obtain ⟨-, -, -, -, -, -, e30, e31⟩ := idx_facts1 t
  funext j
  show Cert.Net.linRelu (A := 5000) (K := 384) (N := 96) (iblk1 (F := Ideal) V c 0 t) _ _ j
    = G1 V c (((cfg1.win 3).blk t).view.emb j)
  refine linRelu_at1 _ _ _ _ j _ (fun k => iblk1_0_apply V c t _ _ ?_ rfl) ?_
  · show (((cfg1.win 3).blk t).view.emb j (0 : Fin 2)).val = t.val * 5000 + (j 0).val
    show win1_3.index t (0 : Fin 2) * 5000 + 1 * (j 0).val = t.val * 5000 + (j 0).val
    rw [e30]; omega
  · apply Fin.ext
    show win1_3.index t (1 : Fin 2) * 96 + 1 * (j 1).val = (j 1).val
    rw [e31]; omega

/-- An index of the array is in point t's block iff each coordinate is in the block's range on its axis. -/
theorem mem_blk1 (t : Fin cfg1.N) (i : S50000x96.Idx) :
    i ∈ ((cfg1.win 3).blk t).view.set ↔ ∀ a : Fin 2, win1_3.index t a * S5000x96.size a ≤ (i a).val
      ∧ (i a).val < win1_3.index t a * S5000x96.size a + S5000x96.size a := by
  show i ∈ ((View.whole main_v112).slice (win1_3.rect t)).set ↔ _
  rw [View.set_slice_whole, Rect.mem_set_unit]
  exact Iff.rfl

/-- Row r of the array lies in the block of point r / 5000. -/
theorem cover1_arr (i : S50000x96.Idx) :
    ∃ t : Fin cfg1.N, (cfg1.win 3).flush t = true ∧ i ∈ ((cfg1.win 3).blk t).view.set := by
  have hi0 : (i 0).val < 50000 := (i 0).isLt
  have hi1 : (i 1).val < 96 := (i 1).isLt
  have hN : cfg1.N = 10 := N_1
  refine ⟨⟨(i 0).val / 5000, by rw [hN]; omega⟩, flush1_3 _, ?_⟩
  rw [mem_blk1]
  obtain ⟨-, -, -, -, -, -, e30, e31⟩ := idx_facts1 ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e30]
    show (i 0).val / 5000 * 5000 ≤ (i 0).val ∧ (i 0).val < (i 0).val / 5000 * 5000 + 5000
    omega
  | ⟨1, _⟩ =>
    show win1_3.index _ (1 : Fin 2) * 96 ≤ (i 1).val ∧ (i 1).val < win1_3.index _ (1 : Fin 2) * 96 + 96
    rw [e31]; omega

/-- The output array after the region: the layer of the three arrays as the region finds them. -/
theorem final1 (c : Dev nD) :
    (dat1 (F := Ideal) V c).arrAt 3 cfg1.N
      = Cert.Net.linRelu (A := 50000) (K := 384) (N := 96) (V c (Pipeline.arrRef spec1 0) : S50000x384.Idx → EReal)
          (V c (Pipeline.arrRef spec1 1) : S384x96.Idx → EReal) (V c (Pipeline.arrRef spec1 2) : S1x96.Idx → EReal) :=
  (dat1 (F := Ideal) V c).arrAt_eq_of_cover 3 (G1 V c) (fun t _ => flushed1_eq V c t) (cover1_arr)

end Cert.KernelIdeal.Fr

end
-- ==== Proof.KI.Final2.lean ====
/- Region 2 of @main, read as one function of the arrays it finds: the body's arithmetic is the dense layer
   x · w + b with no cut-off (on the extended reals a change of float format and a recast to the same shape do
   nothing), and since row r of a layer is computed from row r of its input alone, the block of rows a grid point
   writes back is that block of the layer of the whole arrays. The ten row blocks tile the output array, so after
   the region it holds the layer of the input array, the weight and the bias row. -/
import proofs.«123229_j70574902608028_1_alg».proof.Proof.KI.Region2
import proofs.«123229_j70574902608028_1_alg».proof.Proof.NetSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat Cfg Window)
open scoped BigOperators

/-- The printed dimension numbers of the layer's product are those of a plain product. -/
theorem dims2_eq : dot_S5000x384_S384x96_S5000x96_1_0_0_1_n_n
    = Cert.Dense.plainDims (A := 5000) (K := 384) (N := 96) dot_S5000x384_S384x96_S5000x96_1_0_0_1_n_n.wf := rfl

/-- The body's arithmetic is the dense layer x0 · x1 + x2 on the extended reals, where a change of float format
    and a recast to the same shape do nothing. -/
theorem pay2_eq (x0 : Vec Ideal S5000x384 .f32) (x1 : Vec Ideal S384x96 .f32) (x2 : Vec Ideal S1x96 .f32) :
    k2_pay1 (F := Ideal) x0 x1 x2 = Cert.Net.lin (A := 5000) (K := 384) (N := 96) x0 x1 x2 := by
  unfold k2_pay1
  refine (Cert.Net.unit_lin (A := 5000) (K := 384) (N := 96) dot_S5000x384_S384x96_S5000x96_1_0_0_1_n_n.wf
    shapeCasts_S1x96_S1x96 broadcasts_S1x96_S5000x96 _ _ x2).trans ?_
  rw [shapeCast_self x0, shapeCast_self x1]
  rfl

variable (V : (c : Dev nD) → (b : Ref sig .tc) → Buf (Elt Ideal) ((c : Thread nD τ).loc b))

/-! ## From blocks to the array -/

theorem hz2 : (![0, 0] : Fin 2 → Nat) = fun _ => 0 := funext fun a => by fin_cases a <;> rfl

/-- The printed index maps, decided over the grid: the input's and the output's row blocks are block t at point t,
    with one block of columns; the weight's and the bias's block is the whole array at every point. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- A layer's entry in row r is computed from row r of its input: where row (j 0) of x is row (i 0) of X, the
    layer of x at (j 0, q) is the layer of X at (i 0, q). -/
theorem lin_at2 {A B K N : ℕ} (X : Cert.Gcn.Tab B K) (x : Cert.Gcn.Tab A K) (w : Cert.Gcn.Tab K N)
    (b : Cert.Gcn.Tab 1 N) (j : (⟨2, ![A, N]⟩ : Shape).Idx) (i : (⟨2, ![B, N]⟩ : Shape).Idx)
    (hx : ∀ k : Fin K, x (ix2 (j 0) k) = X (ix2 (i 0) k)) (h1 : (i 1 : Fin N) = j 1) :
    Cert.Net.lin x w b j = Cert.Net.lin X w b i := by
  show (∑ k : Fin K, x (ix2 (j 0) k) * w (ix2 k (j 1))) + b (ix2 (0 : Fin 1) (j 1))
    = (∑ k : Fin K, X (ix2 (i 0) k) * w (ix2 k (i 1))) + b (ix2 (0 : Fin 1) (i 1))
  rw [h1]
  simp only [hx]

/-- The input window's block at point t is rows 5000 t … 5000 t + 4999 of the array. -/
theorem iblk2_0_apply (c : Dev nD) (t : Fin cfg2.N) (y : S5000x384.Idx) (k : S50000x384.Idx)
    (hk0 : (k 0).val = t.val * 5000 + (y 0).val) (hk1 : (k 1).val = (y 1).val) :
    (iblk2 (F := Ideal) V c 0 t : Vec Ideal S5000x384 .f32) y
      = (V c (Pipeline.arrRef spec2 0) : S50000x384.Idx → EReal) k := by
  obtain ⟨e00, e01, -, -, -, -, -, -⟩ := idx_facts2 t
  unfold iblk2
  rw [View.read_apply]
  refine congrArg (V c (Pipeline.arrRef spec2 0) : S50000x384.Idx → EReal) ?_
  funext a
  apply Fin.ext
  match a with
  | ⟨0, _⟩ => show win2_0.index t (0 : Fin 2) * 5000 + 1 * (y 0).val = (k 0).val; rw [e00, hk0]; omega
  | ⟨1, _⟩ => show win2_0.index t (1 : Fin 2) * 384 + 1 * (y 1).val = (k 1).val; rw [e01, hk1]; omega

/-- The weight window's block at every point is the whole weight. -/
theorem iblk2_1_eq (c : Dev nD) (t : Fin cfg2.N) :
    (iblk2 (F := Ideal) V c 1 t : Vec Ideal S384x96 .f32) = (V c (Pipeline.arrRef spec2 1) : S384x96.Idx → EReal) := by
  obtain ⟨-, -, e10, e11, -, -, -, -⟩ := idx_facts2 t
  funext y
  unfold iblk2
  rw [View.read_apply]
  refine congrArg (V c (Pipeline.arrRef spec2 1) : S384x96.Idx → EReal) ?_
  funext a
  apply Fin.ext
  match a with
  | ⟨0, _⟩ => show win2_1.index t (0 : Fin 2) * 384 + 1 * (y 0).val = (y 0).val; rw [e10]; omega
  | ⟨1, _⟩ => show win2_1.index t (1 : Fin 2) * 96 + 1 * (y 1).val = (y 1).val; rw [e11]; omega

/-- The bias window's block at every point is the whole bias row. -/
theorem iblk2_2_eq (c : Dev nD) (t : Fin cfg2.N) :
    (iblk2 (F := Ideal) V c 2 t : Vec Ideal S1x96 .f32) = (V c (Pipeline.arrRef spec2 2) : S1x96.Idx → EReal) := by
  obtain ⟨-, -, -, -, e20, e21, -, -⟩ := idx_facts2 t
  funext y
  unfold iblk2
  rw [View.read_apply]
  refine congrArg (V c (Pipeline.arrRef spec2 2) : S1x96.Idx → EReal) ?_
  funext a
  apply Fin.ext
  match a with
  | ⟨0, _⟩ => show win2_2.index t (0 : Fin 2) * 1 + 1 * (y 0).val = (y 0).val; rw [e20]; omega
  | ⟨1, _⟩ => show win2_2.index t (1 : Fin 2) * 96 + 1 * (y 1).val = (y 1).val; rw [e21]; omega

/-- What the output array ends holding: the layer of the three arrays as the region finds them. -/
abbrev G2 (c : Dev nD) : S50000x96.Idx → EReal :=
  Cert.Net.lin (A := 50000) (K := 384) (N := 96) (V c (Pipeline.arrRef spec2 0) : S50000x384.Idx → EReal)
    (V c (Pipeline.arrRef spec2 1) : S384x96.Idx → EReal) (V c (Pipeline.arrRef spec2 2) : S1x96.Idx → EReal)

/-- What point t writes back is block t of the layer of the whole arrays. -/
theorem flushed2_eq (c : Dev nD) (t : Fin cfg2.N) :
    (dat2 (F := Ideal) V c).flushed 3 t = ((cfg2.win 3).blk t).view.read (Elt Ideal) (G2 V c) := by
  show (cfg2.win 3).cut (grid2.coords t) ((dat2 (F := Ideal) V c).after 3 t) = _
  rw [after2_3]
  unfold out2
  rw [View.canon_unit_zero hz2]
  simp only [View.ld_unit_zero (S := S5000x384) hz2, View.ld_unit_zero (S := S384x96) hz2, View.ld_unit_zero (S := S1x96) hz2]
  rw [pay2_eq, iblk2_1_eq, iblk2_2_eq]
  obtain ⟨-, -, -, -, -, -, e30, e31⟩ := idx_facts2 t
  funext j
  show Cert.Net.lin (A := 5000) (K := 384) (N := 96) (iblk2 (F := Ideal) V c 0 t) _ _ j
    = G2 V c (((cfg2.win 3).blk t).view.emb j)
  refine lin_at2 _ _ _ _ j _ (fun k => iblk2_0_apply V c t _ _ ?_ rfl) ?_
  · show (((cfg2.win 3).blk t).view.emb j (0 : Fin 2)).val = t.val * 5000 + (j 0).val
    show win2_3.index t (0 : Fin 2) * 5000 + 1 * (j 0).val = t.val * 5000 + (j 0).val
    rw [e30]; omega
  · apply Fin.ext
    show win2_3.index t (1 : Fin 2) * 96 + 1 * (j 1).val = (j 1).val
    rw [e31]; omega

/-- An index of the array is in point t's block iff each coordinate is in the block's range on its axis. -/
theorem mem_blk2 (t : Fin cfg2.N) (i : S50000x96.Idx) :
    i ∈ ((cfg2.win 3).blk t).view.set ↔ ∀ a : Fin 2, win2_3.index t a * S5000x96.size a ≤ (i a).val
      ∧ (i a).val < win2_3.index t a * S5000x96.size a + S5000x96.size a := by
  show i ∈ ((View.whole main_v155).slice (win2_3.rect t)).set ↔ _
  rw [View.set_slice_whole, Rect.mem_set_unit]
  exact Iff.rfl

/-- Row r of the array lies in the block of point r / 5000. -/
theorem cover2_arr (i : S50000x96.Idx) :
    ∃ t : Fin cfg2.N, (cfg2.win 3).flush t = true ∧ i ∈ ((cfg2.win 3).blk t).view.set := by
  have hi0 : (i 0).val < 50000 := (i 0).isLt
  have hi1 : (i 1).val < 96 := (i 1).isLt
  have hN : cfg2.N = 10 := N_2
  refine ⟨⟨(i 0).val / 5000, by rw [hN]; omega⟩, flush2_3 _, ?_⟩
  rw [mem_blk2]
  obtain ⟨-, -, -, -, -, -, e30, e31⟩ := idx_facts2 ⟨(i 0).val / 5000, by rw [hN]; omega⟩
  intro a
  match a with
  | ⟨0, _⟩ =>
    show win2_3.index _ (0 : Fin 2) * 5000 ≤ (i 0).val ∧ (i 0).val < win2_3.index _ (0 : Fin 2) * 5000 + 5000
    rw [e30]
    show (i 0).val / 5000 * 5000 ≤ (i 0).val ∧ (i 0).val < (i 0).val / 5000 * 5000 + 5000
    omega
  | ⟨1, _⟩ =>
    show win2_3.index _ (1 : Fin 2) * 96 ≤ (i 1).val ∧ (i 1).val < win2_3.index _ (1 : Fin 2) * 96 + 96
    rw [e31]; omega

/-- The output array after the region: the layer of the three arrays as the region finds them. -/
theorem final2 (c : Dev nD) :
    (dat2 (F := Ideal) V c).arrAt 3 cfg2.N
      = Cert.Net.lin (A := 50000) (K := 384) (N := 96) (V c (Pipeline.arrRef spec2 0) : S50000x384.Idx → EReal)
          (V c (Pipeline.arrRef spec2 1) : S384x96.Idx → EReal) (V c (Pipeline.arrRef spec2 2) : S1x96.Idx → EReal) :=
  (dat2 (F := Ideal) V c).arrAt_eq_of_cover 3 (G2 V c) (fun t _ => flushed2_eq V c t) (cover2_arr)

end Cert.KernelIdeal.Fr

end
-- ==== Proof.KI.Final3.lean ====
/- Region 3 of @main, read as one function of the arrays it finds: the body's arithmetic is the dense layer
   x · w + b cut off below at zero (on the extended reals a change of float format and a recast to the same shape do
   nothing), and since row r of a layer is computed from row r of its input alone, the block of rows a grid point
   writes back is that block of the layer of the whole arrays. The ten row blocks tile the output array, so after
   the region it holds the layer of the input array, the weight and the bias row. -/
import proofs.«123229_j70574902608028_1_alg».proof.Proof.KI.Region3
import proofs.«123229_j70574902608028_1_alg».proof.Proof.NetSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat Cfg Window)
open scoped BigOperators

/-- The printed dimension numbers of the layer's product are those of a plain product. -/
theorem dims3_eq : dot_S5000x96_S96x96_S5000x96_1_0_0_1_n_n
    = Cert.Dense.plainDims (A := 5000) (K := 96) (N := 96) dot_S5000x96_S96x96_S5000x96_1_0_0_1_n_n.wf := rfl

/-- The body's arithmetic is the dense layer cut off at zero: x0 · x1 + x2 on the extended reals, where a change
    of float format and a recast to the same shape do nothing. -/
theorem pay3_eq (x0 : Vec Ideal S5000x96 .f32) (x1 : Vec Ideal S96x96 .f32) (x2 : Vec Ideal S1x96 .f32) :
    k3_pay1 (F := Ideal) x0 x1 x2 = Cert.Net.linRelu (A := 5000) (K := 96) (N := 96) x0 x1 x2 := by
  unfold k3_pay1
  refine (Cert.Gcn.maximumf_zero_splat (A := 5000) (N := 96) _).trans ?_
  refine congrArg (Cert.Gcn.relu (A := 5000) (N := 96)) ?_
  refine (Cert.Net.unit_lin (A := 5000) (K := 96) (N := 96) dot_S5000x96_S96x96_S5000x96_1_0_0_1_n_n.wf
    shapeCasts_S1x96_S1x96 broadcasts_S1x96_S5000x96 _ _ x2).trans ?_
  rw [shapeCast_self x0]
  rfl

variable (V : (c : Dev nD) → (b : Ref sig .tc) → Buf (Elt Ideal) ((c : Thread nD τ).loc b))

/-! ## From blocks to the array -/

theorem hz3 : (![0, 0] : Fin 2 → Nat) = fun _ => 0 := funext fun a => by fin_cases a <;> rfl

/-- The printed index maps, decided over the grid: the input's and the output's row blocks are block t at point t,
    with one block of columns; the weight's and the bias's block is the whole array at every point. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- A layer's entry in row r is computed from row r of its input: where row (j 0) of x is row (i 0) of X, the
    layer of x at (j 0, q) is the layer of X at (i 0, q). -/
theorem linRelu_at3 {A B K N : ℕ} (X : Cert.Gcn.Tab B K) (x : Cert.Gcn.Tab A K) (w : Cert.Gcn.Tab K N)
    (b : Cert.Gcn.Tab 1 N) (j : (⟨2, ![A, N]⟩ : Shape).Idx) (i : (⟨2, ![B, N]⟩ : Shape).Idx)
    (hx : ∀ k : Fin K, x (ix2 (j 0) k) = X (ix2 (i 0) k)) (h1 : (i 1 : Fin N) = j 1) :
    Cert.Net.linRelu x w b j = Cert.Net.linRelu X w b i := by
  show max ((∑ k : Fin K, x (ix2 (j 0) k) * w (ix2 k (j 1))) + b (ix2 (0 : Fin 1) (j 1))) _
    = max ((∑ k : Fin K, X (ix2 (i 0) k) * w (ix2 k (i 1))) + b (ix2 (0 : Fin 1) (i 1))) _
  rw [h1]
  simp only [hx]

/-- The input window's block at point t is rows 5000 t … 5000 t + 4999 of the array. -/
theorem iblk3_0_apply (c : Dev nD) (t : Fin cfg3.N) (y : S5000x96.Idx) (k : S50000x96.Idx)
    (hk0 : (k 0).val = t.val * 5000 + (y 0).val) (hk1 : (k 1).val = (y 1).val) :
    (iblk3 (F := Ideal) V c 0 t : Vec Ideal S5000x96 .f32) y
      = (V c (Pipeline.arrRef spec3 0) : S50000x96.Idx → EReal) k := by
  obtain ⟨e00, e01, -, -, -, -, -, -⟩ := idx_facts3 t
  unfold iblk3
  rw [View.read_apply]
  refine congrArg (V c (Pipeline.arrRef spec3 0) : S50000x96.Idx → EReal) ?_
  funext a
  apply Fin.ext
  match a with
  | ⟨0, _⟩ => show win3_0.index t (0 : Fin 2) * 5000 + 1 * (y 0).val = (k 0).val; rw [e00, hk0]; omega
  | ⟨1, _⟩ => show win3_0.index t (1 : Fin 2) * 96 + 1 * (y 1).val = (k 1).val; rw [e01, hk1]; omega

/-- The weight window's block at every point is the whole weight. -/
theorem iblk3_1_eq (c : Dev nD) (t : Fin cfg3.N) :
    (iblk3 (F := Ideal) V c 1 t : Vec Ideal S96x96 .f32) = (V c (Pipeline.arrRef spec3 1) : S96x96.Idx → EReal) := by
  obtain ⟨-, -, e10, e11, -, -, -, -⟩ := idx_facts3 t
  funext y
  unfold iblk3
  rw [View.read_apply]
  refine congrArg (V c (Pipeline.arrRef spec3 1) : S96x96.Idx → EReal) ?_
  funext a
  apply Fin.ext
  match a with
  | ⟨0, _⟩ => show win3_1.index t (0 : Fin 2) * 96 + 1 * (y 0).val = (y 0).val; rw [e10]; omega
  | ⟨1, _⟩ => show win3_1.index t (1 : Fin 2) * 96 + 1 * (y 1).val = (y 1).val; rw [e11]; omega

/-- The bias window's block at every point is the whole bias row. -/
theorem iblk3_2_eq (c : Dev nD) (t : Fin cfg3.N) :
    (iblk3 (F := Ideal) V c 2 t : Vec Ideal S1x96 .f32) = (V c (Pipeline.arrRef spec3 2) : S1x96.Idx → EReal) := by
  obtain ⟨-, -, -, -, e20, e21, -, -⟩ := idx_facts3 t
  funext y
  unfold iblk3
  rw [View.read_apply]
  refine congrArg (V c (Pipeline.arrRef spec3 2) : S1x96.Idx → EReal) ?_
  funext a
  apply Fin.ext
  match a with
  | ⟨0, _⟩ => show win3_2.index t (0 : Fin 2) * 1 + 1 * (y 0).val = (y 0).val; rw [e20]; omega
  | ⟨1, _⟩ => show win3_2.index t (1 : Fin 2) * 96 + 1 * (y 1).val = (y 1).val; rw [e21]; omega

/-- What the output array ends holding: the layer of the three arrays as the region finds them. -/
abbrev G3 (c : Dev nD) : S50000x96.Idx → EReal :=
  Cert.Net.linRelu (A := 50000) (K := 96) (N := 96) (V c (Pipeline.arrRef spec3 0) : S50000x96.Idx → EReal)
    (V c (Pipeline.arrRef spec3 1) : S96x96.Idx → EReal) (V c (Pipeline.arrRef spec3 2) : S1x96.Idx → EReal)

/-- What point t writes back is block t of the layer of the whole arrays. -/
theorem flushed3_eq (c : Dev nD) (t : Fin cfg3.N) :
    (dat3 (F := Ideal) V c).flushed 3 t = ((cfg3.win 3).blk t).view.read (Elt Ideal) (G3 V c) := by
  show (cfg3.win 3).cut (grid3.coords t) ((dat3 (F := Ideal) V c).after 3 t) = _
  rw [after3_3]
  unfold out3
  rw [View.canon_unit_zero hz3]
  simp only [View.ld_unit_zero (S := S5000x96) hz3, View.ld_unit_zero (S := S96x96) hz3, View.ld_unit_zero (S := S1x96) hz3]
  rw [pay3_eq, iblk3_1_eq, iblk3_2_eq]
  obtain ⟨-, -, -, -, -, -, e30, e31⟩ := idx_facts3 t
  funext j
  show Cert.Net.linRelu (A := 5000) (K := 96) (N := 96) (iblk3 (F := Ideal) V c 0 t) _ _ j
    = G3 V c (((cfg3.win 3).blk t).view.emb j)
  refine linRelu_at3 _ _ _ _ j _ (fun k => iblk3_0_apply V c t _ _ ?_ rfl) ?_
  · show (((cfg3.win 3).blk t).view.emb j (0 : Fin 2)).val = t.val * 5000 + (j 0).val
    show win3_3.index t (0 : Fin 2) * 5000 + 1 * (j 0).val = t.val * 5000 + (j 0).val
    rw [e30]; omega
  · apply Fin.ext
    show win3_3.index t (1 : Fin 2) * 96 + 1 * (j 1).val = (j 1).val
    rw [e31]; omega

/-- An index of the array is in point t's block iff each coordinate is in the block's range on its axis. -/
theorem mem_blk3 (t : Fin cfg3.N) (i : S50000x96.Idx) :
    i ∈ ((cfg3.win 3).blk t).view.set ↔ ∀ a : Fin 2, win3_3.index t a * S5000x96.size a ≤ (i a).val
      ∧ (i a).val < win3_3.index t a * S5000x96.size a + S5000x96.size a := by
  show i ∈ ((View.whole main_v157).slice (win3_3.rect t)).set ↔ _
  rw [View.set_slice_whole, Rect.mem_set_unit]
  exact Iff.rfl

/-- Row r of the array lies in the block of point r / 5000. -/
theorem cover3_arr (i : S50000x96.Idx) :
    ∃ t : Fin cfg3.N, (cfg3.win 3).flush t = true ∧ i ∈ ((cfg3.win 3).blk t).view.set := by
  have hi0 : (i 0).val < 50000 := (i 0).isLt
  have hi1 : (i 1).val < 96 := (i 1).isLt
  have hN : cfg3.N = 10 := N_3
  refine ⟨⟨(i 0).val / 5000, by rw [hN]; omega⟩, flush3_3 _, ?_⟩
  rw [mem_blk3]
  obtain ⟨-, -, -, -, -, -, e30, e31⟩ := idx_facts3 ⟨(i 0).val / 5000, by rw [hN]; omega⟩
  intro a
  match a with
  | ⟨0, _⟩ =>
    show win3_3.index _ (0 : Fin 2) * 5000 ≤ (i 0).val ∧ (i 0).val < win3_3.index _ (0 : Fin 2) * 5000 + 5000
    rw [e30]
    show (i 0).val / 5000 * 5000 ≤ (i 0).val ∧ (i 0).val < (i 0).val / 5000 * 5000 + 5000
    omega
  | ⟨1, _⟩ =>
    show win3_3.index _ (1 : Fin 2) * 96 ≤ (i 1).val ∧ (i 1).val < win3_3.index _ (1 : Fin 2) * 96 + 96
    rw [e31]; omega

/-- The output array after the region: the layer of the three arrays as the region finds them. -/
theorem final3 (c : Dev nD) :
    (dat3 (F := Ideal) V c).arrAt 3 cfg3.N
      = Cert.Net.linRelu (A := 50000) (K := 96) (N := 96) (V c (Pipeline.arrRef spec3 0) : S50000x96.Idx → EReal)
          (V c (Pipeline.arrRef spec3 1) : S96x96.Idx → EReal) (V c (Pipeline.arrRef spec3 2) : S1x96.Idx → EReal) :=
  (dat3 (F := Ideal) V c).arrAt_eq_of_cover 3 (G3 V c) (fun t _ => flushed3_eq V c t) (cover3_arr)

end Cert.KernelIdeal.Fr

end
-- ==== Proof.KI.Final4.lean ====
/- Region 4 of @main, read as one function of the arrays it finds: the body's arithmetic is the dense layer
   x · w + b cut off below at zero (on the extended reals a change of float format and a recast to the same shape do
   nothing), and since row r of a layer is computed from row r of its input alone, the block of rows a grid point
   writes back is that block of the layer of the whole arrays. The ten row blocks tile the output array, so after
   the region it holds the layer of the input array, the weight and the bias row. -/
import proofs.«123229_j70574902608028_1_alg».proof.Proof.KI.Region4
import proofs.«123229_j70574902608028_1_alg».proof.Proof.NetSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat Cfg Window)
open scoped BigOperators

/-- The printed dimension numbers of the layer's product are those of a plain product. -/
theorem dims4_eq : dot_S5000x96_S96x96_S5000x96_1_0_0_1_n_n
    = Cert.Dense.plainDims (A := 5000) (K := 96) (N := 96) dot_S5000x96_S96x96_S5000x96_1_0_0_1_n_n.wf := rfl

/-- The body's arithmetic is the dense layer cut off at zero: x0 · x1 + x2 on the extended reals, where a change
    of float format and a recast to the same shape do nothing. -/
theorem pay4_eq (x0 : Vec Ideal S5000x96 .f32) (x1 : Vec Ideal S96x96 .f32) (x2 : Vec Ideal S1x96 .f32) :
    k4_pay1 (F := Ideal) x0 x1 x2 = Cert.Net.linRelu (A := 5000) (K := 96) (N := 96) x0 x1 x2 := by
  unfold k4_pay1
  refine (Cert.Gcn.maximumf_zero_splat (A := 5000) (N := 96) _).trans ?_
  refine congrArg (Cert.Gcn.relu (A := 5000) (N := 96)) ?_
  refine (Cert.Net.unit_lin (A := 5000) (K := 96) (N := 96) dot_S5000x96_S96x96_S5000x96_1_0_0_1_n_n.wf
    shapeCasts_S1x96_S1x96 broadcasts_S1x96_S5000x96 _ _ x2).trans ?_
  rw [shapeCast_self x0]
  rfl

variable (V : (c : Dev nD) → (b : Ref sig .tc) → Buf (Elt Ideal) ((c : Thread nD τ).loc b))

/-! ## From blocks to the array -/

theorem hz4 : (![0, 0] : Fin 2 → Nat) = fun _ => 0 := funext fun a => by fin_cases a <;> rfl

/-- The printed index maps, decided over the grid: the input's and the output's row blocks are block t at point t,
    with one block of columns; the weight's and the bias's block is the whole array at every point. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- A layer's entry in row r is computed from row r of its input: where row (j 0) of x is row (i 0) of X, the
    layer of x at (j 0, q) is the layer of X at (i 0, q). -/
theorem linRelu_at4 {A B K N : ℕ} (X : Cert.Gcn.Tab B K) (x : Cert.Gcn.Tab A K) (w : Cert.Gcn.Tab K N)
    (b : Cert.Gcn.Tab 1 N) (j : (⟨2, ![A, N]⟩ : Shape).Idx) (i : (⟨2, ![B, N]⟩ : Shape).Idx)
    (hx : ∀ k : Fin K, x (ix2 (j 0) k) = X (ix2 (i 0) k)) (h1 : (i 1 : Fin N) = j 1) :
    Cert.Net.linRelu x w b j = Cert.Net.linRelu X w b i := by
  show max ((∑ k : Fin K, x (ix2 (j 0) k) * w (ix2 k (j 1))) + b (ix2 (0 : Fin 1) (j 1))) _
    = max ((∑ k : Fin K, X (ix2 (i 0) k) * w (ix2 k (i 1))) + b (ix2 (0 : Fin 1) (i 1))) _
  rw [h1]
  simp only [hx]

/-- The input window's block at point t is rows 5000 t … 5000 t + 4999 of the array. -/
theorem iblk4_0_apply (c : Dev nD) (t : Fin cfg4.N) (y : S5000x96.Idx) (k : S50000x96.Idx)
    (hk0 : (k 0).val = t.val * 5000 + (y 0).val) (hk1 : (k 1).val = (y 1).val) :
    (iblk4 (F := Ideal) V c 0 t : Vec Ideal S5000x96 .f32) y
      = (V c (Pipeline.arrRef spec4 0) : S50000x96.Idx → EReal) k := by
  obtain ⟨e00, e01, -, -, -, -, -, -⟩ := idx_facts4 t
  unfold iblk4
  rw [View.read_apply]
  refine congrArg (V c (Pipeline.arrRef spec4 0) : S50000x96.Idx → EReal) ?_
  funext a
  apply Fin.ext
  match a with
  | ⟨0, _⟩ => show win4_0.index t (0 : Fin 2) * 5000 + 1 * (y 0).val = (k 0).val; rw [e00, hk0]; omega
  | ⟨1, _⟩ => show win4_0.index t (1 : Fin 2) * 96 + 1 * (y 1).val = (k 1).val; rw [e01, hk1]; omega

/-- The weight window's block at every point is the whole weight. -/
theorem iblk4_1_eq (c : Dev nD) (t : Fin cfg4.N) :
    (iblk4 (F := Ideal) V c 1 t : Vec Ideal S96x96 .f32) = (V c (Pipeline.arrRef spec4 1) : S96x96.Idx → EReal) := by
  obtain ⟨-, -, e10, e11, -, -, -, -⟩ := idx_facts4 t
  funext y
  unfold iblk4
  rw [View.read_apply]
  refine congrArg (V c (Pipeline.arrRef spec4 1) : S96x96.Idx → EReal) ?_
  funext a
  apply Fin.ext
  match a with
  | ⟨0, _⟩ => show win4_1.index t (0 : Fin 2) * 96 + 1 * (y 0).val = (y 0).val; rw [e10]; omega
  | ⟨1, _⟩ => show win4_1.index t (1 : Fin 2) * 96 + 1 * (y 1).val = (y 1).val; rw [e11]; omega

/-- The bias window's block at every point is the whole bias row. -/
theorem iblk4_2_eq (c : Dev nD) (t : Fin cfg4.N) :
    (iblk4 (F := Ideal) V c 2 t : Vec Ideal S1x96 .f32) = (V c (Pipeline.arrRef spec4 2) : S1x96.Idx → EReal) := by
  obtain ⟨-, -, -, -, e20, e21, -, -⟩ := idx_facts4 t
  funext y
  unfold iblk4
  rw [View.read_apply]
  refine congrArg (V c (Pipeline.arrRef spec4 2) : S1x96.Idx → EReal) ?_
  funext a
  apply Fin.ext
  match a with
  | ⟨0, _⟩ => show win4_2.index t (0 : Fin 2) * 1 + 1 * (y 0).val = (y 0).val; rw [e20]; omega
  | ⟨1, _⟩ => show win4_2.index t (1 : Fin 2) * 96 + 1 * (y 1).val = (y 1).val; rw [e21]; omega

/-- What the output array ends holding: the layer of the three arrays as the region finds them. -/
abbrev G4 (c : Dev nD) : S50000x96.Idx → EReal :=
  Cert.Net.linRelu (A := 50000) (K := 96) (N := 96) (V c (Pipeline.arrRef spec4 0) : S50000x96.Idx → EReal)
    (V c (Pipeline.arrRef spec4 1) : S96x96.Idx → EReal) (V c (Pipeline.arrRef spec4 2) : S1x96.Idx → EReal)

/-- What point t writes back is block t of the layer of the whole arrays. -/
theorem flushed4_eq (c : Dev nD) (t : Fin cfg4.N) :
    (dat4 (F := Ideal) V c).flushed 3 t = ((cfg4.win 3).blk t).view.read (Elt Ideal) (G4 V c) := by
  show (cfg4.win 3).cut (grid4.coords t) ((dat4 (F := Ideal) V c).after 3 t) = _
  rw [after4_3]
  unfold out4
  rw [View.canon_unit_zero hz4]
  simp only [View.ld_unit_zero (S := S5000x96) hz4, View.ld_unit_zero (S := S96x96) hz4, View.ld_unit_zero (S := S1x96) hz4]
  rw [pay4_eq, iblk4_1_eq, iblk4_2_eq]
  obtain ⟨-, -, -, -, -, -, e30, e31⟩ := idx_facts4 t
  funext j
  show Cert.Net.linRelu (A := 5000) (K := 96) (N := 96) (iblk4 (F := Ideal) V c 0 t) _ _ j
    = G4 V c (((cfg4.win 3).blk t).view.emb j)
  refine linRelu_at4 _ _ _ _ j _ (fun k => iblk4_0_apply V c t _ _ ?_ rfl) ?_
  · show (((cfg4.win 3).blk t).view.emb j (0 : Fin 2)).val = t.val * 5000 + (j 0).val
    show win4_3.index t (0 : Fin 2) * 5000 + 1 * (j 0).val = t.val * 5000 + (j 0).val
    rw [e30]; omega
  · apply Fin.ext
    show win4_3.index t (1 : Fin 2) * 96 + 1 * (j 1).val = (j 1).val
    rw [e31]; omega

/-- An index of the array is in point t's block iff each coordinate is in the block's range on its axis. -/
theorem mem_blk4 (t : Fin cfg4.N) (i : S50000x96.Idx) :
    i ∈ ((cfg4.win 3).blk t).view.set ↔ ∀ a : Fin 2, win4_3.index t a * S5000x96.size a ≤ (i a).val
      ∧ (i a).val < win4_3.index t a * S5000x96.size a + S5000x96.size a := by
  show i ∈ ((View.whole main_v159).slice (win4_3.rect t)).set ↔ _
  rw [View.set_slice_whole, Rect.mem_set_unit]
  exact Iff.rfl

/-- Row r of the array lies in the block of point r / 5000. -/
theorem cover4_arr (i : S50000x96.Idx) :
    ∃ t : Fin cfg4.N, (cfg4.win 3).flush t = true ∧ i ∈ ((cfg4.win 3).blk t).view.set := by
  have hi0 : (i 0).val < 50000 := (i 0).isLt
  have hi1 : (i 1).val < 96 := (i 1).isLt
  have hN : cfg4.N = 10 := N_4
  refine ⟨⟨(i 0).val / 5000, by rw [hN]; omega⟩, flush4_3 _, ?_⟩
  rw [mem_blk4]
  obtain ⟨-, -, -, -, -, -, e30, e31⟩ := idx_facts4 ⟨(i 0).val / 5000, by rw [hN]; omega⟩
  intro a
  match a with
  | ⟨0, _⟩ =>
    show win4_3.index _ (0 : Fin 2) * 5000 ≤ (i 0).val ∧ (i 0).val < win4_3.index _ (0 : Fin 2) * 5000 + 5000
    rw [e30]
    show (i 0).val / 5000 * 5000 ≤ (i 0).val ∧ (i 0).val < (i 0).val / 5000 * 5000 + 5000
    omega
  | ⟨1, _⟩ =>
    show win4_3.index _ (1 : Fin 2) * 96 ≤ (i 1).val ∧ (i 1).val < win4_3.index _ (1 : Fin 2) * 96 + 96
    rw [e31]; omega

/-- The output array after the region: the layer of the three arrays as the region finds them. -/
theorem final4 (c : Dev nD) :
    (dat4 (F := Ideal) V c).arrAt 3 cfg4.N
      = Cert.Net.linRelu (A := 50000) (K := 96) (N := 96) (V c (Pipeline.arrRef spec4 0) : S50000x96.Idx → EReal)
          (V c (Pipeline.arrRef spec4 1) : S96x96.Idx → EReal) (V c (Pipeline.arrRef spec4 2) : S1x96.Idx → EReal) :=
  (dat4 (F := Ideal) V c).arrAt_eq_of_cover 3 (G4 V c) (fun t _ => flushed4_eq V c t) (cover4_arr)

end Cert.KernelIdeal.Fr

end
-- ==== Proof.KI.Final5.lean ====
/- Region 5 of @main, read as one function of the arrays it finds: the body's arithmetic is the dense layer
   x · w + b cut off below at zero (on the extended reals a change of float format and a recast to the same shape do
   nothing), and since row r of a layer is computed from row r of its input alone, the block of rows a grid point
   writes back is that block of the layer of the whole arrays. The ten row blocks tile the output array, so after
   the region it holds the layer of the input array, the weight and the bias row. -/
import proofs.«123229_j70574902608028_1_alg».proof.Proof.KI.Region5
import proofs.«123229_j70574902608028_1_alg».proof.Proof.NetSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat Cfg Window)
open scoped BigOperators

/-- The printed dimension numbers of the layer's product are those of a plain product. -/
theorem dims5_eq : dot_S5000x96_S96x96_S5000x96_1_0_0_1_n_n
    = Cert.Dense.plainDims (A := 5000) (K := 96) (N := 96) dot_S5000x96_S96x96_S5000x96_1_0_0_1_n_n.wf := rfl

/-- The body's arithmetic is the dense layer cut off at zero: x0 · x1 + x2 on the extended reals, where a change
    of float format and a recast to the same shape do nothing. -/
theorem pay5_eq (x0 : Vec Ideal S5000x96 .f32) (x1 : Vec Ideal S96x96 .f32) (x2 : Vec Ideal S1x96 .f32) :
    k5_pay1 (F := Ideal) x0 x1 x2 = Cert.Net.linRelu (A := 5000) (K := 96) (N := 96) x0 x1 x2 := by
  unfold k5_pay1
  refine (Cert.Gcn.maximumf_zero_splat (A := 5000) (N := 96) _).trans ?_
  refine congrArg (Cert.Gcn.relu (A := 5000) (N := 96)) ?_
  refine (Cert.Net.unit_lin (A := 5000) (K := 96) (N := 96) dot_S5000x96_S96x96_S5000x96_1_0_0_1_n_n.wf
    shapeCasts_S1x96_S1x96 broadcasts_S1x96_S5000x96 _ _ x2).trans ?_
  rw [shapeCast_self x0]
  rfl

variable (V : (c : Dev nD) → (b : Ref sig .tc) → Buf (Elt Ideal) ((c : Thread nD τ).loc b))

/-! ## From blocks to the array -/

theorem hz5 : (![0, 0] : Fin 2 → Nat) = fun _ => 0 := funext fun a => by fin_cases a <;> rfl

/-- The printed index maps, decided over the grid: the input's and the output's row blocks are block t at point t,
    with one block of columns; the weight's and the bias's block is the whole array at every point. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- A layer's entry in row r is computed from row r of its input: where row (j 0) of x is row (i 0) of X, the
    layer of x at (j 0, q) is the layer of X at (i 0, q). -/
theorem linRelu_at5 {A B K N : ℕ} (X : Cert.Gcn.Tab B K) (x : Cert.Gcn.Tab A K) (w : Cert.Gcn.Tab K N)
    (b : Cert.Gcn.Tab 1 N) (j : (⟨2, ![A, N]⟩ : Shape).Idx) (i : (⟨2, ![B, N]⟩ : Shape).Idx)
    (hx : ∀ k : Fin K, x (ix2 (j 0) k) = X (ix2 (i 0) k)) (h1 : (i 1 : Fin N) = j 1) :
    Cert.Net.linRelu x w b j = Cert.Net.linRelu X w b i := by
  show max ((∑ k : Fin K, x (ix2 (j 0) k) * w (ix2 k (j 1))) + b (ix2 (0 : Fin 1) (j 1))) _
    = max ((∑ k : Fin K, X (ix2 (i 0) k) * w (ix2 k (i 1))) + b (ix2 (0 : Fin 1) (i 1))) _
  rw [h1]
  simp only [hx]

/-- The input window's block at point t is rows 5000 t … 5000 t + 4999 of the array. -/
theorem iblk5_0_apply (c : Dev nD) (t : Fin cfg5.N) (y : S5000x96.Idx) (k : S50000x96.Idx)
    (hk0 : (k 0).val = t.val * 5000 + (y 0).val) (hk1 : (k 1).val = (y 1).val) :
    (iblk5 (F := Ideal) V c 0 t : Vec Ideal S5000x96 .f32) y
      = (V c (Pipeline.arrRef spec5 0) : S50000x96.Idx → EReal) k := by
  obtain ⟨e00, e01, -, -, -, -, -, -⟩ := idx_facts5 t
  unfold iblk5
  rw [View.read_apply]
  refine congrArg (V c (Pipeline.arrRef spec5 0) : S50000x96.Idx → EReal) ?_
  funext a
  apply Fin.ext
  match a with
  | ⟨0, _⟩ => show win5_0.index t (0 : Fin 2) * 5000 + 1 * (y 0).val = (k 0).val; rw [e00, hk0]; omega
  | ⟨1, _⟩ => show win5_0.index t (1 : Fin 2) * 96 + 1 * (y 1).val = (k 1).val; rw [e01, hk1]; omega

/-- The weight window's block at every point is the whole weight. -/
theorem iblk5_1_eq (c : Dev nD) (t : Fin cfg5.N) :
    (iblk5 (F := Ideal) V c 1 t : Vec Ideal S96x96 .f32) = (V c (Pipeline.arrRef spec5 1) : S96x96.Idx → EReal) := by
  obtain ⟨-, -, e10, e11, -, -, -, -⟩ := idx_facts5 t
  funext y
  unfold iblk5
  rw [View.read_apply]
  refine congrArg (V c (Pipeline.arrRef spec5 1) : S96x96.Idx → EReal) ?_
  funext a
  apply Fin.ext
  match a with
  | ⟨0, _⟩ => show win5_1.index t (0 : Fin 2) * 96 + 1 * (y 0).val = (y 0).val; rw [e10]; omega
  | ⟨1, _⟩ => show win5_1.index t (1 : Fin 2) * 96 + 1 * (y 1).val = (y 1).val; rw [e11]; omega

/-- The bias window's block at every point is the whole bias row. -/
theorem iblk5_2_eq (c : Dev nD) (t : Fin cfg5.N) :
    (iblk5 (F := Ideal) V c 2 t : Vec Ideal S1x96 .f32) = (V c (Pipeline.arrRef spec5 2) : S1x96.Idx → EReal) := by
  obtain ⟨-, -, -, -, e20, e21, -, -⟩ := idx_facts5 t
  funext y
  unfold iblk5
  rw [View.read_apply]
  refine congrArg (V c (Pipeline.arrRef spec5 2) : S1x96.Idx → EReal) ?_
  funext a
  apply Fin.ext
  match a with
  | ⟨0, _⟩ => show win5_2.index t (0 : Fin 2) * 1 + 1 * (y 0).val = (y 0).val; rw [e20]; omega
  | ⟨1, _⟩ => show win5_2.index t (1 : Fin 2) * 96 + 1 * (y 1).val = (y 1).val; rw [e21]; omega

/-- What the output array ends holding: the layer of the three arrays as the region finds them. -/
abbrev G5 (c : Dev nD) : S50000x96.Idx → EReal :=
  Cert.Net.linRelu (A := 50000) (K := 96) (N := 96) (V c (Pipeline.arrRef spec5 0) : S50000x96.Idx → EReal)
    (V c (Pipeline.arrRef spec5 1) : S96x96.Idx → EReal) (V c (Pipeline.arrRef spec5 2) : S1x96.Idx → EReal)

/-- What point t writes back is block t of the layer of the whole arrays. -/
theorem flushed5_eq (c : Dev nD) (t : Fin cfg5.N) :
    (dat5 (F := Ideal) V c).flushed 3 t = ((cfg5.win 3).blk t).view.read (Elt Ideal) (G5 V c) := by
  show (cfg5.win 3).cut (grid5.coords t) ((dat5 (F := Ideal) V c).after 3 t) = _
  rw [after5_3]
  unfold out5
  rw [View.canon_unit_zero hz5]
  simp only [View.ld_unit_zero (S := S5000x96) hz5, View.ld_unit_zero (S := S96x96) hz5, View.ld_unit_zero (S := S1x96) hz5]
  rw [pay5_eq, iblk5_1_eq, iblk5_2_eq]
  obtain ⟨-, -, -, -, -, -, e30, e31⟩ := idx_facts5 t
  funext j
  show Cert.Net.linRelu (A := 5000) (K := 96) (N := 96) (iblk5 (F := Ideal) V c 0 t) _ _ j
    = G5 V c (((cfg5.win 3).blk t).view.emb j)
  refine linRelu_at5 _ _ _ _ j _ (fun k => iblk5_0_apply V c t _ _ ?_ rfl) ?_
  · show (((cfg5.win 3).blk t).view.emb j (0 : Fin 2)).val = t.val * 5000 + (j 0).val
    show win5_3.index t (0 : Fin 2) * 5000 + 1 * (j 0).val = t.val * 5000 + (j 0).val
    rw [e30]; omega
  · apply Fin.ext
    show win5_3.index t (1 : Fin 2) * 96 + 1 * (j 1).val = (j 1).val
    rw [e31]; omega

/-- An index of the array is in point t's block iff each coordinate is in the block's range on its axis. -/
theorem mem_blk5 (t : Fin cfg5.N) (i : S50000x96.Idx) :
    i ∈ ((cfg5.win 3).blk t).view.set ↔ ∀ a : Fin 2, win5_3.index t a * S5000x96.size a ≤ (i a).val
      ∧ (i a).val < win5_3.index t a * S5000x96.size a + S5000x96.size a := by
  show i ∈ ((View.whole main_v161).slice (win5_3.rect t)).set ↔ _
  rw [View.set_slice_whole, Rect.mem_set_unit]
  exact Iff.rfl

/-- Row r of the array lies in the block of point r / 5000. -/
theorem cover5_arr (i : S50000x96.Idx) :
    ∃ t : Fin cfg5.N, (cfg5.win 3).flush t = true ∧ i ∈ ((cfg5.win 3).blk t).view.set := by
  have hi0 : (i 0).val < 50000 := (i 0).isLt
  have hi1 : (i 1).val < 96 := (i 1).isLt
  have hN : cfg5.N = 10 := N_5
  refine ⟨⟨(i 0).val / 5000, by rw [hN]; omega⟩, flush5_3 _, ?_⟩
  rw [mem_blk5]
  obtain ⟨-, -, -, -, -, -, e30, e31⟩ := idx_facts5 ⟨(i 0).val / 5000, by rw [hN]; omega⟩
  intro a
  match a with
  | ⟨0, _⟩ =>
    show win5_3.index _ (0 : Fin 2) * 5000 ≤ (i 0).val ∧ (i 0).val < win5_3.index _ (0 : Fin 2) * 5000 + 5000
    rw [e30]
    show (i 0).val / 5000 * 5000 ≤ (i 0).val ∧ (i 0).val < (i 0).val / 5000 * 5000 + 5000
    omega
  | ⟨1, _⟩ =>
    show win5_3.index _ (1 : Fin 2) * 96 ≤ (i 1).val ∧ (i 1).val < win5_3.index _ (1 : Fin 2) * 96 + 96
    rw [e31]; omega

/-- The output array after the region: the layer of the three arrays as the region finds them. -/
theorem final5 (c : Dev nD) :
    (dat5 (F := Ideal) V c).arrAt 3 cfg5.N
      = Cert.Net.linRelu (A := 50000) (K := 96) (N := 96) (V c (Pipeline.arrRef spec5 0) : S50000x96.Idx → EReal)
          (V c (Pipeline.arrRef spec5 1) : S96x96.Idx → EReal) (V c (Pipeline.arrRef spec5 2) : S1x96.Idx → EReal) :=
  (dat5 (F := Ideal) V c).arrAt_eq_of_cover 3 (G5 V c) (fun t _ => flushed5_eq V c t) (cover5_arr)

end Cert.KernelIdeal.Fr

end
-- ==== Proof.KI.Final6.lean ====
/- Region 6 of @main, read as one function of the arrays it finds: the body's arithmetic is the dense layer
   x · w + b cut off below at zero (on the extended reals a change of float format and a recast to the same shape do
   nothing), and since row r of a layer is computed from row r of its input alone, the block of rows a grid point
   writes back is that block of the layer of the whole arrays. The ten row blocks tile the output array, so after
   the region it holds the layer of the input array, the weight and the bias row. -/
import proofs.«123229_j70574902608028_1_alg».proof.Proof.KI.Region6
import proofs.«123229_j70574902608028_1_alg».proof.Proof.NetSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat Cfg Window)
open scoped BigOperators

/-- The printed dimension numbers of the layer's product are those of a plain product. -/
theorem dims6_eq : dot_S5000x96_S96x96_S5000x96_1_0_0_1_n_n
    = Cert.Dense.plainDims (A := 5000) (K := 96) (N := 96) dot_S5000x96_S96x96_S5000x96_1_0_0_1_n_n.wf := rfl

/-- The body's arithmetic is the dense layer cut off at zero: x0 · x1 + x2 on the extended reals, where a change
    of float format and a recast to the same shape do nothing. -/
theorem pay6_eq (x0 : Vec Ideal S5000x96 .f32) (x1 : Vec Ideal S96x96 .f32) (x2 : Vec Ideal S1x96 .f32) :
    k6_pay1 (F := Ideal) x0 x1 x2 = Cert.Net.linRelu (A := 5000) (K := 96) (N := 96) x0 x1 x2 := by
  unfold k6_pay1
  refine (Cert.Gcn.maximumf_zero_splat (A := 5000) (N := 96) _).trans ?_
  refine congrArg (Cert.Gcn.relu (A := 5000) (N := 96)) ?_
  refine (Cert.Net.unit_lin (A := 5000) (K := 96) (N := 96) dot_S5000x96_S96x96_S5000x96_1_0_0_1_n_n.wf
    shapeCasts_S1x96_S1x96 broadcasts_S1x96_S5000x96 _ _ x2).trans ?_
  rw [shapeCast_self x0]
  rfl

variable (V : (c : Dev nD) → (b : Ref sig .tc) → Buf (Elt Ideal) ((c : Thread nD τ).loc b))

/-! ## From blocks to the array -/

theorem hz6 : (![0, 0] : Fin 2 → Nat) = fun _ => 0 := funext fun a => by fin_cases a <;> rfl

/-- The printed index maps, decided over the grid: the input's and the output's row blocks are block t at point t,
    with one block of columns; the weight's and the bias's block is the whole array at every point. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- A layer's entry in row r is computed from row r of its input: where row (j 0) of x is row (i 0) of X, the
    layer of x at (j 0, q) is the layer of X at (i 0, q). -/
theorem linRelu_at6 {A B K N : ℕ} (X : Cert.Gcn.Tab B K) (x : Cert.Gcn.Tab A K) (w : Cert.Gcn.Tab K N)
    (b : Cert.Gcn.Tab 1 N) (j : (⟨2, ![A, N]⟩ : Shape).Idx) (i : (⟨2, ![B, N]⟩ : Shape).Idx)
    (hx : ∀ k : Fin K, x (ix2 (j 0) k) = X (ix2 (i 0) k)) (h1 : (i 1 : Fin N) = j 1) :
    Cert.Net.linRelu x w b j = Cert.Net.linRelu X w b i := by
  show max ((∑ k : Fin K, x (ix2 (j 0) k) * w (ix2 k (j 1))) + b (ix2 (0 : Fin 1) (j 1))) _
    = max ((∑ k : Fin K, X (ix2 (i 0) k) * w (ix2 k (i 1))) + b (ix2 (0 : Fin 1) (i 1))) _
  rw [h1]
  simp only [hx]

/-- The input window's block at point t is rows 5000 t … 5000 t + 4999 of the array. -/
theorem iblk6_0_apply (c : Dev nD) (t : Fin cfg6.N) (y : S5000x96.Idx) (k : S50000x96.Idx)
    (hk0 : (k 0).val = t.val * 5000 + (y 0).val) (hk1 : (k 1).val = (y 1).val) :
    (iblk6 (F := Ideal) V c 0 t : Vec Ideal S5000x96 .f32) y
      = (V c (Pipeline.arrRef spec6 0) : S50000x96.Idx → EReal) k := by
  obtain ⟨e00, e01, -, -, -, -, -, -⟩ := idx_facts6 t
  unfold iblk6
  rw [View.read_apply]
  refine congrArg (V c (Pipeline.arrRef spec6 0) : S50000x96.Idx → EReal) ?_
  funext a
  apply Fin.ext
  match a with
  | ⟨0, _⟩ => show win6_0.index t (0 : Fin 2) * 5000 + 1 * (y 0).val = (k 0).val; rw [e00, hk0]; omega
  | ⟨1, _⟩ => show win6_0.index t (1 : Fin 2) * 96 + 1 * (y 1).val = (k 1).val; rw [e01, hk1]; omega

/-- The weight window's block at every point is the whole weight. -/
theorem iblk6_1_eq (c : Dev nD) (t : Fin cfg6.N) :
    (iblk6 (F := Ideal) V c 1 t : Vec Ideal S96x96 .f32) = (V c (Pipeline.arrRef spec6 1) : S96x96.Idx → EReal) := by
  obtain ⟨-, -, e10, e11, -, -, -, -⟩ := idx_facts6 t
  funext y
  unfold iblk6
  rw [View.read_apply]
  refine congrArg (V c (Pipeline.arrRef spec6 1) : S96x96.Idx → EReal) ?_
  funext a
  apply Fin.ext
  match a with
  | ⟨0, _⟩ => show win6_1.index t (0 : Fin 2) * 96 + 1 * (y 0).val = (y 0).val; rw [e10]; omega
  | ⟨1, _⟩ => show win6_1.index t (1 : Fin 2) * 96 + 1 * (y 1).val = (y 1).val; rw [e11]; omega

/-- The bias window's block at every point is the whole bias row. -/
theorem iblk6_2_eq (c : Dev nD) (t : Fin cfg6.N) :
    (iblk6 (F := Ideal) V c 2 t : Vec Ideal S1x96 .f32) = (V c (Pipeline.arrRef spec6 2) : S1x96.Idx → EReal) := by
  obtain ⟨-, -, -, -, e20, e21, -, -⟩ := idx_facts6 t
  funext y
  unfold iblk6
  rw [View.read_apply]
  refine congrArg (V c (Pipeline.arrRef spec6 2) : S1x96.Idx → EReal) ?_
  funext a
  apply Fin.ext
  match a with
  | ⟨0, _⟩ => show win6_2.index t (0 : Fin 2) * 1 + 1 * (y 0).val = (y 0).val; rw [e20]; omega
  | ⟨1, _⟩ => show win6_2.index t (1 : Fin 2) * 96 + 1 * (y 1).val = (y 1).val; rw [e21]; omega

/-- What the output array ends holding: the layer of the three arrays as the region finds them. -/
abbrev G6 (c : Dev nD) : S50000x96.Idx → EReal :=
  Cert.Net.linRelu (A := 50000) (K := 96) (N := 96) (V c (Pipeline.arrRef spec6 0) : S50000x96.Idx → EReal)
    (V c (Pipeline.arrRef spec6 1) : S96x96.Idx → EReal) (V c (Pipeline.arrRef spec6 2) : S1x96.Idx → EReal)

/-- What point t writes back is block t of the layer of the whole arrays. -/
theorem flushed6_eq (c : Dev nD) (t : Fin cfg6.N) :
    (dat6 (F := Ideal) V c).flushed 3 t = ((cfg6.win 3).blk t).view.read (Elt Ideal) (G6 V c) := by
  show (cfg6.win 3).cut (grid6.coords t) ((dat6 (F := Ideal) V c).after 3 t) = _
  rw [after6_3]
  unfold out6
  rw [View.canon_unit_zero hz6]
  simp only [View.ld_unit_zero (S := S5000x96) hz6, View.ld_unit_zero (S := S96x96) hz6, View.ld_unit_zero (S := S1x96) hz6]
  rw [pay6_eq, iblk6_1_eq, iblk6_2_eq]
  obtain ⟨-, -, -, -, -, -, e30, e31⟩ := idx_facts6 t
  funext j
  show Cert.Net.linRelu (A := 5000) (K := 96) (N := 96) (iblk6 (F := Ideal) V c 0 t) _ _ j
    = G6 V c (((cfg6.win 3).blk t).view.emb j)
  refine linRelu_at6 _ _ _ _ j _ (fun k => iblk6_0_apply V c t _ _ ?_ rfl) ?_
  · show (((cfg6.win 3).blk t).view.emb j (0 : Fin 2)).val = t.val * 5000 + (j 0).val
    show win6_3.index t (0 : Fin 2) * 5000 + 1 * (j 0).val = t.val * 5000 + (j 0).val
    rw [e30]; omega
  · apply Fin.ext
    show win6_3.index t (1 : Fin 2) * 96 + 1 * (j 1).val = (j 1).val
    rw [e31]; omega

/-- An index of the array is in point t's block iff each coordinate is in the block's range on its axis. -/
theorem mem_blk6 (t : Fin cfg6.N) (i : S50000x96.Idx) :
    i ∈ ((cfg6.win 3).blk t).view.set ↔ ∀ a : Fin 2, win6_3.index t a * S5000x96.size a ≤ (i a).val
      ∧ (i a).val < win6_3.index t a * S5000x96.size a + S5000x96.size a := by
  show i ∈ ((View.whole main_v163).slice (win6_3.rect t)).set ↔ _
  rw [View.set_slice_whole, Rect.mem_set_unit]
  exact Iff.rfl

/-- Row r of the array lies in the block of point r / 5000. -/
theorem cover6_arr (i : S50000x96.Idx) :
    ∃ t : Fin cfg6.N, (cfg6.win 3).flush t = true ∧ i ∈ ((cfg6.win 3).blk t).view.set := by
  have hi0 : (i 0).val < 50000 := (i 0).isLt
  have hi1 : (i 1).val < 96 := (i 1).isLt
  have hN : cfg6.N = 10 := N_6
  refine ⟨⟨(i 0).val / 5000, by rw [hN]; omega⟩, flush6_3 _, ?_⟩
  rw [mem_blk6]
  obtain ⟨-, -, -, -, -, -, e30, e31⟩ := idx_facts6 ⟨(i 0).val / 5000, by rw [hN]; omega⟩
  intro a
  match a with
  | ⟨0, _⟩ =>
    show win6_3.index _ (0 : Fin 2) * 5000 ≤ (i 0).val ∧ (i 0).val < win6_3.index _ (0 : Fin 2) * 5000 + 5000
    rw [e30]
    show (i 0).val / 5000 * 5000 ≤ (i 0).val ∧ (i 0).val < (i 0).val / 5000 * 5000 + 5000
    omega
  | ⟨1, _⟩ =>
    show win6_3.index _ (1 : Fin 2) * 96 ≤ (i 1).val ∧ (i 1).val < win6_3.index _ (1 : Fin 2) * 96 + 96
    rw [e31]; omega

/-- The output array after the region: the layer of the three arrays as the region finds them. -/
theorem final6 (c : Dev nD) :
    (dat6 (F := Ideal) V c).arrAt 3 cfg6.N
      = Cert.Net.linRelu (A := 50000) (K := 96) (N := 96) (V c (Pipeline.arrRef spec6 0) : S50000x96.Idx → EReal)
          (V c (Pipeline.arrRef spec6 1) : S96x96.Idx → EReal) (V c (Pipeline.arrRef spec6 2) : S1x96.Idx → EReal) :=
  (dat6 (F := Ideal) V c).arrAt_eq_of_cover 3 (G6 V c) (fun t _ => flushed6_eq V c t) (cover6_arr)

end Cert.KernelIdeal.Fr

end
-- ==== Proof.KI.Final7.lean ====
/- Region 7 of @main, read as one function of the arrays it finds: the body's arithmetic is the dense layer
   x · w + b with no cut-off (on the extended reals a change of float format and a recast to the same shape do
   nothing), and since row r of a layer is computed from row r of its input alone, the block of rows a grid point
   writes back is that block of the layer of the whole arrays. The ten row blocks tile the output array, so after
   the region it holds the layer of the input array, the weight and the bias row. -/
import proofs.«123229_j70574902608028_1_alg».proof.Proof.KI.Region7
import proofs.«123229_j70574902608028_1_alg».proof.Proof.NetSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat Cfg Window)
open scoped BigOperators

/-- The printed dimension numbers of the layer's product are those of a plain product. -/
theorem dims7_eq : dot_S5000x96_S96x4_S5000x4_1_0_0_1_n_n
    = Cert.Dense.plainDims (A := 5000) (K := 96) (N := 4) dot_S5000x96_S96x4_S5000x4_1_0_0_1_n_n.wf := rfl

/-- The body's arithmetic is the dense layer x0 · x1 + x2 on the extended reals, where a change of float format
    and a recast to the same shape do nothing. -/
theorem pay7_eq (x0 : Vec Ideal S5000x96 .f32) (x1 : Vec Ideal S96x4 .f32) (x2 : Vec Ideal S1x4 .f32) :
    k7_pay1 (F := Ideal) x0 x1 x2 = Cert.Net.lin (A := 5000) (K := 96) (N := 4) x0 x1 x2 := by
  unfold k7_pay1
  refine (Cert.Net.unit_lin (A := 5000) (K := 96) (N := 4) dot_S5000x96_S96x4_S5000x4_1_0_0_1_n_n.wf
    shapeCasts_S1x4_S1x4 broadcasts_S1x4_S5000x4 _ _ x2).trans ?_
  rw [shapeCast_self x0]
  rfl

variable (V : (c : Dev nD) → (b : Ref sig .tc) → Buf (Elt Ideal) ((c : Thread nD τ).loc b))

/-! ## From blocks to the array -/

theorem hz7 : (![0, 0] : Fin 2 → Nat) = fun _ => 0 := funext fun a => by fin_cases a <;> rfl

/-- The printed index maps, decided over the grid: the input's and the output's row blocks are block t at point t,
    with one block of columns; the weight's and the bias's block is the whole array at every point. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- A layer's entry in row r is computed from row r of its input: where row (j 0) of x is row (i 0) of X, the
    layer of x at (j 0, q) is the layer of X at (i 0, q). -/
theorem lin_at7 {A B K N : ℕ} (X : Cert.Gcn.Tab B K) (x : Cert.Gcn.Tab A K) (w : Cert.Gcn.Tab K N)
    (b : Cert.Gcn.Tab 1 N) (j : (⟨2, ![A, N]⟩ : Shape).Idx) (i : (⟨2, ![B, N]⟩ : Shape).Idx)
    (hx : ∀ k : Fin K, x (ix2 (j 0) k) = X (ix2 (i 0) k)) (h1 : (i 1 : Fin N) = j 1) :
    Cert.Net.lin x w b j = Cert.Net.lin X w b i := by
  show (∑ k : Fin K, x (ix2 (j 0) k) * w (ix2 k (j 1))) + b (ix2 (0 : Fin 1) (j 1))
    = (∑ k : Fin K, X (ix2 (i 0) k) * w (ix2 k (i 1))) + b (ix2 (0 : Fin 1) (i 1))
  rw [h1]
  simp only [hx]

/-- The input window's block at point t is rows 5000 t … 5000 t + 4999 of the array. -/
theorem iblk7_0_apply (c : Dev nD) (t : Fin cfg7.N) (y : S5000x96.Idx) (k : S50000x96.Idx)
    (hk0 : (k 0).val = t.val * 5000 + (y 0).val) (hk1 : (k 1).val = (y 1).val) :
    (iblk7 (F := Ideal) V c 0 t : Vec Ideal S5000x96 .f32) y
      = (V c (Pipeline.arrRef spec7 0) : S50000x96.Idx → EReal) k := by
  obtain ⟨e00, e01, -, -, -, -, -, -⟩ := idx_facts7 t
  unfold iblk7
  rw [View.read_apply]
  refine congrArg (V c (Pipeline.arrRef spec7 0) : S50000x96.Idx → EReal) ?_
  funext a
  apply Fin.ext
  match a with
  | ⟨0, _⟩ => show win7_0.index t (0 : Fin 2) * 5000 + 1 * (y 0).val = (k 0).val; rw [e00, hk0]; omega
  | ⟨1, _⟩ => show win7_0.index t (1 : Fin 2) * 96 + 1 * (y 1).val = (k 1).val; rw [e01, hk1]; omega

/-- The weight window's block at every point is the whole weight. -/
theorem iblk7_1_eq (c : Dev nD) (t : Fin cfg7.N) :
    (iblk7 (F := Ideal) V c 1 t : Vec Ideal S96x4 .f32) = (V c (Pipeline.arrRef spec7 1) : S96x4.Idx → EReal) := by
  obtain ⟨-, -, e10, e11, -, -, -, -⟩ := idx_facts7 t
  funext y
  unfold iblk7
  rw [View.read_apply]
  refine congrArg (V c (Pipeline.arrRef spec7 1) : S96x4.Idx → EReal) ?_
  funext a
  apply Fin.ext
  match a with
  | ⟨0, _⟩ => show win7_1.index t (0 : Fin 2) * 96 + 1 * (y 0).val = (y 0).val; rw [e10]; omega
  | ⟨1, _⟩ => show win7_1.index t (1 : Fin 2) * 4 + 1 * (y 1).val = (y 1).val; rw [e11]; omega

/-- The bias window's block at every point is the whole bias row. -/
theorem iblk7_2_eq (c : Dev nD) (t : Fin cfg7.N) :
    (iblk7 (F := Ideal) V c 2 t : Vec Ideal S1x4 .f32) = (V c (Pipeline.arrRef spec7 2) : S1x4.Idx → EReal) := by
  obtain ⟨-, -, -, -, e20, e21, -, -⟩ := idx_facts7 t
  funext y
  unfold iblk7
  rw [View.read_apply]
  refine congrArg (V c (Pipeline.arrRef spec7 2) : S1x4.Idx → EReal) ?_
  funext a
  apply Fin.ext
  match a with
  | ⟨0, _⟩ => show win7_2.index t (0 : Fin 2) * 1 + 1 * (y 0).val = (y 0).val; rw [e20]; omega
  | ⟨1, _⟩ => show win7_2.index t (1 : Fin 2) * 4 + 1 * (y 1).val = (y 1).val; rw [e21]; omega

/-- What the output array ends holding: the layer of the three arrays as the region finds them. -/
abbrev G7 (c : Dev nD) : S50000x4.Idx → EReal :=
  Cert.Net.lin (A := 50000) (K := 96) (N := 4) (V c (Pipeline.arrRef spec7 0) : S50000x96.Idx → EReal)
    (V c (Pipeline.arrRef spec7 1) : S96x4.Idx → EReal) (V c (Pipeline.arrRef spec7 2) : S1x4.Idx → EReal)

/-- What point t writes back is block t of the layer of the whole arrays. -/
theorem flushed7_eq (c : Dev nD) (t : Fin cfg7.N) :
    (dat7 (F := Ideal) V c).flushed 3 t = ((cfg7.win 3).blk t).view.read (Elt Ideal) (G7 V c) := by
  show (cfg7.win 3).cut (grid7.coords t) ((dat7 (F := Ideal) V c).after 3 t) = _
  rw [after7_3]
  unfold out7
  rw [View.canon_unit_zero hz7]
  simp only [View.ld_unit_zero (S := S5000x96) hz7, View.ld_unit_zero (S := S96x4) hz7, View.ld_unit_zero (S := S1x4) hz7]
  rw [pay7_eq, iblk7_1_eq, iblk7_2_eq]
  obtain ⟨-, -, -, -, -, -, e30, e31⟩ := idx_facts7 t
  funext j
  show Cert.Net.lin (A := 5000) (K := 96) (N := 4) (iblk7 (F := Ideal) V c 0 t) _ _ j
    = G7 V c (((cfg7.win 3).blk t).view.emb j)
  refine lin_at7 _ _ _ _ j _ (fun k => iblk7_0_apply V c t _ _ ?_ rfl) ?_
  · show (((cfg7.win 3).blk t).view.emb j (0 : Fin 2)).val = t.val * 5000 + (j 0).val
    show win7_3.index t (0 : Fin 2) * 5000 + 1 * (j 0).val = t.val * 5000 + (j 0).val
    rw [e30]; omega
  · apply Fin.ext
    show win7_3.index t (1 : Fin 2) * 4 + 1 * (j 1).val = (j 1).val
    rw [e31]; omega

/-- An index of the array is in point t's block iff each coordinate is in the block's range on its axis. -/
theorem mem_blk7 (t : Fin cfg7.N) (i : S50000x4.Idx) :
    i ∈ ((cfg7.win 3).blk t).view.set ↔ ∀ a : Fin 2, win7_3.index t a * S5000x4.size a ≤ (i a).val
      ∧ (i a).val < win7_3.index t a * S5000x4.size a + S5000x4.size a := by
  show i ∈ ((View.whole main_v165).slice (win7_3.rect t)).set ↔ _
  rw [View.set_slice_whole, Rect.mem_set_unit]
  exact Iff.rfl

/-- Row r of the array lies in the block of point r / 5000. -/
theorem cover7_arr (i : S50000x4.Idx) :
    ∃ t : Fin cfg7.N, (cfg7.win 3).flush t = true ∧ i ∈ ((cfg7.win 3).blk t).view.set := by
  have hi0 : (i 0).val < 50000 := (i 0).isLt
  have hi1 : (i 1).val < 4 := (i 1).isLt
  have hN : cfg7.N = 10 := N_7
  refine ⟨⟨(i 0).val / 5000, by rw [hN]; omega⟩, flush7_3 _, ?_⟩
  rw [mem_blk7]
  obtain ⟨-, -, -, -, -, -, e30, e31⟩ := idx_facts7 ⟨(i 0).val / 5000, by rw [hN]; omega⟩
  intro a
  match a with
  | ⟨0, _⟩ =>
    show win7_3.index _ (0 : Fin 2) * 5000 ≤ (i 0).val ∧ (i 0).val < win7_3.index _ (0 : Fin 2) * 5000 + 5000
    rw [e30]
    show (i 0).val / 5000 * 5000 ≤ (i 0).val ∧ (i 0).val < (i 0).val / 5000 * 5000 + 5000
    omega
  | ⟨1, _⟩ =>
    show win7_3.index _ (1 : Fin 2) * 4 ≤ (i 1).val ∧ (i 1).val < win7_3.index _ (1 : Fin 2) * 4 + 4
    rw [e31]; omega

/-- The output array after the region: the layer of the three arrays as the region finds them. -/
theorem final7 (c : Dev nD) :
    (dat7 (F := Ideal) V c).arrAt 3 cfg7.N
      = Cert.Net.lin (A := 50000) (K := 96) (N := 4) (V c (Pipeline.arrRef spec7 0) : S50000x96.Idx → EReal)
          (V c (Pipeline.arrRef spec7 1) : S96x4.Idx → EReal) (V c (Pipeline.arrRef spec7 2) : S1x4.Idx → EReal) :=
  (dat7 (F := Ideal) V c).arrAt_eq_of_cover 3 (G7 V c) (fun t _ => flushed7_eq V c t) (cover7_arr)

end Cert.KernelIdeal.Fr

end
-- ==== Proof.NetRead.lean ====
/- The two layout operations the kernel's graph convolutions use, read as the specification's tables, at any extents:
   a concatenate of four [A, D] tables along the columns is cat4 of them (column k·D + d is column d of table k), and
   a [4, D, N] stack of weights reshaped to [4·D, N] is flat4 of its four slabs (row k·D + d is row d of slab k): both
   keep the row-major position of every entry. -/
import proofs.«123229_j70574902608028_1_alg».proof.Proof.NetSpec
import Idealize.ShloMosaic.Lib.Pipeline.Value

noncomputable section

open scoped BigOperators

namespace Cert.Net

open Idealize.ShloMosaic Idealize.ShloMosaic.ValueIdx Cert.Gcn

/-- Slab k of a stack of four [D, N] weight tables. -/
def slab {D N : ℕ} (W : (⟨3, ![4, D, N]⟩ : Shape).Idx → EReal) (k : Fin 4) : Tab D N :=
  fun i => W (ix3 k (i 0) (i 1))

/-- A row index r < 4·D is d + D·k for its slab k and its row d inside the slab. -/
theorem split_val {D : ℕ} (r : Fin (4 * D)) :
    (finProdFinEquiv.symm r).2.val + D * (finProdFinEquiv.symm r).1.val = r.val :=
  congrArg Fin.val (finProdFinEquiv.apply_symm_apply r)

/-- The stack reshaped to [4·D, N] is the four slabs on top of one another. -/
theorem flat_read {D N : ℕ} (W : (⟨3, ![4, D, N]⟩ : Shape).Idx → EReal)
    (h : (⟨3, ![4, D, N]⟩ : Shape).ShapeCasts ⟨2, ![4 * D, N]⟩) :
    shapeCast ⟨2, ![4 * D, N]⟩ W h = flat4 (slab W) := by
  funext j
  obtain ⟨r, q, rfl⟩ : ∃ (r : Fin (4 * D)) (q : Fin N), j = ix2 r q := ⟨j 0, j 1, eq_ix2 j⟩
  show shapeCast ⟨2, ![4 * D, N]⟩ W h (ix2 r q) = W (ix3 (finProdFinEquiv.symm r).1 (finProdFinEquiv.symm r).2 q)
  refine shapeCast_apply W h _ _ ?_
  rw [Shape.rowMajor_val_three, Shape.rowMajor_val_two]
  show ((finProdFinEquiv.symm r).1.val * D + (finProdFinEquiv.symm r).2.val) * N + q.val = r.val * N + q.val
  rw [← split_val r]
  ring

/-- Four tables concatenated along the columns are the four tables side by side. -/
theorem cat_read {A D : ℕ} (a : Fin 4 → Tab A D)
    (h : Shape.Concatenates [(⟨2, ![A, D]⟩ : Shape), ⟨2, ![A, D]⟩, ⟨2, ![A, D]⟩, ⟨2, ![A, D]⟩] ⟨2, ![A, 4 * D]⟩ 1) :
    concatenate ⟨2, ![A, 4 * D]⟩ 1
        [⟨⟨2, ![A, D]⟩, a 0⟩, ⟨⟨2, ![A, D]⟩, a 1⟩, ⟨⟨2, ![A, D]⟩, a 2⟩, ⟨⟨2, ![A, D]⟩, a 3⟩] h
      = cat4 a := by
  funext j
  obtain ⟨p, q, rfl⟩ : ∃ (p : Fin A) (q : Fin (4 * D)), j = ix2 p q := ⟨j 0, j 1, eq_ix2 j⟩
  show concatenate ⟨2, ![A, 4 * D]⟩ 1
      (List.ofFn fun n : Fin 4 => (⟨⟨2, ![A, D]⟩, a n⟩ : (s : Shape) × (s.Idx → EReal))) h (ix2 p q)
    = a (finProdFinEquiv.symm q).1 (ix2 p (finProdFinEquiv.symm q).2)
  refine concatenate_ofFn_apply (t := ⟨2, ![A, 4 * D]⟩) (s₁ := ⟨2, ![A, D]⟩) (1 : Fin 2) a h rfl D rfl (ix2 p q) (finProdFinEquiv.symm q).1 ?_
    (ix2 p (finProdFinEquiv.symm q).2) ?_ ?_
  · show q.val / D = (finProdFinEquiv.symm q).1.val
    rfl
  · show (finProdFinEquiv.symm q).2.val = q.val % D
    rfl
  · intro b hb
    match b with
    | ⟨0, _⟩ => rfl
    | ⟨1, _⟩ => exact absurd rfl hb

/-- The host's slab k of the stack: rows [k, k+1) sliced off and the unit axis dropped. -/
theorem slab_read {D N : ℕ} (W : (⟨3, ![4, D, N]⟩ : Shape).Idx → EReal) (k : Fin 4)
    (hs : (⟨3, ![4, D, N]⟩ : Shape).Slices ![k.val, 0, 0] ⟨3, ![1, D, N]⟩)
    (hc : (⟨3, ![1, D, N]⟩ : Shape).ShapeCasts ⟨2, ![D, N]⟩) :
    shapeCast ⟨2, ![D, N]⟩ (extractStridedSlice ⟨3, ![1, D, N]⟩ ![k.val, 0, 0] W hs) hc = slab W k := by
  funext i
  obtain ⟨d, o, rfl⟩ : ∃ (d : Fin D) (o : Fin N), i = ix2 d o := ⟨i 0, i 1, eq_ix2 i⟩
  refine (shapeCast_apply _ hc (ix2 d o) (ix3 (0 : Fin 1) d o) ?_).trans ?_
  · rw [Shape.rowMajor_val_three, Shape.rowMajor_val_two]
    show (0 * D + d.val) * N + o.val = d.val * N + o.val
    rw [Nat.zero_mul, Nat.zero_add]
  · exact extractStridedSlice_apply ![k.val, 0, 0] W hs (ix3 (0 : Fin 1) d o) (ix3 k d o) (fun a => match a with
      | ⟨0, _⟩ => by show k.val = k.val + 0; rfl
      | ⟨1, _⟩ => by show d.val = 0 + d.val; rw [Nat.zero_add]
      | ⟨2, _⟩ => by show o.val = 0 + o.val; rw [Nat.zero_add])

section Host

variable {A K N : ℕ} (wf : DotDims.WF (⟨2, ![A, K]⟩ : Shape) ⟨2, ![K, N]⟩ ⟨2, ![A, N]⟩ [1] [0] [0] [1] [] [])

/-- The host's dense layer: a dot_general plus the bias vector broadcast to a row and down the rows. -/
theorem host_dense (hb1 : (⟨1, ![N]⟩ : Shape).BroadcastsInDim ⟨2, ![1, N]⟩ ![1])
    (hb2 : (⟨2, ![1, N]⟩ : Shape).BroadcastsInDim ⟨2, ![A, N]⟩ ![0, 1])
    (hc : (⟨1, ![N]⟩ : Shape).ShapeCasts ⟨2, ![1, N]⟩)
    (h : FVec Ideal ⟨2, ![A, K]⟩ .f32) (W : FVec Ideal ⟨2, ![K, N]⟩ .f32) (b : FVec Ideal ⟨1, ![N]⟩ .f32) :
    addf (Host.dotGeneral (F := Ideal) (Cert.Dense.plainDims wf) none h W)
        (broadcastInDim ⟨2, ![A, N]⟩ ![0, 1] hb2 (broadcastInDim ⟨2, ![1, N]⟩ ![1] hb1 b))
      = lin (A := A) h W (shapeCast ⟨2, ![1, N]⟩ b hc) := by
  funext i
  rw [host_lin hb1 hb2 hc _ b i, dot_proj wf h W]
  rfl

/-- The same under the host's cut-off at zero. -/
theorem host_denseRelu (hb1 : (⟨1, ![N]⟩ : Shape).BroadcastsInDim ⟨2, ![1, N]⟩ ![1])
    (hb2 : (⟨2, ![1, N]⟩ : Shape).BroadcastsInDim ⟨2, ![A, N]⟩ ![0, 1])
    (hc : (⟨1, ![N]⟩ : Shape).ShapeCasts ⟨2, ![1, N]⟩)
    (hb0 : (⟨0, ![]⟩ : Shape).BroadcastsInDim ⟨2, ![A, N]⟩ ![])
    (h : FVec Ideal ⟨2, ![A, K]⟩ .f32) (W : FVec Ideal ⟨2, ![K, N]⟩ .f32) (b : FVec Ideal ⟨1, ![N]⟩ .f32) :
    maximumf (addf (Host.dotGeneral (F := Ideal) (Cert.Dense.plainDims wf) none h W)
          (broadcastInDim ⟨2, ![A, N]⟩ ![0, 1] hb2 (broadcastInDim ⟨2, ![1, N]⟩ ![1] hb1 b)))
        (broadcastInDim ⟨2, ![A, N]⟩ ![] hb0 (constant (F := Ideal) ⟨0, ![]⟩ .f32 0x00000000#32))
      = linRelu (A := A) h W (shapeCast ⟨2, ![1, N]⟩ b hc) := by
  rw [maximumf_zero_bcast, host_dense wf hb1 hb2 hc h W b]
  rfl

end Host

section HostConv

variable {A D N : ℕ} (wf : DotDims.WF (⟨2, ![A, D]⟩ : Shape) ⟨2, ![D, N]⟩ ⟨2, ![A, N]⟩ [1] [0] [0] [1] [] [])

/-- The host's graph convolution: each of four tables multiplied into its own weight slab, the four products added
    in order, plus the bias; it is the dense layer of the four tables side by side against the slabs stacked. -/
theorem host_conv (hb1 : (⟨1, ![N]⟩ : Shape).BroadcastsInDim ⟨2, ![1, N]⟩ ![1])
    (hb2 : (⟨2, ![1, N]⟩ : Shape).BroadcastsInDim ⟨2, ![A, N]⟩ ![0, 1])
    (hc : (⟨1, ![N]⟩ : Shape).ShapeCasts ⟨2, ![1, N]⟩)
    (a : Fin 4 → FVec Ideal ⟨2, ![A, D]⟩ .f32) (W : Fin 4 → FVec Ideal ⟨2, ![D, N]⟩ .f32) (b : FVec Ideal ⟨1, ![N]⟩ .f32) :
    addf (addf (addf (addf (Host.dotGeneral (F := Ideal) (Cert.Dense.plainDims wf) none (a 0) (W 0))
              (Host.dotGeneral (F := Ideal) (Cert.Dense.plainDims wf) none (a 1) (W 1)))
            (Host.dotGeneral (F := Ideal) (Cert.Dense.plainDims wf) none (a 2) (W 2)))
          (Host.dotGeneral (F := Ideal) (Cert.Dense.plainDims wf) none (a 3) (W 3)))
        (broadcastInDim ⟨2, ![A, N]⟩ ![0, 1] hb2 (broadcastInDim ⟨2, ![1, N]⟩ ![1] hb1 b))
      = lin (A := A) (cat4 (D := D) a) (flat4 (D := D) W) (shapeCast ⟨2, ![1, N]⟩ b hc) := by
  funext i
  rw [host_lin hb1 hb2 hc _ b i, dot_proj wf (a 0) (W 0), dot_proj wf (a 1) (W 1), dot_proj wf (a 2) (W 2),
    dot_proj wf (a 3) (W 3)]
  show ((proj (a 0) (W 0) i + proj (a 1) (W 1) i) + proj (a 2) (W 2) i) + proj (a 3) (W 3) i + _ = _
  rw [← proj_cat4 (D := D) a W i]
  rfl

/-- The same under the host's cut-off at zero. -/
theorem host_convRelu (hb1 : (⟨1, ![N]⟩ : Shape).BroadcastsInDim ⟨2, ![1, N]⟩ ![1])
    (hb2 : (⟨2, ![1, N]⟩ : Shape).BroadcastsInDim ⟨2, ![A, N]⟩ ![0, 1])
    (hc : (⟨1, ![N]⟩ : Shape).ShapeCasts ⟨2, ![1, N]⟩)
    (hb0 : (⟨0, ![]⟩ : Shape).BroadcastsInDim ⟨2, ![A, N]⟩ ![])
    (a : Fin 4 → FVec Ideal ⟨2, ![A, D]⟩ .f32) (W : Fin 4 → FVec Ideal ⟨2, ![D, N]⟩ .f32) (b : FVec Ideal ⟨1, ![N]⟩ .f32) :
    maximumf (addf (addf (addf (addf (Host.dotGeneral (F := Ideal) (Cert.Dense.plainDims wf) none (a 0) (W 0))
                (Host.dotGeneral (F := Ideal) (Cert.Dense.plainDims wf) none (a 1) (W 1)))
              (Host.dotGeneral (F := Ideal) (Cert.Dense.plainDims wf) none (a 2) (W 2)))
            (Host.dotGeneral (F := Ideal) (Cert.Dense.plainDims wf) none (a 3) (W 3)))
          (broadcastInDim ⟨2, ![A, N]⟩ ![0, 1] hb2 (broadcastInDim ⟨2, ![1, N]⟩ ![1] hb1 b)))
        (broadcastInDim ⟨2, ![A, N]⟩ ![] hb0 (constant (F := Ideal) ⟨0, ![]⟩ .f32 0x00000000#32))
      = linRelu (A := A) (cat4 (D := D) a) (flat4 (D := D) W) (shapeCast ⟨2, ![1, N]⟩ b hc) := by
  rw [maximumf_zero_bcast, host_conv wf hb1 hb2 hc a W b]
  rfl

end HostConv

end Cert.Net

end
-- ==== Proof.Layers.lean ====
/- Each dense layer of the kernel, applied to what the host hands it, is one stage of the reference.

   The kernel lays the four tables of a graph convolution side by side (a concatenate along the columns), flattens the
   stack of four weight tables to one table (a reshape) and keeps the bias as a one-row table; the reference multiplies
   each table into its own slab of the stack (a slice and a reshape), adds the four products in order and adds the bias
   vector broadcast to a row and down the rows. Entry by entry both are the same sum of the same products plus the same
   bias entry, and the cut-off at zero is the same maximum. The five plain dense layers differ only in having one table
   and one weight table. -/
import proofs.«123229_j70574902608028_1_alg».proof.Proof.NetRead
import proofs.«123229_j70574902608028_1_alg».proof.KernelIdeal
import proofs.«123229_j70574902608028_1_alg».proof.Proof.RefReadP

noncomputable section

open scoped BigOperators

namespace Cert.KernelIdeal.Lay

open Idealize.ShloMosaic Idealize.ShloMosaic.ValueIdx
open Cert.ReferenceIdeal.ReadP

variable [Cert.KernelIdeal.Facts] [Cert.ReferenceIdeal.Facts]

/-- A dense layer of the kernel on a table h is the host's spelling of it: a dot_general, the bias vector broadcast to a
    row and down the rows, the maximum with the broadcast zero. -/
theorem denseRelu_host (h : FVec Ideal Cert.ReferenceIdeal.S50000x96 .f32) (W : FVec Ideal Cert.ReferenceIdeal.S96x96 .f32) (b : FVec Ideal Cert.ReferenceIdeal.S96 .f32) :
    Cert.Net.linRelu (A := 50000) (K := 96) (N := 96) h W (shapeCast S1x96 b Facts₀.shapeCasts_S96_S1x96)
      = maximumf (addf (Host.dotGeneral (F := Ideal) Cert.ReferenceIdeal.dot_S50000x96_S96x96_S50000x96_1_0_0_1_n_n none h W)
          (broadcastInDim Cert.ReferenceIdeal.S50000x96 ![0, 1] Cert.ReferenceIdeal.Facts₀.bcast_S1x96_S50000x96_0_1
            (broadcastInDim Cert.ReferenceIdeal.S1x96 ![1] Cert.ReferenceIdeal.Facts₀.bcast_S96_S1x96_1 b)))
        (broadcastInDim Cert.ReferenceIdeal.S50000x96 ![] Cert.ReferenceIdeal.Facts₀.bcast_S_S50000x96 (constant (F := Ideal) Cert.ReferenceIdeal.S_ .f32 0x00000000#32)) :=
  (Cert.Net.host_denseRelu (A := 50000) (K := 96) (N := 96) Cert.ReferenceIdeal.dot_S50000x96_S96x96_S50000x96_1_0_0_1_n_n.wf
    Cert.ReferenceIdeal.Facts₀.bcast_S96_S1x96_1 Cert.ReferenceIdeal.Facts₀.bcast_S1x96_S50000x96_0_1 Facts₀.shapeCasts_S96_S1x96 Cert.ReferenceIdeal.Facts₀.bcast_S_S50000x96 h W b).symm

/-- A dense layer of the kernel on a table h is the host's spelling of it: a dot_general, the bias vector broadcast to a
    row and down the rows. -/
theorem dense4_host (h : FVec Ideal Cert.ReferenceIdeal.S50000x96 .f32) (W : FVec Ideal Cert.ReferenceIdeal.S96x4 .f32) (b : FVec Ideal Cert.ReferenceIdeal.S4 .f32) :
    Cert.Net.lin (A := 50000) (K := 96) (N := 4) h W (shapeCast S1x4 b Facts₀.shapeCasts_S4_S1x4)
      = addf (Host.dotGeneral (F := Ideal) Cert.ReferenceIdeal.dot_S50000x96_S96x4_S50000x4_1_0_0_1_n_n none h W)
          (broadcastInDim Cert.ReferenceIdeal.S50000x4 ![0, 1] Cert.ReferenceIdeal.Facts₀.bcast_S1x4_S50000x4_0_1
            (broadcastInDim Cert.ReferenceIdeal.S1x4 ![1] Cert.ReferenceIdeal.Facts₀.bcast_S4_S1x4_1 b)) :=
  (Cert.Net.host_dense (A := 50000) (K := 96) (N := 4) Cert.ReferenceIdeal.dot_S50000x96_S96x4_S50000x4_1_0_0_1_n_n.wf
    Cert.ReferenceIdeal.Facts₀.bcast_S4_S1x4_1 Cert.ReferenceIdeal.Facts₀.bcast_S1x4_S50000x4_0_1 Facts₀.shapeCasts_S4_S1x4 h W b).symm

/-- A graph convolution of the kernel — the four tables side by side against the weight stack flattened, plus the
    bias, cut off at zero — is the host's spelling of it: each table multiplied into its own slab of the stack, the four
    products added in order, the bias vector broadcast to a row and down the rows, the maximum with the broadcast zero. -/
theorem conv16Relu_host (t0 t1 t2 t3 : FVec Ideal Cert.ReferenceIdeal.S50000x16 .f32) (w : FVec Ideal Cert.ReferenceIdeal.S4x16x96 .f32) (b : FVec Ideal Cert.ReferenceIdeal.S96 .f32) :
    Cert.Net.linRelu (A := 50000) (K := 64) (N := 96)
        (concatenate S50000x64 1 [⟨S50000x16, t0⟩, ⟨S50000x16, t1⟩, ⟨S50000x16, t2⟩, ⟨S50000x16, t3⟩]
          Facts₀.concatenates_S50000x16_S50000x16_S50000x16_S50000x16_S50000x64_d1)
        (shapeCast S64x96 w Facts₀.shapeCasts_S4x16x96_S64x96) (shapeCast S1x96 b Facts₀.shapeCasts_S96_S1x96)
      = maximumf (addf (addf (addf (addf (Host.dotGeneral (F := Ideal) Cert.ReferenceIdeal.dot_S50000x16_S16x96_S50000x96_1_0_0_1_n_n none t0 (shapeCast Cert.ReferenceIdeal.S16x96 (extractStridedSlice Cert.ReferenceIdeal.S1x16x96 ![0, 0, 0] w Cert.ReferenceIdeal.Facts₀.slices_S4x16x96_S1x16x96_0_0_0) Cert.ReferenceIdeal.Facts₀.shapeCasts_S1x16x96_S16x96))
              (Host.dotGeneral (F := Ideal) Cert.ReferenceIdeal.dot_S50000x16_S16x96_S50000x96_1_0_0_1_n_n none t1 (shapeCast Cert.ReferenceIdeal.S16x96 (extractStridedSlice Cert.ReferenceIdeal.S1x16x96 ![1, 0, 0] w Cert.ReferenceIdeal.Facts₀.slices_S4x16x96_S1x16x96_1_0_0) Cert.ReferenceIdeal.Facts₀.shapeCasts_S1x16x96_S16x96)))
            (Host.dotGeneral (F := Ideal) Cert.ReferenceIdeal.dot_S50000x16_S16x96_S50000x96_1_0_0_1_n_n none t2 (shapeCast Cert.ReferenceIdeal.S16x96 (extractStridedSlice Cert.ReferenceIdeal.S1x16x96 ![2, 0, 0] w Cert.ReferenceIdeal.Facts₀.slices_S4x16x96_S1x16x96_2_0_0) Cert.ReferenceIdeal.Facts₀.shapeCasts_S1x16x96_S16x96)))
          (Host.dotGeneral (F := Ideal) Cert.ReferenceIdeal.dot_S50000x16_S16x96_S50000x96_1_0_0_1_n_n none t3 (shapeCast Cert.ReferenceIdeal.S16x96 (extractStridedSlice Cert.ReferenceIdeal.S1x16x96 ![3, 0, 0] w Cert.ReferenceIdeal.Facts₀.slices_S4x16x96_S1x16x96_3_0_0) Cert.ReferenceIdeal.Facts₀.shapeCasts_S1x16x96_S16x96)))
        (broadcastInDim Cert.ReferenceIdeal.S50000x96 ![0, 1] Cert.ReferenceIdeal.Facts₀.bcast_S1x96_S50000x96_0_1
          (broadcastInDim Cert.ReferenceIdeal.S1x96 ![1] Cert.ReferenceIdeal.Facts₀.bcast_S96_S1x96_1 b)))
        (broadcastInDim Cert.ReferenceIdeal.S50000x96 ![] Cert.ReferenceIdeal.Facts₀.bcast_S_S50000x96 (constant (F := Ideal) Cert.ReferenceIdeal.S_ .f32 0x00000000#32)) := by
  have ec : concatenate S50000x64 1 [⟨S50000x16, t0⟩, ⟨S50000x16, t1⟩, ⟨S50000x16, t2⟩, ⟨S50000x16, t3⟩]
        Facts₀.concatenates_S50000x16_S50000x16_S50000x16_S50000x16_S50000x64_d1
      = Cert.Net.cat4 (A := 50000) (D := 16) ![t0, t1, t2, t3] :=
    Cert.Net.cat_read (A := 50000) (D := 16) ![t0, t1, t2, t3] Facts₀.concatenates_S50000x16_S50000x16_S50000x16_S50000x16_S50000x64_d1
  have ef : shapeCast S64x96 w Facts₀.shapeCasts_S4x16x96_S64x96 = Cert.Net.flat4 (D := 16) (N := 96) (Cert.Net.slab w) :=
    Cert.Net.flat_read (D := 16) (N := 96) w Facts₀.shapeCasts_S4x16x96_S64x96
  have s0 : shapeCast Cert.ReferenceIdeal.S16x96 (extractStridedSlice Cert.ReferenceIdeal.S1x16x96 ![0, 0, 0] w Cert.ReferenceIdeal.Facts₀.slices_S4x16x96_S1x16x96_0_0_0) Cert.ReferenceIdeal.Facts₀.shapeCasts_S1x16x96_S16x96
      = Cert.Net.slab (D := 16) (N := 96) w 0 :=
    Cert.Net.slab_read (D := 16) (N := 96) w 0 Cert.ReferenceIdeal.Facts₀.slices_S4x16x96_S1x16x96_0_0_0 Cert.ReferenceIdeal.Facts₀.shapeCasts_S1x16x96_S16x96
  have s1 : shapeCast Cert.ReferenceIdeal.S16x96 (extractStridedSlice Cert.ReferenceIdeal.S1x16x96 ![1, 0, 0] w Cert.ReferenceIdeal.Facts₀.slices_S4x16x96_S1x16x96_1_0_0) Cert.ReferenceIdeal.Facts₀.shapeCasts_S1x16x96_S16x96
      = Cert.Net.slab (D := 16) (N := 96) w 1 :=
    Cert.Net.slab_read (D := 16) (N := 96) w 1 Cert.ReferenceIdeal.Facts₀.slices_S4x16x96_S1x16x96_1_0_0 Cert.ReferenceIdeal.Facts₀.shapeCasts_S1x16x96_S16x96
  have s2 : shapeCast Cert.ReferenceIdeal.S16x96 (extractStridedSlice Cert.ReferenceIdeal.S1x16x96 ![2, 0, 0] w Cert.ReferenceIdeal.Facts₀.slices_S4x16x96_S1x16x96_2_0_0) Cert.ReferenceIdeal.Facts₀.shapeCasts_S1x16x96_S16x96
      = Cert.Net.slab (D := 16) (N := 96) w 2 :=
    Cert.Net.slab_read (D := 16) (N := 96) w 2 Cert.ReferenceIdeal.Facts₀.slices_S4x16x96_S1x16x96_2_0_0 Cert.ReferenceIdeal.Facts₀.shapeCasts_S1x16x96_S16x96
  have s3 : shapeCast Cert.ReferenceIdeal.S16x96 (extractStridedSlice Cert.ReferenceIdeal.S1x16x96 ![3, 0, 0] w Cert.ReferenceIdeal.Facts₀.slices_S4x16x96_S1x16x96_3_0_0) Cert.ReferenceIdeal.Facts₀.shapeCasts_S1x16x96_S16x96
      = Cert.Net.slab (D := 16) (N := 96) w 3 :=
    Cert.Net.slab_read (D := 16) (N := 96) w 3 Cert.ReferenceIdeal.Facts₀.slices_S4x16x96_S1x16x96_3_0_0 Cert.ReferenceIdeal.Facts₀.shapeCasts_S1x16x96_S16x96
  rw [ec, ef, s0, s1, s2, s3]
  exact (Cert.Net.host_convRelu (A := 50000) (D := 16) (N := 96) Cert.ReferenceIdeal.dot_S50000x16_S16x96_S50000x96_1_0_0_1_n_n.wf
    Cert.ReferenceIdeal.Facts₀.bcast_S96_S1x96_1 Cert.ReferenceIdeal.Facts₀.bcast_S1x96_S50000x96_0_1 Facts₀.shapeCasts_S96_S1x96 Cert.ReferenceIdeal.Facts₀.bcast_S_S50000x96
    ![t0, t1, t2, t3] (Cert.Net.slab w) b).symm

/-- A graph convolution of the kernel — the four tables side by side against the weight stack flattened, plus the
    bias, cut off at zero — is the host's spelling of it: each table multiplied into its own slab of the stack, the four
    products added in order, the bias vector broadcast to a row and down the rows, the maximum with the broadcast zero. -/
theorem conv96Relu_host (t0 t1 t2 t3 : FVec Ideal Cert.ReferenceIdeal.S50000x96 .f32) (w : FVec Ideal Cert.ReferenceIdeal.S4x96x96 .f32) (b : FVec Ideal Cert.ReferenceIdeal.S96 .f32) :
    Cert.Net.linRelu (A := 50000) (K := 384) (N := 96)
        (concatenate S50000x384 1 [⟨S50000x96, t0⟩, ⟨S50000x96, t1⟩, ⟨S50000x96, t2⟩, ⟨S50000x96, t3⟩]
          Facts₀.concatenates_S50000x96_S50000x96_S50000x96_S50000x96_S50000x384_d1)
        (shapeCast S384x96 w Facts₀.shapeCasts_S4x96x96_S384x96) (shapeCast S1x96 b Facts₀.shapeCasts_S96_S1x96)
      = maximumf (addf (addf (addf (addf (Host.dotGeneral (F := Ideal) Cert.ReferenceIdeal.dot_S50000x96_S96x96_S50000x96_1_0_0_1_n_n none t0 (shapeCast Cert.ReferenceIdeal.S96x96 (extractStridedSlice Cert.ReferenceIdeal.S1x96x96 ![0, 0, 0] w Cert.ReferenceIdeal.Facts₀.slices_S4x96x96_S1x96x96_0_0_0) Cert.ReferenceIdeal.Facts₀.shapeCasts_S1x96x96_S96x96))
              (Host.dotGeneral (F := Ideal) Cert.ReferenceIdeal.dot_S50000x96_S96x96_S50000x96_1_0_0_1_n_n none t1 (shapeCast Cert.ReferenceIdeal.S96x96 (extractStridedSlice Cert.ReferenceIdeal.S1x96x96 ![1, 0, 0] w Cert.ReferenceIdeal.Facts₀.slices_S4x96x96_S1x96x96_1_0_0) Cert.ReferenceIdeal.Facts₀.shapeCasts_S1x96x96_S96x96)))
            (Host.dotGeneral (F := Ideal) Cert.ReferenceIdeal.dot_S50000x96_S96x96_S50000x96_1_0_0_1_n_n none t2 (shapeCast Cert.ReferenceIdeal.S96x96 (extractStridedSlice Cert.ReferenceIdeal.S1x96x96 ![2, 0, 0] w Cert.ReferenceIdeal.Facts₀.slices_S4x96x96_S1x96x96_2_0_0) Cert.ReferenceIdeal.Facts₀.shapeCasts_S1x96x96_S96x96)))
          (Host.dotGeneral (F := Ideal) Cert.ReferenceIdeal.dot_S50000x96_S96x96_S50000x96_1_0_0_1_n_n none t3 (shapeCast Cert.ReferenceIdeal.S96x96 (extractStridedSlice Cert.ReferenceIdeal.S1x96x96 ![3, 0, 0] w Cert.ReferenceIdeal.Facts₀.slices_S4x96x96_S1x96x96_3_0_0) Cert.ReferenceIdeal.Facts₀.shapeCasts_S1x96x96_S96x96)))
        (broadcastInDim Cert.ReferenceIdeal.S50000x96 ![0, 1] Cert.ReferenceIdeal.Facts₀.bcast_S1x96_S50000x96_0_1
          (broadcastInDim Cert.ReferenceIdeal.S1x96 ![1] Cert.ReferenceIdeal.Facts₀.bcast_S96_S1x96_1 b)))
        (broadcastInDim Cert.ReferenceIdeal.S50000x96 ![] Cert.ReferenceIdeal.Facts₀.bcast_S_S50000x96 (constant (F := Ideal) Cert.ReferenceIdeal.S_ .f32 0x00000000#32)) := by
  have ec : concatenate S50000x384 1 [⟨S50000x96, t0⟩, ⟨S50000x96, t1⟩, ⟨S50000x96, t2⟩, ⟨S50000x96, t3⟩]
        Facts₀.concatenates_S50000x96_S50000x96_S50000x96_S50000x96_S50000x384_d1
      = Cert.Net.cat4 (A := 50000) (D := 96) ![t0, t1, t2, t3] :=
    Cert.Net.cat_read (A := 50000) (D := 96) ![t0, t1, t2, t3] Facts₀.concatenates_S50000x96_S50000x96_S50000x96_S50000x96_S50000x384_d1
  have ef : shapeCast S384x96 w Facts₀.shapeCasts_S4x96x96_S384x96 = Cert.Net.flat4 (D := 96) (N := 96) (Cert.Net.slab w) :=
    Cert.Net.flat_read (D := 96) (N := 96) w Facts₀.shapeCasts_S4x96x96_S384x96
  have s0 : shapeCast Cert.ReferenceIdeal.S96x96 (extractStridedSlice Cert.ReferenceIdeal.S1x96x96 ![0, 0, 0] w Cert.ReferenceIdeal.Facts₀.slices_S4x96x96_S1x96x96_0_0_0) Cert.ReferenceIdeal.Facts₀.shapeCasts_S1x96x96_S96x96
      = Cert.Net.slab (D := 96) (N := 96) w 0 :=
    Cert.Net.slab_read (D := 96) (N := 96) w 0 Cert.ReferenceIdeal.Facts₀.slices_S4x96x96_S1x96x96_0_0_0 Cert.ReferenceIdeal.Facts₀.shapeCasts_S1x96x96_S96x96
  have s1 : shapeCast Cert.ReferenceIdeal.S96x96 (extractStridedSlice Cert.ReferenceIdeal.S1x96x96 ![1, 0, 0] w Cert.ReferenceIdeal.Facts₀.slices_S4x96x96_S1x96x96_1_0_0) Cert.ReferenceIdeal.Facts₀.shapeCasts_S1x96x96_S96x96
      = Cert.Net.slab (D := 96) (N := 96) w 1 :=
    Cert.Net.slab_read (D := 96) (N := 96) w 1 Cert.ReferenceIdeal.Facts₀.slices_S4x96x96_S1x96x96_1_0_0 Cert.ReferenceIdeal.Facts₀.shapeCasts_S1x96x96_S96x96
  have s2 : shapeCast Cert.ReferenceIdeal.S96x96 (extractStridedSlice Cert.ReferenceIdeal.S1x96x96 ![2, 0, 0] w Cert.ReferenceIdeal.Facts₀.slices_S4x96x96_S1x96x96_2_0_0) Cert.ReferenceIdeal.Facts₀.shapeCasts_S1x96x96_S96x96
      = Cert.Net.slab (D := 96) (N := 96) w 2 :=
    Cert.Net.slab_read (D := 96) (N := 96) w 2 Cert.ReferenceIdeal.Facts₀.slices_S4x96x96_S1x96x96_2_0_0 Cert.ReferenceIdeal.Facts₀.shapeCasts_S1x96x96_S96x96
  have s3 : shapeCast Cert.ReferenceIdeal.S96x96 (extractStridedSlice Cert.ReferenceIdeal.S1x96x96 ![3, 0, 0] w Cert.ReferenceIdeal.Facts₀.slices_S4x96x96_S1x96x96_3_0_0) Cert.ReferenceIdeal.Facts₀.shapeCasts_S1x96x96_S96x96
      = Cert.Net.slab (D := 96) (N := 96) w 3 :=
    Cert.Net.slab_read (D := 96) (N := 96) w 3 Cert.ReferenceIdeal.Facts₀.slices_S4x96x96_S1x96x96_3_0_0 Cert.ReferenceIdeal.Facts₀.shapeCasts_S1x96x96_S96x96
  rw [ec, ef, s0, s1, s2, s3]
  exact (Cert.Net.host_convRelu (A := 50000) (D := 96) (N := 96) Cert.ReferenceIdeal.dot_S50000x96_S96x96_S50000x96_1_0_0_1_n_n.wf
    Cert.ReferenceIdeal.Facts₀.bcast_S96_S1x96_1 Cert.ReferenceIdeal.Facts₀.bcast_S1x96_S50000x96_0_1 Facts₀.shapeCasts_S96_S1x96 Cert.ReferenceIdeal.Facts₀.bcast_S_S50000x96
    ![t0, t1, t2, t3] (Cert.Net.slab w) b).symm

/-- A graph convolution of the kernel — the four tables side by side against the weight stack flattened, plus the
    bias — is the host's spelling of it: each table multiplied into its own slab of the stack, the four
    products added in order, the bias vector broadcast to a row and down the rows. -/
theorem conv96_host (t0 t1 t2 t3 : FVec Ideal Cert.ReferenceIdeal.S50000x96 .f32) (w : FVec Ideal Cert.ReferenceIdeal.S4x96x96 .f32) (b : FVec Ideal Cert.ReferenceIdeal.S96 .f32) :
    Cert.Net.lin (A := 50000) (K := 384) (N := 96)
        (concatenate S50000x384 1 [⟨S50000x96, t0⟩, ⟨S50000x96, t1⟩, ⟨S50000x96, t2⟩, ⟨S50000x96, t3⟩]
          Facts₀.concatenates_S50000x96_S50000x96_S50000x96_S50000x96_S50000x384_d1)
        (shapeCast S384x96 w Facts₀.shapeCasts_S4x96x96_S384x96) (shapeCast S1x96 b Facts₀.shapeCasts_S96_S1x96)
      = addf (addf (addf (addf (Host.dotGeneral (F := Ideal) Cert.ReferenceIdeal.dot_S50000x96_S96x96_S50000x96_1_0_0_1_n_n none t0 (shapeCast Cert.ReferenceIdeal.S96x96 (extractStridedSlice Cert.ReferenceIdeal.S1x96x96 ![0, 0, 0] w Cert.ReferenceIdeal.Facts₀.slices_S4x96x96_S1x96x96_0_0_0) Cert.ReferenceIdeal.Facts₀.shapeCasts_S1x96x96_S96x96))
              (Host.dotGeneral (F := Ideal) Cert.ReferenceIdeal.dot_S50000x96_S96x96_S50000x96_1_0_0_1_n_n none t1 (shapeCast Cert.ReferenceIdeal.S96x96 (extractStridedSlice Cert.ReferenceIdeal.S1x96x96 ![1, 0, 0] w Cert.ReferenceIdeal.Facts₀.slices_S4x96x96_S1x96x96_1_0_0) Cert.ReferenceIdeal.Facts₀.shapeCasts_S1x96x96_S96x96)))
            (Host.dotGeneral (F := Ideal) Cert.ReferenceIdeal.dot_S50000x96_S96x96_S50000x96_1_0_0_1_n_n none t2 (shapeCast Cert.ReferenceIdeal.S96x96 (extractStridedSlice Cert.ReferenceIdeal.S1x96x96 ![2, 0, 0] w Cert.ReferenceIdeal.Facts₀.slices_S4x96x96_S1x96x96_2_0_0) Cert.ReferenceIdeal.Facts₀.shapeCasts_S1x96x96_S96x96)))
          (Host.dotGeneral (F := Ideal) Cert.ReferenceIdeal.dot_S50000x96_S96x96_S50000x96_1_0_0_1_n_n none t3 (shapeCast Cert.ReferenceIdeal.S96x96 (extractStridedSlice Cert.ReferenceIdeal.S1x96x96 ![3, 0, 0] w Cert.ReferenceIdeal.Facts₀.slices_S4x96x96_S1x96x96_3_0_0) Cert.ReferenceIdeal.Facts₀.shapeCasts_S1x96x96_S96x96)))
        (broadcastInDim Cert.ReferenceIdeal.S50000x96 ![0, 1] Cert.ReferenceIdeal.Facts₀.bcast_S1x96_S50000x96_0_1
          (broadcastInDim Cert.ReferenceIdeal.S1x96 ![1] Cert.ReferenceIdeal.Facts₀.bcast_S96_S1x96_1 b)) := by
  have ec : concatenate S50000x384 1 [⟨S50000x96, t0⟩, ⟨S50000x96, t1⟩, ⟨S50000x96, t2⟩, ⟨S50000x96, t3⟩]
        Facts₀.concatenates_S50000x96_S50000x96_S50000x96_S50000x96_S50000x384_d1
      = Cert.Net.cat4 (A := 50000) (D := 96) ![t0, t1, t2, t3] :=
    Cert.Net.cat_read (A := 50000) (D := 96) ![t0, t1, t2, t3] Facts₀.concatenates_S50000x96_S50000x96_S50000x96_S50000x96_S50000x384_d1
  have ef : shapeCast S384x96 w Facts₀.shapeCasts_S4x96x96_S384x96 = Cert.Net.flat4 (D := 96) (N := 96) (Cert.Net.slab w) :=
    Cert.Net.flat_read (D := 96) (N := 96) w Facts₀.shapeCasts_S4x96x96_S384x96
  have s0 : shapeCast Cert.ReferenceIdeal.S96x96 (extractStridedSlice Cert.ReferenceIdeal.S1x96x96 ![0, 0, 0] w Cert.ReferenceIdeal.Facts₀.slices_S4x96x96_S1x96x96_0_0_0) Cert.ReferenceIdeal.Facts₀.shapeCasts_S1x96x96_S96x96
      = Cert.Net.slab (D := 96) (N := 96) w 0 :=
    Cert.Net.slab_read (D := 96) (N := 96) w 0 Cert.ReferenceIdeal.Facts₀.slices_S4x96x96_S1x96x96_0_0_0 Cert.ReferenceIdeal.Facts₀.shapeCasts_S1x96x96_S96x96
  have s1 : shapeCast Cert.ReferenceIdeal.S96x96 (extractStridedSlice Cert.ReferenceIdeal.S1x96x96 ![1, 0, 0] w Cert.ReferenceIdeal.Facts₀.slices_S4x96x96_S1x96x96_1_0_0) Cert.ReferenceIdeal.Facts₀.shapeCasts_S1x96x96_S96x96
      = Cert.Net.slab (D := 96) (N := 96) w 1 :=
    Cert.Net.slab_read (D := 96) (N := 96) w 1 Cert.ReferenceIdeal.Facts₀.slices_S4x96x96_S1x96x96_1_0_0 Cert.ReferenceIdeal.Facts₀.shapeCasts_S1x96x96_S96x96
  have s2 : shapeCast Cert.ReferenceIdeal.S96x96 (extractStridedSlice Cert.ReferenceIdeal.S1x96x96 ![2, 0, 0] w Cert.ReferenceIdeal.Facts₀.slices_S4x96x96_S1x96x96_2_0_0) Cert.ReferenceIdeal.Facts₀.shapeCasts_S1x96x96_S96x96
      = Cert.Net.slab (D := 96) (N := 96) w 2 :=
    Cert.Net.slab_read (D := 96) (N := 96) w 2 Cert.ReferenceIdeal.Facts₀.slices_S4x96x96_S1x96x96_2_0_0 Cert.ReferenceIdeal.Facts₀.shapeCasts_S1x96x96_S96x96
  have s3 : shapeCast Cert.ReferenceIdeal.S96x96 (extractStridedSlice Cert.ReferenceIdeal.S1x96x96 ![3, 0, 0] w Cert.ReferenceIdeal.Facts₀.slices_S4x96x96_S1x96x96_3_0_0) Cert.ReferenceIdeal.Facts₀.shapeCasts_S1x96x96_S96x96
      = Cert.Net.slab (D := 96) (N := 96) w 3 :=
    Cert.Net.slab_read (D := 96) (N := 96) w 3 Cert.ReferenceIdeal.Facts₀.slices_S4x96x96_S1x96x96_3_0_0 Cert.ReferenceIdeal.Facts₀.shapeCasts_S1x96x96_S96x96
  rw [ec, ef, s0, s1, s2, s3]
  exact (Cert.Net.host_conv (A := 50000) (D := 96) (N := 96) Cert.ReferenceIdeal.dot_S50000x96_S96x96_S50000x96_1_0_0_1_n_n.wf
    Cert.ReferenceIdeal.Facts₀.bcast_S96_S1x96_1 Cert.ReferenceIdeal.Facts₀.bcast_S1x96_S50000x96_0_1 Facts₀.shapeCasts_S96_S1x96
    ![t0, t1, t2, t3] (Cert.Net.slab w) b).symm

/-! ## The eight layers against the reference's stages

The propagated tables (the reference's scatter-adds) and each earlier layer's output stay closed terms: only the
stages of the layer itself are opened. -/

variable (x0 : (⟨Cert.ReferenceIdeal.S50000x16, .f32⟩ : BufTy).Contents (Elt Ideal))
  (x1 : (⟨Cert.ReferenceIdeal.S2x800000, .i32⟩ : BufTy).Contents (Elt Ideal))
  (x2 : (⟨Cert.ReferenceIdeal.S800000, .f32⟩ : BufTy).Contents (Elt Ideal))
  (x3 : (⟨Cert.ReferenceIdeal.S4x16x96, .f32⟩ : BufTy).Contents (Elt Ideal))
  (x4 : (⟨Cert.ReferenceIdeal.S96, .f32⟩ : BufTy).Contents (Elt Ideal))
  (x5 : (⟨Cert.ReferenceIdeal.S4x96x96, .f32⟩ : BufTy).Contents (Elt Ideal))
  (x6 : (⟨Cert.ReferenceIdeal.S96, .f32⟩ : BufTy).Contents (Elt Ideal))
  (x7 : (⟨Cert.ReferenceIdeal.S4x96x96, .f32⟩ : BufTy).Contents (Elt Ideal))
  (x8 : (⟨Cert.ReferenceIdeal.S96, .f32⟩ : BufTy).Contents (Elt Ideal))
  (x9 : (⟨Cert.ReferenceIdeal.S96x96, .f32⟩ : BufTy).Contents (Elt Ideal))
  (x10 : (⟨Cert.ReferenceIdeal.S96, .f32⟩ : BufTy).Contents (Elt Ideal))
  (x11 : (⟨Cert.ReferenceIdeal.S96x96, .f32⟩ : BufTy).Contents (Elt Ideal))
  (x12 : (⟨Cert.ReferenceIdeal.S96, .f32⟩ : BufTy).Contents (Elt Ideal))
  (x13 : (⟨Cert.ReferenceIdeal.S96x96, .f32⟩ : BufTy).Contents (Elt Ideal))
  (x14 : (⟨Cert.ReferenceIdeal.S96, .f32⟩ : BufTy).Contents (Elt Ideal))
  (x15 : (⟨Cert.ReferenceIdeal.S96x4, .f32⟩ : BufTy).Contents (Elt Ideal))
  (x16 : (⟨Cert.ReferenceIdeal.S4, .f32⟩ : BufTy).Contents (Elt Ideal))

/-- Layer 0: the first graph convolution, cut off at zero. -/
theorem L0 :
    Cert.Net.linRelu (A := 50000) (K := 64) (N := 96)
        (concatenate S50000x64 1 [⟨S50000x16, x0⟩, ⟨S50000x16, val_main_v42 (F := Ideal) x0 x1 x2⟩,
            ⟨S50000x16, val_main_v59 (F := Ideal) x0 x1 x2⟩, ⟨S50000x16, val_main_v76 (F := Ideal) x0 x1 x2⟩]
          Facts₀.concatenates_S50000x16_S50000x16_S50000x16_S50000x16_S50000x64_d1)
        (shapeCast S64x96 x3 Facts₀.shapeCasts_S4x16x96_S64x96) (shapeCast S1x96 x4 Facts₀.shapeCasts_S96_S1x96)
      = val_main_v84 (F := Ideal) x0 x1 x2 x3 x4 := by
  unfold val_main_v84 val_main_v83 val_main_v82 val_main_v81 val_main_v80 val_main_v79 val_main_v78 val_main_v77 val_main_v63 val_main_v62 val_main_v61 val_main_v60 val_main_v46 val_main_v45 val_main_v44 val_main_v43 val_main_v29 val_main_v28 val_main_v27 val_main_call1_v0 val_main_call1_cst
  exact conv16Relu_host _ _ _ _ x3 x4

/-- Layer 1: the second graph convolution, cut off at zero. -/
theorem L1 :
    Cert.Net.linRelu (A := 50000) (K := 384) (N := 96)
        (concatenate S50000x384 1 [⟨S50000x96, val_main_v84 (F := Ideal) x0 x1 x2 x3 x4⟩, ⟨S50000x96, val_main_v100 (F := Ideal) x0 x1 x2 x3 x4⟩,
            ⟨S50000x96, val_main_v117 (F := Ideal) x0 x1 x2 x3 x4⟩, ⟨S50000x96, val_main_v134 (F := Ideal) x0 x1 x2 x3 x4⟩]
          Facts₀.concatenates_S50000x96_S50000x96_S50000x96_S50000x96_S50000x384_d1)
        (shapeCast S384x96 x5 Facts₀.shapeCasts_S4x96x96_S384x96) (shapeCast S1x96 x6 Facts₀.shapeCasts_S96_S1x96)
      = val_main_v142 (F := Ideal) x0 x1 x2 x3 x4 x5 x6 := by
  unfold val_main_v142 val_main_v141 val_main_v140 val_main_v139 val_main_v138 val_main_v137 val_main_v136 val_main_v135 val_main_v121 val_main_v120 val_main_v119 val_main_v118 val_main_v104 val_main_v103 val_main_v102 val_main_v101 val_main_v87 val_main_v86 val_main_v85 val_main_call2_v0 val_main_call2_cst
  exact conv96Relu_host _ _ _ _ x5 x6

/-- Layer 2: the third graph convolution, with no cut-off. -/
theorem L2 :
    Cert.Net.lin (A := 50000) (K := 384) (N := 96)
        (concatenate S50000x384 1 [⟨S50000x96, val_main_v142 (F := Ideal) x0 x1 x2 x3 x4 x5 x6⟩, ⟨S50000x96, val_main_v158 (F := Ideal) x0 x1 x2 x3 x4 x5 x6⟩,
            ⟨S50000x96, val_main_v175 (F := Ideal) x0 x1 x2 x3 x4 x5 x6⟩, ⟨S50000x96, val_main_v192 (F := Ideal) x0 x1 x2 x3 x4 x5 x6⟩]
          Facts₀.concatenates_S50000x96_S50000x96_S50000x96_S50000x96_S50000x384_d1)
        (shapeCast S384x96 x7 Facts₀.shapeCasts_S4x96x96_S384x96) (shapeCast S1x96 x8 Facts₀.shapeCasts_S96_S1x96)
      = val_main_v199 (F := Ideal) x0 x1 x2 x3 x4 x5 x6 x7 x8 := by
  unfold val_main_v199 val_main_v198 val_main_v197 val_main_v196 val_main_v195 val_main_v194 val_main_v193 val_main_v179 val_main_v178 val_main_v177 val_main_v176 val_main_v162 val_main_v161 val_main_v160 val_main_v159 val_main_v145 val_main_v144 val_main_v143
  exact conv96_host _ _ _ _ x7 x8

/-- Layer 3: the first dense layer, cut off at zero. -/
theorem L3 :
    Cert.Net.linRelu (A := 50000) (K := 96) (N := 96) (val_main_v199 (F := Ideal) x0 x1 x2 x3 x4 x5 x6 x7 x8) x9
        (shapeCast S1x96 x10 Facts₀.shapeCasts_S96_S1x96)
      = val_main_v204 (F := Ideal) x0 x1 x2 x3 x4 x5 x6 x7 x8 x9 x10 := by
  unfold val_main_v204 val_main_v203 val_main_v202 val_main_v201 val_main_v200 val_main_call3_v0 val_main_call3_cst
  exact denseRelu_host _ x9 x10

/-- Layer 4: the second dense layer, cut off at zero. -/
theorem L4 :
    Cert.Net.linRelu (A := 50000) (K := 96) (N := 96) (val_main_v204 (F := Ideal) x0 x1 x2 x3 x4 x5 x6 x7 x8 x9 x10) x11
        (shapeCast S1x96 x12 Facts₀.shapeCasts_S96_S1x96)
      = val_main_v209 (F := Ideal) x0 x1 x2 x3 x4 x5 x6 x7 x8 x9 x10 x11 x12 := by
  unfold val_main_v209 val_main_v208 val_main_v207 val_main_v206 val_main_v205 val_main_call4_v0 val_main_call4_cst
  exact denseRelu_host _ x11 x12

/-- Layer 5: the third dense layer, cut off at zero. -/
theorem L5 :
    Cert.Net.linRelu (A := 50000) (K := 96) (N := 96) (val_main_v209 (F := Ideal) x0 x1 x2 x3 x4 x5 x6 x7 x8 x9 x10 x11 x12) x13
        (shapeCast S1x96 x14 Facts₀.shapeCasts_S96_S1x96)
      = val_main_v214 (F := Ideal) x0 x1 x2 x3 x4 x5 x6 x7 x8 x9 x10 x11 x12 x13 x14 := by
  unfold val_main_v214 val_main_v213 val_main_v212 val_main_v211 val_main_v210 val_main_call5_v0 val_main_call5_cst
  exact denseRelu_host _ x13 x14

/-- Layer 6: the fourth dense layer (the third's weight and bias again), cut off at zero. -/
theorem L6 :
    Cert.Net.linRelu (A := 50000) (K := 96) (N := 96) (val_main_v214 (F := Ideal) x0 x1 x2 x3 x4 x5 x6 x7 x8 x9 x10 x11 x12 x13 x14) x13
        (shapeCast S1x96 x14 Facts₀.shapeCasts_S96_S1x96)
      = val_main_v219 (F := Ideal) x0 x1 x2 x3 x4 x5 x6 x7 x8 x9 x10 x11 x12 x13 x14 := by
  unfold val_main_v219 val_main_v218 val_main_v217 val_main_v216 val_main_v215 val_main_call6_v0 val_main_call6_cst
  exact denseRelu_host _ x13 x14

/-- Layer 7: the last dense layer, with no cut-off. -/
theorem L7 :
    Cert.Net.lin (A := 50000) (K := 96) (N := 4) (val_main_v219 (F := Ideal) x0 x1 x2 x3 x4 x5 x6 x7 x8 x9 x10 x11 x12 x13 x14) x15
        (shapeCast S1x4 x16 Facts₀.shapeCasts_S4_S1x4)
      = val_main_v223 (F := Ideal) x0 x1 x2 x3 x4 x5 x6 x7 x8 x9 x10 x11 x12 x13 x14 x15 x16 := by
  unfold val_main_v223 val_main_v222 val_main_v221 val_main_v220
  exact dense4_host _ x15 x16

end Cert.KernelIdeal.Lay

end
-- ==== Proof.KI.Walk.lean ====
/- The kernel's value, layer by layer. The buffer the kernel's dense layer k leaves holds the reference's stage after
   the same layer: the region's three entry buffers are read back through the host operations before it (for a graph
   convolution the input laid beside its three propagated tables, the stacked weight reshaped, the bias recast; for a
   plain dense layer the previous layer's output, the weight argument, the bias recast), the region's output array is
   the dense layer of them, and that layer is the reference's stage by the layer's law. The edge lists and the edge
   norm are computed once and only carried along. -/
import proofs.«123229_j70574902608028_1_alg».proof.Proof.KI.Kept
import proofs.«123229_j70574902608028_1_alg».proof.Proof.KI.Final0
import proofs.«123229_j70574902608028_1_alg».proof.Proof.KI.Final1
import proofs.«123229_j70574902608028_1_alg».proof.Proof.KI.Final2
import proofs.«123229_j70574902608028_1_alg».proof.Proof.KI.Final3
import proofs.«123229_j70574902608028_1_alg».proof.Proof.KI.Final4
import proofs.«123229_j70574902608028_1_alg».proof.Proof.KI.Final5
import proofs.«123229_j70574902608028_1_alg».proof.Proof.KI.Final6
import proofs.«123229_j70574902608028_1_alg».proof.Proof.KI.Final7
import proofs.«123229_j70574902608028_1_alg».proof.Proof.Layers
import proofs.«123229_j70574902608028_1_alg».proof.Proof.RefReadP
import Idealize.ShloMosaic.Lib.StableHlo.Run
import Idealize.ShloMosaic.PureOps.Ideal

set_option maxRecDepth 16384

noncomputable section

namespace Cert.KernelIdeal.Fr

open Cert.KernelIdeal Cert.KernelIdeal.Gen Cert.KernelIdeal.Lay
open Cert.ReferenceIdeal.ReadP
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-! ## The one outlined call (the selection between the inverse root degree and zero)

   Its operations move their operands and results between a buffer's own contents type and the tensor type the
   function states; at these literal buffers the two types are the same, so each move is the identity. -/

theorem toBuf_main_v10 (h1 : main_v10.ty = (⟨S50000, .f32⟩ : BufTy)) (h2 : main_v10.space ≠ .host) (h3 : main_v10.isScoped = false)
    (v : (⟨S50000, .f32⟩ : BufTy).Contents (Elt Ideal)) : (TRef.of (sig := sig) main_v10 h1 h2 h3).toBuf v = v :=
  eq_of_heq (cast_heq _ _)
theorem ofBuf_main_v10 (h1 : main_v10.ty = (⟨S50000, .f32⟩ : BufTy)) (h2 : main_v10.space ≠ .host) (h3 : main_v10.isScoped = false)
    (v : (⟨S50000, .f32⟩ : BufTy).Contents (Elt Ideal)) : (TRef.of (sig := sig) main_v10 h1 h2 h3).ofBuf v = v :=
  eq_of_heq (cast_heq _ _)
theorem toBuf_main_v8 (h1 : main_v8.ty = (⟨S50000, .i1⟩ : BufTy)) (h2 : main_v8.space ≠ .host) (h3 : main_v8.isScoped = false)
    (v : (⟨S50000, .i1⟩ : BufTy).Contents (Elt Ideal)) : (TRef.of (sig := sig) main_v8 h1 h2 h3).toBuf v = v :=
  eq_of_heq (cast_heq _ _)
theorem ofBuf_main_v8 (h1 : main_v8.ty = (⟨S50000, .i1⟩ : BufTy)) (h2 : main_v8.space ≠ .host) (h3 : main_v8.isScoped = false)
    (v : (⟨S50000, .i1⟩ : BufTy).Contents (Elt Ideal)) : (TRef.of (sig := sig) main_v8 h1 h2 h3).ofBuf v = v :=
  eq_of_heq (cast_heq _ _)
theorem toBuf_main_v9 (h1 : main_v9.ty = (⟨S50000, .f32⟩ : BufTy)) (h2 : main_v9.space ≠ .host) (h3 : main_v9.isScoped = false)
    (v : (⟨S50000, .f32⟩ : BufTy).Contents (Elt Ideal)) : (TRef.of (sig := sig) main_v9 h1 h2 h3).toBuf v = v :=
  eq_of_heq (cast_heq _ _)
theorem ofBuf_main_v9 (h1 : main_v9.ty = (⟨S50000, .f32⟩ : BufTy)) (h2 : main_v9.space ≠ .host) (h3 : main_v9.isScoped = false)
    (v : (⟨S50000, .f32⟩ : BufTy).Contents (Elt Ideal)) : (TRef.of (sig := sig) main_v9 h1 h2 h3).ofBuf v = v :=
  eq_of_heq (cast_heq _ _)
theorem toBuf_main_call0_v1 (h1 : main_call0_v1.ty = (⟨S50000, .f32⟩ : BufTy)) (h2 : main_call0_v1.space ≠ .host) (h3 : main_call0_v1.isScoped = false)
    (v : (⟨S50000, .f32⟩ : BufTy).Contents (Elt Ideal)) : (TRef.of (sig := sig) main_call0_v1 h1 h2 h3).toBuf v = v :=
  eq_of_heq (cast_heq _ _)
theorem ofBuf_main_call0_v1 (h1 : main_call0_v1.ty = (⟨S50000, .f32⟩ : BufTy)) (h2 : main_call0_v1.space ≠ .host) (h3 : main_call0_v1.isScoped = false)
    (v : (⟨S50000, .f32⟩ : BufTy).Contents (Elt Ideal)) : (TRef.of (sig := sig) main_call0_v1 h1 h2 h3).ofBuf v = v :=
  eq_of_heq (cast_heq _ _)
theorem toBuf_main_call0_v0 (h1 : main_call0_v0.ty = (⟨S_, .f32⟩ : BufTy)) (h2 : main_call0_v0.space ≠ .host) (h3 : main_call0_v0.isScoped = false)
    (v : (⟨S_, .f32⟩ : BufTy).Contents (Elt Ideal)) : (TRef.of (sig := sig) main_call0_v0 h1 h2 h3).toBuf v = v :=
  eq_of_heq (cast_heq _ _)
theorem ofBuf_main_call0_v0 (h1 : main_call0_v0.ty = (⟨S_, .f32⟩ : BufTy)) (h2 : main_call0_v0.space ≠ .host) (h3 : main_call0_v0.isScoped = false)
    (v : (⟨S_, .f32⟩ : BufTy).Contents (Elt Ideal)) : (TRef.of (sig := sig) main_call0_v0 h1 h2 h3).ofBuf v = v :=
  eq_of_heq (cast_heq _ _)
theorem toBuf_main_cst_1 (h1 : main_cst_1.ty = (⟨S_, .f32⟩ : BufTy)) (h2 : main_cst_1.space ≠ .host) (h3 : main_cst_1.isScoped = false)
    (v : (⟨S_, .f32⟩ : BufTy).Contents (Elt Ideal)) : (TRef.of (sig := sig) main_cst_1 h1 h2 h3).toBuf v = v :=
  eq_of_heq (cast_heq _ _)
theorem ofBuf_main_cst_1 (h1 : main_cst_1.ty = (⟨S_, .f32⟩ : BufTy)) (h2 : main_cst_1.space ≠ .host) (h3 : main_cst_1.isScoped = false)
    (v : (⟨S_, .f32⟩ : BufTy).Contents (Elt Ideal)) : (TRef.of (sig := sig) main_cst_1 h1 h2 h3).ofBuf v = v :=
  eq_of_heq (cast_heq _ _)

/-! ## The edge lists and the edge norm, computed before the first layer and carried through -/

/-- The three buffers every propagation reads: the source list, the target list, the edge norm. -/
abbrev carried : List (Ref sig .tc) := [main_v1, main_v3, main_v26]
theorem ne_of_carried {b y : Ref sig .tc} (hb : b ∈ carried) (hy : y ∉ carried) : b ≠ y := fun e => hy (e ▸ hb)

set_option maxHeartbeats 2000000 in
theorem carryH5 (c : Dev nD) (b : Ref sig .tc) (hb : b ∈ carried) :
    W6 (F := Ideal) m ρ c (Proc.devRef .tc b) = W5 m ρ c (Proc.devRef .tc b) := by
  refine StableHlo.after_of_forall_not_mem (b := Proc.devRef .tc b) _ _ (List.forall_iff_forall_mem.mp ?_)
  simp only [main_part1_ops1, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (ne_of_carried hb (by decide))

set_option maxHeartbeats 2000000 in
theorem carryH6 (c : Dev nD) (b : Ref sig .tc) (hb : b ∈ carried) :
    W7 (F := Ideal) m ρ c (Proc.devRef .tc b) = W6 m ρ c (Proc.devRef .tc b) := by
  refine StableHlo.after_of_forall_not_mem (b := Proc.devRef .tc b) _ _ (List.forall_iff_forall_mem.mp ?_)
  simp only [main_part2_ops0, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (ne_of_carried hb (by decide))

set_option maxHeartbeats 2000000 in
theorem carryH8 (c : Dev nD) (b : Ref sig .tc) (hb : b ∈ carried) :
    W9 (F := Ideal) m ρ c (Proc.devRef .tc b) = W8 m ρ c (Proc.devRef .tc b) := by
  refine StableHlo.after_of_forall_not_mem (b := Proc.devRef .tc b) _ _ (List.forall_iff_forall_mem.mp ?_)
  simp only [main_part2_ops1, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (ne_of_carried hb (by decide))

set_option maxHeartbeats 2000000 in
theorem carryH9 (c : Dev nD) (b : Ref sig .tc) (hb : b ∈ carried) :
    W10 (F := Ideal) m ρ c (Proc.devRef .tc b) = W9 m ρ c (Proc.devRef .tc b) := by
  refine StableHlo.after_of_forall_not_mem (b := Proc.devRef .tc b) _ _ (List.forall_iff_forall_mem.mp ?_)
  simp only [main_part3_ops0, List.Forall, StableHlo.nullary_writes, StableHlo.unary_writes, StableHlo.binary_writes, StableHlo.ternary_writes,
    StableHlo.quaternary_writes, StableHlo.reshape_writes, StableHlo.binaryIndexed_writes, StableHlo.nary_writes, Finset.mem_singleton]
  repeat' apply And.intro
  all_goals exact StableHlo.devRef_ne_of_ne (ne_of_carried hb (by decide))

set_option maxHeartbeats 4000000 in
theorem w4_v1 (c : Dev nD) : W4 (F := Ideal) m ρ c (Proc.devRef .tc main_v1) = (val_main_v1 (F := Ideal) (m ((c : Thread nD τ).loc main_arg1))) := by
  show StableHlo.after main_part1_ops0 (StableHlo.after main_part0_ops2 (StableHlo.after main_part0_ops1 (StableHlo.after main_part0_ops0 (W0 m ρ c)))) (Proc.devRef .tc main_v1) = _
  dsimp only [main_part0_ops0, main_part0_ops1, main_part0_ops2, main_part1_ops0]
  after_results_simp
  rfl
set_option maxHeartbeats 4000000 in
theorem w4_v3 (c : Dev nD) : W4 (F := Ideal) m ρ c (Proc.devRef .tc main_v3) = (val_main_v3 (F := Ideal) (m ((c : Thread nD τ).loc main_arg1))) := by
  show StableHlo.after main_part1_ops0 (StableHlo.after main_part0_ops2 (StableHlo.after main_part0_ops1 (StableHlo.after main_part0_ops0 (W0 m ρ c)))) (Proc.devRef .tc main_v3) = _
  dsimp only [main_part0_ops0, main_part0_ops1, main_part0_ops2, main_part1_ops0]
  after_results_simp
  rfl
set_option maxHeartbeats 4000000 in
theorem w4_v26 (c : Dev nD) : W4 (F := Ideal) m ρ c (Proc.devRef .tc main_v26) = (val_main_v26 (F := Ideal) (m ((c : Thread nD τ).loc main_arg1)) (m ((c : Thread nD τ).loc main_arg2))) := by
  show StableHlo.after main_part1_ops0 (StableHlo.after main_part0_ops2 (StableHlo.after main_part0_ops1 (StableHlo.after main_part0_ops0 (W0 m ρ c)))) (Proc.devRef .tc main_v26) = _
  dsimp only [main_part0_ops0, main_part0_ops1, main_part0_ops2, main_part1_ops0]
  after_results_simp
  simp only [toBuf_main_v10, ofBuf_main_v10, toBuf_main_v8, ofBuf_main_v8, toBuf_main_v9, ofBuf_main_v9, toBuf_main_call0_v1, ofBuf_main_call0_v1, toBuf_main_call0_v0, ofBuf_main_call0_v0, toBuf_main_cst_1, ofBuf_main_cst_1, id]
  rfl

/-- After the first layer and after the second the three are what they were. -/
theorem w5_carried (c : Dev nD) (b : Ref sig .tc) (hb : b ∈ carried) :
    W5 (F := Ideal) m ρ c (Proc.devRef .tc b) = W4 m ρ c (Proc.devRef .tc b) :=
  keepR0 m ρ c b (by simp only [carried, List.mem_cons, List.not_mem_nil, or_false] at hb; rcases hb with rfl | rfl | rfl <;> decide)
theorem w8_carried (c : Dev nD) (b : Ref sig .tc) (hb : b ∈ carried) :
    W8 (F := Ideal) m ρ c (Proc.devRef .tc b) = W4 m ρ c (Proc.devRef .tc b) :=
  (keepR1 m ρ c b (by simp only [carried, List.mem_cons, List.not_mem_nil, or_false] at hb; rcases hb with rfl | rfl | rfl <;> decide)).trans
    ((carryH6 m ρ c b hb).trans ((carryH5 m ρ c b hb).trans (w5_carried m ρ c b hb)))

/-! ## Layer 0 -/

/-- The table handed to layer 0 is its four operand tables laid side by side, all read at the same boundary: the
    concatenate is followed only by the two recasts of the weight and the bias, which write none of them. -/
theorem cat0 (c : Dev nD) :
    W4 (F := Ideal) m ρ c (Proc.devRef .tc main_v66)
      = concatenate S50000x64 1 [⟨S50000x16, W4 m ρ c (Proc.devRef .tc main_arg0)⟩, ⟨S50000x16, W4 m ρ c (Proc.devRef .tc main_v39)⟩, ⟨S50000x16, W4 m ρ c (Proc.devRef .tc main_v52)⟩, ⟨S50000x16, W4 m ρ c (Proc.devRef .tc main_v65)⟩] concatenates_S50000x16_S50000x16_S50000x16_S50000x16_S50000x64_d1 := by
  show StableHlo.after main_part1_ops0 (W3 m ρ c) (Proc.devRef .tc main_v66)
      = concatenate S50000x64 1 [⟨S50000x16, StableHlo.after main_part1_ops0 (W3 m ρ c) (Proc.devRef .tc main_arg0)⟩, ⟨S50000x16, StableHlo.after main_part1_ops0 (W3 m ρ c) (Proc.devRef .tc main_v39)⟩, ⟨S50000x16, StableHlo.after main_part1_ops0 (W3 m ρ c) (Proc.devRef .tc main_v52)⟩, ⟨S50000x16, StableHlo.after main_part1_ops0 (W3 m ρ c) (Proc.devRef .tc main_v65)⟩] concatenates_S50000x16_S50000x16_S50000x16_S50000x16_S50000x64_d1
  generalize W3 m ρ c = Z
  dsimp only [main_part1_ops0]
  simp only [StableHlo.after_cons, StableHlo.after_nil]
  repeat (first
    | (rw [StableHlo.reshape_result_ne]; rotate_left; decide)
    | (rw [StableHlo.nary_result_ne]; rotate_left; decide)
    | rw [StableHlo.nary4_result])
  rfl

theorem opnd0_0 (c : Dev nD) : W4 (F := Ideal) m ρ c (Proc.devRef .tc main_arg0) = (m ((c : Thread nD τ).loc main_arg0)) := kept4 m ρ c main_arg0 (by decide)

set_option maxHeartbeats 8000000 in
theorem opnd0_1 (c : Dev nD) : W4 (F := Ideal) m ρ c (Proc.devRef .tc main_v39) = (val_main_v42 (F := Ideal) (m ((c : Thread nD τ).loc main_arg0)) (m ((c : Thread nD τ).loc main_arg1)) (m ((c : Thread nD τ).loc main_arg2))) := by
  show StableHlo.after main_part1_ops0 (StableHlo.after main_part0_ops2 (StableHlo.after main_part0_ops1 (StableHlo.after main_part0_ops0 (W0 m ρ c)))) (Proc.devRef .tc main_v39) = _
  dsimp only [main_part0_ops0, main_part0_ops1, main_part0_ops2, main_part1_ops0]
  after_results_simp
  simp only [toBuf_main_v10, ofBuf_main_v10, toBuf_main_v8, ofBuf_main_v8, toBuf_main_v9, ofBuf_main_v9, toBuf_main_call0_v1, ofBuf_main_call0_v1, toBuf_main_call0_v0, ofBuf_main_call0_v0, toBuf_main_cst_1, ofBuf_main_cst_1, id]
  all_goals rfl

set_option maxHeartbeats 8000000 in
theorem opnd0_2 (c : Dev nD) : W4 (F := Ideal) m ρ c (Proc.devRef .tc main_v52) = (val_main_v59 (F := Ideal) (m ((c : Thread nD τ).loc main_arg0)) (m ((c : Thread nD τ).loc main_arg1)) (m ((c : Thread nD τ).loc main_arg2))) := by
  show StableHlo.after main_part1_ops0 (StableHlo.after main_part0_ops2 (StableHlo.after main_part0_ops1 (StableHlo.after main_part0_ops0 (W0 m ρ c)))) (Proc.devRef .tc main_v52) = _
  dsimp only [main_part0_ops0, main_part0_ops1, main_part0_ops2, main_part1_ops0]
  after_results_simp
  simp only [toBuf_main_v10, ofBuf_main_v10, toBuf_main_v8, ofBuf_main_v8, toBuf_main_v9, ofBuf_main_v9, toBuf_main_call0_v1, ofBuf_main_call0_v1, toBuf_main_call0_v0, ofBuf_main_call0_v0, toBuf_main_cst_1, ofBuf_main_cst_1, id]
  all_goals rfl

set_option maxHeartbeats 8000000 in
theorem opnd0_3 (c : Dev nD) : W4 (F := Ideal) m ρ c (Proc.devRef .tc main_v65) = (val_main_v76 (F := Ideal) (m ((c : Thread nD τ).loc main_arg0)) (m ((c : Thread nD τ).loc main_arg1)) (m ((c : Thread nD τ).loc main_arg2))) := by
  show StableHlo.after main_part1_ops0 (StableHlo.after main_part0_ops2 (StableHlo.after main_part0_ops1 (StableHlo.after main_part0_ops0 (W0 m ρ c)))) (Proc.devRef .tc main_v65) = _
  dsimp only [main_part0_ops0, main_part0_ops1, main_part0_ops2, main_part1_ops0]
  after_results_simp
  simp only [toBuf_main_v10, ofBuf_main_v10, toBuf_main_v8, ofBuf_main_v8, toBuf_main_v9, ofBuf_main_v9, toBuf_main_call0_v1, ofBuf_main_call0_v1, toBuf_main_call0_v0, ofBuf_main_call0_v0, toBuf_main_cst_1, ofBuf_main_cst_1, id]
  all_goals rfl

theorem entry0_x (c : Dev nD) :
    (V4 (F := Ideal) m ρ c main_v66 : S50000x64.Idx → EReal) = concatenate S50000x64 1 [⟨S50000x16, (m ((c : Thread nD τ).loc main_arg0))⟩, ⟨S50000x16, (val_main_v42 (F := Ideal) (m ((c : Thread nD τ).loc main_arg0)) (m ((c : Thread nD τ).loc main_arg1)) (m ((c : Thread nD τ).loc main_arg2)))⟩, ⟨S50000x16, (val_main_v59 (F := Ideal) (m ((c : Thread nD τ).loc main_arg0)) (m ((c : Thread nD τ).loc main_arg1)) (m ((c : Thread nD τ).loc main_arg2)))⟩, ⟨S50000x16, (val_main_v76 (F := Ideal) (m ((c : Thread nD τ).loc main_arg0)) (m ((c : Thread nD τ).loc main_arg1)) (m ((c : Thread nD τ).loc main_arg2)))⟩] concatenates_S50000x16_S50000x16_S50000x16_S50000x16_S50000x64_d1 := by
  show W4 (F := Ideal) m ρ c (Proc.devRef .tc main_v66) = _
  rw [cat0 m ρ c, opnd0_0 m ρ c, opnd0_1 m ρ c, opnd0_2 m ρ c, opnd0_3 m ρ c]
set_option maxHeartbeats 4000000 in
theorem entry0_w (c : Dev nD) :
    (V4 (F := Ideal) m ρ c main_v67 : S64x96.Idx → EReal) = shapeCast S64x96 (m ((c : Thread nD τ).loc main_arg3)) shapeCasts_S4x16x96_S64x96 := by
  show StableHlo.after main_part1_ops0 (StableHlo.after main_part0_ops2 (StableHlo.after main_part0_ops1 (StableHlo.after main_part0_ops0 (W0 m ρ c)))) (Proc.devRef .tc main_v67) = _
  dsimp only [main_part0_ops0, main_part0_ops1, main_part0_ops2, main_part1_ops0]
  after_results_simp
  all_goals rfl
set_option maxHeartbeats 4000000 in
theorem entry0_b (c : Dev nD) :
    (V4 (F := Ideal) m ρ c main_v68 : S1x96.Idx → EReal) = shapeCast S1x96 (m ((c : Thread nD τ).loc main_arg4)) shapeCasts_S96_S1x96 := by
  show StableHlo.after main_part1_ops0 (StableHlo.after main_part0_ops2 (StableHlo.after main_part0_ops1 (StableHlo.after main_part0_ops0 (W0 m ρ c)))) (Proc.devRef .tc main_v68) = _
  dsimp only [main_part0_ops0, main_part0_ops1, main_part0_ops2, main_part1_ops0]
  after_results_simp
  all_goals rfl

/-- What layer 0 leaves is the reference's stage after its layer 0. -/
theorem layer0_out (c : Dev nD) : W5 (F := Ideal) m ρ c (Proc.devRef .tc main_v69) = (val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  refine (W5_arr m ρ c 3).trans ((final0 (V4 m ρ) c).trans ?_)
  show Cert.Net.linRelu (A := 50000) (K := 64) (N := 96) (V4 m ρ c main_v66 : S50000x64.Idx → EReal)
      (V4 m ρ c main_v67 : S64x96.Idx → EReal) (V4 m ρ c main_v68 : S1x96.Idx → EReal) = _
  rw [entry0_x m ρ c, entry0_w m ρ c, entry0_b m ρ c]
  exact L0 (m ((c : Thread nD τ).loc main_arg0)) (m ((c : Thread nD τ).loc main_arg1)) (m ((c : Thread nD τ).loc main_arg2)) (m ((c : Thread nD τ).loc main_arg3)) (m ((c : Thread nD τ).loc main_arg4))

/-! ## Layer 1 -/

/-- The table handed to layer 1 is its four operand tables laid side by side, all read at the same boundary: the
    concatenate is followed only by the two recasts of the weight and the bias, which write none of them. -/
theorem cat1 (c : Dev nD) :
    W7 (F := Ideal) m ρ c (Proc.devRef .tc main_v109)
      = concatenate S50000x384 1 [⟨S50000x96, W7 m ρ c (Proc.devRef .tc main_v69)⟩, ⟨S50000x96, W7 m ρ c (Proc.devRef .tc main_v82)⟩, ⟨S50000x96, W7 m ρ c (Proc.devRef .tc main_v95)⟩, ⟨S50000x96, W7 m ρ c (Proc.devRef .tc main_v108)⟩] concatenates_S50000x96_S50000x96_S50000x96_S50000x96_S50000x384_d1 := by
  show StableHlo.after main_part2_ops0 (W6 m ρ c) (Proc.devRef .tc main_v109)
      = concatenate S50000x384 1 [⟨S50000x96, StableHlo.after main_part2_ops0 (W6 m ρ c) (Proc.devRef .tc main_v69)⟩, ⟨S50000x96, StableHlo.after main_part2_ops0 (W6 m ρ c) (Proc.devRef .tc main_v82)⟩, ⟨S50000x96, StableHlo.after main_part2_ops0 (W6 m ρ c) (Proc.devRef .tc main_v95)⟩, ⟨S50000x96, StableHlo.after main_part2_ops0 (W6 m ρ c) (Proc.devRef .tc main_v108)⟩] concatenates_S50000x96_S50000x96_S50000x96_S50000x96_S50000x384_d1
  generalize W6 m ρ c = Z
  dsimp only [main_part2_ops0]
  simp only [StableHlo.after_cons, StableHlo.after_nil]
  repeat (first
    | (rw [StableHlo.reshape_result_ne]; rotate_left; decide)
    | (rw [StableHlo.nary_result_ne]; rotate_left; decide)
    | rw [StableHlo.nary4_result])
  rfl

set_option maxHeartbeats 8000000 in
theorem opnd1_0 (c : Dev nD) : W7 (F := Ideal) m ρ c (Proc.devRef .tc main_v69) = (val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after main_part2_ops0 (StableHlo.after main_part1_ops1 (W5 m ρ c)) (Proc.devRef .tc main_v69) = _
  dsimp only [main_part1_ops1, main_part2_ops0]
  after_results_simp
  exact layer0_out m ρ c

set_option maxHeartbeats 8000000 in
theorem opnd1_1 (c : Dev nD) : W7 (F := Ideal) m ρ c (Proc.devRef .tc main_v82) = (val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after main_part2_ops0 (StableHlo.after main_part1_ops1 (W5 m ρ c)) (Proc.devRef .tc main_v82) = _
  dsimp only [main_part1_ops1, main_part2_ops0]
  after_results_simp
  rw [layer0_out m ρ c, w5_carried m ρ c main_v1 (by decide), w5_carried m ρ c main_v3 (by decide), w5_carried m ρ c main_v26 (by decide), w4_v1 m ρ c, w4_v3 m ρ c, w4_v26 m ρ c]
  all_goals rfl

set_option maxHeartbeats 8000000 in
theorem opnd1_2 (c : Dev nD) : W7 (F := Ideal) m ρ c (Proc.devRef .tc main_v95) = (val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after main_part2_ops0 (StableHlo.after main_part1_ops1 (W5 m ρ c)) (Proc.devRef .tc main_v95) = _
  dsimp only [main_part1_ops1, main_part2_ops0]
  after_results_simp
  rw [layer0_out m ρ c, w5_carried m ρ c main_v1 (by decide), w5_carried m ρ c main_v3 (by decide), w5_carried m ρ c main_v26 (by decide), w4_v1 m ρ c, w4_v3 m ρ c, w4_v26 m ρ c]
  all_goals rfl

set_option maxHeartbeats 8000000 in
theorem opnd1_3 (c : Dev nD) : W7 (F := Ideal) m ρ c (Proc.devRef .tc main_v108) = (val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after main_part2_ops0 (StableHlo.after main_part1_ops1 (W5 m ρ c)) (Proc.devRef .tc main_v108) = _
  dsimp only [main_part1_ops1, main_part2_ops0]
  after_results_simp
  rw [layer0_out m ρ c, w5_carried m ρ c main_v1 (by decide), w5_carried m ρ c main_v3 (by decide), w5_carried m ρ c main_v26 (by decide), w4_v1 m ρ c, w4_v3 m ρ c, w4_v26 m ρ c]
  all_goals rfl

theorem entry1_x (c : Dev nD) :
    (V7 (F := Ideal) m ρ c main_v109 : S50000x384.Idx → EReal) = concatenate S50000x384 1 [⟨S50000x96, (val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)))⟩, ⟨S50000x96, (val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)))⟩, ⟨S50000x96, (val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)))⟩, ⟨S50000x96, (val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)))⟩] concatenates_S50000x96_S50000x96_S50000x96_S50000x96_S50000x384_d1 := by
  show W7 (F := Ideal) m ρ c (Proc.devRef .tc main_v109) = _
  rw [cat1 m ρ c, opnd1_0 m ρ c, opnd1_1 m ρ c, opnd1_2 m ρ c, opnd1_3 m ρ c]
set_option maxHeartbeats 4000000 in
theorem entry1_w (c : Dev nD) :
    (V7 (F := Ideal) m ρ c main_v110 : S384x96.Idx → EReal) = shapeCast S384x96 (m ((c : Thread nD τ).loc main_arg5)) shapeCasts_S4x96x96_S384x96 := by
  show StableHlo.after main_part2_ops0 (StableHlo.after main_part1_ops1 (W5 m ρ c)) (Proc.devRef .tc main_v110) = _
  dsimp only [main_part1_ops1, main_part2_ops0]
  after_results_simp
  rw [kept5 m ρ c main_arg5 (by decide)]
  all_goals rfl
set_option maxHeartbeats 4000000 in
theorem entry1_b (c : Dev nD) :
    (V7 (F := Ideal) m ρ c main_v111 : S1x96.Idx → EReal) = shapeCast S1x96 (m ((c : Thread nD τ).loc main_arg6)) shapeCasts_S96_S1x96 := by
  show StableHlo.after main_part2_ops0 (StableHlo.after main_part1_ops1 (W5 m ρ c)) (Proc.devRef .tc main_v111) = _
  dsimp only [main_part1_ops1, main_part2_ops0]
  after_results_simp
  rw [kept5 m ρ c main_arg6 (by decide)]
  all_goals rfl

/-- What layer 1 leaves is the reference's stage after its layer 1. -/
theorem layer1_out (c : Dev nD) : W8 (F := Ideal) m ρ c (Proc.devRef .tc main_v112) = (val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (W8_arr m ρ c 3).trans ((final1 (V7 m ρ) c).trans ?_)
  show Cert.Net.linRelu (A := 50000) (K := 384) (N := 96) (V7 m ρ c main_v109 : S50000x384.Idx → EReal)
      (V7 m ρ c main_v110 : S384x96.Idx → EReal) (V7 m ρ c main_v111 : S1x96.Idx → EReal) = _
  rw [entry1_x m ρ c, entry1_w m ρ c, entry1_b m ρ c]
  exact L1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-! ## Layer 2 -/

/-- The table handed to layer 2 is its four operand tables laid side by side, all read at the same boundary: the
    concatenate is followed only by the two recasts of the weight and the bias, which write none of them. -/
theorem cat2 (c : Dev nD) :
    W10 (F := Ideal) m ρ c (Proc.devRef .tc main_v152)
      = concatenate S50000x384 1 [⟨S50000x96, W10 m ρ c (Proc.devRef .tc main_v112)⟩, ⟨S50000x96, W10 m ρ c (Proc.devRef .tc main_v125)⟩, ⟨S50000x96, W10 m ρ c (Proc.devRef .tc main_v138)⟩, ⟨S50000x96, W10 m ρ c (Proc.devRef .tc main_v151)⟩] concatenates_S50000x96_S50000x96_S50000x96_S50000x96_S50000x384_d1 := by
  show StableHlo.after main_part3_ops0 (W9 m ρ c) (Proc.devRef .tc main_v152)
      = concatenate S50000x384 1 [⟨S50000x96, StableHlo.after main_part3_ops0 (W9 m ρ c) (Proc.devRef .tc main_v112)⟩, ⟨S50000x96, StableHlo.after main_part3_ops0 (W9 m ρ c) (Proc.devRef .tc main_v125)⟩, ⟨S50000x96, StableHlo.after main_part3_ops0 (W9 m ρ c) (Proc.devRef .tc main_v138)⟩, ⟨S50000x96, StableHlo.after main_part3_ops0 (W9 m ρ c) (Proc.devRef .tc main_v151)⟩] concatenates_S50000x96_S50000x96_S50000x96_S50000x96_S50000x384_d1
  generalize W9 m ρ c = Z
  dsimp only [main_part3_ops0]
  simp only [StableHlo.after_cons, StableHlo.after_nil]
  repeat (first
    | (rw [StableHlo.reshape_result_ne]; rotate_left; decide)
    | (rw [StableHlo.nary_result_ne]; rotate_left; decide)
    | rw [StableHlo.nary4_result])
  rfl

set_option maxHeartbeats 8000000 in
theorem opnd2_0 (c : Dev nD) : W10 (F := Ideal) m ρ c (Proc.devRef .tc main_v112) = (val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show StableHlo.after main_part3_ops0 (StableHlo.after main_part2_ops1 (W8 m ρ c)) (Proc.devRef .tc main_v112) = _
  dsimp only [main_part2_ops1, main_part3_ops0]
  after_results_simp
  exact layer1_out m ρ c

set_option maxHeartbeats 8000000 in
theorem opnd2_1 (c : Dev nD) : W10 (F := Ideal) m ρ c (Proc.devRef .tc main_v125) = (val_main_v158 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show StableHlo.after main_part3_ops0 (StableHlo.after main_part2_ops1 (W8 m ρ c)) (Proc.devRef .tc main_v125) = _
  dsimp only [main_part2_ops1, main_part3_ops0]
  after_results_simp
  rw [layer1_out m ρ c, w8_carried m ρ c main_v1 (by decide), w8_carried m ρ c main_v3 (by decide), w8_carried m ρ c main_v26 (by decide), w4_v1 m ρ c, w4_v3 m ρ c, w4_v26 m ρ c]
  all_goals rfl

set_option maxHeartbeats 8000000 in
theorem opnd2_2 (c : Dev nD) : W10 (F := Ideal) m ρ c (Proc.devRef .tc main_v138) = (val_main_v175 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show StableHlo.after main_part3_ops0 (StableHlo.after main_part2_ops1 (W8 m ρ c)) (Proc.devRef .tc main_v138) = _
  dsimp only [main_part2_ops1, main_part3_ops0]
  after_results_simp
  rw [layer1_out m ρ c, w8_carried m ρ c main_v1 (by decide), w8_carried m ρ c main_v3 (by decide), w8_carried m ρ c main_v26 (by decide), w4_v1 m ρ c, w4_v3 m ρ c, w4_v26 m ρ c]
  all_goals rfl

set_option maxHeartbeats 8000000 in
theorem opnd2_3 (c : Dev nD) : W10 (F := Ideal) m ρ c (Proc.devRef .tc main_v151) = (val_main_v192 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show StableHlo.after main_part3_ops0 (StableHlo.after main_part2_ops1 (W8 m ρ c)) (Proc.devRef .tc main_v151) = _
  dsimp only [main_part2_ops1, main_part3_ops0]
  after_results_simp
  rw [layer1_out m ρ c, w8_carried m ρ c main_v1 (by decide), w8_carried m ρ c main_v3 (by decide), w8_carried m ρ c main_v26 (by decide), w4_v1 m ρ c, w4_v3 m ρ c, w4_v26 m ρ c]
  all_goals rfl

theorem entry2_x (c : Dev nD) :
    (V10 (F := Ideal) m ρ c main_v152 : S50000x384.Idx → EReal) = concatenate S50000x384 1 [⟨S50000x96, (val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))⟩, ⟨S50000x96, (val_main_v158 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))⟩, ⟨S50000x96, (val_main_v175 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))⟩, ⟨S50000x96, (val_main_v192 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))⟩] concatenates_S50000x96_S50000x96_S50000x96_S50000x96_S50000x384_d1 := by
  show W10 (F := Ideal) m ρ c (Proc.devRef .tc main_v152) = _
  rw [cat2 m ρ c, opnd2_0 m ρ c, opnd2_1 m ρ c, opnd2_2 m ρ c, opnd2_3 m ρ c]
set_option maxHeartbeats 4000000 in
theorem entry2_w (c : Dev nD) :
    (V10 (F := Ideal) m ρ c main_v153 : S384x96.Idx → EReal) = shapeCast S384x96 (m ((c : Thread nD τ).loc main_arg7)) shapeCasts_S4x96x96_S384x96 := by
  show StableHlo.after main_part3_ops0 (StableHlo.after main_part2_ops1 (W8 m ρ c)) (Proc.devRef .tc main_v153) = _
  dsimp only [main_part2_ops1, main_part3_ops0]
  after_results_simp
  rw [kept8 m ρ c main_arg7 (by decide)]
  all_goals rfl
set_option maxHeartbeats 4000000 in
theorem entry2_b (c : Dev nD) :
    (V10 (F := Ideal) m ρ c main_v154 : S1x96.Idx → EReal) = shapeCast S1x96 (m ((c : Thread nD τ).loc main_arg8)) shapeCasts_S96_S1x96 := by
  show StableHlo.after main_part3_ops0 (StableHlo.after main_part2_ops1 (W8 m ρ c)) (Proc.devRef .tc main_v154) = _
  dsimp only [main_part2_ops1, main_part3_ops0]
  after_results_simp
  rw [kept8 m ρ c main_arg8 (by decide)]
  all_goals rfl

/-- What layer 2 leaves is the reference's stage after its layer 2. -/
theorem layer2_out (c : Dev nD) : W11 (F := Ideal) m ρ c (Proc.devRef .tc main_v155) = (val_main_v199 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (W11_arr m ρ c 3).trans ((final2 (V10 m ρ) c).trans ?_)
  show Cert.Net.lin (A := 50000) (K := 384) (N := 96) (V10 m ρ c main_v152 : S50000x384.Idx → EReal)
      (V10 m ρ c main_v153 : S384x96.Idx → EReal) (V10 m ρ c main_v154 : S1x96.Idx → EReal) = _
  rw [entry2_x m ρ c, entry2_w m ρ c, entry2_b m ρ c]
  exact L2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-! ## Layer 3 -/

set_option maxHeartbeats 8000000 in
theorem entry3_x (c : Dev nD) :
    (V12 (F := Ideal) m ρ c main_v155 : S50000x96.Idx → EReal) = val_main_v199 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after main_part3_ops1 (W11 m ρ c) (Proc.devRef .tc main_v155) = _
  dsimp only [main_part3_ops1]
  after_results_simp
  rw [layer2_out m ρ c]
  all_goals rfl
set_option maxHeartbeats 4000000 in
theorem entry3_w (c : Dev nD) :
    (V12 (F := Ideal) m ρ c main_arg9 : S96x96.Idx → EReal) = (m ((c : Thread nD τ).loc main_arg9)) := by
  show StableHlo.after main_part3_ops1 (W11 m ρ c) (Proc.devRef .tc main_arg9) = _
  dsimp only [main_part3_ops1]
  after_results_simp
  rw [kept11 m ρ c main_arg9 (by decide)]
  all_goals rfl
set_option maxHeartbeats 4000000 in
theorem entry3_b (c : Dev nD) :
    (V12 (F := Ideal) m ρ c main_v156 : S1x96.Idx → EReal) = shapeCast S1x96 (m ((c : Thread nD τ).loc main_arg10)) shapeCasts_S96_S1x96 := by
  show StableHlo.after main_part3_ops1 (W11 m ρ c) (Proc.devRef .tc main_v156) = _
  dsimp only [main_part3_ops1]
  after_results_simp
  rw [kept11 m ρ c main_arg10 (by decide)]
  all_goals rfl

/-- What layer 3 leaves is the reference's stage after its layer 3. -/
theorem layer3_out (c : Dev nD) : W13 (F := Ideal) m ρ c (Proc.devRef .tc main_v157) = (val_main_v204 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  refine (W13_arr m ρ c 3).trans ((final3 (V12 m ρ) c).trans ?_)
  show Cert.Net.linRelu (A := 50000) (K := 96) (N := 96) (V12 m ρ c main_v155 : S50000x96.Idx → EReal)
      (V12 m ρ c main_arg9 : S96x96.Idx → EReal) (V12 m ρ c main_v156 : S1x96.Idx → EReal) = _
  rw [entry3_x m ρ c, entry3_w m ρ c, entry3_b m ρ c]
  exact L3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-! ## Layer 4 -/

set_option maxHeartbeats 8000000 in
theorem entry4_x (c : Dev nD) :
    (V14 (F := Ideal) m ρ c main_v157 : S50000x96.Idx → EReal) = val_main_v204 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after main_part3_ops2 (W13 m ρ c) (Proc.devRef .tc main_v157) = _
  dsimp only [main_part3_ops2]
  after_results_simp
  rw [layer3_out m ρ c]
  all_goals rfl
set_option maxHeartbeats 4000000 in
theorem entry4_w (c : Dev nD) :
    (V14 (F := Ideal) m ρ c main_arg11 : S96x96.Idx → EReal) = (m ((c : Thread nD τ).loc main_arg11)) := by
  show StableHlo.after main_part3_ops2 (W13 m ρ c) (Proc.devRef .tc main_arg11) = _
  dsimp only [main_part3_ops2]
  after_results_simp
  rw [kept13 m ρ c main_arg11 (by decide)]
  all_goals rfl
set_option maxHeartbeats 4000000 in
theorem entry4_b (c : Dev nD) :
    (V14 (F := Ideal) m ρ c main_v158 : S1x96.Idx → EReal) = shapeCast S1x96 (m ((c : Thread nD τ).loc main_arg12)) shapeCasts_S96_S1x96 := by
  show StableHlo.after main_part3_ops2 (W13 m ρ c) (Proc.devRef .tc main_v158) = _
  dsimp only [main_part3_ops2]
  after_results_simp
  rw [kept13 m ρ c main_arg12 (by decide)]
  all_goals rfl

/-- What layer 4 leaves is the reference's stage after its layer 4. -/
theorem layer4_out (c : Dev nD) : W15 (F := Ideal) m ρ c (Proc.devRef .tc main_v159) = (val_main_v209 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  refine (W15_arr m ρ c 3).trans ((final4 (V14 m ρ) c).trans ?_)
  show Cert.Net.linRelu (A := 50000) (K := 96) (N := 96) (V14 m ρ c main_v157 : S50000x96.Idx → EReal)
      (V14 m ρ c main_arg11 : S96x96.Idx → EReal) (V14 m ρ c main_v158 : S1x96.Idx → EReal) = _
  rw [entry4_x m ρ c, entry4_w m ρ c, entry4_b m ρ c]
  exact L4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-! ## Layer 5 -/

set_option maxHeartbeats 8000000 in
theorem entry5_x (c : Dev nD) :
    (V16 (F := Ideal) m ρ c main_v159 : S50000x96.Idx → EReal) = val_main_v209 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after main_part3_ops3 (W15 m ρ c) (Proc.devRef .tc main_v159) = _
  dsimp only [main_part3_ops3]
  after_results_simp
  rw [layer4_out m ρ c]
  all_goals rfl
set_option maxHeartbeats 4000000 in
theorem entry5_w (c : Dev nD) :
    (V16 (F := Ideal) m ρ c main_arg13 : S96x96.Idx → EReal) = (m ((c : Thread nD τ).loc main_arg13)) := by
  show StableHlo.after main_part3_ops3 (W15 m ρ c) (Proc.devRef .tc main_arg13) = _
  dsimp only [main_part3_ops3]
  after_results_simp
  rw [kept15 m ρ c main_arg13 (by decide)]
  all_goals rfl
set_option maxHeartbeats 4000000 in
theorem entry5_b (c : Dev nD) :
    (V16 (F := Ideal) m ρ c main_v160 : S1x96.Idx → EReal) = shapeCast S1x96 (m ((c : Thread nD τ).loc main_arg14)) shapeCasts_S96_S1x96 := by
  show StableHlo.after main_part3_ops3 (W15 m ρ c) (Proc.devRef .tc main_v160) = _
  dsimp only [main_part3_ops3]
  after_results_simp
  rw [kept15 m ρ c main_arg14 (by decide)]
  all_goals rfl

/-- What layer 5 leaves is the reference's stage after its layer 5. -/
theorem layer5_out (c : Dev nD) : W17 (F := Ideal) m ρ c (Proc.devRef .tc main_v161) = (val_main_v214 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  refine (W17_arr m ρ c 3).trans ((final5 (V16 m ρ) c).trans ?_)
  show Cert.Net.linRelu (A := 50000) (K := 96) (N := 96) (V16 m ρ c main_v159 : S50000x96.Idx → EReal)
      (V16 m ρ c main_arg13 : S96x96.Idx → EReal) (V16 m ρ c main_v160 : S1x96.Idx → EReal) = _
  rw [entry5_x m ρ c, entry5_w m ρ c, entry5_b m ρ c]
  exact L5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-! ## Layer 6 -/

set_option maxHeartbeats 8000000 in
theorem entry6_x (c : Dev nD) :
    (V18 (F := Ideal) m ρ c main_v161 : S50000x96.Idx → EReal) = val_main_v214 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  show StableHlo.after main_part3_ops4 (W17 m ρ c) (Proc.devRef .tc main_v161) = _
  dsimp only [main_part3_ops4]
  after_results_simp
  rw [layer5_out m ρ c]
  all_goals rfl
set_option maxHeartbeats 4000000 in
theorem entry6_w (c : Dev nD) :
    (V18 (F := Ideal) m ρ c main_arg13 : S96x96.Idx → EReal) = (m ((c : Thread nD τ).loc main_arg13)) := by
  show StableHlo.after main_part3_ops4 (W17 m ρ c) (Proc.devRef .tc main_arg13) = _
  dsimp only [main_part3_ops4]
  after_results_simp
  rw [kept17 m ρ c main_arg13 (by decide)]
  all_goals rfl
set_option maxHeartbeats 4000000 in
theorem entry6_b (c : Dev nD) :
    (V18 (F := Ideal) m ρ c main_v162 : S1x96.Idx → EReal) = shapeCast S1x96 (m ((c : Thread nD τ).loc main_arg14)) shapeCasts_S96_S1x96 := by
  show StableHlo.after main_part3_ops4 (W17 m ρ c) (Proc.devRef .tc main_v162) = _
  dsimp only [main_part3_ops4]
  after_results_simp
  rw [kept17 m ρ c main_arg14 (by decide)]
  all_goals rfl

/-- What layer 6 leaves is the reference's stage after its layer 6. -/
theorem layer6_out (c : Dev nD) : W19 (F := Ideal) m ρ c (Proc.devRef .tc main_v163) = (val_main_v219 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  refine (W19_arr m ρ c 3).trans ((final6 (V18 m ρ) c).trans ?_)
  show Cert.Net.linRelu (A := 50000) (K := 96) (N := 96) (V18 m ρ c main_v161 : S50000x96.Idx → EReal)
      (V18 m ρ c main_arg13 : S96x96.Idx → EReal) (V18 m ρ c main_v162 : S1x96.Idx → EReal) = _
  rw [entry6_x m ρ c, entry6_w m ρ c, entry6_b m ρ c]
  exact L6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-! ## Layer 7 -/

set_option maxHeartbeats 8000000 in
theorem entry7_x (c : Dev nD) :
    (V20 (F := Ideal) m ρ c main_v163 : S50000x96.Idx → EReal) = val_main_v219 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  show StableHlo.after main_part3_ops5 (W19 m ρ c) (Proc.devRef .tc main_v163) = _
  dsimp only [main_part3_ops5]
  after_results_simp
  rw [layer6_out m ρ c]
  all_goals rfl
set_option maxHeartbeats 4000000 in
theorem entry7_w (c : Dev nD) :
    (V20 (F := Ideal) m ρ c main_arg15 : S96x4.Idx → EReal) = (m ((c : Thread nD τ).loc main_arg15)) := by
  show StableHlo.after main_part3_ops5 (W19 m ρ c) (Proc.devRef .tc main_arg15) = _
  dsimp only [main_part3_ops5]
  after_results_simp
  rw [kept19 m ρ c main_arg15 (by decide)]
  all_goals rfl
set_option maxHeartbeats 4000000 in
theorem entry7_b (c : Dev nD) :
    (V20 (F := Ideal) m ρ c main_v164 : S1x4.Idx → EReal) = shapeCast S1x4 (m ((c : Thread nD τ).loc main_arg16)) shapeCasts_S4_S1x4 := by
  show StableHlo.after main_part3_ops5 (W19 m ρ c) (Proc.devRef .tc main_v164) = _
  dsimp only [main_part3_ops5]
  after_results_simp
  rw [kept19 m ρ c main_arg16 (by decide)]
  all_goals rfl

/-- What layer 7 leaves is the reference's stage after its layer 7. -/
theorem layer7_out (c : Dev nD) : W21 (F := Ideal) m ρ c (Proc.devRef .tc main_v165) = (val_main_v223 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) := by
  refine (W21_arr m ρ c 3).trans ((final7 (V20 m ρ) c).trans ?_)
  show Cert.Net.lin (A := 50000) (K := 96) (N := 4) (V20 m ρ c main_v163 : S50000x96.Idx → EReal)
      (V20 m ρ c main_arg15 : S96x4.Idx → EReal) (V20 m ρ c main_v164 : S1x4.Idx → EReal) = _
  rw [entry7_x m ρ c, entry7_w m ρ c, entry7_b m ρ c]
  exact L7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

/-- THE KERNEL'S RESULT: at the last boundary the result buffer holds the reference's result stage of the launch
    contents of the seventeen arguments. -/
theorem result (c : Dev nD) : W21 (F := Ideal) m ρ c (Proc.devRef .tc main_v165) = (val_main_v223 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) := layer7_out m ρ c

end Cert.KernelIdeal.Fr

end
-- ==== Proof.KI.Value.lean ====
/- The idealized kernel's run with its result named: every weakly fair execution from a memory with zero counters
   terminates without a fault, the result buffer holding the reference's result stage of the argument arrays' launch
   contents (the walk through the eight layers), and the seventeen arguments as launched. -/
import proofs.«123229_j70574902608028_1_alg».proof.Proof.KI.Run
import proofs.«123229_j70574902608028_1_alg».proof.Proof.KI.Kept
import proofs.«123229_j70574902608028_1_alg».proof.Proof.KI.Walk

set_option maxRecDepth 16384

noncomputable section

namespace Cert.KernelIdeal.Fr

open Cert.KernelIdeal Cert.KernelIdeal.Gen
open Cert.ReferenceIdeal.ReadP
open Idealize.ShloMosaic Idealize.ShloMosaic.TcCoe
open Idealize.SL Idealize.SL.Sem

variable (m : (ℓ : Loc nD τ sig) → Buf (Elt Ideal) ℓ) (ρ : Dev nD → PrngReg)

theorem valueRun : θ_run defs (onTc (τ := τ) (main (F := Ideal))) ⟨m, fun _ => 0, ρ⟩ (fun r => ∀ c : Dev nD,
      r.2.mem ((c.tc : Thread nD τ).loc main_v165) = (val_main_v223 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_v165 (by decide))).trans (result m ρ c),
     (h c _ (mem_uc main_arg0 (by decide))).trans (kept m ρ c main_arg0 (by decide)),
     (h c _ (mem_uc main_arg1 (by decide))).trans (kept m ρ c main_arg1 (by decide)),
     (h c _ (mem_uc main_arg2 (by decide))).trans (kept m ρ c main_arg2 (by decide)),
     (h c _ (mem_uc main_arg3 (by decide))).trans (kept m ρ c main_arg3 (by decide)),
     (h c _ (mem_uc main_arg4 (by decide))).trans (kept m ρ c main_arg4 (by decide)),
     (h c _ (mem_uc main_arg5 (by decide))).trans (kept m ρ c main_arg5 (by decide)),
     (h c _ (mem_uc main_arg6 (by decide))).trans (kept m ρ c main_arg6 (by decide)),
     (h c _ (mem_uc main_arg7 (by decide))).trans (kept m ρ c main_arg7 (by decide)),
     (h c _ (mem_uc main_arg8 (by decide))).trans (kept m ρ c main_arg8 (by decide)),
     (h c _ (mem_uc main_arg9 (by decide))).trans (kept m ρ c main_arg9 (by decide)),
     (h c _ (mem_uc main_arg10 (by decide))).trans (kept m ρ c main_arg10 (by decide)),
     (h c _ (mem_uc main_arg11 (by decide))).trans (kept m ρ c main_arg11 (by decide)),
     (h c _ (mem_uc main_arg12 (by decide))).trans (kept m ρ c main_arg12 (by decide)),
     (h c _ (mem_uc main_arg13 (by decide))).trans (kept m ρ c main_arg13 (by decide)),
     (h c _ (mem_uc main_arg14 (by decide))).trans (kept m ρ c main_arg14 (by decide)),
     (h c _ (mem_uc main_arg15 (by decide))).trans (kept m ρ c main_arg15 (by decide)),
     (h c _ (mem_uc main_arg16 (by decide))).trans (kept m ρ c main_arg16 (by decide))⟩) (run m ρ)

end Cert.KernelIdeal.Fr

end
-- ==== Proof.lean ====
/- The proof of Cert.Claim: a graph network of three K-hop convolutions and five dense layers, its eight matrix
   products computed by one tiled kernel, against the plain jnp network.

   The three frames: the two kernel programs' (word level and idealized) run their 21 segments — stretches of host
   operations and eight launches of the dense kernel — to the end, each launch's body one whole-block product, and
   leave the seventeen argument arrays as launched; the reference's frame is its run with the result dropped.
   The idealization rewrote nothing, so there is nothing to preserve. The value claim: over the extended reals every
   kernel layer is the reference's layer — a convolution's one product of four tables laid side by side with the
   stacked weight is the reference's four products added, the same products in another grouping of one sum, and
   addition of extended reals is commutative and associative, so no finiteness is used — and the propagation between
   layers is the same host operations on both sides. -/
import proofs.«123229_j70574902608028_1_alg».proof.Defs
import proofs.«123229_j70574902608028_1_alg».proof.Proof.Gen.Kernel
import proofs.«123229_j70574902608028_1_alg».proof.Proof.Gen.KernelIdeal
import proofs.«123229_j70574902608028_1_alg».proof.Proof.Gen.ReferenceIdeal
import proofs.«123229_j70574902608028_1_alg».proof.Proof.Gen.Pre_finite_inputs
import proofs.«123229_j70574902608028_1_alg».proof.Proof.RefWalk
import proofs.«123229_j70574902608028_1_alg».proof.Proof.KB.Frame
import proofs.«123229_j70574902608028_1_alg».proof.Proof.KI.Frame
import proofs.«123229_j70574902608028_1_alg».proof.Proof.KI.Value
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame (F := Bits) m ρ
theorem frame_ki : Cert.frame_KernelIdeal := fun m ρ _ => Cert.KernelIdeal.Fr.frame (F := Ideal) m ρ
theorem frame_ri : Cert.frame_ReferenceIdeal := fun m ρ _ =>
  (θ_run Cert.ReferenceIdeal.defs _ _).mono (fun _ h c => (h c).2) (Cert.ReferenceIdeal.Walk.valueRun m ρ)

theorem preserves : Cert.preserves_Kernel_KernelIdeal := trivial

/-- Both runs end with the reference's result stage of the (agreeing) argument arrays. -/
theorem algebraic : Cert.algebraic_KernelIdeal_ReferenceIdeal := by
  intro m ρ m' ρ' _ hagree
  refine ⟨_, Cert.KernelIdeal.Fr.valueRun m ρ, ?_⟩
  refine (θ_run Cert.ReferenceIdeal.defs _ _).mono (fun _ h c => ⟨(h c).1.trans ?_, (h c).2⟩)
    (Cert.ReferenceIdeal.Walk.valueRun m' ρ')
  obtain ⟨e0, e1, e2, e3, e4, e5, e6, e7, e8, e9, e10, e11, e12, e13, e14, e15, e16⟩ := hagree c
  rw [e0, e1, e2, e3, e4, e5, e6, e7, e8, e9, e10, e11, e12, e13, e14, e15, e16]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
